-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v631) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S6x3x1024x1024 : Shape := ⟨4, ![6, 3, 1024, 1024]⟩
abbrev S6x3x1024x64 : Shape := ⟨4, ![6, 3, 1024, 64]⟩
abbrev S6x3x1024 : Shape := ⟨3, ![6, 3, 1024]⟩
abbrev S6x3x32x1024 : Shape := ⟨4, ![6, 3, 32, 1024]⟩
abbrev S6x3x1024x32 : Shape := ⟨4, ![6, 3, 1024, 32]⟩
abbrev S5x1024 : Shape := ⟨2, ![5, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S6x3x1024x64 : S_.BroadcastsInDim S6x3x1024x64 (![] : Fin 0 → Fin S6x3x1024x64.rank)
  reducesTo_S6x3x1024x64_S_d0_1_2_3 : S6x3x1024x64.ReducesTo [0, 1, 2, 3] S_
  bcast_S_S6x3x1024 : S_.BroadcastsInDim S6x3x1024 (![] : Fin 0 → Fin S6x3x1024.rank)
  reducesTo_S6x3x1024_S_d0_1_2 : S6x3x1024.ReducesTo [0, 1, 2] S_
  bcast_S_S6x3x32x1024 : S_.BroadcastsInDim S6x3x32x1024 (![] : Fin 0 → Fin S6x3x32x1024.rank)
  reducesTo_S6x3x32x1024_S_d0_1_2_3 : S6x3x32x1024.ReducesTo [0, 1, 2, 3] S_
  bcast_S_S6x3x1024x32 : S_.BroadcastsInDim S6x3x1024x32 (![] : Fin 0 → Fin S6x3x1024x32.rank)
  reducesTo_S6x3x1024x32_S_d0_1_2_3 : S6x3x1024x32.ReducesTo [0, 1, 2, 3] S_
  bcast_S_S5x1024 : S_.BroadcastsInDim S5x1024 (![] : Fin 0 → Fin S5x1024.rank)
  reducesTo_S5x1024_S_d0_1 : S5x1024.ReducesTo [0, 1] S_

variable [Facts]

def fn_part1 {F : FTy → Type} [FloatOps F] (main_arg5 : FVec F S6x3x1024x32 .f32) (main_arg6 : FVec F S5x1024 .f32) (main_arg7 : FVec F S5x1024 .f32) (main_v13 : IVec S_ 1) (main_v16 : IVec S6x3x32x1024 1) : IVec S_ 1 :=
  let main_c_5 : IVec S_ 1 := constantI S_ 1 1#1
  let main_v17 : IVec S_ 1 := (fun x v => Host.reduce IntOp.andi x v reducesTo_S6x3x32x1024_S_d0_1_2_3 h_S_) main_v16 main_c_5
  let main_v18 : IVec S_ 1 := andi main_v13 main_v17
  let main_v19 : FVec F S6x3x1024x32 .f32 := Host.absf main_arg5
  let main_cst_6 : FVec F S_ .f32 := constant S_ .f32 0x7F800000#32
  let main_v20 : FVec F S6x3x1024x32 .f32 := broadcastInDim S6x3x1024x32 ![] bcast_S_S6x3x1024x32 main_cst_6
  let main_v21 : IVec S6x3x1024x32 1 := cmpf .olt main_v19 main_v20
  let main_c_7 : IVec S_ 1 := constantI S_ 1 1#1
  let main_v22 : IVec S_ 1 := (fun x v => Host.reduce IntOp.andi x v reducesTo_S6x3x1024x32_S_d0_1_2_3 h_S_) main_v21 main_c_7
  let main_v23 : IVec S_ 1 := andi main_v18 main_v22
  let main_v24 : FVec F S5x1024 .f32 := Host.absf main_arg6
  let main_cst_8 : FVec F S_ .f32 := constant S_ .f32 0x7F800000#32
  let main_v25 : FVec F S5x1024 .f32 := broadcastInDim S5x1024 ![] bcast_S_S5x1024 main_cst_8
  let main_v26 : IVec S5x1024 1 := cmpf .olt main_v24 main_v25
  let main_c_9 : IVec S_ 1 := constantI S_ 1 1#1
  let main_v27 : IVec S_ 1 := (fun x v => Host.reduce IntOp.andi x v reducesTo_S5x1024_S_d0_1 h_S_) main_v26 main_c_9
  let main_v28 : IVec S_ 1 := andi main_v23 main_v27
  let main_v29 : FVec F S5x1024 .f32 := Host.absf main_arg7
  let main_cst_10 : FVec F S_ .f32 := constant S_ .f32 0x7F800000#32
  let main_v30 : FVec F S5x1024 .f32 := broadcastInDim S5x1024 ![] bcast_S_S5x1024 main_cst_10
  let main_v31 : IVec S5x1024 1 := cmpf .olt main_v29 main_v30
  let main_c_11 : IVec S_ 1 := constantI S_ 1 1#1
  let main_v32 : IVec S_ 1 := (fun x v => Host.reduce IntOp.andi x v reducesTo_S5x1024_S_d0_1 h_S_) main_v31 main_c_11
  let main_v33 : IVec S_ 1 := andi main_v28 main_v32
  main_v33

def fn {F : FTy → Type} [FloatOps F] (main_arg0 : FVec F S1024x1024 .f32) (main_arg1 : IVec S6x3x1024x1024 32) (main_arg2 : FVec F S6x3x1024x64 .f32) (main_arg3 : FVec F S6x3x1024 .f32) (main_arg4 : FVec F S6x3x32x1024 .f32) (main_arg5 : FVec F S6x3x1024x32 .f32) (main_arg6 : FVec F S5x1024 .f32) (main_arg7 : FVec F S5x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S6x3x1024x64 .f32 := Host.absf main_arg2
  let main_cst_0 : FVec F S_ .f32 := constant S_ .f32 0x7F800000#32
  let main_v5 : FVec F S6x3x1024x64 .f32 := broadcastInDim S6x3x1024x64 ![] bcast_S_S6x3x1024x64 main_cst_0
  let main_v6 : IVec S6x3x1024x64 1 := cmpf .olt main_v4 main_v5
  let main_c_1 : IVec S_ 1 := constantI S_ 1 1#1
  let main_v7 : IVec S_ 1 := (fun x v => Host.reduce IntOp.andi x v reducesTo_S6x3x1024x64_S_d0_1_2_3 h_S_) main_v6 main_c_1
  let main_v8 : IVec S_ 1 := andi main_v3 main_v7
  let main_v9 : FVec F S6x3x1024 .f32 := Host.absf main_arg3
  let main_cst_2 : FVec F S_ .f32 := constant S_ .f32 0x7F800000#32
  let main_v10 : FVec F S6x3x1024 .f32 := broadcastInDim S6x3x1024 ![] bcast_S_S6x3x1024 main_cst_2
  let main_v11 : IVec S6x3x1024 1 := cmpf .olt main_v9 main_v10
  let main_c_3 : IVec S_ 1 := constantI S_ 1 1#1
  let main_v12 : IVec S_ 1 := (fun x v => Host.reduce IntOp.andi x v reducesTo_S6x3x1024_S_d0_1_2 h_S_) main_v11 main_c_3
  let main_v13 : IVec S_ 1 := andi main_v8 main_v12
  let main_v14 : FVec F S6x3x32x1024 .f32 := Host.absf main_arg4
  let main_cst_4 : FVec F S_ .f32 := constant S_ .f32 0x7F800000#32
  let main_v15 : FVec F S6x3x32x1024 .f32 := broadcastInDim S6x3x32x1024 ![] bcast_S_S6x3x32x1024 main_cst_4
  let main_v16 : IVec S6x3x32x1024 1 := cmpf .olt main_v14 main_v15
  fn_part1 (F := F) main_arg5 main_arg6 main_arg7 main_v13 main_v16
-- ==== Kernel.lean ====
abbrev S1024x1024 : Shape := ⟨2, ![1024, 1024]⟩
abbrev S6x3x1024x1024 : Shape := ⟨4, ![6, 3, 1024, 1024]⟩
abbrev S6x3x1024x64 : Shape := ⟨4, ![6, 3, 1024, 64]⟩
abbrev S6x3x1024 : Shape := ⟨3, ![6, 3, 1024]⟩
abbrev S6x3x32x1024 : Shape := ⟨4, ![6, 3, 32, 1024]⟩
abbrev S6x3x1024x32 : Shape := ⟨4, ![6, 3, 1024, 32]⟩
abbrev S5x1024 : Shape := ⟨2, ![5, 1024]⟩
abbrev S18x1024x1024 : Shape := ⟨3, ![18, 1024, 1024]⟩
abbrev S18x1024x64 : Shape := ⟨3, ![18, 1024, 64]⟩
abbrev S18x1x1024 : Shape := ⟨3, ![18, 1, 1024]⟩
abbrev S18x32x1024 : Shape := ⟨3, ![18, 32, 1024]⟩
abbrev S5x1x1024 : Shape := ⟨3, ![5, 1, 1024]⟩
abbrev S1x1024x1024 : Shape := ⟨3, ![1, 1024, 1024]⟩
abbrev S1x1024x64 : Shape := ⟨3, ![1, 1024, 64]⟩
abbrev S1x1x1024 : Shape := ⟨3, ![1, 1, 1024]⟩
abbrev S1x32x1024 : Shape := ⟨3, ![1, 32, 1024]⟩
abbrev S32x1024 : Shape := ⟨2, ![32, 1024]⟩
abbrev S1024x32 : Shape := ⟨2, ![1024, 32]⟩
abbrev S1x1024 : Shape := ⟨2, ![1, 1024]⟩
abbrev S1x128x1024 : Shape := ⟨3, ![1, 128, 1024]⟩
abbrev S128x1024 : Shape := ⟨2, ![128, 1024]⟩
abbrev S1x128x64 : Shape := ⟨3, ![1, 128, 64]⟩
abbrev S128x64 : Shape := ⟨2, ![128, 64]⟩
abbrev S128x64x16 : Shape := ⟨3, ![128, 64, 16]⟩
abbrev S128x64x1 : Shape := ⟨3, ![128, 64, 1]⟩
abbrev S1024x128 : Shape := ⟨2, ![1024, 128]⟩
abbrev S1x32x128 : Shape := ⟨3, ![1, 32, 128]⟩
abbrev S32x128 : Shape := ⟨2, ![32, 128]⟩
abbrev S1x128 : Shape := ⟨2, ![1, 128]⟩
abbrev S1024 : Shape := ⟨1, ![1024]⟩
abbrev S1024x1 : Shape := ⟨2, ![1024, 1]⟩

abbrev nBuf : Space → Nat
  | .hbm => 17
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S6x3x1024x1024, .i32⟩
  | .hbm, ⟨2, _⟩ => ⟨S6x3x1024x64, .f32⟩
  | .hbm, ⟨3, _⟩ => ⟨S6x3x1024, .f32⟩
  | .hbm, ⟨4, _⟩ => ⟨S6x3x32x1024, .f32⟩
  | .hbm, ⟨5, _⟩ => ⟨S6x3x1024x32, .f32⟩
  | .hbm, ⟨6, _⟩ => ⟨S5x1024, .f32⟩
  | .hbm, ⟨7, _⟩ => ⟨S5x1024, .f32⟩
  | .hbm, ⟨8, _⟩ => ⟨S18x1024x1024, .i32⟩
  | .hbm, ⟨9, _⟩ => ⟨S18x1024x64, .f32⟩
  | .hbm, ⟨10, _⟩ => ⟨S18x1x1024, .f32⟩
  | .hbm, ⟨11, _⟩ => ⟨S18x32x1024, .f32⟩
  | .hbm, ⟨12, _⟩ => ⟨S6x3x32x1024, .f32⟩
  | .hbm, ⟨13, _⟩ => ⟨S18x32x1024, .f32⟩
  | .hbm, ⟨14, _⟩ => ⟨S5x1x1024, .f32⟩
  | .hbm, ⟨15, _⟩ => ⟨S5x1x1024, .f32⟩
  | .hbm, ⟨16, _⟩ => ⟨S1024x1024, .f32⟩
  | .local _ .vmem, ⟨0, _⟩ => ⟨S1024x1024, .f32⟩
  | .local _ .vmem, ⟨1, _⟩ => ⟨S1x1024x1024, .i32⟩
  | .local _ .vmem, ⟨2, _⟩ => ⟨S1x1024x1024, .i32⟩
  | .local _ .vmem, ⟨3, _⟩ => ⟨S1x1024x64, .f32⟩
  | .local _ .vmem, ⟨4, _⟩ => ⟨S1x1024x64, .f32⟩
  | .local _ .vmem, ⟨5, _⟩ => ⟨S1x1x1024, .f32⟩
  | .local _ .vmem, ⟨6, _⟩ => ⟨S1x1x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![6, 3], ![false, false]⟩

def k0_cond5 (i : grid0.Coords) : BitVec 1 :=
  let arg0 : BitVec 32 := BitVec.ofNat 32 (i 0).val
  let c5_i32_128 : BitVec 32 := 5#32
  let v250 : BitVec 1 := Scalar.cmpi .eq arg0 c5_i32_128
  let arg1 : BitVec 32 := BitVec.ofNat 32 (i 1).val
  let c2_i32_129 : BitVec 32 := 2#32
  let v251 : BitVec 1 := Scalar.cmpi .eq arg1 c2_i32_129
  let v252 : BitVec 1 := Scalar.andi v250 v251
  let v253 : BitVec 32 := Scalar.extui v252
  let c0_i32_130 : BitVec 32 := 0#32
  let v254 : BitVec 1 := Scalar.cmpi .ne v253 c0_i32_130
  v254

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.minsi arg0 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.minsi arg0 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

class Facts₀ : Prop where
  shapeCasts_S6x3x1024x1024_S18x1024x1024 : S6x3x1024x1024.ShapeCasts S18x1024x1024
  shapeCasts_S6x3x1024x64_S18x1024x64 : S6x3x1024x64.ShapeCasts S18x1024x64
  shapeCasts_S6x3x1024_S18x1x1024 : S6x3x1024.ShapeCasts S18x1x1024
  shapeCasts_S6x3x32x1024_S18x32x1024 : S6x3x32x1024.ShapeCasts S18x32x1024
  transposes_S6x3x1024x32_S6x3x32x1024_0_1_3_2 : S6x3x1024x32.Transposes [0, 1, 3, 2] S6x3x32x1024
  shapeCasts_S5x1024_S5x1x1024 : S5x1024.ShapeCasts S5x1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1024x1024_S1x128x1024_0_0_0 : ∀ a, (![0, 0, 0] : Fin 3 → Nat) a + S1x128x1024.size a ≤ S1x1024x1024.size a
  h_S1x128x1024 : 0 < S1x128x1024.numel
  shapeCasts_S1x128x1024_S128x1024 : S1x128x1024.ShapeCasts S128x1024
  inb_S1x1024x64_S1x128x64_0_0_0 : ∀ a, (![0, 0, 0] : Fin 3 → Nat) a + S1x128x64.size a ≤ S1x1024x64.size a
  h_S1x128x64 : 0 < S1x128x64.numel
  shapeCasts_S1x128x64_S128x64 : S1x128x64.ShapeCasts S128x64
  shapeCasts_S128x1024_S128x64x16 : S128x1024.ShapeCasts S128x64x16
  shapeCasts_S128x64_S128x64x1 : S128x64.ShapeCasts S128x64x1
  broadcasts_S128x64x1_S128x64x16 : S128x64x1.Broadcasts S128x64x16
  shapeCasts_S128x64x16_S128x1024 : S128x64x16.ShapeCasts S128x1024
  inb_S1x32x1024_S1x32x128_0_0_0 : ∀ a, (![0, 0, 0] : Fin 3 → Nat) a + S1x32x128.size a ≤ S1x32x1024.size a
  h_S1x32x128 : 0 < S1x32x128.numel
  shapeCasts_S1x32x128_S32x128 : S1x32x128.ShapeCasts S32x128
  slices_S1x1024_o0_0_S1x128 : S1x1024.Slices ![0, 0] S1x128
  broadcasts_S1x128_S1024x128 : S1x128.Broadcasts S1024x128
  inb_S1024x1024_S1024x128_0_0 : ∀ a, (![0, 0] : Fin 2 → Nat) a + S1024x128.size a ≤ S1024x1024.size a
  h_S1024x128 : 0 < S1024x128.numel
  shapeCasts_S1024x128_S1024x128 : S1024x128.ShapeCasts S1024x128
  inb_S1x1024x1024_S1x128x1024_0_128_0 : ∀ a, (![0, 128, 0] : Fin 3 → Nat) a + S1x128x1024.size a ≤ S1x1024x1024.size a
  inb_S1x1024x64_S1x128x64_0_128_0 : ∀ a, (![0, 128, 0] : Fin 3 → Nat) a + S1x128x64.size a ≤ S1x1024x64.size a
  inb_S1x32x1024_S1x32x128_0_0_128 : ∀ a, (![0, 0, 128] : Fin 3 → Nat) a + S1x32x128.size a ≤ S1x32x1024.size a
  slices_S1x1024_o0_128_S1x128 : S1x1024.Slices ![0, 128] S1x128
  inb_S1024x1024_S1024x128_0_128 : ∀ a, (![0, 128] : Fin 2 → Nat) a + S1024x128.size a ≤ S1024x1024.size a
  inb_S1x1024x1024_S1x128x1024_0_256_0 : ∀ a, (![0, 256, 0] : Fin 3 → Nat) a + S1x128x1024.size a ≤ S1x1024x1024.size a
  inb_S1x1024x64_S1x128x64_0_256_0 : ∀ a, (![0, 256, 0] : Fin 3 → Nat) a + S1x128x64.size a ≤ S1x1024x64.size a
  inb_S1x32x1024_S1x32x128_0_0_256 : ∀ a, (![0, 0, 256] : Fin 3 → Nat) a + S1x32x128.size a ≤ S1x32x1024.size a
  slices_S1x1024_o0_256_S1x128 : S1x1024.Slices ![0, 256] S1x128
  inb_S1024x1024_S1024x128_0_256 : ∀ a, (![0, 256] : Fin 2 → Nat) a + S1024x128.size a ≤ S1024x1024.size a
  inb_S1x1024x1024_S1x128x1024_0_384_0 : ∀ a, (![0, 384, 0] : Fin 3 → Nat) a + S1x128x1024.size a ≤ S1x1024x1024.size a
  inb_S1x1024x64_S1x128x64_0_384_0 : ∀ a, (![0, 384, 0] : Fin 3 → Nat) a + S1x128x64.size a ≤ S1x1024x64.size a
  inb_S1x32x1024_S1x32x128_0_0_384 : ∀ a, (![0, 0, 384] : Fin 3 → Nat) a + S1x32x128.size a ≤ S1x32x1024.size a
  slices_S1x1024_o0_384_S1x128 : S1x1024.Slices ![0, 384] S1x128
  inb_S1024x1024_S1024x128_0_384 : ∀ a, (![0, 384] : Fin 2 → Nat) a + S1024x128.size a ≤ S1024x1024.size a
  inb_S1x1024x1024_S1x128x1024_0_512_0 : ∀ a, (![0, 512, 0] : Fin 3 → Nat) a + S1x128x1024.size a ≤ S1x1024x1024.size a
  inb_S1x1024x64_S1x128x64_0_512_0 : ∀ a, (![0, 512, 0] : Fin 3 → Nat) a + S1x128x64.size a ≤ S1x1024x64.size a
  inb_S1x32x1024_S1x32x128_0_0_512 : ∀ a, (![0, 0, 512] : Fin 3 → Nat) a + S1x32x128.size a ≤ S1x32x1024.size a
  slices_S1x1024_o0_512_S1x128 : S1x1024.Slices ![0, 512] S1x128
  inb_S1024x1024_S1024x128_0_512 : ∀ a, (![0, 512] : Fin 2 → Nat) a + S1024x128.size a ≤ S1024x1024.size a
  inb_S1x1024x1024_S1x128x1024_0_640_0 : ∀ a, (![0, 640, 0] : Fin 3 → Nat) a + S1x128x1024.size a ≤ S1x1024x1024.size a
  inb_S1x1024x64_S1x128x64_0_640_0 : ∀ a, (![0, 640, 0] : Fin 3 → Nat) a + S1x128x64.size a ≤ S1x1024x64.size a
  inb_S1x32x1024_S1x32x128_0_0_640 : ∀ a, (![0, 0, 640] : Fin 3 → Nat) a + S1x32x128.size a ≤ S1x32x1024.size a
  slices_S1x1024_o0_640_S1x128 : S1x1024.Slices ![0, 640] S1x128
  inb_S1024x1024_S1024x128_0_640 : ∀ a, (![0, 640] : Fin 2 → Nat) a + S1024x128.size a ≤ S1024x1024.size a
  inb_S1x1024x1024_S1x128x1024_0_768_0 : ∀ a, (![0, 768, 0] : Fin 3 → Nat) a + S1x128x1024.size a ≤ S1x1024x1024.size a
  inb_S1x1024x64_S1x128x64_0_768_0 : ∀ a, (![0, 768, 0] : Fin 3 → Nat) a + S1x128x64.size a ≤ S1x1024x64.size a
  inb_S1x32x1024_S1x32x128_0_0_768 : ∀ a, (![0, 0, 768] : Fin 3 → Nat) a + S1x32x128.size a ≤ S1x32x1024.size a
  slices_S1x1024_o0_768_S1x128 : S1x1024.Slices ![0, 768] S1x128
  inb_S1024x1024_S1024x128_0_768 : ∀ a, (![0, 768] : Fin 2 → Nat) a + S1024x128.size a ≤ S1024x1024.size a
  inb_S1x1024x1024_S1x128x1024_0_896_0 : ∀ a, (![0, 896, 0] : Fin 3 → Nat) a + S1x128x1024.size a ≤ S1x1024x1024.size a
  inb_S1x1024x64_S1x128x64_0_896_0 : ∀ a, (![0, 896, 0] : Fin 3 → Nat) a + S1x128x64.size a ≤ S1x1024x64.size a
  inb_S1x32x1024_S1x32x128_0_0_896 : ∀ a, (![0, 0, 896] : Fin 3 → Nat) a + S1x32x128.size a ≤ S1x32x1024.size a
  slices_S1x1024_o0_896_S1x128 : S1x1024.Slices ![0, 896] S1x128
  inb_S1024x1024_S1024x128_0_896 : ∀ a, (![0, 896] : Fin 2 → Nat) a + S1024x128.size a ≤ S1024x1024.size a
  reduces_S1024x1024_S1024 : S1024x1024.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  dot_S1024x1024_S32x1024_S1024x32_1_1_0_0_n_n_wf : DotDims.WF S1024x1024 S32x1024 S1024x32 [1] [1] [0] [0] [] []
  dot_S1024x1024_S128x1024_S1024x128_1_1_0_0_n_n_wf : DotDims.WF S1024x1024 S128x1024 S1024x128 [1] [1] [0] [0] [] []
  dot_S1024x32_S32x128_S1024x128_1_0_0_1_n_n_wf : DotDims.WF S1024x32 S32x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S18x1024x1024.size a
  hwx0_1 : ∀ i : grid0.Coords, EltTy.bits .i32 = 32 ∨ (Rect.block (s := S18x1024x1024) S1x1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S18x1024x64.size a
  hwx0_2 : ∀ i : grid0.Coords, EltTy.bits .f32 = 32 ∨ (Rect.block (s := S18x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S18x1x1024.size a
  hwx0_3 : ∀ i : grid0.Coords, EltTy.bits .f32 = 32 ∨ (Rect.block (s := S18x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x1024.size a ≤ S18x32x1024.size a
  hwx0_4 : ∀ i : grid0.Coords, EltTy.bits .f32 = 32 ∨ (Rect.block (s := S18x32x1024) S1x32x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x1024.size a ≤ S18x32x1024.size a
  hwx0_5 : ∀ i : grid0.Coords, EltTy.bits .f32 = 32 ∨ (Rect.block (s := S18x32x1024) S1x32x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S5x1x1024.size a
  hwx0_6 : ∀ i : grid0.Coords, EltTy.bits .f32 = 32 ∨ (Rect.block (s := S5x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S5x1x1024.size a
  hwx0_7 : ∀ i : grid0.Coords, EltTy.bits .f32 = 32 ∨ (Rect.block (s := S5x1x1024) S1x1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .f32 = 32 ∨ (Rect.block (s := S1024x1024) S1024x1024.size (cc0_transform_8 i) (hinb0_8 i)).WholeWords (EltTy.packing .f32)

variable [Facts₀]

def dot_S1024x1024_S32x1024_S1024x32_1_1_0_0_n_n : DotDims S1024x1024 S32x1024 S1024x32 where
  lhsContracting := [1]
  rhsContracting := [1]
  lhsNonContracting := [0]
  rhsNonContracting := [0]
  lhsBatch := []
  rhsBatch := []
  wf := dot_S1024x1024_S32x1024_S1024x32_1_1_0_0_n_n_wf
def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S1024x32_S32x128_S1024x128_1_0_0_1_n_n : DotDims S1024x32 S32x128 S1024x128 where
  lhsContracting := [1]
  rhsContracting := [0]
  lhsNonContracting := [0]
  rhsNonContracting := [1]
  lhsBatch := []
  rhsBatch := []
  wf := dot_S1024x32_S32x128_S1024x128_1_0_0_1_n_n_wf

abbrev win0_0 : Pipeline.Window sig grid0 :=
  Pipeline.Window.ofSpec (Memref.whole main_arg0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x32x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1024x1024.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond5 i == 1#1) | ⟨_ + 9, h⟩ => absurd h (Nat.not_lt.2 (Nat.le_add_left _ _))

class Facts : Prop extends Facts₀ where

variable [Facts]
-- ==== ReferenceIdeal.lean ====
abbrev S1024x1024 : Shape := ⟨2, ![1024, 1024]⟩
abbrev S6x3x1024x1024 : Shape := ⟨4, ![6, 3, 1024, 1024]⟩
abbrev S6x3x1024x64 : Shape := ⟨4, ![6, 3, 1024, 64]⟩
abbrev S6x3x1024 : Shape := ⟨3, ![6, 3, 1024]⟩
abbrev S6x3x32x1024 : Shape := ⟨4, ![6, 3, 32, 1024]⟩
abbrev S6x3x1024x32 : Shape := ⟨4, ![6, 3, 1024, 32]⟩
abbrev S5x1024 : Shape := ⟨2, ![5, 1024]⟩
abbrev S1x1x1024x1024 : Shape := ⟨4, ![1, 1, 1024, 1024]⟩
abbrev S1x1x1024x64 : Shape := ⟨4, ![1, 1, 1024, 64]⟩
abbrev S1024x64 : Shape := ⟨2, ![1024, 64]⟩
abbrev S1x1x1024 : Shape := ⟨3, ![1, 1, 1024]⟩
abbrev S1024 : Shape := ⟨1, ![1024]⟩
abbrev S1x1x32x1024 : Shape := ⟨4, ![1, 1, 32, 1024]⟩
abbrev S32x1024 : Shape := ⟨2, ![32, 1024]⟩
abbrev S1x1x1024x32 : Shape := ⟨4, ![1, 1, 1024, 32]⟩
abbrev S1024x32 : Shape := ⟨2, ![1024, 32]⟩
abbrev S1024x64x16 : Shape := ⟨3, ![1024, 64, 16]⟩
abbrev S1024x64x1 : Shape := ⟨3, ![1024, 64, 1]⟩
abbrev S1x1024 : Shape := ⟨2, ![1, 1024]⟩
abbrev S_ : Shape := ⟨0, ![]⟩
abbrev S1024x1 : Shape := ⟨2, ![1024, 1]⟩

abbrev nBuf : Space → Nat
  | .hbm => 812
  | .vmem => 0
  | .smem => 0
  | _ => 0

abbrev hbmTy0_0 (i : Nat) : BufTy := match i % 128 with
  | 0 => ⟨S1024x1024, .f32⟩
  | 1 => ⟨S6x3x1024x1024, .i32⟩
  | 2 => ⟨S6x3x1024x64, .f32⟩
  | 3 => ⟨S6x3x1024, .f32⟩
  | 4 => ⟨S6x3x32x1024, .f32⟩
  | 5 => ⟨S6x3x1024x32, .f32⟩
  | 6 => ⟨S5x1024, .f32⟩
  | 7 => ⟨S5x1024, .f32⟩
  | 8 => ⟨S1x1x1024x1024, .i32⟩
  | 9 => ⟨S1024x1024, .i32⟩
  | 10 => ⟨S1x1x1024x64, .f32⟩
  | 11 => ⟨S1024x64, .f32⟩
  | 12 => ⟨S1x1x1024, .f32⟩
  | 13 => ⟨S1024, .f32⟩
  | 14 => ⟨S1x1x32x1024, .f32⟩
  | 15 => ⟨S32x1024, .f32⟩
  | 16 => ⟨S1x1x1024x32, .f32⟩
  | 17 => ⟨S1024x32, .f32⟩
  | 18 => ⟨S1024x1024, .f32⟩
  | 19 => ⟨S1024x64x16, .f32⟩
  | 20 => ⟨S1024x64x1, .f32⟩
  | 21 => ⟨S1024x64x16, .f32⟩
  | 22 => ⟨S1024x64x16, .f32⟩
  | 23 => ⟨S1024x1024, .f32⟩
  | 24 => ⟨S1024x1024, .f32⟩
  | 25 => ⟨S1024x1024, .f32⟩
  | 26 => ⟨S1x1024, .f32⟩
  | 27 => ⟨S1024x1024, .f32⟩
  | 28 => ⟨S1024x1024, .f32⟩
  | 29 => ⟨S1024x32, .f32⟩
  | 30 => ⟨S1024x32, .f32⟩
  | 31 => ⟨S32x1024, .f32⟩
  | 32 => ⟨S1024x1024, .f32⟩
  | 33 => ⟨S_, .f32⟩
  | 34 => ⟨S1024x1024, .f32⟩
  | 35 => ⟨S1024x1024, .f32⟩
  | 36 => ⟨S1024x1024, .f32⟩
  | 37 => ⟨S_, .f32⟩
  | 38 => ⟨S1024x1024, .f32⟩
  | 39 => ⟨S1024x1024, .f32⟩
  | 40 => ⟨S1x1x1024x1024, .i32⟩
  | 41 => ⟨S1024x1024, .i32⟩
  | 42 => ⟨S1x1x1024x64, .f32⟩
  | 43 => ⟨S1024x64, .f32⟩
  | 44 => ⟨S1x1x1024, .f32⟩
  | 45 => ⟨S1024, .f32⟩
  | 46 => ⟨S1x1x32x1024, .f32⟩
  | 47 => ⟨S32x1024, .f32⟩
  | 48 => ⟨S1x1x1024x32, .f32⟩
  | 49 => ⟨S1024x32, .f32⟩
  | 50 => ⟨S1024x1024, .f32⟩
  | 51 => ⟨S1024x64x16, .f32⟩
  | 52 => ⟨S1024x64x1, .f32⟩
  | 53 => ⟨S1024x64x16, .f32⟩
  | 54 => ⟨S1024x64x16, .f32⟩
  | 55 => ⟨S1024x1024, .f32⟩
  | 56 => ⟨S1024x1024, .f32⟩
  | 57 => ⟨S1024x1024, .f32⟩
  | 58 => ⟨S1x1024, .f32⟩
  | 59 => ⟨S1024x1024, .f32⟩
  | 60 => ⟨S1024x1024, .f32⟩
  | 61 => ⟨S1024x32, .f32⟩
  | 62 => ⟨S1024x32, .f32⟩
  | 63 => ⟨S32x1024, .f32⟩
  | 64 => ⟨S1024x1024, .f32⟩
  | 65 => ⟨S_, .f32⟩
  | 66 => ⟨S1024x1024, .f32⟩
  | 67 => ⟨S1024x1024, .f32⟩
  | 68 => ⟨S1024x1024, .f32⟩
  | 69 => ⟨S_, .f32⟩
  | 70 => ⟨S1024x1024, .f32⟩
  | 71 => ⟨S1024x1024, .f32⟩
  | 72 => ⟨S1x1x1024x1024, .i32⟩
  | 73 => ⟨S1024x1024, .i32⟩
  | 74 => ⟨S1x1x1024x64, .f32⟩
  | 75 => ⟨S1024x64, .f32⟩
  | 76 => ⟨S1x1x1024, .f32⟩
  | 77 => ⟨S1024, .f32⟩
  | 78 => ⟨S1x1x32x1024, .f32⟩
  | 79 => ⟨S32x1024, .f32⟩
  | 80 => ⟨S1x1x1024x32, .f32⟩
  | 81 => ⟨S1024x32, .f32⟩
  | 82 => ⟨S1024x1024, .f32⟩
  | 83 => ⟨S1024x64x16, .f32⟩
  | 84 => ⟨S1024x64x1, .f32⟩
  | 85 => ⟨S1024x64x16, .f32⟩
  | 86 => ⟨S1024x64x16, .f32⟩
  | 87 => ⟨S1024x1024, .f32⟩
  | 88 => ⟨S1024x1024, .f32⟩
  | 89 => ⟨S1024x1024, .f32⟩
  | 90 => ⟨S1x1024, .f32⟩
  | 91 => ⟨S1024x1024, .f32⟩
  | 92 => ⟨S1024x1024, .f32⟩
  | 93 => ⟨S1024x32, .f32⟩
  | 94 => ⟨S1024x32, .f32⟩
  | 95 => ⟨S32x1024, .f32⟩
  | 96 => ⟨S1024x1024, .f32⟩
  | 97 => ⟨S_, .f32⟩
  | 98 => ⟨S1024x1024, .f32⟩
  | 99 => ⟨S1024x1024, .f32⟩
  | 100 => ⟨S1024x1024, .f32⟩
  | 101 => ⟨S1024x1024, .f32⟩
  | 102 => ⟨S1x1024, .f32⟩
  | 103 => ⟨S1024, .f32⟩
  | 104 => ⟨S1x1024, .f32⟩
  | 105 => ⟨S1024, .f32⟩
  | 106 => ⟨S_, .f32⟩
  | 107 => ⟨S1024, .f32⟩
  | 108 => ⟨S1024x1, .f32⟩
  | 109 => ⟨S_, .f32⟩
  | 110 => ⟨S1024x1, .f32⟩
  | 111 => ⟨S1024x1, .f32⟩
  | 112 => ⟨S_, .i32⟩
  | 113 => ⟨S_, .f32⟩
  | 114 => ⟨S1024, .f32⟩
  | 115 => ⟨S1024x1, .f32⟩
  | 116 => ⟨S_, .f32⟩
  | 117 => ⟨S1024x1, .f32⟩
  | 118 => ⟨S1024x1, .f32⟩
  | 119 => ⟨S1024x1024, .f32⟩
  | 120 => ⟨S1024x1024, .f32⟩
  | 121 => ⟨S1024x1024, .f32⟩
  | 122 => ⟨S_, .f32⟩
  | 123 => ⟨S_, .f32⟩
  | 124 => ⟨S_, .f32⟩
  | 125 => ⟨S_, .f32⟩
  | 126 => ⟨S1024, .f32⟩
  | 127 => ⟨S1024x1, .f32⟩
  | _ => ⟨S1024x1024, .f32⟩

abbrev hbmTy0_1 (i : Nat) : BufTy := match i % 128 with
  | 0 => ⟨S1024x1, .f32⟩
  | 1 => ⟨S1024x1, .f32⟩
  | 2 => ⟨S_, .f32⟩
  | 3 => ⟨S_, .i1⟩
  | 4 => ⟨S_, .f32⟩
  | 5 => ⟨S_, .f32⟩
  | 6 => ⟨S1024x1, .f32⟩
  | 7 => ⟨S1024x1, .f32⟩
  | 8 => ⟨S1024x1024, .f32⟩
  | 9 => ⟨S1024x1024, .f32⟩
  | 10 => ⟨S_, .f32⟩
  | 11 => ⟨S1024x1, .f32⟩
  | 12 => ⟨S1024x1, .f32⟩
  | 13 => ⟨S1024x1, .f32⟩
  | 14 => ⟨S1024x1024, .f32⟩
  | 15 => ⟨S1024x1024, .f32⟩
  | 16 => ⟨S1x1024, .f32⟩
  | 17 => ⟨S1024x1024, .f32⟩
  | 18 => ⟨S1024x1024, .f32⟩
  | 19 => ⟨S1x1024, .f32⟩
  | 20 => ⟨S1024x1024, .f32⟩
  | 21 => ⟨S1024x1024, .f32⟩
  | 22 => ⟨S1x1x1024x1024, .i32⟩
  | 23 => ⟨S1024x1024, .i32⟩
  | 24 => ⟨S1x1x1024x64, .f32⟩
  | 25 => ⟨S1024x64, .f32⟩
  | 26 => ⟨S1x1x1024, .f32⟩
  | 27 => ⟨S1024, .f32⟩
  | 28 => ⟨S1x1x32x1024, .f32⟩
  | 29 => ⟨S32x1024, .f32⟩
  | 30 => ⟨S1x1x1024x32, .f32⟩
  | 31 => ⟨S1024x32, .f32⟩
  | 32 => ⟨S1024x1024, .f32⟩
  | 33 => ⟨S1024x64x16, .f32⟩
  | 34 => ⟨S1024x64x1, .f32⟩
  | 35 => ⟨S1024x64x16, .f32⟩
  | 36 => ⟨S1024x64x16, .f32⟩
  | 37 => ⟨S1024x1024, .f32⟩
  | 38 => ⟨S1024x1024, .f32⟩
  | 39 => ⟨S1024x1024, .f32⟩
  | 40 => ⟨S1x1024, .f32⟩
  | 41 => ⟨S1024x1024, .f32⟩
  | 42 => ⟨S1024x1024, .f32⟩
  | 43 => ⟨S1024x32, .f32⟩
  | 44 => ⟨S1024x32, .f32⟩
  | 45 => ⟨S32x1024, .f32⟩
  | 46 => ⟨S1024x1024, .f32⟩
  | 47 => ⟨S_, .f32⟩
  | 48 => ⟨S1024x1024, .f32⟩
  | 49 => ⟨S1024x1024, .f32⟩
  | 50 => ⟨S1024x1024, .f32⟩
  | 51 => ⟨S_, .f32⟩
  | 52 => ⟨S1024x1024, .f32⟩
  | 53 => ⟨S1024x1024, .f32⟩
  | 54 => ⟨S1x1x1024x1024, .i32⟩
  | 55 => ⟨S1024x1024, .i32⟩
  | 56 => ⟨S1x1x1024x64, .f32⟩
  | 57 => ⟨S1024x64, .f32⟩
  | 58 => ⟨S1x1x1024, .f32⟩
  | 59 => ⟨S1024, .f32⟩
  | 60 => ⟨S1x1x32x1024, .f32⟩
  | 61 => ⟨S32x1024, .f32⟩
  | 62 => ⟨S1x1x1024x32, .f32⟩
  | 63 => ⟨S1024x32, .f32⟩
  | 64 => ⟨S1024x1024, .f32⟩
  | 65 => ⟨S1024x64x16, .f32⟩
  | 66 => ⟨S1024x64x1, .f32⟩
  | 67 => ⟨S1024x64x16, .f32⟩
  | 68 => ⟨S1024x64x16, .f32⟩
  | 69 => ⟨S1024x1024, .f32⟩
  | 70 => ⟨S1024x1024, .f32⟩
  | 71 => ⟨S1024x1024, .f32⟩
  | 72 => ⟨S1x1024, .f32⟩
  | 73 => ⟨S1024x1024, .f32⟩
  | 74 => ⟨S1024x1024, .f32⟩
  | 75 => ⟨S1024x32, .f32⟩
  | 76 => ⟨S1024x32, .f32⟩
  | 77 => ⟨S32x1024, .f32⟩
  | 78 => ⟨S1024x1024, .f32⟩
  | 79 => ⟨S_, .f32⟩
  | 80 => ⟨S1024x1024, .f32⟩
  | 81 => ⟨S1024x1024, .f32⟩
  | 82 => ⟨S1024x1024, .f32⟩
  | 83 => ⟨S_, .f32⟩
  | 84 => ⟨S1024x1024, .f32⟩
  | 85 => ⟨S1024x1024, .f32⟩
  | 86 => ⟨S1x1x1024x1024, .i32⟩
  | 87 => ⟨S1024x1024, .i32⟩
  | 88 => ⟨S1x1x1024x64, .f32⟩
  | 89 => ⟨S1024x64, .f32⟩
  | 90 => ⟨S1x1x1024, .f32⟩
  | 91 => ⟨S1024, .f32⟩
  | 92 => ⟨S1x1x32x1024, .f32⟩
  | 93 => ⟨S32x1024, .f32⟩
  | 94 => ⟨S1x1x1024x32, .f32⟩
  | 95 => ⟨S1024x32, .f32⟩
  | 96 => ⟨S1024x1024, .f32⟩
  | 97 => ⟨S1024x64x16, .f32⟩
  | 98 => ⟨S1024x64x1, .f32⟩
  | 99 => ⟨S1024x64x16, .f32⟩
  | 100 => ⟨S1024x64x16, .f32⟩
  | 101 => ⟨S1024x1024, .f32⟩
  | 102 => ⟨S1024x1024, .f32⟩
  | 103 => ⟨S1024x1024, .f32⟩
  | 104 => ⟨S1x1024, .f32⟩
  | 105 => ⟨S1024x1024, .f32⟩
  | 106 => ⟨S1024x1024, .f32⟩
  | 107 => ⟨S1024x32, .f32⟩
  | 108 => ⟨S1024x32, .f32⟩
  | 109 => ⟨S32x1024, .f32⟩
  | 110 => ⟨S1024x1024, .f32⟩
  | 111 => ⟨S_, .f32⟩
  | 112 => ⟨S1024x1024, .f32⟩
  | 113 => ⟨S1024x1024, .f32⟩
  | 114 => ⟨S1024x1024, .f32⟩
  | 115 => ⟨S1024x1024, .f32⟩
  | 116 => ⟨S1x1024, .f32⟩
  | 117 => ⟨S1024, .f32⟩
  | 118 => ⟨S1x1024, .f32⟩
  | 119 => ⟨S1024, .f32⟩
  | 120 => ⟨S_, .f32⟩
  | 121 => ⟨S1024, .f32⟩
  | 122 => ⟨S1024x1, .f32⟩
  | 123 => ⟨S_, .f32⟩
  | 124 => ⟨S1024x1, .f32⟩
  | 125 => ⟨S1024x1, .f32⟩
  | 126 => ⟨S_, .i32⟩
  | 127 => ⟨S_, .f32⟩
  | _ => ⟨S1024x1024, .f32⟩

abbrev hbmTy0_2 (i : Nat) : BufTy := match i % 128 with
  | 0 => ⟨S1024, .f32⟩
  | 1 => ⟨S1024x1, .f32⟩
  | 2 => ⟨S_, .f32⟩
  | 3 => ⟨S1024x1, .f32⟩
  | 4 => ⟨S1024x1, .f32⟩
  | 5 => ⟨S1024x1024, .f32⟩
  | 6 => ⟨S1024x1024, .f32⟩
  | 7 => ⟨S1024x1024, .f32⟩
  | 8 => ⟨S_, .f32⟩
  | 9 => ⟨S_, .f32⟩
  | 10 => ⟨S_, .f32⟩
  | 11 => ⟨S_, .f32⟩
  | 12 => ⟨S1024, .f32⟩
  | 13 => ⟨S1024x1, .f32⟩
  | 14 => ⟨S1024x1, .f32⟩
  | 15 => ⟨S1024x1, .f32⟩
  | 16 => ⟨S_, .f32⟩
  | 17 => ⟨S_, .i1⟩
  | 18 => ⟨S_, .f32⟩
  | 19 => ⟨S_, .f32⟩
  | 20 => ⟨S1024x1, .f32⟩
  | 21 => ⟨S1024x1, .f32⟩
  | 22 => ⟨S1024x1024, .f32⟩
  | 23 => ⟨S1024x1024, .f32⟩
  | 24 => ⟨S_, .f32⟩
  | 25 => ⟨S1024x1, .f32⟩
  | 26 => ⟨S1024x1, .f32⟩
  | 27 => ⟨S1024x1, .f32⟩
  | 28 => ⟨S1024x1024, .f32⟩
  | 29 => ⟨S1024x1024, .f32⟩
  | 30 => ⟨S1x1024, .f32⟩
  | 31 => ⟨S1024x1024, .f32⟩
  | 32 => ⟨S1024x1024, .f32⟩
  | 33 => ⟨S1x1024, .f32⟩
  | 34 => ⟨S1024x1024, .f32⟩
  | 35 => ⟨S1024x1024, .f32⟩
  | 36 => ⟨S1x1x1024x1024, .i32⟩
  | 37 => ⟨S1024x1024, .i32⟩
  | 38 => ⟨S1x1x1024x64, .f32⟩
  | 39 => ⟨S1024x64, .f32⟩
  | 40 => ⟨S1x1x1024, .f32⟩
  | 41 => ⟨S1024, .f32⟩
  | 42 => ⟨S1x1x32x1024, .f32⟩
  | 43 => ⟨S32x1024, .f32⟩
  | 44 => ⟨S1x1x1024x32, .f32⟩
  | 45 => ⟨S1024x32, .f32⟩
  | 46 => ⟨S1024x1024, .f32⟩
  | 47 => ⟨S1024x64x16, .f32⟩
  | 48 => ⟨S1024x64x1, .f32⟩
  | 49 => ⟨S1024x64x16, .f32⟩
  | 50 => ⟨S1024x64x16, .f32⟩
  | 51 => ⟨S1024x1024, .f32⟩
  | 52 => ⟨S1024x1024, .f32⟩
  | 53 => ⟨S1024x1024, .f32⟩
  | 54 => ⟨S1x1024, .f32⟩
  | 55 => ⟨S1024x1024, .f32⟩
  | 56 => ⟨S1024x1024, .f32⟩
  | 57 => ⟨S1024x32, .f32⟩
  | 58 => ⟨S1024x32, .f32⟩
  | 59 => ⟨S32x1024, .f32⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S_, .f32⟩
  | 66 => ⟨S1024x1024, .f32⟩
  | 67 => ⟨S1024x1024, .f32⟩
  | 68 => ⟨S1x1x1024x1024, .i32⟩
  | 69 => ⟨S1024x1024, .i32⟩
  | 70 => ⟨S1x1x1024x64, .f32⟩
  | 71 => ⟨S1024x64, .f32⟩
  | 72 => ⟨S1x1x1024, .f32⟩
  | 73 => ⟨S1024, .f32⟩
  | 74 => ⟨S1x1x32x1024, .f32⟩
  | 75 => ⟨S32x1024, .f32⟩
  | 76 => ⟨S1x1x1024x32, .f32⟩
  | 77 => ⟨S1024x32, .f32⟩
  | 78 => ⟨S1024x1024, .f32⟩
  | 79 => ⟨S1024x64x16, .f32⟩
  | 80 => ⟨S1024x64x1, .f32⟩
  | 81 => ⟨S1024x64x16, .f32⟩
  | 82 => ⟨S1024x64x16, .f32⟩
  | 83 => ⟨S1024x1024, .f32⟩
  | 84 => ⟨S1024x1024, .f32⟩
  | 85 => ⟨S1024x1024, .f32⟩
  | 86 => ⟨S1x1024, .f32⟩
  | 87 => ⟨S1024x1024, .f32⟩
  | 88 => ⟨S1024x1024, .f32⟩
  | 89 => ⟨S1024x32, .f32⟩
  | 90 => ⟨S1024x32, .f32⟩
  | 91 => ⟨S32x1024, .f32⟩
  | 92 => ⟨S1024x1024, .f32⟩
  | 93 => ⟨S_, .f32⟩
  | 94 => ⟨S1024x1024, .f32⟩
  | 95 => ⟨S1024x1024, .f32⟩
  | 96 => ⟨S1024x1024, .f32⟩
  | 97 => ⟨S_, .f32⟩
  | 98 => ⟨S1024x1024, .f32⟩
  | 99 => ⟨S1024x1024, .f32⟩
  | 100 => ⟨S1x1x1024x1024, .i32⟩
  | 101 => ⟨S1024x1024, .i32⟩
  | 102 => ⟨S1x1x1024x64, .f32⟩
  | 103 => ⟨S1024x64, .f32⟩
  | 104 => ⟨S1x1x1024, .f32⟩
  | 105 => ⟨S1024, .f32⟩
  | 106 => ⟨S1x1x32x1024, .f32⟩
  | 107 => ⟨S32x1024, .f32⟩
  | 108 => ⟨S1x1x1024x32, .f32⟩
  | 109 => ⟨S1024x32, .f32⟩
  | 110 => ⟨S1024x1024, .f32⟩
  | 111 => ⟨S1024x64x16, .f32⟩
  | 112 => ⟨S1024x64x1, .f32⟩
  | 113 => ⟨S1024x64x16, .f32⟩
  | 114 => ⟨S1024x64x16, .f32⟩
  | 115 => ⟨S1024x1024, .f32⟩
  | 116 => ⟨S1024x1024, .f32⟩
  | 117 => ⟨S1024x1024, .f32⟩
  | 118 => ⟨S1x1024, .f32⟩
  | 119 => ⟨S1024x1024, .f32⟩
  | 120 => ⟨S1024x1024, .f32⟩
  | 121 => ⟨S1024x32, .f32⟩
  | 122 => ⟨S1024x32, .f32⟩
  | 123 => ⟨S32x1024, .f32⟩
  | 124 => ⟨S1024x1024, .f32⟩
  | 125 => ⟨S_, .f32⟩
  | 126 => ⟨S1024x1024, .f32⟩
  | 127 => ⟨S1024x1024, .f32⟩
  | _ => ⟨S1024x1024, .f32⟩

abbrev hbmTy0_3 (i : Nat) : BufTy := match i % 128 with
  | 0 => ⟨S1024x1024, .f32⟩
  | 1 => ⟨S1024x1024, .f32⟩
  | 2 => ⟨S1x1024, .f32⟩
  | 3 => ⟨S1024, .f32⟩
  | 4 => ⟨S1x1024, .f32⟩
  | 5 => ⟨S1024, .f32⟩
  | 6 => ⟨S_, .f32⟩
  | 7 => ⟨S1024, .f32⟩
  | 8 => ⟨S1024x1, .f32⟩
  | 9 => ⟨S_, .f32⟩
  | 10 => ⟨S1024x1, .f32⟩
  | 11 => ⟨S1024x1, .f32⟩
  | 12 => ⟨S_, .i32⟩
  | 13 => ⟨S_, .f32⟩
  | 14 => ⟨S1024, .f32⟩
  | 15 => ⟨S1024x1, .f32⟩
  | 16 => ⟨S_, .f32⟩
  | 17 => ⟨S1024x1, .f32⟩
  | 18 => ⟨S1024x1, .f32⟩
  | 19 => ⟨S1024x1024, .f32⟩
  | 20 => ⟨S1024x1024, .f32⟩
  | 21 => ⟨S1024x1024, .f32⟩
  | 22 => ⟨S_, .f32⟩
  | 23 => ⟨S_, .f32⟩
  | 24 => ⟨S_, .f32⟩
  | 25 => ⟨S_, .f32⟩
  | 26 => ⟨S1024, .f32⟩
  | 27 => ⟨S1024x1, .f32⟩
  | 28 => ⟨S1024x1, .f32⟩
  | 29 => ⟨S1024x1, .f32⟩
  | 30 => ⟨S_, .f32⟩
  | 31 => ⟨S_, .i1⟩
  | 32 => ⟨S_, .f32⟩
  | 33 => ⟨S_, .f32⟩
  | 34 => ⟨S1024x1, .f32⟩
  | 35 => ⟨S1024x1, .f32⟩
  | 36 => ⟨S1024x1024, .f32⟩
  | 37 => ⟨S1024x1024, .f32⟩
  | 38 => ⟨S_, .f32⟩
  | 39 => ⟨S1024x1, .f32⟩
  | 40 => ⟨S1024x1, .f32⟩
  | 41 => ⟨S1024x1, .f32⟩
  | 42 => ⟨S1024x1024, .f32⟩
  | 43 => ⟨S1024x1024, .f32⟩
  | 44 => ⟨S1x1024, .f32⟩
  | 45 => ⟨S1024x1024, .f32⟩
  | 46 => ⟨S1024x1024, .f32⟩
  | 47 => ⟨S1x1024, .f32⟩
  | 48 => ⟨S1024x1024, .f32⟩
  | 49 => ⟨S1024x1024, .f32⟩
  | 50 => ⟨S1x1x1024x1024, .i32⟩
  | 51 => ⟨S1024x1024, .i32⟩
  | 52 => ⟨S1x1x1024x64, .f32⟩
  | 53 => ⟨S1024x64, .f32⟩
  | 54 => ⟨S1x1x1024, .f32⟩
  | 55 => ⟨S1024, .f32⟩
  | 56 => ⟨S1x1x32x1024, .f32⟩
  | 57 => ⟨S32x1024, .f32⟩
  | 58 => ⟨S1x1x1024x32, .f32⟩
  | 59 => ⟨S1024x32, .f32⟩
  | 60 => ⟨S1024x1024, .f32⟩
  | 61 => ⟨S1024x64x16, .f32⟩
  | 62 => ⟨S1024x64x1, .f32⟩
  | 63 => ⟨S1024x64x16, .f32⟩
  | 64 => ⟨S1024x64x16, .f32⟩
  | 65 => ⟨S1024x1024, .f32⟩
  | 66 => ⟨S1024x1024, .f32⟩
  | 67 => ⟨S1024x1024, .f32⟩
  | 68 => ⟨S1x1024, .f32⟩
  | 69 => ⟨S1024x1024, .f32⟩
  | 70 => ⟨S1024x1024, .f32⟩
  | 71 => ⟨S1024x32, .f32⟩
  | 72 => ⟨S1024x32, .f32⟩
  | 73 => ⟨S32x1024, .f32⟩
  | 74 => ⟨S1024x1024, .f32⟩
  | 75 => ⟨S_, .f32⟩
  | 76 => ⟨S1024x1024, .f32⟩
  | 77 => ⟨S1024x1024, .f32⟩
  | 78 => ⟨S1024x1024, .f32⟩
  | 79 => ⟨S_, .f32⟩
  | 80 => ⟨S1024x1024, .f32⟩
  | 81 => ⟨S1024x1024, .f32⟩
  | 82 => ⟨S1x1x1024x1024, .i32⟩
  | 83 => ⟨S1024x1024, .i32⟩
  | 84 => ⟨S1x1x1024x64, .f32⟩
  | 85 => ⟨S1024x64, .f32⟩
  | 86 => ⟨S1x1x1024, .f32⟩
  | 87 => ⟨S1024, .f32⟩
  | 88 => ⟨S1x1x32x1024, .f32⟩
  | 89 => ⟨S32x1024, .f32⟩
  | 90 => ⟨S1x1x1024x32, .f32⟩
  | 91 => ⟨S1024x32, .f32⟩
  | 92 => ⟨S1024x1024, .f32⟩
  | 93 => ⟨S1024x64x16, .f32⟩
  | 94 => ⟨S1024x64x1, .f32⟩
  | 95 => ⟨S1024x64x16, .f32⟩
  | 96 => ⟨S1024x64x16, .f32⟩
  | 97 => ⟨S1024x1024, .f32⟩
  | 98 => ⟨S1024x1024, .f32⟩
  | 99 => ⟨S1024x1024, .f32⟩
  | 100 => ⟨S1x1024, .f32⟩
  | 101 => ⟨S1024x1024, .f32⟩
  | 102 => ⟨S1024x1024, .f32⟩
  | 103 => ⟨S1024x32, .f32⟩
  | 104 => ⟨S1024x32, .f32⟩
  | 105 => ⟨S32x1024, .f32⟩
  | 106 => ⟨S1024x1024, .f32⟩
  | 107 => ⟨S_, .f32⟩
  | 108 => ⟨S1024x1024, .f32⟩
  | 109 => ⟨S1024x1024, .f32⟩
  | 110 => ⟨S1024x1024, .f32⟩
  | 111 => ⟨S_, .f32⟩
  | 112 => ⟨S1024x1024, .f32⟩
  | 113 => ⟨S1024x1024, .f32⟩
  | 114 => ⟨S1x1x1024x1024, .i32⟩
  | 115 => ⟨S1024x1024, .i32⟩
  | 116 => ⟨S1x1x1024x64, .f32⟩
  | 117 => ⟨S1024x64, .f32⟩
  | 118 => ⟨S1x1x1024, .f32⟩
  | 119 => ⟨S1024, .f32⟩
  | 120 => ⟨S1x1x32x1024, .f32⟩
  | 121 => ⟨S32x1024, .f32⟩
  | 122 => ⟨S1x1x1024x32, .f32⟩
  | 123 => ⟨S1024x32, .f32⟩
  | 124 => ⟨S1024x1024, .f32⟩
  | 125 => ⟨S1024x64x16, .f32⟩
  | 126 => ⟨S1024x64x1, .f32⟩
  | 127 => ⟨S1024x64x16, .f32⟩
  | _ => ⟨S1024x1024, .f32⟩

abbrev hbmTy0_4 (i : Nat) : BufTy := match i % 128 with
  | 0 => ⟨S1024x64x16, .f32⟩
  | 1 => ⟨S1024x1024, .f32⟩
  | 2 => ⟨S1024x1024, .f32⟩
  | 3 => ⟨S1024x1024, .f32⟩
  | 4 => ⟨S1x1024, .f32⟩
  | 5 => ⟨S1024x1024, .f32⟩
  | 6 => ⟨S1024x1024, .f32⟩
  | 7 => ⟨S1024x32, .f32⟩
  | 8 => ⟨S1024x32, .f32⟩
  | 9 => ⟨S32x1024, .f32⟩
  | 10 => ⟨S1024x1024, .f32⟩
  | 11 => ⟨S_, .f32⟩
  | 12 => ⟨S1024x1024, .f32⟩
  | 13 => ⟨S1024x1024, .f32⟩
  | 14 => ⟨S1024x1024, .f32⟩
  | 15 => ⟨S1024x1024, .f32⟩
  | 16 => ⟨S1x1024, .f32⟩
  | 17 => ⟨S1024, .f32⟩
  | 18 => ⟨S1x1024, .f32⟩
  | 19 => ⟨S1024, .f32⟩
  | 20 => ⟨S_, .f32⟩
  | 21 => ⟨S1024, .f32⟩
  | 22 => ⟨S1024x1, .f32⟩
  | 23 => ⟨S_, .f32⟩
  | 24 => ⟨S1024x1, .f32⟩
  | 25 => ⟨S1024x1, .f32⟩
  | 26 => ⟨S_, .i32⟩
  | 27 => ⟨S_, .f32⟩
  | 28 => ⟨S1024, .f32⟩
  | 29 => ⟨S1024x1, .f32⟩
  | 30 => ⟨S_, .f32⟩
  | 31 => ⟨S1024x1, .f32⟩
  | 32 => ⟨S1024x1, .f32⟩
  | 33 => ⟨S1024x1024, .f32⟩
  | 34 => ⟨S1024x1024, .f32⟩
  | 35 => ⟨S1024x1024, .f32⟩
  | 36 => ⟨S_, .f32⟩
  | 37 => ⟨S_, .f32⟩
  | 38 => ⟨S_, .f32⟩
  | 39 => ⟨S_, .f32⟩
  | 40 => ⟨S1024, .f32⟩
  | 41 => ⟨S1024x1, .f32⟩
  | 42 => ⟨S1024x1, .f32⟩
  | 43 => ⟨S1024x1, .f32⟩
  | 44 => ⟨S_, .f32⟩
  | 45 => ⟨S_, .i1⟩
  | 46 => ⟨S_, .f32⟩
  | 47 => ⟨S_, .f32⟩
  | 48 => ⟨S1024x1, .f32⟩
  | 49 => ⟨S1024x1, .f32⟩
  | 50 => ⟨S1024x1024, .f32⟩
  | 51 => ⟨S1024x1024, .f32⟩
  | 52 => ⟨S_, .f32⟩
  | 53 => ⟨S1024x1, .f32⟩
  | 54 => ⟨S1024x1, .f32⟩
  | 55 => ⟨S1024x1, .f32⟩
  | 56 => ⟨S1024x1024, .f32⟩
  | 57 => ⟨S1024x1024, .f32⟩
  | 58 => ⟨S1x1024, .f32⟩
  | 59 => ⟨S1024x1024, .f32⟩
  | 60 => ⟨S1024x1024, .f32⟩
  | 61 => ⟨S1x1024, .f32⟩
  | 62 => ⟨S1024x1024, .f32⟩
  | 63 => ⟨S1024x1024, .f32⟩
  | 64 => ⟨S1x1x1024x1024, .i32⟩
  | 65 => ⟨S1024x1024, .i32⟩
  | 66 => ⟨S1x1x1024x64, .f32⟩
  | 67 => ⟨S1024x64, .f32⟩
  | 68 => ⟨S1x1x1024, .f32⟩
  | 69 => ⟨S1024, .f32⟩
  | 70 => ⟨S1x1x32x1024, .f32⟩
  | 71 => ⟨S32x1024, .f32⟩
  | 72 => ⟨S1x1x1024x32, .f32⟩
  | 73 => ⟨S1024x32, .f32⟩
  | 74 => ⟨S1024x1024, .f32⟩
  | 75 => ⟨S1024x64x16, .f32⟩
  | 76 => ⟨S1024x64x1, .f32⟩
  | 77 => ⟨S1024x64x16, .f32⟩
  | 78 => ⟨S1024x64x16, .f32⟩
  | 79 => ⟨S1024x1024, .f32⟩
  | 80 => ⟨S1024x1024, .f32⟩
  | 81 => ⟨S1024x1024, .f32⟩
  | 82 => ⟨S1x1024, .f32⟩
  | 83 => ⟨S1024x1024, .f32⟩
  | 84 => ⟨S1024x1024, .f32⟩
  | 85 => ⟨S1024x32, .f32⟩
  | 86 => ⟨S1024x32, .f32⟩
  | 87 => ⟨S32x1024, .f32⟩
  | 88 => ⟨S1024x1024, .f32⟩
  | 89 => ⟨S_, .f32⟩
  | 90 => ⟨S1024x1024, .f32⟩
  | 91 => ⟨S1024x1024, .f32⟩
  | 92 => ⟨S1024x1024, .f32⟩
  | 93 => ⟨S_, .f32⟩
  | 94 => ⟨S1024x1024, .f32⟩
  | 95 => ⟨S1024x1024, .f32⟩
  | 96 => ⟨S1x1x1024x1024, .i32⟩
  | 97 => ⟨S1024x1024, .i32⟩
  | 98 => ⟨S1x1x1024x64, .f32⟩
  | 99 => ⟨S1024x64, .f32⟩
  | 100 => ⟨S1x1x1024, .f32⟩
  | 101 => ⟨S1024, .f32⟩
  | 102 => ⟨S1x1x32x1024, .f32⟩
  | 103 => ⟨S32x1024, .f32⟩
  | 104 => ⟨S1x1x1024x32, .f32⟩
  | 105 => ⟨S1024x32, .f32⟩
  | 106 => ⟨S1024x1024, .f32⟩
  | 107 => ⟨S1024x64x16, .f32⟩
  | 108 => ⟨S1024x64x1, .f32⟩
  | 109 => ⟨S1024x64x16, .f32⟩
  | 110 => ⟨S1024x64x16, .f32⟩
  | 111 => ⟨S1024x1024, .f32⟩
  | 112 => ⟨S1024x1024, .f32⟩
  | 113 => ⟨S1024x1024, .f32⟩
  | 114 => ⟨S1x1024, .f32⟩
  | 115 => ⟨S1024x1024, .f32⟩
  | 116 => ⟨S1024x1024, .f32⟩
  | 117 => ⟨S1024x32, .f32⟩
  | 118 => ⟨S1024x32, .f32⟩
  | 119 => ⟨S32x1024, .f32⟩
  | 120 => ⟨S1024x1024, .f32⟩
  | 121 => ⟨S_, .f32⟩
  | 122 => ⟨S1024x1024, .f32⟩
  | 123 => ⟨S1024x1024, .f32⟩
  | 124 => ⟨S1024x1024, .f32⟩
  | 125 => ⟨S_, .f32⟩
  | 126 => ⟨S1024x1024, .f32⟩
  | 127 => ⟨S1024x1024, .f32⟩
  | _ => ⟨S1024x1024, .f32⟩

abbrev hbmTy0_5 (i : Nat) : BufTy := match i % 128 with
  | 0 => ⟨S1x1x1024x1024, .i32⟩
  | 1 => ⟨S1024x1024, .i32⟩
  | 2 => ⟨S1x1x1024x64, .f32⟩
  | 3 => ⟨S1024x64, .f32⟩
  | 4 => ⟨S1x1x1024, .f32⟩
  | 5 => ⟨S1024, .f32⟩
  | 6 => ⟨S1x1x32x1024, .f32⟩
  | 7 => ⟨S32x1024, .f32⟩
  | 8 => ⟨S1x1x1024x32, .f32⟩
  | 9 => ⟨S1024x32, .f32⟩
  | 10 => ⟨S1024x1024, .f32⟩
  | 11 => ⟨S1024x64x16, .f32⟩
  | 12 => ⟨S1024x64x1, .f32⟩
  | 13 => ⟨S1024x64x16, .f32⟩
  | 14 => ⟨S1024x64x16, .f32⟩
  | 15 => ⟨S1024x1024, .f32⟩
  | 16 => ⟨S1024x1024, .f32⟩
  | 17 => ⟨S1024x1024, .f32⟩
  | 18 => ⟨S1x1024, .f32⟩
  | 19 => ⟨S1024x1024, .f32⟩
  | 20 => ⟨S1024x1024, .f32⟩
  | 21 => ⟨S1024x32, .f32⟩
  | 22 => ⟨S1024x32, .f32⟩
  | 23 => ⟨S32x1024, .f32⟩
  | 24 => ⟨S1024x1024, .f32⟩
  | 25 => ⟨S_, .f32⟩
  | 26 => ⟨S1024x1024, .f32⟩
  | 27 => ⟨S1024x1024, .f32⟩
  | 28 => ⟨S1024x1024, .f32⟩
  | 29 => ⟨S1024x1024, .f32⟩
  | 30 => ⟨S1x1024, .f32⟩
  | 31 => ⟨S1024, .f32⟩
  | 32 => ⟨S1x1024, .f32⟩
  | 33 => ⟨S1024, .f32⟩
  | 34 => ⟨S_, .f32⟩
  | 35 => ⟨S1024, .f32⟩
  | 36 => ⟨S1024x1, .f32⟩
  | 37 => ⟨S_, .f32⟩
  | 38 => ⟨S1024x1, .f32⟩
  | 39 => ⟨S1024x1, .f32⟩
  | 40 => ⟨S_, .i32⟩
  | 41 => ⟨S_, .f32⟩
  | 42 => ⟨S1024, .f32⟩
  | 43 => ⟨S1024x1, .f32⟩
  | 44 => ⟨S_, .f32⟩
  | 45 => ⟨S1024x1, .f32⟩
  | 46 => ⟨S1024x1, .f32⟩
  | 47 => ⟨S1024x1024, .f32⟩
  | 48 => ⟨S1024x1024, .f32⟩
  | 49 => ⟨S1024x1024, .f32⟩
  | 50 => ⟨S_, .f32⟩
  | 51 => ⟨S_, .f32⟩
  | 52 => ⟨S_, .f32⟩
  | 53 => ⟨S_, .f32⟩
  | 54 => ⟨S1024, .f32⟩
  | 55 => ⟨S1024x1, .f32⟩
  | 56 => ⟨S1024x1, .f32⟩
  | 57 => ⟨S1024x1, .f32⟩
  | 58 => ⟨S_, .f32⟩
  | 59 => ⟨S_, .i1⟩
  | 60 => ⟨S_, .f32⟩
  | 61 => ⟨S_, .f32⟩
  | 62 => ⟨S1024x1, .f32⟩
  | 63 => ⟨S1024x1, .f32⟩
  | 64 => ⟨S1024x1024, .f32⟩
  | 65 => ⟨S1024x1024, .f32⟩
  | 66 => ⟨S_, .f32⟩
  | 67 => ⟨S1024x1, .f32⟩
  | 68 => ⟨S1024x1, .f32⟩
  | 69 => ⟨S1024x1, .f32⟩
  | 70 => ⟨S1024x1024, .f32⟩
  | 71 => ⟨S1024x1024, .f32⟩
  | 72 => ⟨S1x1024, .f32⟩
  | 73 => ⟨S1024x1024, .f32⟩
  | 74 => ⟨S1024x1024, .f32⟩
  | 75 => ⟨S1x1024, .f32⟩
  | 76 => ⟨S1024x1024, .f32⟩
  | 77 => ⟨S1024x1024, .f32⟩
  | 78 => ⟨S1x1x1024x1024, .i32⟩
  | 79 => ⟨S1024x1024, .i32⟩
  | 80 => ⟨S1x1x1024x64, .f32⟩
  | 81 => ⟨S1024x64, .f32⟩
  | 82 => ⟨S1x1x1024, .f32⟩
  | 83 => ⟨S1024, .f32⟩
  | 84 => ⟨S1x1x32x1024, .f32⟩
  | 85 => ⟨S32x1024, .f32⟩
  | 86 => ⟨S1x1x1024x32, .f32⟩
  | 87 => ⟨S1024x32, .f32⟩
  | 88 => ⟨S1024x1024, .f32⟩
  | 89 => ⟨S1024x64x16, .f32⟩
  | 90 => ⟨S1024x64x1, .f32⟩
  | 91 => ⟨S1024x64x16, .f32⟩
  | 92 => ⟨S1024x64x16, .f32⟩
  | 93 => ⟨S1024x1024, .f32⟩
  | 94 => ⟨S1024x1024, .f32⟩
  | 95 => ⟨S1024x1024, .f32⟩
  | 96 => ⟨S1x1024, .f32⟩
  | 97 => ⟨S1024x1024, .f32⟩
  | 98 => ⟨S1024x1024, .f32⟩
  | 99 => ⟨S1024x32, .f32⟩
  | 100 => ⟨S1024x32, .f32⟩
  | 101 => ⟨S32x1024, .f32⟩
  | 102 => ⟨S1024x1024, .f32⟩
  | 103 => ⟨S_, .f32⟩
  | 104 => ⟨S1024x1024, .f32⟩
  | 105 => ⟨S1024x1024, .f32⟩
  | 106 => ⟨S1024x1024, .f32⟩
  | 107 => ⟨S_, .f32⟩
  | 108 => ⟨S1024x1024, .f32⟩
  | 109 => ⟨S1024x1024, .f32⟩
  | 110 => ⟨S1x1x1024x1024, .i32⟩
  | 111 => ⟨S1024x1024, .i32⟩
  | 112 => ⟨S1x1x1024x64, .f32⟩
  | 113 => ⟨S1024x64, .f32⟩
  | 114 => ⟨S1x1x1024, .f32⟩
  | 115 => ⟨S1024, .f32⟩
  | 116 => ⟨S1x1x32x1024, .f32⟩
  | 117 => ⟨S32x1024, .f32⟩
  | 118 => ⟨S1x1x1024x32, .f32⟩
  | 119 => ⟨S1024x32, .f32⟩
  | 120 => ⟨S1024x1024, .f32⟩
  | 121 => ⟨S1024x64x16, .f32⟩
  | 122 => ⟨S1024x64x1, .f32⟩
  | 123 => ⟨S1024x64x16, .f32⟩
  | 124 => ⟨S1024x64x16, .f32⟩
  | 125 => ⟨S1024x1024, .f32⟩
  | 126 => ⟨S1024x1024, .f32⟩
  | 127 => ⟨S1024x1024, .f32⟩
  | _ => ⟨S1024x1024, .f32⟩

abbrev hbmTy0_6 (i : Nat) : BufTy := match i % 128 with
  | 0 => ⟨S1x1024, .f32⟩
  | 1 => ⟨S1024x1024, .f32⟩
  | 2 => ⟨S1024x1024, .f32⟩
  | 3 => ⟨S1024x32, .f32⟩
  | 4 => ⟨S1024x32, .f32⟩
  | 5 => ⟨S32x1024, .f32⟩
  | 6 => ⟨S1024x1024, .f32⟩
  | 7 => ⟨S_, .f32⟩
  | 8 => ⟨S1024x1024, .f32⟩
  | 9 => ⟨S1024x1024, .f32⟩
  | 10 => ⟨S1024x1024, .f32⟩
  | 11 => ⟨S_, .f32⟩
  | 12 => ⟨S1024x1024, .f32⟩
  | 13 => ⟨S1024x1024, .f32⟩
  | 14 => ⟨S1x1x1024x1024, .i32⟩
  | 15 => ⟨S1024x1024, .i32⟩
  | 16 => ⟨S1x1x1024x64, .f32⟩
  | 17 => ⟨S1024x64, .f32⟩
  | 18 => ⟨S1x1x1024, .f32⟩
  | 19 => ⟨S1024, .f32⟩
  | 20 => ⟨S1x1x32x1024, .f32⟩
  | 21 => ⟨S32x1024, .f32⟩
  | 22 => ⟨S1x1x1024x32, .f32⟩
  | 23 => ⟨S1024x32, .f32⟩
  | 24 => ⟨S1024x1024, .f32⟩
  | 25 => ⟨S1024x64x16, .f32⟩
  | 26 => ⟨S1024x64x1, .f32⟩
  | 27 => ⟨S1024x64x16, .f32⟩
  | 28 => ⟨S1024x64x16, .f32⟩
  | 29 => ⟨S1024x1024, .f32⟩
  | 30 => ⟨S1024x1024, .f32⟩
  | 31 => ⟨S1024x1024, .f32⟩
  | 32 => ⟨S1x1024, .f32⟩
  | 33 => ⟨S1024x1024, .f32⟩
  | 34 => ⟨S1024x1024, .f32⟩
  | 35 => ⟨S1024x32, .f32⟩
  | 36 => ⟨S1024x32, .f32⟩
  | 37 => ⟨S32x1024, .f32⟩
  | 38 => ⟨S1024x1024, .f32⟩
  | 39 => ⟨S_, .f32⟩
  | 40 => ⟨S1024x1024, .f32⟩
  | 41 => ⟨S1024x1024, .f32⟩
  | 42 => ⟨S1024x1024, .f32⟩
  | 43 => ⟨S1024x1024, .f32⟩
  | _ => ⟨S1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_cst : Ref sig .tc := ⟨.hbm, 37, rfl⟩
abbrev main_call0_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_0 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call1_cst : Ref sig .tc := ⟨.hbm, 69, rfl⟩
abbrev main_call1_v0 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_1 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_2 : Ref sig .tc := ⟨.hbm, 106, rfl⟩
abbrev main_v91 : Ref sig .tc := ⟨.hbm, 107, rfl⟩
abbrev main_v92 : Ref sig .tc := ⟨.hbm, 108, rfl⟩
abbrev main_cst_3 : Ref sig .tc := ⟨.hbm, 109, rfl⟩
abbrev main_v93 : Ref sig .tc := ⟨.hbm, 110, rfl⟩
abbrev main_v94 : Ref sig .tc := ⟨.hbm, 111, rfl⟩
abbrev main_c : Ref sig .tc := ⟨.hbm, 112, rfl⟩
abbrev main_call2_cst : Ref sig .tc := ⟨.hbm, 113, rfl⟩
abbrev main_call2_v0 : Ref sig .tc := ⟨.hbm, 114, rfl⟩
abbrev main_call2_v1 : Ref sig .tc := ⟨.hbm, 115, rfl⟩
abbrev main_call2_cst_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_cst_1 : Ref sig .tc := ⟨.hbm, 123, rfl⟩
abbrev main_call2_v8 : Ref sig .tc := ⟨.hbm, 124, rfl⟩
abbrev main_call2_cst_2 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_v12 : Ref sig .tc := ⟨.hbm, 129, rfl⟩
abbrev main_call2_cst_3 : Ref sig .tc := ⟨.hbm, 130, rfl⟩
abbrev main_call2_v13 : Ref sig .tc := ⟨.hbm, 131, rfl⟩
abbrev main_call2_cst_4 : Ref sig .tc := ⟨.hbm, 132, rfl⟩
abbrev main_call2_call0_v0 : Ref sig .tc := ⟨.hbm, 133, rfl⟩
abbrev main_call2_call0_v1 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_4 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_5 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_call3_cst : Ref sig .tc := ⟨.hbm, 179, rfl⟩
abbrev main_call3_v0 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_6 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_call4_cst : Ref sig .tc := ⟨.hbm, 211, rfl⟩
abbrev main_call4_v0 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_cst_7 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_cst_8 : Ref sig .tc := ⟨.hbm, 248, rfl⟩
abbrev main_v200 : Ref sig .tc := ⟨.hbm, 249, rfl⟩
abbrev main_v201 : Ref sig .tc := ⟨.hbm, 250, rfl⟩
abbrev main_cst_9 : Ref sig .tc := ⟨.hbm, 251, rfl⟩
abbrev main_v202 : Ref sig .tc := ⟨.hbm, 252, rfl⟩
abbrev main_v203 : Ref sig .tc := ⟨.hbm, 253, rfl⟩
abbrev main_c_10 : Ref sig .tc := ⟨.hbm, 254, rfl⟩
abbrev main_call5_cst : Ref sig .tc := ⟨.hbm, 255, rfl⟩
abbrev main_call5_v0 : Ref sig .tc := ⟨.hbm, 256, rfl⟩
abbrev main_call5_v1 : Ref sig .tc := ⟨.hbm, 257, rfl⟩
abbrev main_call5_cst_0 : Ref sig .tc := ⟨.hbm, 258, rfl⟩
abbrev main_call5_v2 : Ref sig .tc := ⟨.hbm, 259, rfl⟩
abbrev main_call5_v3 : Ref sig .tc := ⟨.hbm, 260, rfl⟩
abbrev main_call5_v4 : Ref sig .tc := ⟨.hbm, 261, rfl⟩
abbrev main_call5_v5 : Ref sig .tc := ⟨.hbm, 262, rfl⟩
abbrev main_call5_v6 : Ref sig .tc := ⟨.hbm, 263, rfl⟩
abbrev main_call5_v7 : Ref sig .tc := ⟨.hbm, 264, rfl⟩
abbrev main_call5_cst_1 : Ref sig .tc := ⟨.hbm, 265, rfl⟩
abbrev main_call5_v8 : Ref sig .tc := ⟨.hbm, 266, rfl⟩
abbrev main_call5_cst_2 : Ref sig .tc := ⟨.hbm, 267, rfl⟩
abbrev main_call5_v9 : Ref sig .tc := ⟨.hbm, 268, rfl⟩
abbrev main_call5_v10 : Ref sig .tc := ⟨.hbm, 269, rfl⟩
abbrev main_call5_v11 : Ref sig .tc := ⟨.hbm, 270, rfl⟩
abbrev main_call5_v12 : Ref sig .tc := ⟨.hbm, 271, rfl⟩
abbrev main_call5_cst_3 : Ref sig .tc := ⟨.hbm, 272, rfl⟩
abbrev main_call5_v13 : Ref sig .tc := ⟨.hbm, 273, rfl⟩
abbrev main_call5_cst_4 : Ref sig .tc := ⟨.hbm, 274, rfl⟩
abbrev main_call5_call0_v0 : Ref sig .tc := ⟨.hbm, 275, rfl⟩
abbrev main_call5_call0_v1 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_cst_11 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_cst_12 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_call6_cst : Ref sig .tc := ⟨.hbm, 321, rfl⟩
abbrev main_call6_v0 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_cst_13 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_call7_cst : Ref sig .tc := ⟨.hbm, 353, rfl⟩
abbrev main_call7_v0 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_v294 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_v300 : Ref sig .tc := ⟨.hbm, 380, rfl⟩
abbrev main_cst_14 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_cst_15 : Ref sig .tc := ⟨.hbm, 390, rfl⟩
abbrev main_v309 : Ref sig .tc := ⟨.hbm, 391, rfl⟩
abbrev main_v310 : Ref sig .tc := ⟨.hbm, 392, rfl⟩
abbrev main_cst_16 : Ref sig .tc := ⟨.hbm, 393, rfl⟩
abbrev main_v311 : Ref sig .tc := ⟨.hbm, 394, rfl⟩
abbrev main_v312 : Ref sig .tc := ⟨.hbm, 395, rfl⟩
abbrev main_c_17 : Ref sig .tc := ⟨.hbm, 396, rfl⟩
abbrev main_call8_cst : Ref sig .tc := ⟨.hbm, 397, rfl⟩
abbrev main_call8_v0 : Ref sig .tc := ⟨.hbm, 398, rfl⟩
abbrev main_call8_v1 : Ref sig .tc := ⟨.hbm, 399, rfl⟩
abbrev main_call8_cst_0 : Ref sig .tc := ⟨.hbm, 400, rfl⟩
abbrev main_call8_v2 : Ref sig .tc := ⟨.hbm, 401, rfl⟩
abbrev main_call8_v3 : Ref sig .tc := ⟨.hbm, 402, rfl⟩
abbrev main_call8_v4 : Ref sig .tc := ⟨.hbm, 403, rfl⟩
abbrev main_call8_v5 : Ref sig .tc := ⟨.hbm, 404, rfl⟩
abbrev main_call8_v6 : Ref sig .tc := ⟨.hbm, 405, rfl⟩
abbrev main_call8_v7 : Ref sig .tc := ⟨.hbm, 406, rfl⟩
abbrev main_call8_cst_1 : Ref sig .tc := ⟨.hbm, 407, rfl⟩
abbrev main_call8_v8 : Ref sig .tc := ⟨.hbm, 408, rfl⟩
abbrev main_call8_cst_2 : Ref sig .tc := ⟨.hbm, 409, rfl⟩
abbrev main_call8_v9 : Ref sig .tc := ⟨.hbm, 410, rfl⟩
abbrev main_call8_v10 : Ref sig .tc := ⟨.hbm, 411, rfl⟩
abbrev main_call8_v11 : Ref sig .tc := ⟨.hbm, 412, rfl⟩
abbrev main_call8_v12 : Ref sig .tc := ⟨.hbm, 413, rfl⟩
abbrev main_call8_cst_3 : Ref sig .tc := ⟨.hbm, 414, rfl⟩
abbrev main_call8_v13 : Ref sig .tc := ⟨.hbm, 415, rfl⟩
abbrev main_call8_cst_4 : Ref sig .tc := ⟨.hbm, 416, rfl⟩
abbrev main_call8_call0_v0 : Ref sig .tc := ⟨.hbm, 417, rfl⟩
abbrev main_call8_call0_v1 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_cst_18 : Ref sig .tc := ⟨.hbm, 422, rfl⟩
abbrev main_v316 : Ref sig .tc := ⟨.hbm, 423, rfl⟩
abbrev main_v317 : Ref sig .tc := ⟨.hbm, 424, rfl⟩
abbrev main_v318 : Ref sig .tc := ⟨.hbm, 425, rfl⟩
abbrev main_v319 : Ref sig .tc := ⟨.hbm, 426, rfl⟩
abbrev main_v320 : Ref sig .tc := ⟨.hbm, 427, rfl⟩
abbrev main_v321 : Ref sig .tc := ⟨.hbm, 428, rfl⟩
abbrev main_v322 : Ref sig .tc := ⟨.hbm, 429, rfl⟩
abbrev main_v323 : Ref sig .tc := ⟨.hbm, 430, rfl⟩
abbrev main_v324 : Ref sig .tc := ⟨.hbm, 431, rfl⟩
abbrev main_v325 : Ref sig .tc := ⟨.hbm, 432, rfl⟩
abbrev main_v326 : Ref sig .tc := ⟨.hbm, 433, rfl⟩
abbrev main_v327 : Ref sig .tc := ⟨.hbm, 434, rfl⟩
abbrev main_v328 : Ref sig .tc := ⟨.hbm, 435, rfl⟩
abbrev main_v329 : Ref sig .tc := ⟨.hbm, 436, rfl⟩
abbrev main_v330 : Ref sig .tc := ⟨.hbm, 437, rfl⟩
abbrev main_v331 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_v340 : Ref sig .tc := ⟨.hbm, 447, rfl⟩
abbrev main_v341 : Ref sig .tc := ⟨.hbm, 448, rfl⟩
abbrev main_v342 : Ref sig .tc := ⟨.hbm, 449, rfl⟩
abbrev main_v343 : Ref sig .tc := ⟨.hbm, 450, rfl⟩
abbrev main_v344 : Ref sig .tc := ⟨.hbm, 451, rfl⟩
abbrev main_v345 : Ref sig .tc := ⟨.hbm, 452, rfl⟩
abbrev main_v346 : Ref sig .tc := ⟨.hbm, 453, rfl⟩
abbrev main_v347 : Ref sig .tc := ⟨.hbm, 454, rfl⟩
abbrev main_v348 : Ref sig .tc := ⟨.hbm, 455, rfl⟩
abbrev main_v349 : Ref sig .tc := ⟨.hbm, 456, rfl⟩
abbrev main_v350 : Ref sig .tc := ⟨.hbm, 457, rfl⟩
abbrev main_v351 : Ref sig .tc := ⟨.hbm, 458, rfl⟩
abbrev main_cst_19 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_call9_cst : Ref sig .tc := ⟨.hbm, 463, rfl⟩
abbrev main_call9_v0 : Ref sig .tc := ⟨.hbm, 464, rfl⟩
abbrev main_v355 : Ref sig .tc := ⟨.hbm, 465, rfl⟩
abbrev main_v356 : Ref sig .tc := ⟨.hbm, 466, rfl⟩
abbrev main_v357 : Ref sig .tc := ⟨.hbm, 467, rfl⟩
abbrev main_v358 : Ref sig .tc := ⟨.hbm, 468, rfl⟩
abbrev main_v359 : Ref sig .tc := ⟨.hbm, 469, rfl⟩
abbrev main_v360 : Ref sig .tc := ⟨.hbm, 470, rfl⟩
abbrev main_v361 : Ref sig .tc := ⟨.hbm, 471, rfl⟩
abbrev main_v362 : Ref sig .tc := ⟨.hbm, 472, rfl⟩
abbrev main_v363 : Ref sig .tc := ⟨.hbm, 473, rfl⟩
abbrev main_v364 : Ref sig .tc := ⟨.hbm, 474, rfl⟩
abbrev main_v365 : Ref sig .tc := ⟨.hbm, 475, rfl⟩
abbrev main_v366 : Ref sig .tc := ⟨.hbm, 476, rfl⟩
abbrev main_v367 : Ref sig .tc := ⟨.hbm, 477, rfl⟩
abbrev main_v368 : Ref sig .tc := ⟨.hbm, 478, rfl⟩
abbrev main_v369 : Ref sig .tc := ⟨.hbm, 479, rfl⟩
abbrev main_v370 : Ref sig .tc := ⟨.hbm, 480, rfl⟩
abbrev main_v371 : Ref sig .tc := ⟨.hbm, 481, rfl⟩
abbrev main_v372 : Ref sig .tc := ⟨.hbm, 482, rfl⟩
abbrev main_v373 : Ref sig .tc := ⟨.hbm, 483, rfl⟩
abbrev main_v374 : Ref sig .tc := ⟨.hbm, 484, rfl⟩
abbrev main_v375 : Ref sig .tc := ⟨.hbm, 485, rfl⟩
abbrev main_v376 : Ref sig .tc := ⟨.hbm, 486, rfl⟩
abbrev main_v377 : Ref sig .tc := ⟨.hbm, 487, rfl⟩
abbrev main_v378 : Ref sig .tc := ⟨.hbm, 488, rfl⟩
abbrev main_v379 : Ref sig .tc := ⟨.hbm, 489, rfl⟩
abbrev main_v380 : Ref sig .tc := ⟨.hbm, 490, rfl⟩
abbrev main_cst_20 : Ref sig .tc := ⟨.hbm, 491, rfl⟩
abbrev main_v381 : Ref sig .tc := ⟨.hbm, 492, rfl⟩
abbrev main_v382 : Ref sig .tc := ⟨.hbm, 493, rfl⟩
abbrev main_v383 : Ref sig .tc := ⟨.hbm, 494, rfl⟩
abbrev main_call10_cst : Ref sig .tc := ⟨.hbm, 495, rfl⟩
abbrev main_call10_v0 : Ref sig .tc := ⟨.hbm, 496, rfl⟩
abbrev main_v384 : Ref sig .tc := ⟨.hbm, 497, rfl⟩
abbrev main_v385 : Ref sig .tc := ⟨.hbm, 498, rfl⟩
abbrev main_v386 : Ref sig .tc := ⟨.hbm, 499, rfl⟩
abbrev main_v387 : Ref sig .tc := ⟨.hbm, 500, rfl⟩
abbrev main_v388 : Ref sig .tc := ⟨.hbm, 501, rfl⟩
abbrev main_v389 : Ref sig .tc := ⟨.hbm, 502, rfl⟩
abbrev main_v390 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_v401 : Ref sig .tc := ⟨.hbm, 514, rfl⟩
abbrev main_v402 : Ref sig .tc := ⟨.hbm, 515, rfl⟩
abbrev main_v403 : Ref sig .tc := ⟨.hbm, 516, rfl⟩
abbrev main_v404 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩
abbrev main_v408 : Ref sig .tc := ⟨.hbm, 521, rfl⟩
abbrev main_v409 : Ref sig .tc := ⟨.hbm, 522, rfl⟩
abbrev main_cst_21 : Ref sig .tc := ⟨.hbm, 523, rfl⟩
abbrev main_v410 : Ref sig .tc := ⟨.hbm, 524, rfl⟩
abbrev main_v411 : Ref sig .tc := ⟨.hbm, 525, rfl⟩
abbrev main_v412 : Ref sig .tc := ⟨.hbm, 526, rfl⟩
abbrev main_v413 : Ref sig .tc := ⟨.hbm, 527, rfl⟩
abbrev main_v414 : Ref sig .tc := ⟨.hbm, 528, rfl⟩
abbrev main_v415 : Ref sig .tc := ⟨.hbm, 529, rfl⟩
abbrev main_v416 : Ref sig .tc := ⟨.hbm, 530, rfl⟩
abbrev main_v417 : Ref sig .tc := ⟨.hbm, 531, rfl⟩
abbrev main_cst_22 : Ref sig .tc := ⟨.hbm, 532, rfl⟩
abbrev main_v418 : Ref sig .tc := ⟨.hbm, 533, rfl⟩
abbrev main_v419 : Ref sig .tc := ⟨.hbm, 534, rfl⟩
abbrev main_cst_23 : Ref sig .tc := ⟨.hbm, 535, rfl⟩
abbrev main_v420 : Ref sig .tc := ⟨.hbm, 536, rfl⟩
abbrev main_v421 : Ref sig .tc := ⟨.hbm, 537, rfl⟩
abbrev main_c_24 : Ref sig .tc := ⟨.hbm, 538, rfl⟩
abbrev main_call11_cst : Ref sig .tc := ⟨.hbm, 539, rfl⟩
abbrev main_call11_v0 : Ref sig .tc := ⟨.hbm, 540, rfl⟩
abbrev main_call11_v1 : Ref sig .tc := ⟨.hbm, 541, rfl⟩
abbrev main_call11_cst_0 : Ref sig .tc := ⟨.hbm, 542, rfl⟩
abbrev main_call11_v2 : Ref sig .tc := ⟨.hbm, 543, rfl⟩
abbrev main_call11_v3 : Ref sig .tc := ⟨.hbm, 544, rfl⟩
abbrev main_call11_v4 : Ref sig .tc := ⟨.hbm, 545, rfl⟩
abbrev main_call11_v5 : Ref sig .tc := ⟨.hbm, 546, rfl⟩
abbrev main_call11_v6 : Ref sig .tc := ⟨.hbm, 547, rfl⟩
abbrev main_call11_v7 : Ref sig .tc := ⟨.hbm, 548, rfl⟩
abbrev main_call11_cst_1 : Ref sig .tc := ⟨.hbm, 549, rfl⟩
abbrev main_call11_v8 : Ref sig .tc := ⟨.hbm, 550, rfl⟩
abbrev main_call11_cst_2 : Ref sig .tc := ⟨.hbm, 551, rfl⟩
abbrev main_call11_v9 : Ref sig .tc := ⟨.hbm, 552, rfl⟩
abbrev main_call11_v10 : Ref sig .tc := ⟨.hbm, 553, rfl⟩
abbrev main_call11_v11 : Ref sig .tc := ⟨.hbm, 554, rfl⟩
abbrev main_call11_v12 : Ref sig .tc := ⟨.hbm, 555, rfl⟩
abbrev main_call11_cst_3 : Ref sig .tc := ⟨.hbm, 556, rfl⟩
abbrev main_call11_v13 : Ref sig .tc := ⟨.hbm, 557, rfl⟩
abbrev main_call11_cst_4 : Ref sig .tc := ⟨.hbm, 558, rfl⟩
abbrev main_call11_call0_v0 : Ref sig .tc := ⟨.hbm, 559, rfl⟩
abbrev main_call11_call0_v1 : Ref sig .tc := ⟨.hbm, 560, rfl⟩
abbrev main_v422 : Ref sig .tc := ⟨.hbm, 561, rfl⟩
abbrev main_v423 : Ref sig .tc := ⟨.hbm, 562, rfl⟩
abbrev main_v424 : Ref sig .tc := ⟨.hbm, 563, rfl⟩
abbrev main_cst_25 : Ref sig .tc := ⟨.hbm, 564, rfl⟩
abbrev main_v425 : Ref sig .tc := ⟨.hbm, 565, rfl⟩
abbrev main_v426 : Ref sig .tc := ⟨.hbm, 566, rfl⟩
abbrev main_v427 : Ref sig .tc := ⟨.hbm, 567, rfl⟩
abbrev main_v428 : Ref sig .tc := ⟨.hbm, 568, rfl⟩
abbrev main_v429 : Ref sig .tc := ⟨.hbm, 569, rfl⟩
abbrev main_v430 : Ref sig .tc := ⟨.hbm, 570, rfl⟩
abbrev main_v431 : Ref sig .tc := ⟨.hbm, 571, rfl⟩
abbrev main_v432 : Ref sig .tc := ⟨.hbm, 572, rfl⟩
abbrev main_v433 : Ref sig .tc := ⟨.hbm, 573, rfl⟩
abbrev main_v434 : Ref sig .tc := ⟨.hbm, 574, rfl⟩
abbrev main_v435 : Ref sig .tc := ⟨.hbm, 575, rfl⟩
abbrev main_v436 : Ref sig .tc := ⟨.hbm, 576, rfl⟩
abbrev main_v437 : Ref sig .tc := ⟨.hbm, 577, rfl⟩
abbrev main_v438 : Ref sig .tc := ⟨.hbm, 578, rfl⟩
abbrev main_v439 : Ref sig .tc := ⟨.hbm, 579, rfl⟩
abbrev main_v440 : Ref sig .tc := ⟨.hbm, 580, rfl⟩
abbrev main_v441 : Ref sig .tc := ⟨.hbm, 581, rfl⟩
abbrev main_v442 : Ref sig .tc := ⟨.hbm, 582, rfl⟩
abbrev main_v443 : Ref sig .tc := ⟨.hbm, 583, rfl⟩
abbrev main_v444 : Ref sig .tc := ⟨.hbm, 584, rfl⟩
abbrev main_v445 : Ref sig .tc := ⟨.hbm, 585, rfl⟩
abbrev main_v446 : Ref sig .tc := ⟨.hbm, 586, rfl⟩
abbrev main_v447 : Ref sig .tc := ⟨.hbm, 587, rfl⟩
abbrev main_v448 : Ref sig .tc := ⟨.hbm, 588, rfl⟩
abbrev main_v449 : Ref sig .tc := ⟨.hbm, 589, rfl⟩
abbrev main_v450 : Ref sig .tc := ⟨.hbm, 590, rfl⟩
abbrev main_v451 : Ref sig .tc := ⟨.hbm, 591, rfl⟩
abbrev main_v452 : Ref sig .tc := ⟨.hbm, 592, rfl⟩
abbrev main_v453 : Ref sig .tc := ⟨.hbm, 593, rfl⟩
abbrev main_v454 : Ref sig .tc := ⟨.hbm, 594, rfl⟩
abbrev main_v455 : Ref sig .tc := ⟨.hbm, 595, rfl⟩
abbrev main_v456 : Ref sig .tc := ⟨.hbm, 596, rfl⟩
abbrev main_v457 : Ref sig .tc := ⟨.hbm, 597, rfl⟩
abbrev main_v458 : Ref sig .tc := ⟨.hbm, 598, rfl⟩
abbrev main_v459 : Ref sig .tc := ⟨.hbm, 599, rfl⟩
abbrev main_v460 : Ref sig .tc := ⟨.hbm, 600, rfl⟩
abbrev main_cst_26 : Ref sig .tc := ⟨.hbm, 601, rfl⟩
abbrev main_v461 : Ref sig .tc := ⟨.hbm, 602, rfl⟩
abbrev main_v462 : Ref sig .tc := ⟨.hbm, 603, rfl⟩
abbrev main_v463 : Ref sig .tc := ⟨.hbm, 604, rfl⟩
abbrev main_call12_cst : Ref sig .tc := ⟨.hbm, 605, rfl⟩
abbrev main_call12_v0 : Ref sig .tc := ⟨.hbm, 606, rfl⟩
abbrev main_v464 : Ref sig .tc := ⟨.hbm, 607, rfl⟩
abbrev main_v465 : Ref sig .tc := ⟨.hbm, 608, rfl⟩
abbrev main_v466 : Ref sig .tc := ⟨.hbm, 609, rfl⟩
abbrev main_v467 : Ref sig .tc := ⟨.hbm, 610, rfl⟩
abbrev main_v468 : Ref sig .tc := ⟨.hbm, 611, rfl⟩
abbrev main_v469 : Ref sig .tc := ⟨.hbm, 612, rfl⟩
abbrev main_v470 : Ref sig .tc := ⟨.hbm, 613, rfl⟩
abbrev main_v471 : Ref sig .tc := ⟨.hbm, 614, rfl⟩
abbrev main_v472 : Ref sig .tc := ⟨.hbm, 615, rfl⟩
abbrev main_v473 : Ref sig .tc := ⟨.hbm, 616, rfl⟩
abbrev main_v474 : Ref sig .tc := ⟨.hbm, 617, rfl⟩
abbrev main_v475 : Ref sig .tc := ⟨.hbm, 618, rfl⟩
abbrev main_v476 : Ref sig .tc := ⟨.hbm, 619, rfl⟩
abbrev main_v477 : Ref sig .tc := ⟨.hbm, 620, rfl⟩
abbrev main_v478 : Ref sig .tc := ⟨.hbm, 621, rfl⟩
abbrev main_v479 : Ref sig .tc := ⟨.hbm, 622, rfl⟩
abbrev main_v480 : Ref sig .tc := ⟨.hbm, 623, rfl⟩
abbrev main_v481 : Ref sig .tc := ⟨.hbm, 624, rfl⟩
abbrev main_v482 : Ref sig .tc := ⟨.hbm, 625, rfl⟩
abbrev main_v483 : Ref sig .tc := ⟨.hbm, 626, rfl⟩
abbrev main_v484 : Ref sig .tc := ⟨.hbm, 627, rfl⟩
abbrev main_v485 : Ref sig .tc := ⟨.hbm, 628, rfl⟩
abbrev main_v486 : Ref sig .tc := ⟨.hbm, 629, rfl⟩
abbrev main_v487 : Ref sig .tc := ⟨.hbm, 630, rfl⟩
abbrev main_v488 : Ref sig .tc := ⟨.hbm, 631, rfl⟩
abbrev main_v489 : Ref sig .tc := ⟨.hbm, 632, rfl⟩
abbrev main_cst_27 : Ref sig .tc := ⟨.hbm, 633, rfl⟩
abbrev main_v490 : Ref sig .tc := ⟨.hbm, 634, rfl⟩
abbrev main_v491 : Ref sig .tc := ⟨.hbm, 635, rfl⟩
abbrev main_v492 : Ref sig .tc := ⟨.hbm, 636, rfl⟩
abbrev main_call13_cst : Ref sig .tc := ⟨.hbm, 637, rfl⟩
abbrev main_call13_v0 : Ref sig .tc := ⟨.hbm, 638, rfl⟩
abbrev main_v493 : Ref sig .tc := ⟨.hbm, 639, rfl⟩
abbrev main_v494 : Ref sig .tc := ⟨.hbm, 640, rfl⟩
abbrev main_v495 : Ref sig .tc := ⟨.hbm, 641, rfl⟩
abbrev main_v496 : Ref sig .tc := ⟨.hbm, 642, rfl⟩
abbrev main_v497 : Ref sig .tc := ⟨.hbm, 643, rfl⟩
abbrev main_v498 : Ref sig .tc := ⟨.hbm, 644, rfl⟩
abbrev main_v499 : Ref sig .tc := ⟨.hbm, 645, rfl⟩
abbrev main_v500 : Ref sig .tc := ⟨.hbm, 646, rfl⟩
abbrev main_v501 : Ref sig .tc := ⟨.hbm, 647, rfl⟩
abbrev main_v502 : Ref sig .tc := ⟨.hbm, 648, rfl⟩
abbrev main_v503 : Ref sig .tc := ⟨.hbm, 649, rfl⟩
abbrev main_v504 : Ref sig .tc := ⟨.hbm, 650, rfl⟩
abbrev main_v505 : Ref sig .tc := ⟨.hbm, 651, rfl⟩
abbrev main_v506 : Ref sig .tc := ⟨.hbm, 652, rfl⟩
abbrev main_v507 : Ref sig .tc := ⟨.hbm, 653, rfl⟩
abbrev main_v508 : Ref sig .tc := ⟨.hbm, 654, rfl⟩
abbrev main_v509 : Ref sig .tc := ⟨.hbm, 655, rfl⟩
abbrev main_v510 : Ref sig .tc := ⟨.hbm, 656, rfl⟩
abbrev main_v511 : Ref sig .tc := ⟨.hbm, 657, rfl⟩
abbrev main_v512 : Ref sig .tc := ⟨.hbm, 658, rfl⟩
abbrev main_v513 : Ref sig .tc := ⟨.hbm, 659, rfl⟩
abbrev main_v514 : Ref sig .tc := ⟨.hbm, 660, rfl⟩
abbrev main_v515 : Ref sig .tc := ⟨.hbm, 661, rfl⟩
abbrev main_v516 : Ref sig .tc := ⟨.hbm, 662, rfl⟩
abbrev main_v517 : Ref sig .tc := ⟨.hbm, 663, rfl⟩
abbrev main_v518 : Ref sig .tc := ⟨.hbm, 664, rfl⟩
abbrev main_cst_28 : Ref sig .tc := ⟨.hbm, 665, rfl⟩
abbrev main_v519 : Ref sig .tc := ⟨.hbm, 666, rfl⟩
abbrev main_v520 : Ref sig .tc := ⟨.hbm, 667, rfl⟩
abbrev main_v521 : Ref sig .tc := ⟨.hbm, 668, rfl⟩
abbrev main_v522 : Ref sig .tc := ⟨.hbm, 669, rfl⟩
abbrev main_v523 : Ref sig .tc := ⟨.hbm, 670, rfl⟩
abbrev main_v524 : Ref sig .tc := ⟨.hbm, 671, rfl⟩
abbrev main_v525 : Ref sig .tc := ⟨.hbm, 672, rfl⟩
abbrev main_v526 : Ref sig .tc := ⟨.hbm, 673, rfl⟩
abbrev main_cst_29 : Ref sig .tc := ⟨.hbm, 674, rfl⟩
abbrev main_v527 : Ref sig .tc := ⟨.hbm, 675, rfl⟩
abbrev main_v528 : Ref sig .tc := ⟨.hbm, 676, rfl⟩
abbrev main_cst_30 : Ref sig .tc := ⟨.hbm, 677, rfl⟩
abbrev main_v529 : Ref sig .tc := ⟨.hbm, 678, rfl⟩
abbrev main_v530 : Ref sig .tc := ⟨.hbm, 679, rfl⟩
abbrev main_c_31 : Ref sig .tc := ⟨.hbm, 680, rfl⟩
abbrev main_call14_cst : Ref sig .tc := ⟨.hbm, 681, rfl⟩
abbrev main_call14_v0 : Ref sig .tc := ⟨.hbm, 682, rfl⟩
abbrev main_call14_v1 : Ref sig .tc := ⟨.hbm, 683, rfl⟩
abbrev main_call14_cst_0 : Ref sig .tc := ⟨.hbm, 684, rfl⟩
abbrev main_call14_v2 : Ref sig .tc := ⟨.hbm, 685, rfl⟩
abbrev main_call14_v3 : Ref sig .tc := ⟨.hbm, 686, rfl⟩
abbrev main_call14_v4 : Ref sig .tc := ⟨.hbm, 687, rfl⟩
abbrev main_call14_v5 : Ref sig .tc := ⟨.hbm, 688, rfl⟩
abbrev main_call14_v6 : Ref sig .tc := ⟨.hbm, 689, rfl⟩
abbrev main_call14_v7 : Ref sig .tc := ⟨.hbm, 690, rfl⟩
abbrev main_call14_cst_1 : Ref sig .tc := ⟨.hbm, 691, rfl⟩
abbrev main_call14_v8 : Ref sig .tc := ⟨.hbm, 692, rfl⟩
abbrev main_call14_cst_2 : Ref sig .tc := ⟨.hbm, 693, rfl⟩
abbrev main_call14_v9 : Ref sig .tc := ⟨.hbm, 694, rfl⟩
abbrev main_call14_v10 : Ref sig .tc := ⟨.hbm, 695, rfl⟩
abbrev main_call14_v11 : Ref sig .tc := ⟨.hbm, 696, rfl⟩
abbrev main_call14_v12 : Ref sig .tc := ⟨.hbm, 697, rfl⟩
abbrev main_call14_cst_3 : Ref sig .tc := ⟨.hbm, 698, rfl⟩
abbrev main_call14_v13 : Ref sig .tc := ⟨.hbm, 699, rfl⟩
abbrev main_call14_cst_4 : Ref sig .tc := ⟨.hbm, 700, rfl⟩
abbrev main_call14_call0_v0 : Ref sig .tc := ⟨.hbm, 701, rfl⟩
abbrev main_call14_call0_v1 : Ref sig .tc := ⟨.hbm, 702, rfl⟩
abbrev main_v531 : Ref sig .tc := ⟨.hbm, 703, rfl⟩
abbrev main_v532 : Ref sig .tc := ⟨.hbm, 704, rfl⟩
abbrev main_v533 : Ref sig .tc := ⟨.hbm, 705, rfl⟩
abbrev main_cst_32 : Ref sig .tc := ⟨.hbm, 706, rfl⟩
abbrev main_v534 : Ref sig .tc := ⟨.hbm, 707, rfl⟩
abbrev main_v535 : Ref sig .tc := ⟨.hbm, 708, rfl⟩
abbrev main_v536 : Ref sig .tc := ⟨.hbm, 709, rfl⟩
abbrev main_v537 : Ref sig .tc := ⟨.hbm, 710, rfl⟩
abbrev main_v538 : Ref sig .tc := ⟨.hbm, 711, rfl⟩
abbrev main_v539 : Ref sig .tc := ⟨.hbm, 712, rfl⟩
abbrev main_v540 : Ref sig .tc := ⟨.hbm, 713, rfl⟩
abbrev main_v541 : Ref sig .tc := ⟨.hbm, 714, rfl⟩
abbrev main_v542 : Ref sig .tc := ⟨.hbm, 715, rfl⟩
abbrev main_v543 : Ref sig .tc := ⟨.hbm, 716, rfl⟩
abbrev main_v544 : Ref sig .tc := ⟨.hbm, 717, rfl⟩
abbrev main_v545 : Ref sig .tc := ⟨.hbm, 718, rfl⟩
abbrev main_v546 : Ref sig .tc := ⟨.hbm, 719, rfl⟩
abbrev main_v547 : Ref sig .tc := ⟨.hbm, 720, rfl⟩
abbrev main_v548 : Ref sig .tc := ⟨.hbm, 721, rfl⟩
abbrev main_v549 : Ref sig .tc := ⟨.hbm, 722, rfl⟩
abbrev main_v550 : Ref sig .tc := ⟨.hbm, 723, rfl⟩
abbrev main_v551 : Ref sig .tc := ⟨.hbm, 724, rfl⟩
abbrev main_v552 : Ref sig .tc := ⟨.hbm, 725, rfl⟩
abbrev main_v553 : Ref sig .tc := ⟨.hbm, 726, rfl⟩
abbrev main_v554 : Ref sig .tc := ⟨.hbm, 727, rfl⟩
abbrev main_v555 : Ref sig .tc := ⟨.hbm, 728, rfl⟩
abbrev main_v556 : Ref sig .tc := ⟨.hbm, 729, rfl⟩
abbrev main_v557 : Ref sig .tc := ⟨.hbm, 730, rfl⟩
abbrev main_v558 : Ref sig .tc := ⟨.hbm, 731, rfl⟩
abbrev main_v559 : Ref sig .tc := ⟨.hbm, 732, rfl⟩
abbrev main_v560 : Ref sig .tc := ⟨.hbm, 733, rfl⟩
abbrev main_v561 : Ref sig .tc := ⟨.hbm, 734, rfl⟩
abbrev main_v562 : Ref sig .tc := ⟨.hbm, 735, rfl⟩
abbrev main_v563 : Ref sig .tc := ⟨.hbm, 736, rfl⟩
abbrev main_v564 : Ref sig .tc := ⟨.hbm, 737, rfl⟩
abbrev main_v565 : Ref sig .tc := ⟨.hbm, 738, rfl⟩
abbrev main_v566 : Ref sig .tc := ⟨.hbm, 739, rfl⟩
abbrev main_v567 : Ref sig .tc := ⟨.hbm, 740, rfl⟩
abbrev main_v568 : Ref sig .tc := ⟨.hbm, 741, rfl⟩
abbrev main_v569 : Ref sig .tc := ⟨.hbm, 742, rfl⟩
abbrev main_cst_33 : Ref sig .tc := ⟨.hbm, 743, rfl⟩
abbrev main_v570 : Ref sig .tc := ⟨.hbm, 744, rfl⟩
abbrev main_v571 : Ref sig .tc := ⟨.hbm, 745, rfl⟩
abbrev main_v572 : Ref sig .tc := ⟨.hbm, 746, rfl⟩
abbrev main_call15_cst : Ref sig .tc := ⟨.hbm, 747, rfl⟩
abbrev main_call15_v0 : Ref sig .tc := ⟨.hbm, 748, rfl⟩
abbrev main_v573 : Ref sig .tc := ⟨.hbm, 749, rfl⟩
abbrev main_v574 : Ref sig .tc := ⟨.hbm, 750, rfl⟩
abbrev main_v575 : Ref sig .tc := ⟨.hbm, 751, rfl⟩
abbrev main_v576 : Ref sig .tc := ⟨.hbm, 752, rfl⟩
abbrev main_v577 : Ref sig .tc := ⟨.hbm, 753, rfl⟩
abbrev main_v578 : Ref sig .tc := ⟨.hbm, 754, rfl⟩
abbrev main_v579 : Ref sig .tc := ⟨.hbm, 755, rfl⟩
abbrev main_v580 : Ref sig .tc := ⟨.hbm, 756, rfl⟩
abbrev main_v581 : Ref sig .tc := ⟨.hbm, 757, rfl⟩
abbrev main_v582 : Ref sig .tc := ⟨.hbm, 758, rfl⟩
abbrev main_v583 : Ref sig .tc := ⟨.hbm, 759, rfl⟩
abbrev main_v584 : Ref sig .tc := ⟨.hbm, 760, rfl⟩
abbrev main_v585 : Ref sig .tc := ⟨.hbm, 761, rfl⟩
abbrev main_v586 : Ref sig .tc := ⟨.hbm, 762, rfl⟩
abbrev main_v587 : Ref sig .tc := ⟨.hbm, 763, rfl⟩
abbrev main_v588 : Ref sig .tc := ⟨.hbm, 764, rfl⟩
abbrev main_v589 : Ref sig .tc := ⟨.hbm, 765, rfl⟩
abbrev main_v590 : Ref sig .tc := ⟨.hbm, 766, rfl⟩
abbrev main_v591 : Ref sig .tc := ⟨.hbm, 767, rfl⟩
abbrev main_v592 : Ref sig .tc := ⟨.hbm, 768, rfl⟩
abbrev main_v593 : Ref sig .tc := ⟨.hbm, 769, rfl⟩
abbrev main_v594 : Ref sig .tc := ⟨.hbm, 770, rfl⟩
abbrev main_v595 : Ref sig .tc := ⟨.hbm, 771, rfl⟩
abbrev main_v596 : Ref sig .tc := ⟨.hbm, 772, rfl⟩
abbrev main_v597 : Ref sig .tc := ⟨.hbm, 773, rfl⟩
abbrev main_v598 : Ref sig .tc := ⟨.hbm, 774, rfl⟩
abbrev main_cst_34 : Ref sig .tc := ⟨.hbm, 775, rfl⟩
abbrev main_v599 : Ref sig .tc := ⟨.hbm, 776, rfl⟩
abbrev main_v600 : Ref sig .tc := ⟨.hbm, 777, rfl⟩
abbrev main_v601 : Ref sig .tc := ⟨.hbm, 778, rfl⟩
abbrev main_call16_cst : Ref sig .tc := ⟨.hbm, 779, rfl⟩
abbrev main_call16_v0 : Ref sig .tc := ⟨.hbm, 780, rfl⟩
abbrev main_v602 : Ref sig .tc := ⟨.hbm, 781, rfl⟩
abbrev main_v603 : Ref sig .tc := ⟨.hbm, 782, rfl⟩
abbrev main_v604 : Ref sig .tc := ⟨.hbm, 783, rfl⟩
abbrev main_v605 : Ref sig .tc := ⟨.hbm, 784, rfl⟩
abbrev main_v606 : Ref sig .tc := ⟨.hbm, 785, rfl⟩
abbrev main_v607 : Ref sig .tc := ⟨.hbm, 786, rfl⟩
abbrev main_v608 : Ref sig .tc := ⟨.hbm, 787, rfl⟩
abbrev main_v609 : Ref sig .tc := ⟨.hbm, 788, rfl⟩
abbrev main_v610 : Ref sig .tc := ⟨.hbm, 789, rfl⟩
abbrev main_v611 : Ref sig .tc := ⟨.hbm, 790, rfl⟩
abbrev main_v612 : Ref sig .tc := ⟨.hbm, 791, rfl⟩
abbrev main_v613 : Ref sig .tc := ⟨.hbm, 792, rfl⟩
abbrev main_v614 : Ref sig .tc := ⟨.hbm, 793, rfl⟩
abbrev main_v615 : Ref sig .tc := ⟨.hbm, 794, rfl⟩
abbrev main_v616 : Ref sig .tc := ⟨.hbm, 795, rfl⟩
abbrev main_v617 : Ref sig .tc := ⟨.hbm, 796, rfl⟩
abbrev main_v618 : Ref sig .tc := ⟨.hbm, 797, rfl⟩
abbrev main_v619 : Ref sig .tc := ⟨.hbm, 798, rfl⟩
abbrev main_v620 : Ref sig .tc := ⟨.hbm, 799, rfl⟩
abbrev main_v621 : Ref sig .tc := ⟨.hbm, 800, rfl⟩
abbrev main_v622 : Ref sig .tc := ⟨.hbm, 801, rfl⟩
abbrev main_v623 : Ref sig .tc := ⟨.hbm, 802, rfl⟩
abbrev main_v624 : Ref sig .tc := ⟨.hbm, 803, rfl⟩
abbrev main_v625 : Ref sig .tc := ⟨.hbm, 804, rfl⟩
abbrev main_v626 : Ref sig .tc := ⟨.hbm, 805, rfl⟩
abbrev main_v627 : Ref sig .tc := ⟨.hbm, 806, rfl⟩
abbrev main_cst_35 : Ref sig .tc := ⟨.hbm, 807, rfl⟩
abbrev main_v628 : Ref sig .tc := ⟨.hbm, 808, rfl⟩
abbrev main_v629 : Ref sig .tc := ⟨.hbm, 809, rfl⟩
abbrev main_v630 : Ref sig .tc := ⟨.hbm, 810, rfl⟩
abbrev main_v631 : Ref sig .tc := ⟨.hbm, 811, rfl⟩

abbrev nD : Nat := 1
abbrev τ : Topo := Topo.v7x

variable {F : FTy → Type} [FloatOps F]

class Facts₀ : Prop where
  slices_S6x3x1024x1024_S1x1x1024x1024_0_0_0_0 : S6x3x1024x1024.Slices ![0, 0, 0, 0] S1x1x1024x1024
  shapeCasts_S1x1x1024x1024_S1024x1024 : S1x1x1024x1024.ShapeCasts S1024x1024
  slices_S6x3x1024x64_S1x1x1024x64_0_0_0_0 : S6x3x1024x64.Slices ![0, 0, 0, 0] S1x1x1024x64
  shapeCasts_S1x1x1024x64_S1024x64 : S1x1x1024x64.ShapeCasts S1024x64
  slices_S6x3x1024_S1x1x1024_0_0_0 : S6x3x1024.Slices ![0, 0, 0] S1x1x1024
  shapeCasts_S1x1x1024_S1024 : S1x1x1024.ShapeCasts S1024
  slices_S6x3x32x1024_S1x1x32x1024_0_0_0_0 : S6x3x32x1024.Slices ![0, 0, 0, 0] S1x1x32x1024
  shapeCasts_S1x1x32x1024_S32x1024 : S1x1x32x1024.ShapeCasts S32x1024
  slices_S6x3x1024x32_S1x1x1024x32_0_0_0_0 : S6x3x1024x32.Slices ![0, 0, 0, 0] S1x1x1024x32
  shapeCasts_S1x1x1024x32_S1024x32 : S1x1x1024x32.ShapeCasts S1024x32
  shapeCasts_S1024x1024_S1024x64x16 : S1024x1024.ShapeCasts S1024x64x16
  bcast_S1024x64_S1024x64x1_0_1 : S1024x64.BroadcastsInDim S1024x64x1 (![0, 1] : Fin 2 → Fin S1024x64x1.rank)
  bcast_S1024x64x1_S1024x64x16_0_1_2 : S1024x64x1.BroadcastsInDim S1024x64x16 (![0, 1, 2] : Fin 3 → Fin S1024x64x16.rank)
  shapeCasts_S1024x64x16_S1024x1024 : S1024x64x16.ShapeCasts S1024x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  transposes_S32x1024_S1024x32_1_0 : S32x1024.Transposes [1, 0] S1024x32
  transposes_S1024x32_S32x1024_1_0 : S1024x32.Transposes [1, 0] S32x1024
  bcast_S_S1024x1024 : S_.BroadcastsInDim S1024x1024 (![] : Fin 0 → Fin S1024x1024.rank)
  slices_S6x3x1024x1024_S1x1x1024x1024_0_1_0_0 : S6x3x1024x1024.Slices ![0, 1, 0, 0] S1x1x1024x1024
  slices_S6x3x1024x64_S1x1x1024x64_0_1_0_0 : S6x3x1024x64.Slices ![0, 1, 0, 0] S1x1x1024x64
  slices_S6x3x1024_S1x1x1024_0_1_0 : S6x3x1024.Slices ![0, 1, 0] S1x1x1024
  slices_S6x3x32x1024_S1x1x32x1024_0_1_0_0 : S6x3x32x1024.Slices ![0, 1, 0, 0] S1x1x32x1024
  slices_S6x3x1024x32_S1x1x1024x32_0_1_0_0 : S6x3x1024x32.Slices ![0, 1, 0, 0] S1x1x1024x32
  slices_S6x3x1024x1024_S1x1x1024x1024_0_2_0_0 : S6x3x1024x1024.Slices ![0, 2, 0, 0] S1x1x1024x1024
  slices_S6x3x1024x64_S1x1x1024x64_0_2_0_0 : S6x3x1024x64.Slices ![0, 2, 0, 0] S1x1x1024x64
  slices_S6x3x1024_S1x1x1024_0_2_0 : S6x3x1024.Slices ![0, 2, 0] S1x1x1024
  slices_S6x3x32x1024_S1x1x32x1024_0_2_0_0 : S6x3x32x1024.Slices ![0, 2, 0, 0] S1x1x32x1024
  slices_S6x3x1024x32_S1x1x1024x32_0_2_0_0 : S6x3x1024x32.Slices ![0, 2, 0, 0] S1x1x1024x32
  slices_S5x1024_S1x1024_0_0 : S5x1024.Slices ![0, 0] S1x1024
  shapeCasts_S1x1024_S1024 : S1x1024.ShapeCasts S1024
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  slices_S6x3x1024x1024_S1x1x1024x1024_1_0_0_0 : S6x3x1024x1024.Slices ![1, 0, 0, 0] S1x1x1024x1024
  slices_S6x3x1024x64_S1x1x1024x64_1_0_0_0 : S6x3x1024x64.Slices ![1, 0, 0, 0] S1x1x1024x64
  slices_S6x3x1024_S1x1x1024_1_0_0 : S6x3x1024.Slices ![1, 0, 0] S1x1x1024
  slices_S6x3x32x1024_S1x1x32x1024_1_0_0_0 : S6x3x32x1024.Slices ![1, 0, 0, 0] S1x1x32x1024
  slices_S6x3x1024x32_S1x1x1024x32_1_0_0_0 : S6x3x1024x32.Slices ![1, 0, 0, 0] S1x1x1024x32
  slices_S6x3x1024x1024_S1x1x1024x1024_1_1_0_0 : S6x3x1024x1024.Slices ![1, 1, 0, 0] S1x1x1024x1024
  slices_S6x3x1024x64_S1x1x1024x64_1_1_0_0 : S6x3x1024x64.Slices ![1, 1, 0, 0] S1x1x1024x64
  slices_S6x3x1024_S1x1x1024_1_1_0 : S6x3x1024.Slices ![1, 1, 0] S1x1x1024
  slices_S6x3x32x1024_S1x1x32x1024_1_1_0_0 : S6x3x32x1024.Slices ![1, 1, 0, 0] S1x1x32x1024
  slices_S6x3x1024x32_S1x1x1024x32_1_1_0_0 : S6x3x1024x32.Slices ![1, 1, 0, 0] S1x1x1024x32
  slices_S6x3x1024x1024_S1x1x1024x1024_1_2_0_0 : S6x3x1024x1024.Slices ![1, 2, 0, 0] S1x1x1024x1024
  slices_S6x3x1024x64_S1x1x1024x64_1_2_0_0 : S6x3x1024x64.Slices ![1, 2, 0, 0] S1x1x1024x64
  slices_S6x3x1024_S1x1x1024_1_2_0 : S6x3x1024.Slices ![1, 2, 0] S1x1x1024
  slices_S6x3x32x1024_S1x1x32x1024_1_2_0_0 : S6x3x32x1024.Slices ![1, 2, 0, 0] S1x1x32x1024
  slices_S6x3x1024x32_S1x1x1024x32_1_2_0_0 : S6x3x1024x32.Slices ![1, 2, 0, 0] S1x1x1024x32
  slices_S5x1024_S1x1024_1_0 : S5x1024.Slices ![1, 0] S1x1024
  slices_S6x3x1024x1024_S1x1x1024x1024_2_0_0_0 : S6x3x1024x1024.Slices ![2, 0, 0, 0] S1x1x1024x1024
  slices_S6x3x1024x64_S1x1x1024x64_2_0_0_0 : S6x3x1024x64.Slices ![2, 0, 0, 0] S1x1x1024x64
  slices_S6x3x1024_S1x1x1024_2_0_0 : S6x3x1024.Slices ![2, 0, 0] S1x1x1024
  slices_S6x3x32x1024_S1x1x32x1024_2_0_0_0 : S6x3x32x1024.Slices ![2, 0, 0, 0] S1x1x32x1024
  slices_S6x3x1024x32_S1x1x1024x32_2_0_0_0 : S6x3x1024x32.Slices ![2, 0, 0, 0] S1x1x1024x32
  slices_S6x3x1024x1024_S1x1x1024x1024_2_1_0_0 : S6x3x1024x1024.Slices ![2, 1, 0, 0] S1x1x1024x1024
  slices_S6x3x1024x64_S1x1x1024x64_2_1_0_0 : S6x3x1024x64.Slices ![2, 1, 0, 0] S1x1x1024x64
  slices_S6x3x1024_S1x1x1024_2_1_0 : S6x3x1024.Slices ![2, 1, 0] S1x1x1024
  slices_S6x3x32x1024_S1x1x32x1024_2_1_0_0 : S6x3x32x1024.Slices ![2, 1, 0, 0] S1x1x32x1024
  slices_S6x3x1024x32_S1x1x1024x32_2_1_0_0 : S6x3x1024x32.Slices ![2, 1, 0, 0] S1x1x1024x32
  slices_S6x3x1024x1024_S1x1x1024x1024_2_2_0_0 : S6x3x1024x1024.Slices ![2, 2, 0, 0] S1x1x1024x1024
  slices_S6x3x1024x64_S1x1x1024x64_2_2_0_0 : S6x3x1024x64.Slices ![2, 2, 0, 0] S1x1x1024x64
  slices_S6x3x1024_S1x1x1024_2_2_0 : S6x3x1024.Slices ![2, 2, 0] S1x1x1024
  slices_S6x3x32x1024_S1x1x32x1024_2_2_0_0 : S6x3x32x1024.Slices ![2, 2, 0, 0] S1x1x32x1024
  slices_S6x3x1024x32_S1x1x1024x32_2_2_0_0 : S6x3x1024x32.Slices ![2, 2, 0, 0] S1x1x1024x32
  slices_S5x1024_S1x1024_2_0 : S5x1024.Slices ![2, 0] S1x1024
  slices_S6x3x1024x1024_S1x1x1024x1024_3_0_0_0 : S6x3x1024x1024.Slices ![3, 0, 0, 0] S1x1x1024x1024
  slices_S6x3x1024x64_S1x1x1024x64_3_0_0_0 : S6x3x1024x64.Slices ![3, 0, 0, 0] S1x1x1024x64
  slices_S6x3x1024_S1x1x1024_3_0_0 : S6x3x1024.Slices ![3, 0, 0] S1x1x1024
  slices_S6x3x32x1024_S1x1x32x1024_3_0_0_0 : S6x3x32x1024.Slices ![3, 0, 0, 0] S1x1x32x1024
  slices_S6x3x1024x32_S1x1x1024x32_3_0_0_0 : S6x3x1024x32.Slices ![3, 0, 0, 0] S1x1x1024x32
  slices_S6x3x1024x1024_S1x1x1024x1024_3_1_0_0 : S6x3x1024x1024.Slices ![3, 1, 0, 0] S1x1x1024x1024
  slices_S6x3x1024x64_S1x1x1024x64_3_1_0_0 : S6x3x1024x64.Slices ![3, 1, 0, 0] S1x1x1024x64
  slices_S6x3x1024_S1x1x1024_3_1_0 : S6x3x1024.Slices ![3, 1, 0] S1x1x1024
  slices_S6x3x32x1024_S1x1x32x1024_3_1_0_0 : S6x3x32x1024.Slices ![3, 1, 0, 0] S1x1x32x1024
  slices_S6x3x1024x32_S1x1x1024x32_3_1_0_0 : S6x3x1024x32.Slices ![3, 1, 0, 0] S1x1x1024x32
  slices_S6x3x1024x1024_S1x1x1024x1024_3_2_0_0 : S6x3x1024x1024.Slices ![3, 2, 0, 0] S1x1x1024x1024
  slices_S6x3x1024x64_S1x1x1024x64_3_2_0_0 : S6x3x1024x64.Slices ![3, 2, 0, 0] S1x1x1024x64
  slices_S6x3x1024_S1x1x1024_3_2_0 : S6x3x1024.Slices ![3, 2, 0] S1x1x1024
  slices_S6x3x32x1024_S1x1x32x1024_3_2_0_0 : S6x3x32x1024.Slices ![3, 2, 0, 0] S1x1x32x1024
  slices_S6x3x1024x32_S1x1x1024x32_3_2_0_0 : S6x3x1024x32.Slices ![3, 2, 0, 0] S1x1x1024x32
  slices_S5x1024_S1x1024_3_0 : S5x1024.Slices ![3, 0] S1x1024
  slices_S6x3x1024x1024_S1x1x1024x1024_4_0_0_0 : S6x3x1024x1024.Slices ![4, 0, 0, 0] S1x1x1024x1024
  slices_S6x3x1024x64_S1x1x1024x64_4_0_0_0 : S6x3x1024x64.Slices ![4, 0, 0, 0] S1x1x1024x64
  slices_S6x3x1024_S1x1x1024_4_0_0 : S6x3x1024.Slices ![4, 0, 0] S1x1x1024
  slices_S6x3x32x1024_S1x1x32x1024_4_0_0_0 : S6x3x32x1024.Slices ![4, 0, 0, 0] S1x1x32x1024
  slices_S6x3x1024x32_S1x1x1024x32_4_0_0_0 : S6x3x1024x32.Slices ![4, 0, 0, 0] S1x1x1024x32
  slices_S6x3x1024x1024_S1x1x1024x1024_4_1_0_0 : S6x3x1024x1024.Slices ![4, 1, 0, 0] S1x1x1024x1024
  slices_S6x3x1024x64_S1x1x1024x64_4_1_0_0 : S6x3x1024x64.Slices ![4, 1, 0, 0] S1x1x1024x64
  slices_S6x3x1024_S1x1x1024_4_1_0 : S6x3x1024.Slices ![4, 1, 0] S1x1x1024
  slices_S6x3x32x1024_S1x1x32x1024_4_1_0_0 : S6x3x32x1024.Slices ![4, 1, 0, 0] S1x1x32x1024
  slices_S6x3x1024x32_S1x1x1024x32_4_1_0_0 : S6x3x1024x32.Slices ![4, 1, 0, 0] S1x1x1024x32
  slices_S6x3x1024x1024_S1x1x1024x1024_4_2_0_0 : S6x3x1024x1024.Slices ![4, 2, 0, 0] S1x1x1024x1024
  slices_S6x3x1024x64_S1x1x1024x64_4_2_0_0 : S6x3x1024x64.Slices ![4, 2, 0, 0] S1x1x1024x64
  slices_S6x3x1024_S1x1x1024_4_2_0 : S6x3x1024.Slices ![4, 2, 0] S1x1x1024
  slices_S6x3x32x1024_S1x1x32x1024_4_2_0_0 : S6x3x32x1024.Slices ![4, 2, 0, 0] S1x1x32x1024
  slices_S6x3x1024x32_S1x1x1024x32_4_2_0_0 : S6x3x1024x32.Slices ![4, 2, 0, 0] S1x1x1024x32
  slices_S5x1024_S1x1024_4_0 : S5x1024.Slices ![4, 0] S1x1024
  slices_S6x3x1024x1024_S1x1x1024x1024_5_0_0_0 : S6x3x1024x1024.Slices ![5, 0, 0, 0] S1x1x1024x1024
  slices_S6x3x1024x64_S1x1x1024x64_5_0_0_0 : S6x3x1024x64.Slices ![5, 0, 0, 0] S1x1x1024x64
  slices_S6x3x1024_S1x1x1024_5_0_0 : S6x3x1024.Slices ![5, 0, 0] S1x1x1024
  slices_S6x3x32x1024_S1x1x32x1024_5_0_0_0 : S6x3x32x1024.Slices ![5, 0, 0, 0] S1x1x32x1024
  slices_S6x3x1024x32_S1x1x1024x32_5_0_0_0 : S6x3x1024x32.Slices ![5, 0, 0, 0] S1x1x1024x32
  slices_S6x3x1024x1024_S1x1x1024x1024_5_1_0_0 : S6x3x1024x1024.Slices ![5, 1, 0, 0] S1x1x1024x1024
  slices_S6x3x1024x64_S1x1x1024x64_5_1_0_0 : S6x3x1024x64.Slices ![5, 1, 0, 0] S1x1x1024x64
  slices_S6x3x1024_S1x1x1024_5_1_0 : S6x3x1024.Slices ![5, 1, 0] S1x1x1024
  slices_S6x3x32x1024_S1x1x32x1024_5_1_0_0 : S6x3x32x1024.Slices ![5, 1, 0, 0] S1x1x32x1024
  slices_S6x3x1024x32_S1x1x1024x32_5_1_0_0 : S6x3x1024x32.Slices ![5, 1, 0, 0] S1x1x1024x32
  slices_S6x3x1024x1024_S1x1x1024x1024_5_2_0_0 : S6x3x1024x1024.Slices ![5, 2, 0, 0] S1x1x1024x1024
  slices_S6x3x1024x64_S1x1x1024x64_5_2_0_0 : S6x3x1024x64.Slices ![5, 2, 0, 0] S1x1x1024x64
  slices_S6x3x1024_S1x1x1024_5_2_0 : S6x3x1024.Slices ![5, 2, 0] S1x1x1024
  slices_S6x3x32x1024_S1x1x32x1024_5_2_0_0 : S6x3x32x1024.Slices ![5, 2, 0, 0] S1x1x32x1024
  slices_S6x3x1024x32_S1x1x1024x32_5_2_0_0 : S6x3x1024x32.Slices ![5, 2, 0, 0] S1x1x1024x32
  dot_S1024x1024_S1024x1024_S1024x1024_1_0_0_1_n_n_wf : DotDims.WF S1024x1024 S1024x1024 S1024x1024 [1] [0] [0] [1] [] []
  dot_S1024x1024_S1024x32_S1024x32_1_0_0_1_n_n_wf : DotDims.WF S1024x1024 S1024x32 S1024x32 [1] [0] [0] [1] [] []
  dot_S1024x32_S32x1024_S1024x1024_1_0_0_1_n_n_wf : DotDims.WF S1024x32 S32x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf

class Facts : Prop extends Facts₀ where

variable [Facts]
-- ==== Proof.K.Runs.lean ====
/- What the runs of the kernel body share: the five branch conditions as propositions over the grid coordinates with
    their closed forms over the 18 points, where each window is idle, the staging and scratch memrefs the body is
    called on, and the pipeline's side invariant spelled with the two scratch operands. -/
import proofs.«136264_j72249939853571_2_alg».proof.Proof.Gen.Kernel.Frame
import proofs.«136264_j72249939853571_2_alg».proof.Proof.Gen.Kernel.Skeleton
import Idealize.ShloMosaic.Lib.Pipeline.FrameBody
import Idealize.ShloMosaic.Lib.Ring
import Idealize.ShloMosaic.Lib.Tactic

-- membership in a rectangle whose long axes have 1024 coordinates is decided one coordinate at a time
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch's condition (both grid coordinates zero), from the grid coordinates. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The second branch's condition (the inner coordinate zero). -/
abbrev cond0_1 (i : grid0.Coords) : Prop := (Scalar.cmpi .ne (Scalar.extui (Scalar.cmpi .eq (BitVec.ofNat 32 (i 1).val) 0#32)) 0#32) = 1#1
/-- It holds at the points ≡ 0 (mod 3). -/
theorem hcond0_1 : ∀ t : Fin cfg0.N, cond0_1 (grid0.coords t) ↔ t.val % 3 = 0 :=
  (by decide +kernel : ∀ t : Fin grid0.N, cond0_1 (grid0.coords t) ↔ t.val % 3 = 0)

/-- The third branch's condition (the inner coordinate is the last, 2). -/
abbrev cond0_2 (i : grid0.Coords) : Prop := (Scalar.cmpi .ne (Scalar.extui (Scalar.cmpi .eq (BitVec.ofNat 32 (i 1).val) 2#32)) 0#32) = 1#1
/-- It holds at the points ≡ 2 (mod 3). -/
theorem hcond0_2 : ∀ t : Fin cfg0.N, cond0_2 (grid0.coords t) ↔ t.val % 3 = 2 :=
  (by decide +kernel : ∀ t : Fin grid0.N, cond0_2 (grid0.coords t) ↔ t.val % 3 = 2)

/-- The fourth branch's condition (the inner coordinate is 2 and the outer one is below 5). -/
abbrev cond0_3 (i : grid0.Coords) : Prop := (Scalar.cmpi .ne (Scalar.extui (Scalar.andi (Scalar.cmpi .eq (BitVec.ofNat 32 (i 1).val) 2#32) (Scalar.cmpi .slt (BitVec.ofNat 32 (i 0).val) 5#32))) 0#32) = 1#1
/-- It holds at the points ≡ 2 (mod 3) below 15. -/
theorem hcond0_3 : ∀ t : Fin cfg0.N, cond0_3 (grid0.coords t) ↔ (t.val % 3 = 2 ∧ t.val < 15) :=
  (by decide +kernel : ∀ t : Fin grid0.N, cond0_3 (grid0.coords t) ↔ (t.val % 3 = 2 ∧ t.val < 15))

/-- The fifth branch's condition (the last point of the grid). -/
abbrev cond0_4 (i : grid0.Coords) : Prop := k0_cond5 i = 1#1
/-- It holds at point 17 only. -/
theorem hcond0_4 : ∀ t : Fin cfg0.N, cond0_4 (grid0.coords t) ↔ t.val = 17 :=
  (by decide +kernel : ∀ t : Fin grid0.N, cond0_4 (grid0.coords t) ↔ t.val = 17)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Window 6 is never idle (an input). -/
theorem liveAt0_6 : ∀ t : Fin cfg0.N, cfg0.idle 6 (grid0.coords t) = false := by decide +kernel
/-- Window 7 is never idle (an input). -/
theorem liveAt0_7 : ∀ t : Fin cfg0.N, cfg0.idle 7 (grid0.coords t) = false := by decide +kernel
/-- At the points of case A the output window is idle: the case stores nothing into it. -/
theorem idleAt0_8_A : ∀ t : Fin cfg0.N, cond0_0 (grid0.coords t) → cond0_1 (grid0.coords t) → ¬cond0_2 (grid0.coords t) → ¬cond0_3 (grid0.coords t) → ¬cond0_4 (grid0.coords t) → cfg0.idle 8 (grid0.coords t) = true := by decide +kernel
/-- At the points of case A the output's block is not written back. -/
theorem noFlush0_8_A : ∀ t : Fin cfg0.N, cond0_0 (grid0.coords t) → cond0_1 (grid0.coords t) → ¬cond0_2 (grid0.coords t) → ¬cond0_3 (grid0.coords t) → ¬cond0_4 (grid0.coords t) → (cfg0.win 8).flush t = false := by decide +kernel
/-- At the points of case B the output window is idle: the case stores nothing into it. -/
theorem idleAt0_8_B : ∀ t : Fin cfg0.N, ¬cond0_0 (grid0.coords t) → cond0_1 (grid0.coords t) → ¬cond0_2 (grid0.coords t) → ¬cond0_3 (grid0.coords t) → ¬cond0_4 (grid0.coords t) → cfg0.idle 8 (grid0.coords t) = true := by decide +kernel
/-- At the points of case B the output's block is not written back. -/
theorem noFlush0_8_B : ∀ t : Fin cfg0.N, ¬cond0_0 (grid0.coords t) → cond0_1 (grid0.coords t) → ¬cond0_2 (grid0.coords t) → ¬cond0_3 (grid0.coords t) → ¬cond0_4 (grid0.coords t) → (cfg0.win 8).flush t = false := by decide +kernel
/-- At the points of case C the output window is idle: the case stores nothing into it. -/
theorem idleAt0_8_C : ∀ t : Fin cfg0.N, ¬cond0_0 (grid0.coords t) → ¬cond0_1 (grid0.coords t) → ¬cond0_2 (grid0.coords t) → ¬cond0_3 (grid0.coords t) → ¬cond0_4 (grid0.coords t) → cfg0.idle 8 (grid0.coords t) = true := by decide +kernel
/-- At the points of case C the output's block is not written back. -/
theorem noFlush0_8_C : ∀ t : Fin cfg0.N, ¬cond0_0 (grid0.coords t) → ¬cond0_1 (grid0.coords t) → ¬cond0_2 (grid0.coords t) → ¬cond0_3 (grid0.coords t) → ¬cond0_4 (grid0.coords t) → (cfg0.win 8).flush t = false := by decide +kernel
/-- At the points of case D the output window is idle: the case stores nothing into it. -/
theorem idleAt0_8_D : ∀ t : Fin cfg0.N, ¬cond0_0 (grid0.coords t) → ¬cond0_1 (grid0.coords t) → cond0_2 (grid0.coords t) → cond0_3 (grid0.coords t) → ¬cond0_4 (grid0.coords t) → cfg0.idle 8 (grid0.coords t) = true := by decide +kernel
/-- At the points of case D the output's block is not written back. -/
theorem noFlush0_8_D : ∀ t : Fin cfg0.N, ¬cond0_0 (grid0.coords t) → ¬cond0_1 (grid0.coords t) → cond0_2 (grid0.coords t) → cond0_3 (grid0.coords t) → ¬cond0_4 (grid0.coords t) → (cfg0.win 8).flush t = false := by decide +kernel
/-- At the point of case E the output window is live: the case stores into it. -/
theorem liveAt0_8_E : ∀ t : Fin cfg0.N, ¬cond0_0 (grid0.coords t) → ¬cond0_1 (grid0.coords t) → cond0_2 (grid0.coords t) → ¬cond0_3 (grid0.coords t) → cond0_4 (grid0.coords t) → cfg0.idle 8 (grid0.coords t) = false := by decide +kernel

/-! ## The staging and scratch memrefs the body is called on -/

/-- The output window's staging buffer, as a view: its contents are stated through it. -/
abbrev VO0_8 : View sig .tc .vmem S1024x1024 .f32 := (Memref.whole cc0_stg8_0 : Memref sig .tc .vmem S1024x1024 .f32).view
/-- Each window's current staging memref at point `t`, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .f32 := win0_8.stage (cfg0.slots t 8)
abbrev hs0_8 (t : Fin cfg0.N) : (ms0_8 t).IsWhole := hstage0_8 ((cfg0.slots t 8).cast nbuf0_8)
/-- The two scratch operands: whole buffers of the kernel's own, passed beside the windows. The first carries the
    residual stream between points, the second the layer's running value. -/
abbrev scM0_0 : Memref sig .tc .vmem S1024x1024 .f32 := Memref.whole cc0_scratch0
abbrev scM0_1 : Memref sig .tc .vmem S1024x1024 .f32 := Memref.whole cc0_scratch1
/-- The same as views: what each holds is stated through its view. -/
abbrev VS0_0 : View sig .tc .vmem S1024x1024 .f32 := scM0_0.view
abbrev VS0_1 : View sig .tc .vmem S1024x1024 .f32 := scM0_1.view

/-- The pipeline's invariant beside the windows, with the two scratch operands as memrefs owned at some contents:
    what the body is handed and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.K.RunA.lean ====
/- The kernel body's run in case A (the first point: the residual stream is set from the input, the running value from it, then the layer's eight column blocks are written). -/
import proofs.«136264_j72249939853571_2_alg».proof.Proof.K.Runs

-- membership in a rectangle whose long axes have 1024 coordinates is decided one coordinate at a time
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each buffer the body stores into ends with in case A, with the triple: from the eight input windows at
    their contents, the output and the two carried buffers as the case finds them, the body runs to the continuation
    holding the inputs as they were and each stored buffer with its pieces written. -/
noncomputable def kernelRun0_A (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 x5 : Vec F S1x32x1024 .f32) (x6 x7 : Vec F S1x1x1024 .f32) :
    Σ' (L8 LS0 : List (View.Piece (Elt F) S1024x1024 .f32)), { LS1 : List (View.Piece (Elt F) S1024x1024 .f32) //
      ∀ (xi8 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__qlora_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc0__qlora_kernel_eq_skeleton]; unfold cc0__qlora_kernel_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    iexists _; iexact H12

end Cert.Kernel.Body

end
-- ==== Proof.K.RunB.lean ====
/- The kernel body's run in case B (a layer group's first point after the first: the running value is set from the residual stream, then the eight column blocks are written). -/
import proofs.«136264_j72249939853571_2_alg».proof.Proof.K.RunA

-- membership in a rectangle whose long axes have 1024 coordinates is decided one coordinate at a time
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each buffer the body stores into ends with in case B, with the triple: from the eight input windows at
    their contents, the output and the two carried buffers as the case finds them, the body runs to the continuation
    holding the inputs as they were and each stored buffer with its pieces written. -/
noncomputable def kernelRun0_B (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 x5 : Vec F S1x32x1024 .f32) (x6 x7 : Vec F S1x1x1024 .f32) (xs0 : Vec F S1024x1024 .f32) :
    Σ' (L8 LS0 : List (View.Piece (Elt F) S1024x1024 .f32)), { LS1 : List (View.Piece (Elt F) S1024x1024 .f32) //
      ∀ (xi8 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ f, arg12.view.loc (c : Thread nD τ) ↦[arg12.view.set]{fullShare} arg12.view.writes (Elt F) f LS1)) -∗ K ⟨⟩))
          ⊢ wp frame (wpE (defs₀ (F := F)) Variants.none c none) E (cc0__qlora_kernel i arg2 harg2 arg3 harg3 arg4 harg4 arg5 harg5 arg6 harg6 arg7 harg7 arg8 harg8 arg9 harg9 arg10 harg10 arg11 harg11 arg12 harg12) K } := by
  refine ⟨[], [], ?_, fun xi8 E K => ?run⟩
  case run =>
    simp only [cc0__qlora_kernel_eq_skeleton]; unfold cc0__qlora_kernel_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc0 | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; iexact H12

end Cert.Kernel.Body

end
-- ==== Proof.K.RunC.lean ====
/- The kernel body's run in case C (a layer group's middle point: the eight column blocks are written over the running value read whole). -/
import proofs.«136264_j72249939853571_2_alg».proof.Proof.K.RunB

-- membership in a rectangle whose long axes have 1024 coordinates is decided one coordinate at a time
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each buffer the body stores into ends with in case C, with the triple: from the eight input windows at
    their contents, the output and the two carried buffers as the case finds them, the body runs to the continuation
    holding the inputs as they were and each stored buffer with its pieces written. -/
noncomputable def kernelRun0_C (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 x5 : Vec F S1x32x1024 .f32) (x6 x7 : Vec F S1x1x1024 .f32) (xs0 : Vec F S1024x1024 .f32) (xs1 : Vec F S1024x1024 .f32) :
    Σ' (L8 LS0 : List (View.Piece (Elt F) S1024x1024 .f32)), { LS1 : List (View.Piece (Elt F) S1024x1024 .f32) //
      ∀ (xi8 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ f, arg12.view.loc (c : Thread nD τ) ↦[arg12.view.set]{fullShare} arg12.view.writes (Elt F) f LS1)) -∗ K ⟨⟩))
          ⊢ wp frame (wpE (defs₀ (F := F)) Variants.none c none) E (cc0__qlora_kernel i arg2 harg2 arg3 harg3 arg4 harg4 arg5 harg5 arg6 harg6 arg7 harg7 arg8 harg8 arg9 harg9 arg10 harg10 arg11 harg11 arg12 harg12) K } := by
  refine ⟨[], [], ?_, fun xi8 E K => ?run⟩
  case run =>
    simp only [cc0__qlora_kernel_eq_skeleton]; unfold cc0__qlora_kernel_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; iexact H12

end Cert.Kernel.Body

end
-- ==== Proof.K.RunD.lean ====
/- The kernel body's run in case D (a layer group's last point before the last group: the column blocks, then the residual stream takes the sum and is row-normalised). -/
import proofs.«136264_j72249939853571_2_alg».proof.Proof.K.RunC

-- membership in a rectangle whose long axes have 1024 coordinates is decided one coordinate at a time
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each buffer the body stores into ends with in case D, with the triple: from the eight input windows at
    their contents, the output and the two carried buffers as the case finds them, the body runs to the continuation
    holding the inputs as they were and each stored buffer with its pieces written. -/
noncomputable def kernelRun0_D (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 x5 : Vec F S1x32x1024 .f32) (x6 x7 : Vec F S1x1x1024 .f32) (xs0 : Vec F S1024x1024 .f32) (xs1 : Vec F S1024x1024 .f32) :
    Σ' (L8 LS0 : List (View.Piece (Elt F) S1024x1024 .f32)), { LS1 : List (View.Piece (Elt F) S1024x1024 .f32) //
      ∀ (xi8 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__qlora_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc0__qlora_kernel_eq_skeleton]; unfold cc0__qlora_kernel_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    iexists _; iexact H12

end Cert.Kernel.Body

end
-- ==== Proof.K.RunE.lean ====
/- The kernel body's run in case E (the last point: the column blocks, then the residual stream takes the sum and is copied to the output). -/
import proofs.«136264_j72249939853571_2_alg».proof.Proof.K.RunD

-- membership in a rectangle whose long axes have 1024 coordinates is decided one coordinate at a time
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each buffer the body stores into ends with in case E, with the triple: from the eight input windows at
    their contents, the output and the two carried buffers as the case finds them, the body runs to the continuation
    holding the inputs as they were and each stored buffer with its pieces written. -/
noncomputable def kernelRun0_E (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 x5 : Vec F S1x32x1024 .f32) (x6 x7 : Vec F S1x1x1024 .f32) (xs0 : Vec F S1024x1024 .f32) (xs1 : Vec F S1024x1024 .f32) :
    Σ' (L8 LS0 : List (View.Piece (Elt F) S1024x1024 .f32)), { LS1 : List (View.Piece (Elt F) S1024x1024 .f32) //
      ∀ (xi8 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__qlora_kernel i arg2 harg2 arg3 harg3 arg4 harg4 arg5 harg5 arg6 harg6 arg7 harg7 arg8 harg8 arg9 harg9 arg10 harg10 arg11 harg11 arg12 harg12) K } := by
  refine ⟨?_, ?_, ?_, fun xi8 E K => ?run⟩
  case run =>
    simp only [cc0__qlora_kernel_eq_skeleton]; unfold cc0__qlora_kernel_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12
    sl_exec (disch := first | exact hc0 | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    iexists _; iexact H12

end Cert.Kernel.Body

end
-- ==== Proof.K.Frame.lean ====
/- The frame of the kernel: what the output's staging buffer and the two carried buffers (the residual stream and the
    layer's running value) hold after each of the 18 points, the pipeline's proof data stated over those contents, the
    body's obligation at every point by the five cases the points fall into, the run of the whole program and the frame
    claim: the program leaves every argument array as it found it. -/
import proofs.«136264_j72249939853571_2_alg».proof.Proof.K.RunE

-- membership in a rectangle whose long axes have 1024 coordinates is decided one coordinate at a time
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The five cases' conditions from the points' arithmetic -/

/-- The grid has 18 points. -/
theorem N18 : cfg0.N = 18 := N_0

/-- At the first point the first two branches are taken and no other. -/
theorem condsA (t : Fin cfg0.N) (h : t.val = 0) :
    cond0_0 (grid0.coords t) ∧ cond0_1 (grid0.coords t) ∧ ¬cond0_2 (grid0.coords t) ∧ ¬cond0_3 (grid0.coords t) ∧ ¬cond0_4 (grid0.coords t) :=
  ⟨(hcond0_0 t).mpr h, (hcond0_1 t).mpr (by omega), fun hh => by have := (hcond0_2 t).mp hh; omega,
    fun hh => by have := (hcond0_3 t).mp hh; omega, fun hh => by have := (hcond0_4 t).mp hh; omega⟩

/-- At a later point ≡ 0 (mod 3) only the second branch is taken. -/
theorem condsB (t : Fin cfg0.N) (h0 : t.val % 3 = 0) (hz : t.val ≠ 0) :
    ¬cond0_0 (grid0.coords t) ∧ cond0_1 (grid0.coords t) ∧ ¬cond0_2 (grid0.coords t) ∧ ¬cond0_3 (grid0.coords t) ∧ ¬cond0_4 (grid0.coords t) :=
  ⟨fun hh => hz ((hcond0_0 t).mp hh), (hcond0_1 t).mpr h0, fun hh => by have := (hcond0_2 t).mp hh; omega,
    fun hh => by have := (hcond0_3 t).mp hh; omega, fun hh => by have := (hcond0_4 t).mp hh; omega⟩

/-- At a point ≡ 1 (mod 3) no branch is taken. -/
theorem condsC (t : Fin cfg0.N) (h1 : t.val % 3 = 1) :
    ¬cond0_0 (grid0.coords t) ∧ ¬cond0_1 (grid0.coords t) ∧ ¬cond0_2 (grid0.coords t) ∧ ¬cond0_3 (grid0.coords t) ∧ ¬cond0_4 (grid0.coords t) :=
  ⟨fun hh => by have := (hcond0_0 t).mp hh; omega, fun hh => by have := (hcond0_1 t).mp hh; omega, fun hh => by have := (hcond0_2 t).mp hh; omega,
    fun hh => by have := (hcond0_3 t).mp hh; omega, fun hh => by have := (hcond0_4 t).mp hh; omega⟩

/-- At a point ≡ 2 (mod 3) below 15 the third and fourth branches are taken. -/
theorem condsD (t : Fin cfg0.N) (h2 : t.val % 3 = 2) (hlt : t.val < 15) :
    ¬cond0_0 (grid0.coords t) ∧ ¬cond0_1 (grid0.coords t) ∧ cond0_2 (grid0.coords t) ∧ cond0_3 (grid0.coords t) ∧ ¬cond0_4 (grid0.coords t) :=
  ⟨fun hh => by have := (hcond0_0 t).mp hh; omega, fun hh => by have := (hcond0_1 t).mp hh; omega, (hcond0_2 t).mpr h2,
    (hcond0_3 t).mpr ⟨h2, hlt⟩, fun hh => by have := (hcond0_4 t).mp hh; omega⟩

/-- At the last point the third and fifth branches are taken. -/
theorem condsE (t : Fin cfg0.N) (h : t.val = 17) :
    ¬cond0_0 (grid0.coords t) ∧ ¬cond0_1 (grid0.coords t) ∧ cond0_2 (grid0.coords t) ∧ ¬cond0_3 (grid0.coords t) ∧ cond0_4 (grid0.coords t) :=
  ⟨fun hh => by have := (hcond0_0 t).mp hh; omega, fun hh => by have := (hcond0_1 t).mp hh; omega, (hcond0_2 t).mpr (by omega),
    fun hh => by have := (hcond0_3 t).mp hh; omega, (hcond0_4 t).mpr h⟩

/-! ## What each case leaves in the output's buffer and in the two carried buffers -/

/-- Case A stores nothing into the output's buffer (the window is idle at its points and not written back there): its
    value is immaterial and is taken to be the empty list of pieces read back. -/
def out0_A_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) : Vec F S1024x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).1)

/-- Case A's pieces for the residual stream's buffer cover it: whole-buffer stores. -/
theorem scover0_A_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.1 S1024x1024.size (by sl_kernel_rfl) y

/-- What case A leaves in the residual stream's buffer: its pieces read back. -/
def sout0_A_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) : Vec F S1024x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.1)

/-- Case A's pieces for the running value's buffer cover it: the eight column blocks of width 128 tile it. -/
theorem scover0_A_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.2.1 S1024x128.size (by sl_kernel_rfl) y

/-- What case A leaves in the running value's buffer: its pieces read back. -/
def sout0_A_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) : Vec F S1024x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.2.1)

/-- Case B stores nothing into the output's buffer (the window is idle at its points and not written back there): its
    value is immaterial and is taken to be the empty list of pieces read back. -/
def out0_B_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) : Vec F S1024x1024 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0).1)

/-- Case B's pieces for the running value's buffer cover it: the eight column blocks of width 128 tile it. -/
theorem scover0_B_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0).2.2.1 S1024x128.size (by sl_kernel_rfl) y

/-- What case B leaves in the running value's buffer: its pieces read back. -/
def sout0_B_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) : Vec F S1024x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0).2.2.1)

/-- Case C stores nothing into the output's buffer (the window is idle at its points and not written back there): its
    value is immaterial and is taken to be the empty list of pieces read back. -/
def out0_C_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).1)

/-- Case C's pieces for the running value's buffer cover it: the eight column blocks of width 128 tile it. -/
theorem scover0_C_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1 S1024x128.size (by sl_kernel_rfl) y

/-- What case C leaves in the running value's buffer: its pieces read back. -/
def sout0_C_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1)

/-- Case D stores nothing into the output's buffer (the window is idle at its points and not written back there): its
    value is immaterial and is taken to be the empty list of pieces read back. -/
def out0_D_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).1)

/-- Case D's pieces for the residual stream's buffer cover it: whole-buffer stores. -/
theorem scover0_D_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1 S1024x1024.size (by sl_kernel_rfl) y

/-- What case D leaves in the residual stream's buffer: its pieces read back. -/
def sout0_D_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1)

/-- Case D's pieces for the running value's buffer cover it: the eight column blocks of width 128 tile it. -/
theorem scover0_D_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1 S1024x128.size (by sl_kernel_rfl) y

/-- What case D leaves in the running value's buffer: its pieces read back. -/
def sout0_D_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1)

/-- Case E's pieces for the output cover its block: one store of the whole block. -/
theorem cover0_E_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).1 S1024x1024.size (by sl_kernel_rfl) y

/-- What case E leaves in the output's staging buffer: its pieces read back. -/
def out0_E_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VO0_8.read (Elt F) (VO0_8.writes (Elt F) VO0_8.junk (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).1)

/-- Case E's pieces for the residual stream's buffer cover it: whole-buffer stores. -/
theorem scover0_E_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1 S1024x1024.size (by sl_kernel_rfl) y

/-- What case E leaves in the residual stream's buffer: its pieces read back. -/
def sout0_E_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VS0_0.read (Elt F) (VS0_0.writes (Elt F) VS0_0.junk (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1)

/-- Case E's pieces for the running value's buffer cover it: the eight column blocks of width 128 tile it. -/
theorem scover0_E_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1 S1024x128.size (by sl_kernel_rfl) y

/-- What case E leaves in the running value's buffer: its pieces read back. -/
def sout0_E_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VS0_1.read (Elt F) (VS0_1.writes (Elt F) VS0_1.junk (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1)

/-! ## What the buffers hold after each point -/

/-- What the output's staging buffer, the residual stream's buffer and the running value's buffer hold after the body at
    position `n` (in that order): the case the point is in, run on the point's memrefs and input blocks, a carried buffer
    the case reads before covering taken at what position `n - 1` left in it, and a carried buffer the case does not
    store into kept at that. -/
def outsAt0 (c : Dev nD) : (n : ℕ) → n < cfg0.N → Vec F S1024x1024 .f32 × Vec F S1024x1024 .f32 × Vec F S1024x1024 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) (condsA ⟨0, hn⟩ rfl).1 (condsA ⟨0, hn⟩ rfl).2.1 (condsA ⟨0, hn⟩ rfl).2.2.1 (condsA ⟨0, hn⟩ rfl).2.2.2.1 (condsA ⟨0, hn⟩ rfl).2.2.2.2 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) (condsA ⟨0, hn⟩ rfl).1 (condsA ⟨0, hn⟩ rfl).2.1 (condsA ⟨0, hn⟩ rfl).2.2.1 (condsA ⟨0, hn⟩ rfl).2.2.2.1 (condsA ⟨0, hn⟩ rfl).2.2.2.2 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) (condsA ⟨0, hn⟩ rfl).1 (condsA ⟨0, hn⟩ rfl).2.1 (condsA ⟨0, hn⟩ rfl).2.2.1 (condsA ⟨0, hn⟩ rfl).2.2.2.1 (condsA ⟨0, hn⟩ rfl).2.2.2.2 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h17 : n + 1 = 17 then
      (out0_E_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsE ⟨n + 1, hn⟩ h17).1 (condsE ⟨n + 1, hn⟩ h17).2.1 (condsE ⟨n + 1, hn⟩ h17).2.2.1 (condsE ⟨n + 1, hn⟩ h17).2.2.2.1 (condsE ⟨n + 1, hn⟩ h17).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsE ⟨n + 1, hn⟩ h17).1 (condsE ⟨n + 1, hn⟩ h17).2.1 (condsE ⟨n + 1, hn⟩ h17).2.2.1 (condsE ⟨n + 1, hn⟩ h17).2.2.2.1 (condsE ⟨n + 1, hn⟩ h17).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsE ⟨n + 1, hn⟩ h17).1 (condsE ⟨n + 1, hn⟩ h17).2.1 (condsE ⟨n + 1, hn⟩ h17).2.2.1 (condsE ⟨n + 1, hn⟩ h17).2.2.2.1 (condsE ⟨n + 1, hn⟩ h17).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)
    else if h0 : (n + 1) % 3 = 0 then
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsB ⟨n + 1, hn⟩ h0 (Nat.succ_ne_zero n)).1 (condsB ⟨n + 1, hn⟩ h0 (Nat.succ_ne_zero n)).2.1 (condsB ⟨n + 1, hn⟩ h0 (Nat.succ_ne_zero n)).2.2.1 (condsB ⟨n + 1, hn⟩ h0 (Nat.succ_ne_zero n)).2.2.2.1 (condsB ⟨n + 1, hn⟩ h0 (Nat.succ_ne_zero n)).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1,
       (outsAt0 c n (Nat.lt_of_succ_lt hn)).2.1,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsB ⟨n + 1, hn⟩ h0 (Nat.succ_ne_zero n)).1 (condsB ⟨n + 1, hn⟩ h0 (Nat.succ_ne_zero n)).2.1 (condsB ⟨n + 1, hn⟩ h0 (Nat.succ_ne_zero n)).2.2.1 (condsB ⟨n + 1, hn⟩ h0 (Nat.succ_ne_zero n)).2.2.2.1 (condsB ⟨n + 1, hn⟩ h0 (Nat.succ_ne_zero n)).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1)
    else if h1 : (n + 1) % 3 = 1 then
      (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsC ⟨n + 1, hn⟩ h1).1 (condsC ⟨n + 1, hn⟩ h1).2.1 (condsC ⟨n + 1, hn⟩ h1).2.2.1 (condsC ⟨n + 1, hn⟩ h1).2.2.2.1 (condsC ⟨n + 1, hn⟩ h1).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       (outsAt0 c n (Nat.lt_of_succ_lt hn)).2.1,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsC ⟨n + 1, hn⟩ h1).1 (condsC ⟨n + 1, hn⟩ h1).2.1 (condsC ⟨n + 1, hn⟩ h1).2.2.1 (condsC ⟨n + 1, hn⟩ h1).2.2.2.1 (condsC ⟨n + 1, hn⟩ h1).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)
    else
      (out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsD ⟨n + 1, hn⟩ (show (n + 1) % 3 = 2 from by omega) (show n + 1 < 15 from by have hN : n + 1 < 18 := lt_of_lt_of_eq hn N18; omega)).1 (condsD ⟨n + 1, hn⟩ (show (n + 1) % 3 = 2 from by omega) (show n + 1 < 15 from by have hN : n + 1 < 18 := lt_of_lt_of_eq hn N18; omega)).2.1 (condsD ⟨n + 1, hn⟩ (show (n + 1) % 3 = 2 from by omega) (show n + 1 < 15 from by have hN : n + 1 < 18 := lt_of_lt_of_eq hn N18; omega)).2.2.1 (condsD ⟨n + 1, hn⟩ (show (n + 1) % 3 = 2 from by omega) (show n + 1 < 15 from by have hN : n + 1 < 18 := lt_of_lt_of_eq hn N18; omega)).2.2.2.1 (condsD ⟨n + 1, hn⟩ (show (n + 1) % 3 = 2 from by omega) (show n + 1 < 15 from by have hN : n + 1 < 18 := lt_of_lt_of_eq hn N18; omega)).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsD ⟨n + 1, hn⟩ (show (n + 1) % 3 = 2 from by omega) (show n + 1 < 15 from by have hN : n + 1 < 18 := lt_of_lt_of_eq hn N18; omega)).1 (condsD ⟨n + 1, hn⟩ (show (n + 1) % 3 = 2 from by omega) (show n + 1 < 15 from by have hN : n + 1 < 18 := lt_of_lt_of_eq hn N18; omega)).2.1 (condsD ⟨n + 1, hn⟩ (show (n + 1) % 3 = 2 from by omega) (show n + 1 < 15 from by have hN : n + 1 < 18 := lt_of_lt_of_eq hn N18; omega)).2.2.1 (condsD ⟨n + 1, hn⟩ (show (n + 1) % 3 = 2 from by omega) (show n + 1 < 15 from by have hN : n + 1 < 18 := lt_of_lt_of_eq hn N18; omega)).2.2.2.1 (condsD ⟨n + 1, hn⟩ (show (n + 1) % 3 = 2 from by omega) (show n + 1 < 15 from by have hN : n + 1 < 18 := lt_of_lt_of_eq hn N18; omega)).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsD ⟨n + 1, hn⟩ (show (n + 1) % 3 = 2 from by omega) (show n + 1 < 15 from by have hN : n + 1 < 18 := lt_of_lt_of_eq hn N18; omega)).1 (condsD ⟨n + 1, hn⟩ (show (n + 1) % 3 = 2 from by omega) (show n + 1 < 15 from by have hN : n + 1 < 18 := lt_of_lt_of_eq hn N18; omega)).2.1 (condsD ⟨n + 1, hn⟩ (show (n + 1) % 3 = 2 from by omega) (show n + 1 < 15 from by have hN : n + 1 < 18 := lt_of_lt_of_eq hn N18; omega)).2.2.1 (condsD ⟨n + 1, hn⟩ (show (n + 1) % 3 = 2 from by omega) (show n + 1 < 15 from by have hN : n + 1 < 18 := lt_of_lt_of_eq hn N18; omega)).2.2.2.1 (condsD ⟨n + 1, hn⟩ (show (n + 1) % 3 = 2 from by omega) (show n + 1 < 15 from by have hN : n + 1 < 18 := lt_of_lt_of_eq hn N18; omega)).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)

/-- `outsAt0` at the first point: case A's contents. -/
theorem outsAt0_A (c : Dev nD) (t : Fin cfg0.N) (h : t.val = 0) :
    outsAt0 m c t.val t.isLt =
      (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsA t h).1 (condsA t h).2.1 (condsA t h).2.2.1 (condsA t h).2.2.2.1 (condsA t h).2.2.2.2 (iblk m c 0 t) (iblk m c 1 t) (iblk m c 2 t) (iblk m c 3 t) (iblk m c 4 t) (iblk m c 5 t) (iblk m c 6 t) (iblk m c 7 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsA t h).1 (condsA t h).2.1 (condsA t h).2.2.1 (condsA t h).2.2.2.1 (condsA t h).2.2.2.2 (iblk m c 0 t) (iblk m c 1 t) (iblk m c 2 t) (iblk m c 3 t) (iblk m c 4 t) (iblk m c 5 t) (iblk m c 6 t) (iblk m c 7 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsA t h).1 (condsA t h).2.1 (condsA t h).2.2.1 (condsA t h).2.2.2.1 (condsA t h).2.2.2.2 (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact absurd h (Nat.succ_ne_zero n)

/-- `outsAt0` at a later point that opens a group of three: case B's contents, over what the point before left. -/
theorem outsAt0_B (c : Dev nD) (t : Fin cfg0.N) (h0 : t.val % 3 = 0) (hz : t.val ≠ 0) :
    outsAt0 m c t.val t.isLt =
      (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsB t h0 hz).1 (condsB t h0 hz).2.1 (condsB t h0 hz).2.2.1 (condsB t h0 hz).2.2.2.1 (condsB t h0 hz).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1,
       (outsAt0 m c (t.val - 1) (Nat.lt_of_le_of_lt (Nat.sub_le _ _) t.isLt)).2.1,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsB t h0 hz).1 (condsB t h0 hz).2.1 (condsB t h0 hz).2.2.1 (condsB t h0 hz).2.2.2.1 (condsB t h0 hz).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  obtain ⟨n, hn⟩ := t
  cases n with
  | zero => exact absurd rfl hz
  | succ n =>
    have h17 : ¬(n + 1 = 17) := fun e => by (try dsimp only at h0); omega
    exact (dif_neg h17).trans ((dif_pos h0).trans rfl)

/-- `outsAt0` at the middle point of a group of three: case C's contents, over what the point before left. -/
theorem outsAt0_C (c : Dev nD) (t : Fin cfg0.N) (h1 : t.val % 3 = 1) :
    outsAt0 m c t.val t.isLt =
      (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsC t h1).1 (condsC t h1).2.1 (condsC t h1).2.2.1 (condsC t h1).2.2.2.1 (condsC t h1).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
       (outsAt0 m c (t.val - 1) (Nat.lt_of_le_of_lt (Nat.sub_le _ _) t.isLt)).2.1,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsC t h1).1 (condsC t h1).2.1 (condsC t h1).2.2.1 (condsC t h1).2.2.2.1 (condsC t h1).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd h1 (show ¬((0 : ℕ) % 3 = 1) from by decide)
  | succ n =>
    have h17 : ¬(n + 1 = 17) := fun e => by (try dsimp only at h1); omega
    have h0 : ¬((n + 1) % 3 = 0) := fun e => by (try dsimp only at h1); omega
    exact (dif_neg h17).trans ((dif_neg h0).trans ((dif_pos h1).trans rfl))

/-- `outsAt0` at the point that closes one of the first five groups: case D's contents, over what the point before left. -/
theorem outsAt0_D (c : Dev nD) (t : Fin cfg0.N) (h2 : t.val % 3 = 2) (hlt : t.val < 15) :
    outsAt0 m c t.val t.isLt =
      (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsD t h2 hlt).1 (condsD t h2 hlt).2.1 (condsD t h2 hlt).2.2.1 (condsD t h2 hlt).2.2.2.1 (condsD t h2 hlt).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
       sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsD t h2 hlt).1 (condsD t h2 hlt).2.1 (condsD t h2 hlt).2.2.1 (condsD t h2 hlt).2.2.2.1 (condsD t h2 hlt).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
       sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsD t h2 hlt).1 (condsD t h2 hlt).2.1 (condsD t h2 hlt).2.2.1 (condsD t h2 hlt).2.2.2.1 (condsD t h2 hlt).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd h2 (show ¬((0 : ℕ) % 3 = 2) from by decide)
  | succ n =>
    have h17 : ¬(n + 1 = 17) := fun e => by (try dsimp only at hlt); omega
    have h0 : ¬((n + 1) % 3 = 0) := fun e => by (try dsimp only at h2); omega
    have h1 : ¬((n + 1) % 3 = 1) := fun e => by (try dsimp only at h2); omega
    exact (dif_neg h17).trans ((dif_neg h0).trans ((dif_neg h1).trans rfl))

/-- `outsAt0` at the last point: case E's contents, over what the point before left. -/
theorem outsAt0_E (c : Dev nD) (t : Fin cfg0.N) (h : t.val = 17) :
    outsAt0 m c t.val t.isLt =
      (out0_E_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsE t h).1 (condsE t h).2.1 (condsE t h).2.2.1 (condsE t h).2.2.2.1 (condsE t h).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
       sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsE t h).1 (condsE t h).2.1 (condsE t h).2.2.1 (condsE t h).2.2.2.1 (condsE t h).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
       sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsE t h).1 (condsE t h).2.1 (condsE t h).2.2.1 (condsE t h).2.2.2.1 (condsE t h).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd h (show ¬((0 : ℕ) = 17) from by decide)
  | succ n => exact (dif_pos h).trans rfl

/-- The invariant beside the windows before position `n`: before the first point the pipeline's own (each carried buffer
    at anything); afterwards each carried buffer at what the point before left in it, and the random-number generator's register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried buffers at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the carried buffers at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`'s first component; the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- An input's buffer is left at its block: the inputs are never idle. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at the first point (case A): the inputs' memrefs hold their blocks; the invariant hands the body the two carried
    buffers at anything, the run of the case applies, and the invariant takes them back at this point's contents; the output's buffer, idle here, goes back as it came. -/
theorem sound_body_A (c : Dev nD) (t : Fin cfg0.N) (h : t.val = 0) :
    bodyPre m c t ⊢ wp frame (wpE (defs₀ (F := F)) Variants.none c none) Set.univ (bodyAt0 t) (fun _ => bodyPost m c t) := by
  have hN : t.val < 18 := lt_of_lt_of_eq t.isLt N18
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [Dat.leavesExact_idle (dats m 0 c) 8 t (idleAt0_8_A t (condsA t h).1 (condsA t h).2.1 (condsA t h).2.2.1 (condsA t h).2.2.2.1 (condsA t h).2.2.2.2) (noFlush0_8_A t (condsA t h).1 (condsA t h).2.1 (condsA t h).2.2.1 (condsA t h).2.2.2.1 (condsA t h).2.2.2.2)]
  rw [outsAt0_A m c t h]
  unfold sout0_A_0 sout0_A_1; (try dsimp only)
  rw [PhiS_castSucc m c t, PhiS_zero m c _ _ h, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (condsA t h).1 (condsA t h).2.1 (condsA t h).2.2.1 (condsA t h).2.2.2.1 (condsA t h).2.2.2.2 (iblk m c 0 t) (iblk m c 1 t) (iblk m c 2 t) (iblk m c 3 t) (iblk m c 4 t) (iblk m c 5 t) (iblk m c 6 t) (iblk m c 7 t)).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _)
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- The body at a later point that opens a group of three (case B): the inputs' memrefs hold their blocks; the invariant hands the body the two carried
    buffers at what the point before left, the run of the case applies, and the invariant takes them back at this point's contents; the output's buffer, idle here, goes back as it came. -/
theorem sound_body_B (c : Dev nD) (t : Fin cfg0.N) (h0 : t.val % 3 = 0) (hz : t.val ≠ 0) :
    bodyPre m c t ⊢ wp frame (wpE (defs₀ (F := F)) Variants.none c none) Set.univ (bodyAt0 t) (fun _ => bodyPost m c t) := by
  have hN : t.val < 18 := lt_of_lt_of_eq t.isLt N18
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [Dat.leavesExact_idle (dats m 0 c) 8 t (idleAt0_8_B t (condsB t h0 hz).1 (condsB t h0 hz).2.1 (condsB t h0 hz).2.2.1 (condsB t h0 hz).2.2.2.1 (condsB t h0 hz).2.2.2.2) (noFlush0_8_B t (condsB t h0 hz).1 (condsB t h0 hz).2.1 (condsB t h0 hz).2.2.1 (condsB t h0 hz).2.2.2.1 (condsB t h0 hz).2.2.2.2)]
  rw [outsAt0_B m c t h0 hz]
  unfold sout0_B_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ _ _ _ _ (condsB t h0 hz).1 (condsB t h0 hz).2.1 (condsB t h0 hz).2.2.1 (condsB t h0 hz).2.2.2.1 (condsB t h0 hz).2.2.2.2 (iblk m c 0 t) (iblk m c 1 t) (iblk m c 2 t) (iblk m c 3 t) (iblk m c 4 t) (iblk m c 5 t) (iblk m c 6 t) (iblk m c 7 t) _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexists _; iexact HS1
  iintro ⟨H0, H1, H2, H3, H4, H5, H6, H7, H8, HS0, ⟨%es1, HS1⟩⟩
  isplitl [HS0 HS1 Hg]
  · isplitl [HS0 HS1]
    · isplitl [HS0]
      · iexact HS0
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- The body at the middle point of a group of three (case C): the inputs' memrefs hold their blocks; the invariant hands the body the two carried
    buffers at what the point before left, the run of the case applies, and the invariant takes them back at this point's contents; the output's buffer, idle here, goes back as it came. -/
theorem sound_body_C (c : Dev nD) (t : Fin cfg0.N) (h1 : t.val % 3 = 1) :
    bodyPre m c t ⊢ wp frame (wpE (defs₀ (F := F)) Variants.none c none) Set.univ (bodyAt0 t) (fun _ => bodyPost m c t) := by
  have hN : t.val < 18 := lt_of_lt_of_eq t.isLt N18
  have hz : t.val ≠ 0 := fun e => by omega
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [Dat.leavesExact_idle (dats m 0 c) 8 t (idleAt0_8_C t (condsC t h1).1 (condsC t h1).2.1 (condsC t h1).2.2.1 (condsC t h1).2.2.2.1 (condsC t h1).2.2.2.2) (noFlush0_8_C t (condsC t h1).1 (condsC t h1).2.1 (condsC t h1).2.2.1 (condsC t h1).2.2.2.1 (condsC t h1).2.2.2.2)]
  rw [outsAt0_C m c t h1]
  unfold sout0_C_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_C c (grid0.coords t) _ _ _ _ _ _ _ _ _ _ _ _ _ _ _ _ _ _ _ _ _ _ (condsC t h1).1 (condsC t h1).2.1 (condsC t h1).2.2.1 (condsC t h1).2.2.2.1 (condsC t h1).2.2.2.2 (iblk m c 0 t) (iblk m c 1 t) (iblk m c 2 t) (iblk m c 3 t) (iblk m c 4 t) (iblk m c 5 t) (iblk m c 6 t) (iblk m c 7 t) _ _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, ⟨%es1, HS1⟩⟩
  isplitl [HS0 HS1 Hg]
  · isplitl [HS0 HS1]
    · isplitl [HS0]
      · iexact HS0
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- The body at the point that closes one of the first five groups (case D): the inputs' memrefs hold their blocks; the invariant hands the body the two carried
    buffers at what the point before left, the run of the case applies, and the invariant takes them back at this point's contents; the output's buffer, idle here, goes back as it came. -/
theorem sound_body_D (c : Dev nD) (t : Fin cfg0.N) (h2 : t.val % 3 = 2) (hlt : t.val < 15) :
    bodyPre m c t ⊢ wp frame (wpE (defs₀ (F := F)) Variants.none c none) Set.univ (bodyAt0 t) (fun _ => bodyPost m c t) := by
  have hN : t.val < 18 := lt_of_lt_of_eq t.isLt N18
  have hz : t.val ≠ 0 := fun e => by omega
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [Dat.leavesExact_idle (dats m 0 c) 8 t (idleAt0_8_D t (condsD t h2 hlt).1 (condsD t h2 hlt).2.1 (condsD t h2 hlt).2.2.1 (condsD t h2 hlt).2.2.2.1 (condsD t h2 hlt).2.2.2.2) (noFlush0_8_D t (condsD t h2 hlt).1 (condsD t h2 hlt).2.1 (condsD t h2 hlt).2.2.1 (condsD t h2 hlt).2.2.2.1 (condsD t h2 hlt).2.2.2.2)]
  rw [outsAt0_D m c t h2 hlt]
  unfold sout0_D_0 sout0_D_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_D c (grid0.coords t) _ _ _ _ _ _ _ _ _ _ _ _ _ _ _ _ _ _ _ _ _ _ (condsD t h2 hlt).1 (condsD t h2 hlt).2.1 (condsD t h2 hlt).2.2.1 (condsD t h2 hlt).2.2.2.1 (condsD t h2 hlt).2.2.2.2 (iblk m c 0 t) (iblk m c 1 t) (iblk m c 2 t) (iblk m c 3 t) (iblk m c 4 t) (iblk m c 5 t) (iblk m c 6 t) (iblk m c 7 t) _ _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (scover0_D_0 c _ _ _ _ _ _ _ _ _ _ _ _ _ _ _ _ _ _ _ _ _ _ _ _ _ _ _ _ _ _ _ _ _ _ _ _ _ _)
      · unfold owns; iexists _; isplitr
        swap; · iexact HS1
        ipureintro; exact View.read_writes_of_cover _ _ _ _ _ (scover0_D_1 c _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- The body at the last point (case E): the inputs' memrefs hold their blocks; the invariant hands the body the two carried
    buffers at what the point before left, the run of the case applies, and the invariant takes them back at this point's contents; the output's buffer goes back at the case's contents. -/
theorem sound_body_E (c : Dev nD) (t : Fin cfg0.N) (h : t.val = 17) :
    bodyPre m c t ⊢ wp frame (wpE (defs₀ (F := F)) Variants.none c none) Set.univ (bodyAt0 t) (fun _ => bodyPost m c t) := by
  have hN : t.val < 18 := lt_of_lt_of_eq t.isLt N18
  have hz : t.val ≠ 0 := fun e => by omega
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [show (dats m 0 c).leavesExact 8 t = owns (c : Thread nD τ) (ms0_8 t) fullShare ((dats m 0 c).after 8 t) from by
    unfold Dat.leavesExact; rw [liveAt0_8_E t (condsE t h).1 (condsE t h).2.1 (condsE t h).2.2.1 (condsE t h).2.2.2.1 (condsE t h).2.2.2.2], after0_8]
  rw [outsAt0_E m c t h]
  unfold out0_E_8 sout0_E_0 sout0_E_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_E c (grid0.coords t) _ _ _ _ _ _ _ _ _ _ _ _ _ _ _ _ _ _ _ _ _ _ (condsE t h).1 (condsE t h).2.1 (condsE t h).2.2.1 (condsE t h).2.2.2.1 (condsE t h).2.2.2.2 (iblk m c 0 t) (iblk m c 1 t) (iblk m c 2 t) (iblk m c 3 t) (iblk m c 4 t) (iblk m c 5 t) (iblk m c 6 t) (iblk m c 7 t) _ _).2.2.2 (iblk m c 0 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (scover0_E_0 c _ _ _ _ _ _ _ _ _ _ _ _ _ _ _ _ _ _ _ _ _ _ _ _ _ _ _ _ _ _ _ _ _ _ _ _ _ _)
      · unfold owns; iexists _; isplitr
        swap; · iexact HS1
        ipureintro; exact View.read_writes_of_cover _ _ _ _ _ (scover0_E_1 c _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_E_8 c _ _ _ _ _ _ _ _ _ _ _ _ _ _ _ _ _ _ _ _ _ _ _ _ _ _ _ _ _ _ _ _ _ _ _ _ _ _)

/-- The body at any point: the point is in one of the five cases. -/
theorem sound_body (c : Dev nD) (t : Fin cfg0.N) :
    bodyPre m c t ⊢ wp frame (wpE (defs₀ (F := F)) Variants.none c none) Set.univ (bodyAt0 t) (fun _ => bodyPost m c t) := by
  have hN : t.val < 18 := lt_of_lt_of_eq t.isLt N18
  by_cases hA : t.val = 0
  · exact sound_body_A m c t hA
  by_cases hE : t.val = 17
  · exact sound_body_E m c t hE
  by_cases h0 : t.val % 3 = 0
  · exact sound_body_B m c t h0 hA
  by_cases h1 : t.val % 3 = 1
  · exact sound_body_C m c t h1
  exact sound_body_D m c t (by omega) (by omega)

/-- The pipeline rule's obligation on the body, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the pipeline's own back: the carried buffers' named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 18 := N18; omega)

/-! ## The run and the frame -/

-- the pipeline's run rule at this kernel's proof data: termination, the arrays it computes, every other buffer untouched
set_option backward.isDefEq.respectTransparency.types false in
/-- At the compiled mesh, for any values, from any memory with zero counters: every weakly fair execution of the program
    on the TensorCores terminates, and every final state has every array of the pipeline at what the pipeline's rule gives
    from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program leaves each of its eight argument arrays as it found it, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.KI.Runs.lean ====
/- What the runs of the kernel body share: the five branch conditions as propositions over the grid coordinates with
    their closed forms over the 18 points, where each window is idle, the staging and scratch memrefs the body is
    called on, and the pipeline's side invariant spelled with the two scratch operands. -/
import proofs.«136264_j72249939853571_2_alg».proof.Proof.Gen.KernelIdeal.Frame
import proofs.«136264_j72249939853571_2_alg».proof.Proof.Gen.KernelIdeal.Skeleton
import Idealize.ShloMosaic.Lib.Pipeline.FrameBody
import Idealize.ShloMosaic.Lib.Ring
import Idealize.ShloMosaic.Lib.Tactic

-- membership in a rectangle whose long axes have 1024 coordinates is decided one coordinate at a time
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch's condition (both grid coordinates zero), from the grid coordinates. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The second branch's condition (the inner coordinate zero). -/
abbrev cond0_1 (i : grid0.Coords) : Prop := (Scalar.cmpi .ne (Scalar.extui (Scalar.cmpi .eq (BitVec.ofNat 32 (i 1).val) 0#32)) 0#32) = 1#1
/-- It holds at the points ≡ 0 (mod 3). -/
theorem hcond0_1 : ∀ t : Fin cfg0.N, cond0_1 (grid0.coords t) ↔ t.val % 3 = 0 :=
  (by decide +kernel : ∀ t : Fin grid0.N, cond0_1 (grid0.coords t) ↔ t.val % 3 = 0)

/-- The third branch's condition (the inner coordinate is the last, 2). -/
abbrev cond0_2 (i : grid0.Coords) : Prop := (Scalar.cmpi .ne (Scalar.extui (Scalar.cmpi .eq (BitVec.ofNat 32 (i 1).val) 2#32)) 0#32) = 1#1
/-- It holds at the points ≡ 2 (mod 3). -/
theorem hcond0_2 : ∀ t : Fin cfg0.N, cond0_2 (grid0.coords t) ↔ t.val % 3 = 2 :=
  (by decide +kernel : ∀ t : Fin grid0.N, cond0_2 (grid0.coords t) ↔ t.val % 3 = 2)

/-- The fourth branch's condition (the inner coordinate is 2 and the outer one is below 5). -/
abbrev cond0_3 (i : grid0.Coords) : Prop := (Scalar.cmpi .ne (Scalar.extui (Scalar.andi (Scalar.cmpi .eq (BitVec.ofNat 32 (i 1).val) 2#32) (Scalar.cmpi .slt (BitVec.ofNat 32 (i 0).val) 5#32))) 0#32) = 1#1
/-- It holds at the points ≡ 2 (mod 3) below 15. -/
theorem hcond0_3 : ∀ t : Fin cfg0.N, cond0_3 (grid0.coords t) ↔ (t.val % 3 = 2 ∧ t.val < 15) :=
  (by decide +kernel : ∀ t : Fin grid0.N, cond0_3 (grid0.coords t) ↔ (t.val % 3 = 2 ∧ t.val < 15))

/-- The fifth branch's condition (the last point of the grid). -/
abbrev cond0_4 (i : grid0.Coords) : Prop := k0_cond5 i = 1#1
/-- It holds at point 17 only. -/
theorem hcond0_4 : ∀ t : Fin cfg0.N, cond0_4 (grid0.coords t) ↔ t.val = 17 :=
  (by decide +kernel : ∀ t : Fin grid0.N, cond0_4 (grid0.coords t) ↔ t.val = 17)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Window 6 is never idle (an input). -/
theorem liveAt0_6 : ∀ t : Fin cfg0.N, cfg0.idle 6 (grid0.coords t) = false := by decide +kernel
/-- Window 7 is never idle (an input). -/
theorem liveAt0_7 : ∀ t : Fin cfg0.N, cfg0.idle 7 (grid0.coords t) = false := by decide +kernel
/-- At the points of case A the output window is idle: the case stores nothing into it. -/
theorem idleAt0_8_A : ∀ t : Fin cfg0.N, cond0_0 (grid0.coords t) → cond0_1 (grid0.coords t) → ¬cond0_2 (grid0.coords t) → ¬cond0_3 (grid0.coords t) → ¬cond0_4 (grid0.coords t) → cfg0.idle 8 (grid0.coords t) = true := by decide +kernel
/-- At the points of case A the output's block is not written back. -/
theorem noFlush0_8_A : ∀ t : Fin cfg0.N, cond0_0 (grid0.coords t) → cond0_1 (grid0.coords t) → ¬cond0_2 (grid0.coords t) → ¬cond0_3 (grid0.coords t) → ¬cond0_4 (grid0.coords t) → (cfg0.win 8).flush t = false := by decide +kernel
/-- At the points of case B the output window is idle: the case stores nothing into it. -/
theorem idleAt0_8_B : ∀ t : Fin cfg0.N, ¬cond0_0 (grid0.coords t) → cond0_1 (grid0.coords t) → ¬cond0_2 (grid0.coords t) → ¬cond0_3 (grid0.coords t) → ¬cond0_4 (grid0.coords t) → cfg0.idle 8 (grid0.coords t) = true := by decide +kernel
/-- At the points of case B the output's block is not written back. -/
theorem noFlush0_8_B : ∀ t : Fin cfg0.N, ¬cond0_0 (grid0.coords t) → cond0_1 (grid0.coords t) → ¬cond0_2 (grid0.coords t) → ¬cond0_3 (grid0.coords t) → ¬cond0_4 (grid0.coords t) → (cfg0.win 8).flush t = false := by decide +kernel
/-- At the points of case C the output window is idle: the case stores nothing into it. -/
theorem idleAt0_8_C : ∀ t : Fin cfg0.N, ¬cond0_0 (grid0.coords t) → ¬cond0_1 (grid0.coords t) → ¬cond0_2 (grid0.coords t) → ¬cond0_3 (grid0.coords t) → ¬cond0_4 (grid0.coords t) → cfg0.idle 8 (grid0.coords t) = true := by decide +kernel
/-- At the points of case C the output's block is not written back. -/
theorem noFlush0_8_C : ∀ t : Fin cfg0.N, ¬cond0_0 (grid0.coords t) → ¬cond0_1 (grid0.coords t) → ¬cond0_2 (grid0.coords t) → ¬cond0_3 (grid0.coords t) → ¬cond0_4 (grid0.coords t) → (cfg0.win 8).flush t = false := by decide +kernel
/-- At the points of case D the output window is idle: the case stores nothing into it. -/
theorem idleAt0_8_D : ∀ t : Fin cfg0.N, ¬cond0_0 (grid0.coords t) → ¬cond0_1 (grid0.coords t) → cond0_2 (grid0.coords t) → cond0_3 (grid0.coords t) → ¬cond0_4 (grid0.coords t) → cfg0.idle 8 (grid0.coords t) = true := by decide +kernel
/-- At the points of case D the output's block is not written back. -/
theorem noFlush0_8_D : ∀ t : Fin cfg0.N, ¬cond0_0 (grid0.coords t) → ¬cond0_1 (grid0.coords t) → cond0_2 (grid0.coords t) → cond0_3 (grid0.coords t) → ¬cond0_4 (grid0.coords t) → (cfg0.win 8).flush t = false := by decide +kernel
/-- At the point of case E the output window is live: the case stores into it. -/
theorem liveAt0_8_E : ∀ t : Fin cfg0.N, ¬cond0_0 (grid0.coords t) → ¬cond0_1 (grid0.coords t) → cond0_2 (grid0.coords t) → ¬cond0_3 (grid0.coords t) → cond0_4 (grid0.coords t) → cfg0.idle 8 (grid0.coords t) = false := by decide +kernel

/-! ## The staging and scratch memrefs the body is called on -/

/-- The output window's staging buffer, as a view: its contents are stated through it. -/
abbrev VO0_8 : View sig .tc .vmem S1024x1024 .f32 := (Memref.whole cc0_stg8_0 : Memref sig .tc .vmem S1024x1024 .f32).view
/-- Each window's current staging memref at point `t`, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .f32 := win0_8.stage (cfg0.slots t 8)
abbrev hs0_8 (t : Fin cfg0.N) : (ms0_8 t).IsWhole := hstage0_8 ((cfg0.slots t 8).cast nbuf0_8)
/-- The two scratch operands: whole buffers of the kernel's own, passed beside the windows. The first carries the
    residual stream between points, the second the layer's running value. -/
abbrev scM0_0 : Memref sig .tc .vmem S1024x1024 .f32 := Memref.whole cc0_scratch0
abbrev scM0_1 : Memref sig .tc .vmem S1024x1024 .f32 := Memref.whole cc0_scratch1
/-- The same as views: what each holds is stated through its view. -/
abbrev VS0_0 : View sig .tc .vmem S1024x1024 .f32 := scM0_0.view
abbrev VS0_1 : View sig .tc .vmem S1024x1024 .f32 := scM0_1.view

/-- The pipeline's invariant beside the windows, with the two scratch operands as memrefs owned at some contents:
    what the body is handed and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.KI.RunA.lean ====
/- The kernel body's run in case A (the first point: the residual stream is set from the input, the running value from it, then the layer's eight column blocks are written). -/
import proofs.«136264_j72249939853571_2_alg».proof.Proof.KI.Runs

-- membership in a rectangle whose long axes have 1024 coordinates is decided one coordinate at a time
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each buffer the body stores into ends with in case A, with the triple: from the eight input windows at
    their contents, the output and the two carried buffers as the case finds them, the body runs to the continuation
    holding the inputs as they were and each stored buffer with its pieces written. -/
noncomputable def kernelRun0_A (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 x5 : Vec F S1x32x1024 .f32) (x6 x7 : Vec F S1x1x1024 .f32) :
    Σ' (L8 LS0 : List (View.Piece (Elt F) S1024x1024 .f32)), { LS1 : List (View.Piece (Elt F) S1024x1024 .f32) //
      ∀ (xi8 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__qlora_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc0__qlora_kernel_eq_skeleton]; unfold cc0__qlora_kernel_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    iexists _; iexact H12

end Cert.KernelIdeal.Body

end
-- ==== Proof.KI.RunB.lean ====
/- The kernel body's run in case B (a layer group's first point after the first: the running value is set from the residual stream, then the eight column blocks are written). -/
import proofs.«136264_j72249939853571_2_alg».proof.Proof.KI.RunA

-- membership in a rectangle whose long axes have 1024 coordinates is decided one coordinate at a time
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each buffer the body stores into ends with in case B, with the triple: from the eight input windows at
    their contents, the output and the two carried buffers as the case finds them, the body runs to the continuation
    holding the inputs as they were and each stored buffer with its pieces written. -/
noncomputable def kernelRun0_B (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 x5 : Vec F S1x32x1024 .f32) (x6 x7 : Vec F S1x1x1024 .f32) (xs0 : Vec F S1024x1024 .f32) :
    Σ' (L8 LS0 : List (View.Piece (Elt F) S1024x1024 .f32)), { LS1 : List (View.Piece (Elt F) S1024x1024 .f32) //
      ∀ (xi8 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ f, arg12.view.loc (c : Thread nD τ) ↦[arg12.view.set]{fullShare} arg12.view.writes (Elt F) f LS1)) -∗ K ⟨⟩))
          ⊢ wp frame (wpE (defs₀ (F := F)) Variants.none c none) E (cc0__qlora_kernel i arg2 harg2 arg3 harg3 arg4 harg4 arg5 harg5 arg6 harg6 arg7 harg7 arg8 harg8 arg9 harg9 arg10 harg10 arg11 harg11 arg12 harg12) K } := by
  refine ⟨[], [], ?_, fun xi8 E K => ?run⟩
  case run =>
    simp only [cc0__qlora_kernel_eq_skeleton]; unfold cc0__qlora_kernel_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc0 | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; iexact H12

end Cert.KernelIdeal.Body

end
-- ==== Proof.KI.RunC.lean ====
/- The kernel body's run in case C (a layer group's middle point: the eight column blocks are written over the running value read whole). -/
import proofs.«136264_j72249939853571_2_alg».proof.Proof.KI.RunB

-- membership in a rectangle whose long axes have 1024 coordinates is decided one coordinate at a time
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each buffer the body stores into ends with in case C, with the triple: from the eight input windows at
    their contents, the output and the two carried buffers as the case finds them, the body runs to the continuation
    holding the inputs as they were and each stored buffer with its pieces written. -/
noncomputable def kernelRun0_C (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 x5 : Vec F S1x32x1024 .f32) (x6 x7 : Vec F S1x1x1024 .f32) (xs0 : Vec F S1024x1024 .f32) (xs1 : Vec F S1024x1024 .f32) :
    Σ' (L8 LS0 : List (View.Piece (Elt F) S1024x1024 .f32)), { LS1 : List (View.Piece (Elt F) S1024x1024 .f32) //
      ∀ (xi8 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ f, arg12.view.loc (c : Thread nD τ) ↦[arg12.view.set]{fullShare} arg12.view.writes (Elt F) f LS1)) -∗ K ⟨⟩))
          ⊢ wp frame (wpE (defs₀ (F := F)) Variants.none c none) E (cc0__qlora_kernel i arg2 harg2 arg3 harg3 arg4 harg4 arg5 harg5 arg6 harg6 arg7 harg7 arg8 harg8 arg9 harg9 arg10 harg10 arg11 harg11 arg12 harg12) K } := by
  refine ⟨[], [], ?_, fun xi8 E K => ?run⟩
  case run =>
    simp only [cc0__qlora_kernel_eq_skeleton]; unfold cc0__qlora_kernel_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; iexact H12

end Cert.KernelIdeal.Body

end
-- ==== Proof.KI.RunD.lean ====
/- The kernel body's run in case D (a layer group's last point before the last group: the column blocks, then the residual stream takes the sum and is row-normalised). -/
import proofs.«136264_j72249939853571_2_alg».proof.Proof.KI.RunC

-- membership in a rectangle whose long axes have 1024 coordinates is decided one coordinate at a time
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each buffer the body stores into ends with in case D, with the triple: from the eight input windows at
    their contents, the output and the two carried buffers as the case finds them, the body runs to the continuation
    holding the inputs as they were and each stored buffer with its pieces written. -/
noncomputable def kernelRun0_D (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 x5 : Vec F S1x32x1024 .f32) (x6 x7 : Vec F S1x1x1024 .f32) (xs0 : Vec F S1024x1024 .f32) (xs1 : Vec F S1024x1024 .f32) :
    Σ' (L8 LS0 : List (View.Piece (Elt F) S1024x1024 .f32)), { LS1 : List (View.Piece (Elt F) S1024x1024 .f32) //
      ∀ (xi8 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__qlora_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc0__qlora_kernel_eq_skeleton]; unfold cc0__qlora_kernel_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    iexists _; iexact H12

end Cert.KernelIdeal.Body

end
-- ==== Proof.KI.RunE.lean ====
/- The kernel body's run in case E (the last point: the column blocks, then the residual stream takes the sum and is copied to the output). -/
import proofs.«136264_j72249939853571_2_alg».proof.Proof.KI.RunD

-- membership in a rectangle whose long axes have 1024 coordinates is decided one coordinate at a time
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each buffer the body stores into ends with in case E, with the triple: from the eight input windows at
    their contents, the output and the two carried buffers as the case finds them, the body runs to the continuation
    holding the inputs as they were and each stored buffer with its pieces written. -/
noncomputable def kernelRun0_E (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 x5 : Vec F S1x32x1024 .f32) (x6 x7 : Vec F S1x1x1024 .f32) (xs0 : Vec F S1024x1024 .f32) (xs1 : Vec F S1024x1024 .f32) :
    Σ' (L8 LS0 : List (View.Piece (Elt F) S1024x1024 .f32)), { LS1 : List (View.Piece (Elt F) S1024x1024 .f32) //
      ∀ (xi8 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__qlora_kernel i arg2 harg2 arg3 harg3 arg4 harg4 arg5 harg5 arg6 harg6 arg7 harg7 arg8 harg8 arg9 harg9 arg10 harg10 arg11 harg11 arg12 harg12) K } := by
  refine ⟨?_, ?_, ?_, fun xi8 E K => ?run⟩
  case run =>
    simp only [cc0__qlora_kernel_eq_skeleton]; unfold cc0__qlora_kernel_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12
    sl_exec (disch := first | exact hc0 | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    iexists _; iexact H12

end Cert.KernelIdeal.Body

end
-- ==== Proof.KI.Frame.lean ====
/- The frame of the kernel: what the output's staging buffer and the two carried buffers (the residual stream and the
    layer's running value) hold after each of the 18 points, the pipeline's proof data stated over those contents, the
    body's obligation at every point by the five cases the points fall into, the run of the whole program and the frame
    claim: the program leaves every argument array as it found it. -/
import proofs.«136264_j72249939853571_2_alg».proof.Proof.KI.RunE

-- membership in a rectangle whose long axes have 1024 coordinates is decided one coordinate at a time
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The five cases' conditions from the points' arithmetic -/

/-- The grid has 18 points. -/
theorem N18 : cfg0.N = 18 := N_0

/-- At the first point the first two branches are taken and no other. -/
theorem condsA (t : Fin cfg0.N) (h : t.val = 0) :
    cond0_0 (grid0.coords t) ∧ cond0_1 (grid0.coords t) ∧ ¬cond0_2 (grid0.coords t) ∧ ¬cond0_3 (grid0.coords t) ∧ ¬cond0_4 (grid0.coords t) :=
  ⟨(hcond0_0 t).mpr h, (hcond0_1 t).mpr (by omega), fun hh => by have := (hcond0_2 t).mp hh; omega,
    fun hh => by have := (hcond0_3 t).mp hh; omega, fun hh => by have := (hcond0_4 t).mp hh; omega⟩

/-- At a later point ≡ 0 (mod 3) only the second branch is taken. -/
theorem condsB (t : Fin cfg0.N) (h0 : t.val % 3 = 0) (hz : t.val ≠ 0) :
    ¬cond0_0 (grid0.coords t) ∧ cond0_1 (grid0.coords t) ∧ ¬cond0_2 (grid0.coords t) ∧ ¬cond0_3 (grid0.coords t) ∧ ¬cond0_4 (grid0.coords t) :=
  ⟨fun hh => hz ((hcond0_0 t).mp hh), (hcond0_1 t).mpr h0, fun hh => by have := (hcond0_2 t).mp hh; omega,
    fun hh => by have := (hcond0_3 t).mp hh; omega, fun hh => by have := (hcond0_4 t).mp hh; omega⟩

/-- At a point ≡ 1 (mod 3) no branch is taken. -/
theorem condsC (t : Fin cfg0.N) (h1 : t.val % 3 = 1) :
    ¬cond0_0 (grid0.coords t) ∧ ¬cond0_1 (grid0.coords t) ∧ ¬cond0_2 (grid0.coords t) ∧ ¬cond0_3 (grid0.coords t) ∧ ¬cond0_4 (grid0.coords t) :=
  ⟨fun hh => by have := (hcond0_0 t).mp hh; omega, fun hh => by have := (hcond0_1 t).mp hh; omega, fun hh => by have := (hcond0_2 t).mp hh; omega,
    fun hh => by have := (hcond0_3 t).mp hh; omega, fun hh => by have := (hcond0_4 t).mp hh; omega⟩

/-- At a point ≡ 2 (mod 3) below 15 the third and fourth branches are taken. -/
theorem condsD (t : Fin cfg0.N) (h2 : t.val % 3 = 2) (hlt : t.val < 15) :
    ¬cond0_0 (grid0.coords t) ∧ ¬cond0_1 (grid0.coords t) ∧ cond0_2 (grid0.coords t) ∧ cond0_3 (grid0.coords t) ∧ ¬cond0_4 (grid0.coords t) :=
  ⟨fun hh => by have := (hcond0_0 t).mp hh; omega, fun hh => by have := (hcond0_1 t).mp hh; omega, (hcond0_2 t).mpr h2,
    (hcond0_3 t).mpr ⟨h2, hlt⟩, fun hh => by have := (hcond0_4 t).mp hh; omega⟩

/-- At the last point the third and fifth branches are taken. -/
theorem condsE (t : Fin cfg0.N) (h : t.val = 17) :
    ¬cond0_0 (grid0.coords t) ∧ ¬cond0_1 (grid0.coords t) ∧ cond0_2 (grid0.coords t) ∧ ¬cond0_3 (grid0.coords t) ∧ cond0_4 (grid0.coords t) :=
  ⟨fun hh => by have := (hcond0_0 t).mp hh; omega, fun hh => by have := (hcond0_1 t).mp hh; omega, (hcond0_2 t).mpr (by omega),
    fun hh => by have := (hcond0_3 t).mp hh; omega, (hcond0_4 t).mpr h⟩

/-! ## What each case leaves in the output's buffer and in the two carried buffers -/

/-- Case A stores nothing into the output's buffer (the window is idle at its points and not written back there): its
    value is immaterial and is taken to be the empty list of pieces read back. -/
def out0_A_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) : Vec F S1024x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).1)

/-- Case A's pieces for the residual stream's buffer cover it: whole-buffer stores. -/
theorem scover0_A_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.1 S1024x1024.size (by sl_kernel_rfl) y

/-- What case A leaves in the residual stream's buffer: its pieces read back. -/
def sout0_A_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) : Vec F S1024x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.1)

/-- Case A's pieces for the running value's buffer cover it: the eight column blocks of width 128 tile it. -/
theorem scover0_A_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.2.1 S1024x128.size (by sl_kernel_rfl) y

/-- What case A leaves in the running value's buffer: its pieces read back. -/
def sout0_A_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) : Vec F S1024x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7).2.2.1)

/-- Case B stores nothing into the output's buffer (the window is idle at its points and not written back there): its
    value is immaterial and is taken to be the empty list of pieces read back. -/
def out0_B_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) : Vec F S1024x1024 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0).1)

/-- Case B's pieces for the running value's buffer cover it: the eight column blocks of width 128 tile it. -/
theorem scover0_B_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0).2.2.1 S1024x128.size (by sl_kernel_rfl) y

/-- What case B leaves in the running value's buffer: its pieces read back. -/
def sout0_B_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) : Vec F S1024x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0).2.2.1)

/-- Case C stores nothing into the output's buffer (the window is idle at its points and not written back there): its
    value is immaterial and is taken to be the empty list of pieces read back. -/
def out0_C_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).1)

/-- Case C's pieces for the running value's buffer cover it: the eight column blocks of width 128 tile it. -/
theorem scover0_C_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1 S1024x128.size (by sl_kernel_rfl) y

/-- What case C leaves in the running value's buffer: its pieces read back. -/
def sout0_C_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : ¬cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1)

/-- Case D stores nothing into the output's buffer (the window is idle at its points and not written back there): its
    value is immaterial and is taken to be the empty list of pieces read back. -/
def out0_D_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).1)

/-- Case D's pieces for the residual stream's buffer cover it: whole-buffer stores. -/
theorem scover0_D_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1 S1024x1024.size (by sl_kernel_rfl) y

/-- What case D leaves in the residual stream's buffer: its pieces read back. -/
def sout0_D_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1)

/-- Case D's pieces for the running value's buffer cover it: the eight column blocks of width 128 tile it. -/
theorem scover0_D_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1 S1024x128.size (by sl_kernel_rfl) y

/-- What case D leaves in the running value's buffer: its pieces read back. -/
def sout0_D_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1)

/-- Case E's pieces for the output cover its block: one store of the whole block. -/
theorem cover0_E_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).1 S1024x1024.size (by sl_kernel_rfl) y

/-- What case E leaves in the output's staging buffer: its pieces read back. -/
def out0_E_8 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VO0_8.read (Elt F) (VO0_8.writes (Elt F) VO0_8.junk (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).1)

/-- Case E's pieces for the residual stream's buffer cover it: whole-buffer stores. -/
theorem scover0_E_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1 S1024x1024.size (by sl_kernel_rfl) y

/-- What case E leaves in the residual stream's buffer: its pieces read back. -/
def sout0_E_0 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VS0_0.read (Elt F) (VS0_0.writes (Elt F) VS0_0.junk (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.1)

/-- Case E's pieces for the running value's buffer cover it: the eight column blocks of width 128 tile it. -/
theorem scover0_E_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) (y : S1024x1024.Idx) :
    ∃ pc ∈ (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1 S1024x128.size (by sl_kernel_rfl) y

/-- What case E leaves in the running value's buffer: its pieces read back. -/
def sout0_E_1 (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec F S1024x1024 .f32) (x1 : Vec F S1x1024x1024 .i32) (x2 : Vec F S1x1024x64 .f32) (x3 : Vec F S1x1x1024 .f32) (x4 : Vec F S1x32x1024 .f32) (x5 : Vec F S1x32x1024 .f32) (x6 : Vec F S1x1x1024 .f32) (x7 : Vec F S1x1x1024 .f32) (xs0 : Vec F S1024x1024 .f32) (xs1 : Vec F S1024x1024 .f32) : Vec F S1024x1024 .f32 :=
  VS0_1.read (Elt F) (VS0_1.writes (Elt F) VS0_1.junk (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1).2.2.1)

/-! ## What the buffers hold after each point -/

/-- What the output's staging buffer, the residual stream's buffer and the running value's buffer hold after the body at
    position `n` (in that order): the case the point is in, run on the point's memrefs and input blocks, a carried buffer
    the case reads before covering taken at what position `n - 1` left in it, and a carried buffer the case does not
    store into kept at that. -/
def outsAt0 (c : Dev nD) : (n : ℕ) → n < cfg0.N → Vec F S1024x1024 .f32 × Vec F S1024x1024 .f32 × Vec F S1024x1024 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) (condsA ⟨0, hn⟩ rfl).1 (condsA ⟨0, hn⟩ rfl).2.1 (condsA ⟨0, hn⟩ rfl).2.2.1 (condsA ⟨0, hn⟩ rfl).2.2.2.1 (condsA ⟨0, hn⟩ rfl).2.2.2.2 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) (condsA ⟨0, hn⟩ rfl).1 (condsA ⟨0, hn⟩ rfl).2.1 (condsA ⟨0, hn⟩ rfl).2.2.1 (condsA ⟨0, hn⟩ rfl).2.2.2.1 (condsA ⟨0, hn⟩ rfl).2.2.2.2 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) (condsA ⟨0, hn⟩ rfl).1 (condsA ⟨0, hn⟩ rfl).2.1 (condsA ⟨0, hn⟩ rfl).2.2.1 (condsA ⟨0, hn⟩ rfl).2.2.2.1 (condsA ⟨0, hn⟩ rfl).2.2.2.2 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h17 : n + 1 = 17 then
      (out0_E_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsE ⟨n + 1, hn⟩ h17).1 (condsE ⟨n + 1, hn⟩ h17).2.1 (condsE ⟨n + 1, hn⟩ h17).2.2.1 (condsE ⟨n + 1, hn⟩ h17).2.2.2.1 (condsE ⟨n + 1, hn⟩ h17).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsE ⟨n + 1, hn⟩ h17).1 (condsE ⟨n + 1, hn⟩ h17).2.1 (condsE ⟨n + 1, hn⟩ h17).2.2.1 (condsE ⟨n + 1, hn⟩ h17).2.2.2.1 (condsE ⟨n + 1, hn⟩ h17).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsE ⟨n + 1, hn⟩ h17).1 (condsE ⟨n + 1, hn⟩ h17).2.1 (condsE ⟨n + 1, hn⟩ h17).2.2.1 (condsE ⟨n + 1, hn⟩ h17).2.2.2.1 (condsE ⟨n + 1, hn⟩ h17).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)
    else if h0 : (n + 1) % 3 = 0 then
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsB ⟨n + 1, hn⟩ h0 (Nat.succ_ne_zero n)).1 (condsB ⟨n + 1, hn⟩ h0 (Nat.succ_ne_zero n)).2.1 (condsB ⟨n + 1, hn⟩ h0 (Nat.succ_ne_zero n)).2.2.1 (condsB ⟨n + 1, hn⟩ h0 (Nat.succ_ne_zero n)).2.2.2.1 (condsB ⟨n + 1, hn⟩ h0 (Nat.succ_ne_zero n)).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1,
       (outsAt0 c n (Nat.lt_of_succ_lt hn)).2.1,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsB ⟨n + 1, hn⟩ h0 (Nat.succ_ne_zero n)).1 (condsB ⟨n + 1, hn⟩ h0 (Nat.succ_ne_zero n)).2.1 (condsB ⟨n + 1, hn⟩ h0 (Nat.succ_ne_zero n)).2.2.1 (condsB ⟨n + 1, hn⟩ h0 (Nat.succ_ne_zero n)).2.2.2.1 (condsB ⟨n + 1, hn⟩ h0 (Nat.succ_ne_zero n)).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1)
    else if h1 : (n + 1) % 3 = 1 then
      (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsC ⟨n + 1, hn⟩ h1).1 (condsC ⟨n + 1, hn⟩ h1).2.1 (condsC ⟨n + 1, hn⟩ h1).2.2.1 (condsC ⟨n + 1, hn⟩ h1).2.2.2.1 (condsC ⟨n + 1, hn⟩ h1).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       (outsAt0 c n (Nat.lt_of_succ_lt hn)).2.1,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsC ⟨n + 1, hn⟩ h1).1 (condsC ⟨n + 1, hn⟩ h1).2.1 (condsC ⟨n + 1, hn⟩ h1).2.2.1 (condsC ⟨n + 1, hn⟩ h1).2.2.2.1 (condsC ⟨n + 1, hn⟩ h1).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)
    else
      (out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsD ⟨n + 1, hn⟩ (show (n + 1) % 3 = 2 from by omega) (show n + 1 < 15 from by have hN : n + 1 < 18 := lt_of_lt_of_eq hn N18; omega)).1 (condsD ⟨n + 1, hn⟩ (show (n + 1) % 3 = 2 from by omega) (show n + 1 < 15 from by have hN : n + 1 < 18 := lt_of_lt_of_eq hn N18; omega)).2.1 (condsD ⟨n + 1, hn⟩ (show (n + 1) % 3 = 2 from by omega) (show n + 1 < 15 from by have hN : n + 1 < 18 := lt_of_lt_of_eq hn N18; omega)).2.2.1 (condsD ⟨n + 1, hn⟩ (show (n + 1) % 3 = 2 from by omega) (show n + 1 < 15 from by have hN : n + 1 < 18 := lt_of_lt_of_eq hn N18; omega)).2.2.2.1 (condsD ⟨n + 1, hn⟩ (show (n + 1) % 3 = 2 from by omega) (show n + 1 < 15 from by have hN : n + 1 < 18 := lt_of_lt_of_eq hn N18; omega)).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsD ⟨n + 1, hn⟩ (show (n + 1) % 3 = 2 from by omega) (show n + 1 < 15 from by have hN : n + 1 < 18 := lt_of_lt_of_eq hn N18; omega)).1 (condsD ⟨n + 1, hn⟩ (show (n + 1) % 3 = 2 from by omega) (show n + 1 < 15 from by have hN : n + 1 < 18 := lt_of_lt_of_eq hn N18; omega)).2.1 (condsD ⟨n + 1, hn⟩ (show (n + 1) % 3 = 2 from by omega) (show n + 1 < 15 from by have hN : n + 1 < 18 := lt_of_lt_of_eq hn N18; omega)).2.2.1 (condsD ⟨n + 1, hn⟩ (show (n + 1) % 3 = 2 from by omega) (show n + 1 < 15 from by have hN : n + 1 < 18 := lt_of_lt_of_eq hn N18; omega)).2.2.2.1 (condsD ⟨n + 1, hn⟩ (show (n + 1) % 3 = 2 from by omega) (show n + 1 < 15 from by have hN : n + 1 < 18 := lt_of_lt_of_eq hn N18; omega)).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (condsD ⟨n + 1, hn⟩ (show (n + 1) % 3 = 2 from by omega) (show n + 1 < 15 from by have hN : n + 1 < 18 := lt_of_lt_of_eq hn N18; omega)).1 (condsD ⟨n + 1, hn⟩ (show (n + 1) % 3 = 2 from by omega) (show n + 1 < 15 from by have hN : n + 1 < 18 := lt_of_lt_of_eq hn N18; omega)).2.1 (condsD ⟨n + 1, hn⟩ (show (n + 1) % 3 = 2 from by omega) (show n + 1 < 15 from by have hN : n + 1 < 18 := lt_of_lt_of_eq hn N18; omega)).2.2.1 (condsD ⟨n + 1, hn⟩ (show (n + 1) % 3 = 2 from by omega) (show n + 1 < 15 from by have hN : n + 1 < 18 := lt_of_lt_of_eq hn N18; omega)).2.2.2.1 (condsD ⟨n + 1, hn⟩ (show (n + 1) % 3 = 2 from by omega) (show n + 1 < 15 from by have hN : n + 1 < 18 := lt_of_lt_of_eq hn N18; omega)).2.2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)

/-- `outsAt0` at the first point: case A's contents. -/
theorem outsAt0_A (c : Dev nD) (t : Fin cfg0.N) (h : t.val = 0) :
    outsAt0 m c t.val t.isLt =
      (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsA t h).1 (condsA t h).2.1 (condsA t h).2.2.1 (condsA t h).2.2.2.1 (condsA t h).2.2.2.2 (iblk m c 0 t) (iblk m c 1 t) (iblk m c 2 t) (iblk m c 3 t) (iblk m c 4 t) (iblk m c 5 t) (iblk m c 6 t) (iblk m c 7 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsA t h).1 (condsA t h).2.1 (condsA t h).2.2.1 (condsA t h).2.2.2.1 (condsA t h).2.2.2.2 (iblk m c 0 t) (iblk m c 1 t) (iblk m c 2 t) (iblk m c 3 t) (iblk m c 4 t) (iblk m c 5 t) (iblk m c 6 t) (iblk m c 7 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsA t h).1 (condsA t h).2.1 (condsA t h).2.2.1 (condsA t h).2.2.2.1 (condsA t h).2.2.2.2 (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact absurd h (Nat.succ_ne_zero n)

/-- `outsAt0` at a later point that opens a group of three: case B's contents, over what the point before left. -/
theorem outsAt0_B (c : Dev nD) (t : Fin cfg0.N) (h0 : t.val % 3 = 0) (hz : t.val ≠ 0) :
    outsAt0 m c t.val t.isLt =
      (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsB t h0 hz).1 (condsB t h0 hz).2.1 (condsB t h0 hz).2.2.1 (condsB t h0 hz).2.2.2.1 (condsB t h0 hz).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1,
       (outsAt0 m c (t.val - 1) (Nat.lt_of_le_of_lt (Nat.sub_le _ _) t.isLt)).2.1,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsB t h0 hz).1 (condsB t h0 hz).2.1 (condsB t h0 hz).2.2.1 (condsB t h0 hz).2.2.2.1 (condsB t h0 hz).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  obtain ⟨n, hn⟩ := t
  cases n with
  | zero => exact absurd rfl hz
  | succ n =>
    have h17 : ¬(n + 1 = 17) := fun e => by (try dsimp only at h0); omega
    exact (dif_neg h17).trans ((dif_pos h0).trans rfl)

/-- `outsAt0` at the middle point of a group of three: case C's contents, over what the point before left. -/
theorem outsAt0_C (c : Dev nD) (t : Fin cfg0.N) (h1 : t.val % 3 = 1) :
    outsAt0 m c t.val t.isLt =
      (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsC t h1).1 (condsC t h1).2.1 (condsC t h1).2.2.1 (condsC t h1).2.2.2.1 (condsC t h1).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
       (outsAt0 m c (t.val - 1) (Nat.lt_of_le_of_lt (Nat.sub_le _ _) t.isLt)).2.1,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsC t h1).1 (condsC t h1).2.1 (condsC t h1).2.2.1 (condsC t h1).2.2.2.1 (condsC t h1).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd h1 (show ¬((0 : ℕ) % 3 = 1) from by decide)
  | succ n =>
    have h17 : ¬(n + 1 = 17) := fun e => by (try dsimp only at h1); omega
    have h0 : ¬((n + 1) % 3 = 0) := fun e => by (try dsimp only at h1); omega
    exact (dif_neg h17).trans ((dif_neg h0).trans ((dif_pos h1).trans rfl))

/-- `outsAt0` at the point that closes one of the first five groups: case D's contents, over what the point before left. -/
theorem outsAt0_D (c : Dev nD) (t : Fin cfg0.N) (h2 : t.val % 3 = 2) (hlt : t.val < 15) :
    outsAt0 m c t.val t.isLt =
      (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsD t h2 hlt).1 (condsD t h2 hlt).2.1 (condsD t h2 hlt).2.2.1 (condsD t h2 hlt).2.2.2.1 (condsD t h2 hlt).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
       sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsD t h2 hlt).1 (condsD t h2 hlt).2.1 (condsD t h2 hlt).2.2.1 (condsD t h2 hlt).2.2.2.1 (condsD t h2 hlt).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
       sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsD t h2 hlt).1 (condsD t h2 hlt).2.1 (condsD t h2 hlt).2.2.1 (condsD t h2 hlt).2.2.2.1 (condsD t h2 hlt).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd h2 (show ¬((0 : ℕ) % 3 = 2) from by decide)
  | succ n =>
    have h17 : ¬(n + 1 = 17) := fun e => by (try dsimp only at hlt); omega
    have h0 : ¬((n + 1) % 3 = 0) := fun e => by (try dsimp only at h2); omega
    have h1 : ¬((n + 1) % 3 = 1) := fun e => by (try dsimp only at h2); omega
    exact (dif_neg h17).trans ((dif_neg h0).trans ((dif_neg h1).trans rfl))

/-- `outsAt0` at the last point: case E's contents, over what the point before left. -/
theorem outsAt0_E (c : Dev nD) (t : Fin cfg0.N) (h : t.val = 17) :
    outsAt0 m c t.val t.isLt =
      (out0_E_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsE t h).1 (condsE t h).2.1 (condsE t h).2.2.1 (condsE t h).2.2.2.1 (condsE t h).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
       sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsE t h).1 (condsE t h).2.1 (condsE t h).2.2.1 (condsE t h).2.2.2.1 (condsE t h).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
       sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsE t h).1 (condsE t h).2.1 (condsE t h).2.2.1 (condsE t h).2.2.2.1 (condsE t h).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd h (show ¬((0 : ℕ) = 17) from by decide)
  | succ n => exact (dif_pos h).trans rfl

/-- The invariant beside the windows before position `n`: before the first point the pipeline's own (each carried buffer
    at anything); afterwards each carried buffer at what the point before left in it, and the random-number generator's register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried buffers at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the carried buffers at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`'s first component; the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- An input's buffer is left at its block: the inputs are never idle. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at the first point (case A): the inputs' memrefs hold their blocks; the invariant hands the body the two carried
    buffers at anything, the run of the case applies, and the invariant takes them back at this point's contents; the output's buffer, idle here, goes back as it came. -/
theorem sound_body_A (c : Dev nD) (t : Fin cfg0.N) (h : t.val = 0) :
    bodyPre m c t ⊢ wp frame (wpE (defs₀ (F := F)) Variants.none c none) Set.univ (bodyAt0 t) (fun _ => bodyPost m c t) := by
  have hN : t.val < 18 := lt_of_lt_of_eq t.isLt N18
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [Dat.leavesExact_idle (dats m 0 c) 8 t (idleAt0_8_A t (condsA t h).1 (condsA t h).2.1 (condsA t h).2.2.1 (condsA t h).2.2.2.1 (condsA t h).2.2.2.2) (noFlush0_8_A t (condsA t h).1 (condsA t h).2.1 (condsA t h).2.2.1 (condsA t h).2.2.2.1 (condsA t h).2.2.2.2)]
  rw [outsAt0_A m c t h]
  unfold sout0_A_0 sout0_A_1; (try dsimp only)
  rw [PhiS_castSucc m c t, PhiS_zero m c _ _ h, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (condsA t h).1 (condsA t h).2.1 (condsA t h).2.2.1 (condsA t h).2.2.2.1 (condsA t h).2.2.2.2 (iblk m c 0 t) (iblk m c 1 t) (iblk m c 2 t) (iblk m c 3 t) (iblk m c 4 t) (iblk m c 5 t) (iblk m c 6 t) (iblk m c 7 t)).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _)
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- The body at a later point that opens a group of three (case B): the inputs' memrefs hold their blocks; the invariant hands the body the two carried
    buffers at what the point before left, the run of the case applies, and the invariant takes them back at this point's contents; the output's buffer, idle here, goes back as it came. -/
theorem sound_body_B (c : Dev nD) (t : Fin cfg0.N) (h0 : t.val % 3 = 0) (hz : t.val ≠ 0) :
    bodyPre m c t ⊢ wp frame (wpE (defs₀ (F := F)) Variants.none c none) Set.univ (bodyAt0 t) (fun _ => bodyPost m c t) := by
  have hN : t.val < 18 := lt_of_lt_of_eq t.isLt N18
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [Dat.leavesExact_idle (dats m 0 c) 8 t (idleAt0_8_B t (condsB t h0 hz).1 (condsB t h0 hz).2.1 (condsB t h0 hz).2.2.1 (condsB t h0 hz).2.2.2.1 (condsB t h0 hz).2.2.2.2) (noFlush0_8_B t (condsB t h0 hz).1 (condsB t h0 hz).2.1 (condsB t h0 hz).2.2.1 (condsB t h0 hz).2.2.2.1 (condsB t h0 hz).2.2.2.2)]
  rw [outsAt0_B m c t h0 hz]
  unfold sout0_B_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ _ _ _ _ (condsB t h0 hz).1 (condsB t h0 hz).2.1 (condsB t h0 hz).2.2.1 (condsB t h0 hz).2.2.2.1 (condsB t h0 hz).2.2.2.2 (iblk m c 0 t) (iblk m c 1 t) (iblk m c 2 t) (iblk m c 3 t) (iblk m c 4 t) (iblk m c 5 t) (iblk m c 6 t) (iblk m c 7 t) _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexists _; iexact HS1
  iintro ⟨H0, H1, H2, H3, H4, H5, H6, H7, H8, HS0, ⟨%es1, HS1⟩⟩
  isplitl [HS0 HS1 Hg]
  · isplitl [HS0 HS1]
    · isplitl [HS0]
      · iexact HS0
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- The body at the middle point of a group of three (case C): the inputs' memrefs hold their blocks; the invariant hands the body the two carried
    buffers at what the point before left, the run of the case applies, and the invariant takes them back at this point's contents; the output's buffer, idle here, goes back as it came. -/
theorem sound_body_C (c : Dev nD) (t : Fin cfg0.N) (h1 : t.val % 3 = 1) :
    bodyPre m c t ⊢ wp frame (wpE (defs₀ (F := F)) Variants.none c none) Set.univ (bodyAt0 t) (fun _ => bodyPost m c t) := by
  have hN : t.val < 18 := lt_of_lt_of_eq t.isLt N18
  have hz : t.val ≠ 0 := fun e => by omega
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [Dat.leavesExact_idle (dats m 0 c) 8 t (idleAt0_8_C t (condsC t h1).1 (condsC t h1).2.1 (condsC t h1).2.2.1 (condsC t h1).2.2.2.1 (condsC t h1).2.2.2.2) (noFlush0_8_C t (condsC t h1).1 (condsC t h1).2.1 (condsC t h1).2.2.1 (condsC t h1).2.2.2.1 (condsC t h1).2.2.2.2)]
  rw [outsAt0_C m c t h1]
  unfold sout0_C_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_C c (grid0.coords t) _ _ _ _ _ _ _ _ _ _ _ _ _ _ _ _ _ _ _ _ _ _ (condsC t h1).1 (condsC t h1).2.1 (condsC t h1).2.2.1 (condsC t h1).2.2.2.1 (condsC t h1).2.2.2.2 (iblk m c 0 t) (iblk m c 1 t) (iblk m c 2 t) (iblk m c 3 t) (iblk m c 4 t) (iblk m c 5 t) (iblk m c 6 t) (iblk m c 7 t) _ _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, ⟨%es1, HS1⟩⟩
  isplitl [HS0 HS1 Hg]
  · isplitl [HS0 HS1]
    · isplitl [HS0]
      · iexact HS0
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- The body at the point that closes one of the first five groups (case D): the inputs' memrefs hold their blocks; the invariant hands the body the two carried
    buffers at what the point before left, the run of the case applies, and the invariant takes them back at this point's contents; the output's buffer, idle here, goes back as it came. -/
theorem sound_body_D (c : Dev nD) (t : Fin cfg0.N) (h2 : t.val % 3 = 2) (hlt : t.val < 15) :
    bodyPre m c t ⊢ wp frame (wpE (defs₀ (F := F)) Variants.none c none) Set.univ (bodyAt0 t) (fun _ => bodyPost m c t) := by
  have hN : t.val < 18 := lt_of_lt_of_eq t.isLt N18
  have hz : t.val ≠ 0 := fun e => by omega
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [Dat.leavesExact_idle (dats m 0 c) 8 t (idleAt0_8_D t (condsD t h2 hlt).1 (condsD t h2 hlt).2.1 (condsD t h2 hlt).2.2.1 (condsD t h2 hlt).2.2.2.1 (condsD t h2 hlt).2.2.2.2) (noFlush0_8_D t (condsD t h2 hlt).1 (condsD t h2 hlt).2.1 (condsD t h2 hlt).2.2.1 (condsD t h2 hlt).2.2.2.1 (condsD t h2 hlt).2.2.2.2)]
  rw [outsAt0_D m c t h2 hlt]
  unfold sout0_D_0 sout0_D_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_D c (grid0.coords t) _ _ _ _ _ _ _ _ _ _ _ _ _ _ _ _ _ _ _ _ _ _ (condsD t h2 hlt).1 (condsD t h2 hlt).2.1 (condsD t h2 hlt).2.2.1 (condsD t h2 hlt).2.2.2.1 (condsD t h2 hlt).2.2.2.2 (iblk m c 0 t) (iblk m c 1 t) (iblk m c 2 t) (iblk m c 3 t) (iblk m c 4 t) (iblk m c 5 t) (iblk m c 6 t) (iblk m c 7 t) _ _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (scover0_D_0 c _ _ _ _ _ _ _ _ _ _ _ _ _ _ _ _ _ _ _ _ _ _ _ _ _ _ _ _ _ _ _ _ _ _ _ _ _ _)
      · unfold owns; iexists _; isplitr
        swap; · iexact HS1
        ipureintro; exact View.read_writes_of_cover _ _ _ _ _ (scover0_D_1 c _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- The body at the last point (case E): the inputs' memrefs hold their blocks; the invariant hands the body the two carried
    buffers at what the point before left, the run of the case applies, and the invariant takes them back at this point's contents; the output's buffer goes back at the case's contents. -/
theorem sound_body_E (c : Dev nD) (t : Fin cfg0.N) (h : t.val = 17) :
    bodyPre m c t ⊢ wp frame (wpE (defs₀ (F := F)) Variants.none c none) Set.univ (bodyAt0 t) (fun _ => bodyPost m c t) := by
  have hN : t.val < 18 := lt_of_lt_of_eq t.isLt N18
  have hz : t.val ≠ 0 := fun e => by omega
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [show (dats m 0 c).leavesExact 8 t = owns (c : Thread nD τ) (ms0_8 t) fullShare ((dats m 0 c).after 8 t) from by
    unfold Dat.leavesExact; rw [liveAt0_8_E t (condsE t h).1 (condsE t h).2.1 (condsE t h).2.2.1 (condsE t h).2.2.2.1 (condsE t h).2.2.2.2], after0_8]
  rw [outsAt0_E m c t h]
  unfold out0_E_8 sout0_E_0 sout0_E_1; (try dsimp only)
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_E c (grid0.coords t) _ _ _ _ _ _ _ _ _ _ _ _ _ _ _ _ _ _ _ _ _ _ (condsE t h).1 (condsE t h).2.1 (condsE t h).2.2.1 (condsE t h).2.2.2.1 (condsE t h).2.2.2.2 (iblk m c 0 t) (iblk m c 1 t) (iblk m c 2 t) (iblk m c 3 t) (iblk m c 4 t) (iblk m c 5 t) (iblk m c 6 t) (iblk m c 7 t) _ _).2.2.2 (iblk m c 0 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (scover0_E_0 c _ _ _ _ _ _ _ _ _ _ _ _ _ _ _ _ _ _ _ _ _ _ _ _ _ _ _ _ _ _ _ _ _ _ _ _ _ _)
      · unfold owns; iexists _; isplitr
        swap; · iexact HS1
        ipureintro; exact View.read_writes_of_cover _ _ _ _ _ (scover0_E_1 c _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_E_8 c _ _ _ _ _ _ _ _ _ _ _ _ _ _ _ _ _ _ _ _ _ _ _ _ _ _ _ _ _ _ _ _ _ _ _ _ _ _)

/-- The body at any point: the point is in one of the five cases. -/
theorem sound_body (c : Dev nD) (t : Fin cfg0.N) :
    bodyPre m c t ⊢ wp frame (wpE (defs₀ (F := F)) Variants.none c none) Set.univ (bodyAt0 t) (fun _ => bodyPost m c t) := by
  have hN : t.val < 18 := lt_of_lt_of_eq t.isLt N18
  by_cases hA : t.val = 0
  · exact sound_body_A m c t hA
  by_cases hE : t.val = 17
  · exact sound_body_E m c t hE
  by_cases h0 : t.val % 3 = 0
  · exact sound_body_B m c t h0 hA
  by_cases h1 : t.val % 3 = 1
  · exact sound_body_C m c t h1
  exact sound_body_D m c t (by omega) (by omega)

/-- The pipeline rule's obligation on the body, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the pipeline's own back: the carried buffers' named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 18 := N18; omega)

/-! ## The run and the frame -/

-- the pipeline's run rule at this kernel's proof data: termination, the arrays it computes, every other buffer untouched
set_option backward.isDefEq.respectTransparency.types false in
/-- At the compiled mesh, for any values, from any memory with zero counters: every weakly fair execution of the program
    on the TensorCores terminates, and every final state has every array of the pipeline at what the pipeline's rule gives
    from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program leaves each of its eight argument arrays as it found it, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.KI.Blocks.lean ====
/-
  What each input window's block holds at grid point t = 3 i + j, read off the argument arrays.

  The region stages the argument arrays after the host has re-laid them: the per-layer tables [6, 3, ...] become
  [18, ...] (row-major position unchanged, so table t = 3 i + j of the re-laid array is table (i, j) of the argument),
  the low-rank factor B is transposed first ([out, rank] to [rank, out]), and the normalisation parameters [5, 1024]
  get a unit axis.  Window w's block at point t is the slab with leading index t (the normalisations: min(i, 4)), so
  each block entry is one entry of an argument array.
-/
import proofs.«136264_j72249939853571_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The staged arrays as the host leaves them -/

theorem V_v0 (c : Dev nD) : (V m c main_v0 : S18x1024x1024.Idx → BitVec 32)
    = shapeCast S18x1024x1024 (m ((c : Thread nD τ).loc main_arg1)) shapeCasts_S6x3x1024x1024_S18x1024x1024 := by
  dsimp only [Gen.V, Gen.hostOps0]; after_results; rfl

theorem V_v1 (c : Dev nD) : (V m c main_v1 : S18x1024x64.Idx → EReal)
    = shapeCast S18x1024x64 (m ((c : Thread nD τ).loc main_arg2)) shapeCasts_S6x3x1024x64_S18x1024x64 := by
  dsimp only [Gen.V, Gen.hostOps0]; after_results; rfl

theorem V_v2 (c : Dev nD) : (V m c main_v2 : S18x1x1024.Idx → EReal)
    = shapeCast S18x1x1024 (m ((c : Thread nD τ).loc main_arg3)) shapeCasts_S6x3x1024_S18x1x1024 := by
  dsimp only [Gen.V, Gen.hostOps0]; after_results; rfl

theorem V_v3 (c : Dev nD) : (V m c main_v3 : S18x32x1024.Idx → EReal)
    = shapeCast S18x32x1024 (m ((c : Thread nD τ).loc main_arg4)) shapeCasts_S6x3x32x1024_S18x32x1024 := by
  dsimp only [Gen.V, Gen.hostOps0]; after_results; rfl

theorem V_v5 (c : Dev nD) : (V m c main_v5 : S18x32x1024.Idx → EReal)
    = shapeCast S18x32x1024 (transpose S6x3x32x1024 [0, 1, 3, 2] (m ((c : Thread nD τ).loc main_arg5)) transposes_S6x3x1024x32_S6x3x32x1024_0_1_3_2)
        shapeCasts_S6x3x32x1024_S18x32x1024 := by
  dsimp only [Gen.V, Gen.hostOps0]; after_results; rfl

theorem V_v6 (c : Dev nD) : (V m c main_v6 : S5x1x1024.Idx → EReal)
    = shapeCast S5x1x1024 (m ((c : Thread nD τ).loc main_arg6)) shapeCasts_S5x1024_S5x1x1024 := by
  dsimp only [Gen.V, Gen.hostOps0]; after_results; rfl

theorem V_v7 (c : Dev nD) : (V m c main_v7 : S5x1x1024.Idx → EReal)
    = shapeCast S5x1x1024 (m ((c : Thread nD τ).loc main_arg7)) shapeCasts_S5x1024_S5x1x1024 := by
  dsimp only [Gen.V, Gen.hostOps0]; after_results; rfl

/-! ## Where each window's block sits: the printed index maps over the eighteen points -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = min (t.val / 3) 4 ∧ win0_6.index t (1 : Fin 3) = 0 ∧ win0_6.index t (2 : Fin 3) = 0 :=
  (by decide +kernel : ∀ t : Fin grid0.N, _)
theorem idx7 : ∀ t : Fin cfg0.N, win0_7.index t (0 : Fin 3) = min (t.val / 3) 4 ∧ win0_7.index t (1 : Fin 3) = 0 ∧ win0_7.index t (2 : Fin 3) = 0 :=
  (by decide +kernel : ∀ t : Fin grid0.N, _)

/-! ## The blocks' entries -/

/-- The activation window holds the whole argument table at every point. -/
theorem blk0 (c : Dev nD) (t : Fin cfg0.N) (b k : Fin 1024) :
    iblk m c 0 t (ix2 b k) = m ((c : Thread nD τ).loc main_arg0) (ix2 b k) := by
  show V m c main_arg0 (((cfg0.win 0).blk t).view.emb (ix2 b k)) = _
  rw [V_main_arg0]
  refine congrArg _ (funext fun a => Fin.ext ?_)
  obtain ⟨e0, e1⟩ := idx0 t
  match a with
  | ⟨0, _⟩ => show win0_0.index t (0 : Fin 2) * 1024 + 1 * b.val = b.val; rw [e0]; omega
  | ⟨1, _⟩ => show win0_0.index t (1 : Fin 2) * 1024 + 1 * k.val = k.val; rw [e1]; omega

/-- The codes window at point 3 i + j holds the codes of layer (i, j). -/
theorem blk1 (c : Dev nD) (t : Fin cfg0.N) (i : Fin 6) (j : Fin 3) (ht : t.val = 3 * i.val + j.val) (o k : Fin 1024) :
    iblk m c 1 t (ix3 (0 : Fin 1) o k) = m ((c : Thread nD τ).loc main_arg1) (ix4 i j o k) := by
  show V m c main_v0 (((cfg0.win 1).blk t).view.emb (ix3 (0 : Fin 1) o k)) = _
  rw [V_v0]
  refine shapeCast_apply _ _ _ _ ?_
  obtain ⟨e0, e1, e2⟩ := idx1 t
  refine (Shape.rowMajor_val_four (d := ![6, 3, 1024, 1024]) (ix4 i j o k)).trans ?_
  refine Eq.trans ?_ (Shape.rowMajor_val_three (d := ![18, 1024, 1024]) _).symm
  show ((i.val * 3 + j.val) * 1024 + o.val) * 1024 + k.val
    = ((win0_1.index t (0 : Fin 3) * 1 + 1 * 0) * 1024 + (win0_1.index t (1 : Fin 3) * 1024 + 1 * o.val)) * 1024 + (win0_1.index t (2 : Fin 3) * 1024 + 1 * k.val)
  rw [e0, e1, e2, ht]
  omega

/-- The scales window at point 3 i + j holds the group scales of layer (i, j). -/
theorem blk2 (c : Dev nD) (t : Fin cfg0.N) (i : Fin 6) (j : Fin 3) (ht : t.val = 3 * i.val + j.val) (o : Fin 1024) (g : Fin 64) :
    iblk m c 2 t (ix3 (0 : Fin 1) o g) = m ((c : Thread nD τ).loc main_arg2) (ix4 i j o g) := by
  show V m c main_v1 (((cfg0.win 2).blk t).view.emb (ix3 (0 : Fin 1) o g)) = _
  rw [V_v1]
  refine shapeCast_apply _ _ _ _ ?_
  obtain ⟨e0, e1, e2⟩ := idx2 t
  refine (Shape.rowMajor_val_four (d := ![6, 3, 1024, 64]) (ix4 i j o g)).trans ?_
  refine Eq.trans ?_ (Shape.rowMajor_val_three (d := ![18, 1024, 64]) _).symm
  show ((i.val * 3 + j.val) * 1024 + o.val) * 64 + g.val
    = ((win0_2.index t (0 : Fin 3) * 1 + 1 * 0) * 1024 + (win0_2.index t (1 : Fin 3) * 1024 + 1 * o.val)) * 64 + (win0_2.index t (2 : Fin 3) * 64 + 1 * g.val)
  rw [e0, e1, e2, ht]
  omega

/-- The bias window at point 3 i + j holds the bias of layer (i, j). -/
theorem blk3 (c : Dev nD) (t : Fin cfg0.N) (i : Fin 6) (j : Fin 3) (ht : t.val = 3 * i.val + j.val) (o : Fin 1024) :
    iblk m c 3 t (ix3 (0 : Fin 1) (0 : Fin 1) o) = m ((c : Thread nD τ).loc main_arg3) (ix3 i j o) := by
  show V m c main_v2 (((cfg0.win 3).blk t).view.emb (ix3 (0 : Fin 1) (0 : Fin 1) o)) = _
  rw [V_v2]
  refine shapeCast_apply _ _ _ _ ?_
  obtain ⟨e0, e1, e2⟩ := idx3 t
  refine (Shape.rowMajor_val_three (d := ![6, 3, 1024]) (ix3 i j o)).trans ?_
  refine Eq.trans ?_ (Shape.rowMajor_val_three (d := ![18, 1, 1024]) _).symm
  show (i.val * 3 + j.val) * 1024 + o.val
    = ((win0_3.index t (0 : Fin 3) * 1 + 1 * 0) * 1 + (win0_3.index t (1 : Fin 3) * 1 + 1 * 0)) * 1024 + (win0_3.index t (2 : Fin 3) * 1024 + 1 * o.val)
  rw [e0, e1, e2, ht]
  omega

/-- The window of the low-rank factor A at point 3 i + j holds layer (i, j)'s. -/
theorem blk4 (c : Dev nD) (t : Fin cfg0.N) (i : Fin 6) (j : Fin 3) (ht : t.val = 3 * i.val + j.val) (r : Fin 32) (k : Fin 1024) :
    iblk m c 4 t (ix3 (0 : Fin 1) r k) = m ((c : Thread nD τ).loc main_arg4) (ix4 i j r k) := by
  show V m c main_v3 (((cfg0.win 4).blk t).view.emb (ix3 (0 : Fin 1) r k)) = _
  rw [V_v3]
  refine shapeCast_apply _ _ _ _ ?_
  obtain ⟨e0, e1, e2⟩ := idx4 t
  refine (Shape.rowMajor_val_four (d := ![6, 3, 32, 1024]) (ix4 i j r k)).trans ?_
  refine Eq.trans ?_ (Shape.rowMajor_val_three (d := ![18, 32, 1024]) _).symm
  show ((i.val * 3 + j.val) * 32 + r.val) * 1024 + k.val
    = ((win0_4.index t (0 : Fin 3) * 1 + 1 * 0) * 32 + (win0_4.index t (1 : Fin 3) * 32 + 1 * r.val)) * 1024 + (win0_4.index t (2 : Fin 3) * 1024 + 1 * k.val)
  rw [e0, e1, e2, ht]
  omega

/-- The window of the low-rank factor B at point 3 i + j holds layer (i, j)'s, transposed: entry (rank, out) of the
    block is entry (out, rank) of the argument. -/
theorem blk5 (c : Dev nD) (t : Fin cfg0.N) (i : Fin 6) (j : Fin 3) (ht : t.val = 3 * i.val + j.val) (r : Fin 32) (o : Fin 1024) :
    iblk m c 5 t (ix3 (0 : Fin 1) r o) = m ((c : Thread nD τ).loc main_arg5) (ix4 i j o r) := by
  show V m c main_v5 (((cfg0.win 5).blk t).view.emb (ix3 (0 : Fin 1) r o)) = _
  rw [V_v5]
  refine (shapeCast_apply _ _ _ (ix4 i j r o) ?_).trans ?_
  · obtain ⟨e0, e1, e2⟩ := idx5 t
    refine (Shape.rowMajor_val_four (d := ![6, 3, 32, 1024]) (ix4 i j r o)).trans ?_
    refine Eq.trans ?_ (Shape.rowMajor_val_three (d := ![18, 32, 1024]) _).symm
    show ((i.val * 3 + j.val) * 32 + r.val) * 1024 + o.val
      = ((win0_5.index t (0 : Fin 3) * 1 + 1 * 0) * 32 + (win0_5.index t (1 : Fin 3) * 32 + 1 * r.val)) * 1024 + (win0_5.index t (2 : Fin 3) * 1024 + 1 * o.val)
    rw [e0, e1, e2, ht]
    omega
  · refine transpose_apply _ _ _ _ (ix4 i j o r) ?_
    intro b
    match b with
    | ⟨0, _⟩ => rfl
    | ⟨1, _⟩ => rfl
    | ⟨2, _⟩ => rfl
    | ⟨3, _⟩ => rfl

/-- The normalisation's scale window at a point of block i < 5 holds row i of the argument. -/
theorem blk6 (c : Dev nD) (t : Fin cfg0.N) (i : Fin 5) (ht : t.val / 3 = i.val) (k : Fin 1024) :
    iblk m c 6 t (ix3 (0 : Fin 1) (0 : Fin 1) k) = m ((c : Thread nD τ).loc main_arg6) (ix2 i k) := by
  show V m c main_v6 (((cfg0.win 6).blk t).view.emb (ix3 (0 : Fin 1) (0 : Fin 1) k)) = _
  rw [V_v6]
  refine shapeCast_apply _ _ _ _ ?_
  obtain ⟨e0, e1, e2⟩ := idx6 t
  refine (Shape.rowMajor_val_two (d := ![5, 1024]) (ix2 i k)).trans ?_
  refine Eq.trans ?_ (Shape.rowMajor_val_three (d := ![5, 1, 1024]) _).symm
  show i.val * 1024 + k.val
    = ((win0_6.index t (0 : Fin 3) * 1 + 1 * 0) * 1 + (win0_6.index t (1 : Fin 3) * 1 + 1 * 0)) * 1024 + (win0_6.index t (2 : Fin 3) * 1024 + 1 * k.val)
  rw [e0, e1, e2, ht]
  have := i.isLt
  omega

/-- The normalisation's shift window at a point of block i < 5 holds row i of the argument. -/
theorem blk7 (c : Dev nD) (t : Fin cfg0.N) (i : Fin 5) (ht : t.val / 3 = i.val) (k : Fin 1024) :
    iblk m c 7 t (ix3 (0 : Fin 1) (0 : Fin 1) k) = m ((c : Thread nD τ).loc main_arg7) (ix2 i k) := by
  show V m c main_v7 (((cfg0.win 7).blk t).view.emb (ix3 (0 : Fin 1) (0 : Fin 1) k)) = _
  rw [V_v7]
  refine shapeCast_apply _ _ _ _ ?_
  obtain ⟨e0, e1, e2⟩ := idx7 t
  refine (Shape.rowMajor_val_two (d := ![5, 1024]) (ix2 i k)).trans ?_
  refine Eq.trans ?_ (Shape.rowMajor_val_three (d := ![5, 1, 1024]) _).symm
  show i.val * 1024 + k.val
    = ((win0_7.index t (0 : Fin 3) * 1 + 1 * 0) * 1 + (win0_7.index t (1 : Fin 3) * 1 + 1 * 0)) * 1024 + (win0_7.index t (2 : Fin 3) * 1024 + 1 * k.val)
  rw [e0, e1, e2, ht]
  have := i.isLt
  omega

end Cert.KernelIdeal.Blocks

end
-- ==== Proof.Spec.lean ====
/-
  The network both programs compute, entry by entry over the extended reals.

  One layer: the 4-bit weight table is W[o, k] = code[o, k] (a signed integer read as a real) times the scale of the
  group of sixteen input columns k belongs to; the layer sends an activation table r[b, k] to
      (sum_k r[b, k] * W[o, k] + bias[o]) + alpha * sum_rho (sum_k r[b, k] * la[rho, k]) * lb[o, rho],
  followed, for the first two layers of a block, by max(., 0).
  One block: three layers, then the block's input added back; after each of the first five blocks a row
  normalisation: centre the row by its mean, multiply by (mean of the squared centred row + eps)^(-1/2), scale by g and
  shift by be. The network is six blocks.  Sums are over the whole contracted axis in its natural order; every
  product keeps the operand order both programs use, so no commutation is needed to meet either side.
-/
import Idealize.ShloMosaic.PureOps.Ideal

noncomputable section

namespace Cert.Spec

open Idealize.ShloMosaic

/-- An activation table: batch row, feature column. -/
abbrev Act := Fin 1024 → Fin 1024 → EReal

/-- One layer's parameters, entry by entry. -/
structure LayerP where
  /-- integer codes, [output feature, input feature] -/
  code : Fin 1024 → Fin 1024 → BitVec 32
  /-- group scales, [output feature, group of 16 input features] -/
  scale : Fin 1024 → Fin 64 → EReal
  /-- bias, [output feature] -/
  bias : Fin 1024 → EReal
  /-- low-rank factor A, [rank, input feature] -/
  la : Fin 32 → Fin 1024 → EReal
  /-- low-rank factor B, [output feature, rank] -/
  lb : Fin 1024 → Fin 32 → EReal

/-- The group of sixteen input columns that column `k` belongs to. -/
def grp (k : Fin 1024) : Fin 64 := ⟨k.val / 16, by have := k.isLt; omega⟩

/-- The adapter's weight, the f32 nearest 0.0937 (the same word in both programs). -/
def alpha : EReal := Ideal.ofBits .f32 0x3DBFE5C9#32
/-- The normalisation's epsilon, the f32 nearest 1e-5 (the same word in both programs). -/
def eps : EReal := Ideal.ofBits .f32 0x3727C5AC#32
/-- The row length 1024 as a float. -/
def rowLen : EReal := Ideal.ofBits .f32 0x44800000#32

/-- The dequantised weight W[o, k]. -/
def weight (p : LayerP) (o k : Fin 1024) : EReal := ((((p.code o k).toInt : ℝ)) : EReal) * p.scale o (grp k)

/-- sum_k r[b, k] * W[o, k] -/
def base (p : LayerP) (r : Act) (b o : Fin 1024) : EReal := ∑ k : Fin 1024, r b k * weight p o k
/-- sum_k r[b, k] * la[rho, k] -/
def mid (p : LayerP) (r : Act) (b : Fin 1024) (ρ : Fin 32) : EReal := ∑ k : Fin 1024, r b k * p.la ρ k
/-- sum_rho mid[b, rho] * lb[o, rho] -/
def lora (p : LayerP) (r : Act) (b o : Fin 1024) : EReal := ∑ ρ : Fin 32, mid p r b ρ * p.lb o ρ
/-- The layer before its activation. -/
def pre (p : LayerP) (r : Act) (b o : Fin 1024) : EReal := (base p r b o + p.bias o) + alpha * lora p r b o
/-- The layer: with `relu` the positive part of `pre`, else `pre`. -/
def layer (relu : Bool) (p : LayerP) (r : Act) : Act := fun b o => if relu then max (pre p r b o) 0 else pre p r b o

/-- The mean of row `b`. -/
def mean (h : Act) (b : Fin 1024) : EReal := Ideal.div (∑ k : Fin 1024, h b k) rowLen
/-- Row `b` centred. -/
def centred (h : Act) (b k : Fin 1024) : EReal := h b k - mean h b
/-- The mean of the squared centred row. -/
def variance (h : Act) (b : Fin 1024) : EReal := Ideal.div (∑ k : Fin 1024, centred h b k * centred h b k) rowLen
/-- The row normalisation with scale `g` and shift `be`. -/
def norm (g be : Fin 1024 → EReal) (h : Act) : Act :=
  fun b k => (centred h b k * Ideal.rsqrt (variance h b + eps)) * g k + be k

/-- The whole network's parameters. -/
structure NetP where
  x : Act
  lay : Fin 6 → Fin 3 → LayerP
  g : Fin 5 → Fin 1024 → EReal
  be : Fin 5 → Fin 1024 → EReal

/-- Block `i` before its normalisation: three layers (the first two with the positive part), plus the block's input. -/
def resid (P : NetP) (i : Fin 6) (h : Act) : Act :=
  fun b k => layer false (P.lay i 2) (layer true (P.lay i 1) (layer true (P.lay i 0) h)) b k + h b k

/-- The residual stream after `n` blocks (blocks past the sixth change nothing). -/
def stream (P : NetP) : ℕ → Act
  | 0 => P.x
  | n + 1 =>
    if h5 : n < 5 then norm (P.g ⟨n, h5⟩) (P.be ⟨n, h5⟩) (resid P ⟨n, by omega⟩ (stream P n))
    else if h6 : n < 6 then resid P ⟨n, h6⟩ (stream P n)
    else stream P n

/-- The network's result. -/
def net (P : NetP) : Act := stream P 6

end Cert.Spec

end
-- ==== Proof.KI.LayerMatmul.lean ====
/-
  Matrix products into a zero accumulator, read at an entry as the finite sum over the contracted coordinate.
  Two arrangements occur: the right factor stored by rows of the contracted axis (both factors contracted on
  their second axis), and the plain one (left second axis against right first axis).
-/
import Idealize.ShloMosaic.PureOps.Ideal.Laws
import Idealize.ShloMosaic.Lib.ValueIdx

noncomputable section

open scoped BigOperators

namespace Cert.KernelIdeal.LayerValue

open Idealize.ShloMosaic Idealize.ShloMosaic.ValueIdx

/-- Both factors contracted on their second axis: entry (a, b) is the sum over c of A[a, c] * B[b, c]. -/
theorem matmul_rows_zero_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The plain product: entry (a, b) is the sum over c of A[a, c] * B[c, b]. -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.LayerValue

end
-- ==== Proof.KI.LayerBlock.lean ====
/-
  One column block of the layer as the kernel computes it, entry by entry.

  A column block covers 128 output features. Its weight rows are the integer codes read as reals, each times the
  scale of its group of sixteen input columns; the base product is the activation row against a weight row; the
  rank-32 factor is the activation row against a row of the first adapter matrix; the adapter product is that factor
  against a column of the second adapter matrix's block. The block then adds the bias row's slice, adds the adapter
  product with its weight, and takes the positive part where the flag is set. The eight blocks differ only in the
  slice's offset, so the arithmetic is stated once, at any offset, and identified with the specification's layer.
-/
import proofs.«136264_j72249939853571_2_alg».proof.Proof.Gen.KernelIdeal.Skeleton
import proofs.«136264_j72249939853571_2_alg».proof.Proof.Spec
import proofs.«136264_j72249939853571_2_alg».proof.Proof.KI.LayerMatmul
import Idealize.ShloMosaic.Lib.Pipeline.Value

noncomputable section

open scoped BigOperators

namespace Cert.KernelIdeal.LayerValue

open Idealize.ShloMosaic Idealize.ShloMosaic.ValueIdx Cert.KernelIdeal Cert.KernelIdeal.Gen

/-! ## The dequantised weight rows of one column block -/

/-- The scaled codes at (q, g, l): the code of input column 16 g + l read as a real, times the scale of group g. -/
theorem scaled_codes_apply (vc : Vec Ideal S1x128x1024 .i32) (vs : Vec Ideal S1x128x64 .f32)
    (q : Fin 128) (g : Fin 64) (l : Fin 16) (k : Fin 1024) (hk : k.val = 16 * g.val + l.val) :
    k0_pay22 (F := Ideal) vc vs (ix3 q g l)
      = (((vc (ix3 (0 : Fin 1) q k)).toInt : ℝ) : EReal) * vs (ix3 (0 : Fin 1) q g) := by
  have e1 : shapeCast S128x64x16 (sitofp (F := Ideal) .f32 (shapeCast S128x1024 vc shapeCasts_S1x128x1024_S128x1024))
        shapeCasts_S128x1024_S128x64x16 (ix3 q g l) = (((vc (ix3 (0 : Fin 1) q k)).toInt : ℝ) : EReal) :=
    (shapeCast_apply _ _ (ix3 q g l) (ix2 q k) (by
      rw [Shape.rowMajor_val_two, Shape.rowMajor_val_three]
      show q.val * 1024 + k.val = (q.val * 64 + g.val) * 16 + l.val
      omega)).trans
    (congrArg (fun x : BitVec 32 => (((x.toInt : ℝ)) : EReal))
      (shapeCast_apply vc _ (ix2 q k) (ix3 (0 : Fin 1) q k) (by
        rw [Shape.rowMajor_val_two, Shape.rowMajor_val_three]
        show ((0 : Fin 1).val * 128 + q.val) * 1024 + k.val = q.val * 1024 + k.val
        simp)))
  have e2 : broadcastTo S128x64x16 (shapeCast S128x64x1 (shapeCast S128x64 vs shapeCasts_S1x128x64_S128x64)
        shapeCasts_S128x64_S128x64x1) broadcasts_S128x64x1_S128x64x16 (ix3 q g l) = vs (ix3 (0 : Fin 1) q g) :=
    (broadcastTo_apply _ _ (ix3 q g l) (ix3 q g (0 : Fin 1)) (fun a => by
      match a with
      | ⟨0, _⟩ => rfl
      | ⟨1, _⟩ => rfl
      | ⟨2, _⟩ => rfl)).trans
    ((shapeCast_apply _ _ (ix3 q g (0 : Fin 1)) (ix2 q g) (by
      rw [Shape.rowMajor_val_two, Shape.rowMajor_val_three]
      show q.val * 64 + g.val = (q.val * 64 + g.val) * 1 + (0 : Fin 1).val
      simp)).trans
    (shapeCast_apply vs _ (ix2 q g) (ix3 (0 : Fin 1) q g) (by
      rw [Shape.rowMajor_val_two, Shape.rowMajor_val_three]
      show ((0 : Fin 1).val * 128 + q.val) * 64 + g.val = q.val * 64 + g.val
      simp)))
  unfold k0_pay22
  exact (mulf_apply _ _ _).trans (congrArg₂ (fun x y : EReal => x * y) e1 e2)

/-- The weight rows at (q, k): the code read as a real, times the scale of k's group of sixteen. -/
theorem weight_rows_apply (vc : Vec Ideal S1x128x1024 .i32) (vs : Vec Ideal S1x128x64 .f32) (q : Fin 128) (k : Fin 1024) :
    (shapeCast S128x1024 (truncf (F := Ideal) .bf16 (k0_pay22 (F := Ideal) vc vs) bitsLt_bf16_f32)
        shapeCasts_S128x64x16_S128x1024 : FVec Ideal S128x1024 .bf16) (ix2 q k)
      = (((vc (ix3 (0 : Fin 1) q k)).toInt : ℝ) : EReal) * vs (ix3 (0 : Fin 1) q (Cert.Spec.grp k)) :=
  (shapeCast_apply _ _ (ix2 q k)
      (ix3 q (Cert.Spec.grp k) (⟨k.val % 16, Nat.mod_lt _ (by decide)⟩ : Fin 16)) (by
    rw [Shape.rowMajor_val_two, Shape.rowMajor_val_three]
    show (q.val * 64 + k.val / 16) * 16 + k.val % 16 = q.val * 1024 + k.val
    omega)).trans
  (scaled_codes_apply vc vs q (Cert.Spec.grp k) ⟨k.val % 16, Nat.mod_lt _ (by decide)⟩ k (by
    show k.val = 16 * (k.val / 16) + k.val % 16
    omega))

/-! ## The three products -/

/-- The base product of one column block at (b, q): the activation row against the weight row. -/
theorem base_apply (v9 : FVec Ideal S1024x1024 .bf16) (vc : Vec Ideal S1x128x1024 .i32) (vs : Vec Ideal S1x128x64 .f32)
    (b : Fin 1024) (q : Fin 128) :
    k0_pay17 (F := Ideal) v9 vc vs (ix2 b q)
      = ∑ k : Fin 1024, v9 (ix2 b k)
          * ((((vc (ix3 (0 : Fin 1) q k)).toInt : ℝ) : EReal) * vs (ix3 (0 : Fin 1) q (Cert.Spec.grp k))) := by
  unfold k0_pay17
  refine (matmul_rows_zero_apply dot_S1024x1024_S128x1024_S1024x128_1_1_0_0_n_n_wf none v9 _ b q).trans ?_
  exact Finset.sum_congr rfl fun k _ => congrArg (fun y : EReal => v9 (ix2 b k) * y) (weight_rows_apply vc vs q k)

/-- The rank-32 factor at (b, ρ): the activation row against row ρ of the first adapter matrix. -/
theorem mid_apply (v8 : Vec Ideal S1024x1024 .f32) (v10 : Vec Ideal S1x32x1024 .f32) (b : Fin 1024) (ρ : Fin 32) :
    k0_pay7 (F := Ideal) v8 v10 (ix2 b ρ) = ∑ k : Fin 1024, v8 (ix2 b k) * v10 (ix3 (0 : Fin 1) ρ k) := by
  unfold k0_pay7 k0_pay6
  refine (matmul_rows_zero_apply dot_S1024x1024_S32x1024_S1024x32_1_1_0_0_n_n_wf none
    (truncf (F := Ideal) .bf16 v8 bitsLt_bf16_f32) _ b ρ).trans ?_
  exact Finset.sum_congr rfl fun k _ => congrArg (fun y : EReal => v8 (ix2 b k) * y)
    (shapeCast_apply v10 _ (ix2 ρ k) (ix3 (0 : Fin 1) ρ k) (by
      rw [Shape.rowMajor_val_two, Shape.rowMajor_val_three]
      show ((0 : Fin 1).val * 32 + ρ.val) * 1024 + k.val = ρ.val * 1024 + k.val
      simp))

/-- The adapter product of one column block at (b, q): the rank-32 factor against column q of the second adapter
    matrix's block. -/
theorem lora_apply (v14 : FVec Ideal S1024x32 .bf16) (vl : Vec Ideal S1x32x128 .f32) (b : Fin 1024) (q : Fin 128) :
    k0_pay18 (F := Ideal) v14 vl (ix2 b q) = ∑ ρ : Fin 32, v14 (ix2 b ρ) * vl (ix3 (0 : Fin 1) ρ q) := by
  unfold k0_pay18
  refine (matmul_plain_zero_apply dot_S1024x32_S32x128_S1024x128_1_0_0_1_n_n_wf none v14 _ b q).trans ?_
  exact Finset.sum_congr rfl fun ρ _ => congrArg (fun y : EReal => v14 (ix2 b ρ) * y)
    (shapeCast_apply vl _ (ix2 ρ q) (ix3 (0 : Fin 1) ρ q) (by
      rw [Shape.rowMajor_val_two, Shape.rowMajor_val_three]
      show ((0 : Fin 1).val * 32 + ρ.val) * 128 + q.val = ρ.val * 128 + q.val
      simp))

/-- The bias row at column o. -/
theorem bias_row_apply (v15 : Vec Ideal S1x1x1024 .f32) (o : Fin 1024) :
    k0_pay8 (F := Ideal) v15 (ix2 (0 : Fin 1) o) = v15 (ix3 (0 : Fin 1) (0 : Fin 1) o) := by
  unfold k0_pay8
  exact shapeCast_apply v15 _ (ix2 (0 : Fin 1) o) (ix3 (0 : Fin 1) (0 : Fin 1) o) (by
    rw [Shape.rowMajor_val_two, Shape.rowMajor_val_three]
    show ((0 : Fin 1).val * 1 + (0 : Fin 1).val) * 1024 + o.val = (0 : Fin 1).val * 1024 + o.val
    simp)

/-! ## The finishing arithmetic, at any column offset -/

/-- What every column block does with its two products: the bias row's slice added to the base product, the adapter
    product added with its weight, and the positive part where the flag is set. -/
def finish (off : Fin 2 → Nat) (hs : S1x1024.Slices off S1x128) (v16 : FVec Ideal S1x1024 .f32) (v17 : BitVec 1)
    (m l : FVec Ideal S1024x128 .f32) : FVec Ideal S1024x128 .f32 :=
  shapeCast S1024x128
    (Scalar.select v17
      (maximumf
        (addf (addf m (broadcastTo S1024x128 (extractStridedSlice S1x128 off v16 hs) broadcasts_S1x128_S1024x128))
          (mulf (broadcast S1024x128 (Scalar.ofBits (F := Ideal) .f32 0x3DBFE5C9#32)) l))
        (broadcast S1024x128 (Scalar.ofBits (F := Ideal) .f32 0x00000000#32)))
      (addf (addf m (broadcastTo S1024x128 (extractStridedSlice S1x128 off v16 hs) broadcasts_S1x128_S1024x128))
        (mulf (broadcast S1024x128 (Scalar.ofBits (F := Ideal) .f32 0x3DBFE5C9#32)) l)))
    shapeCasts_S1024x128_S1024x128

/-- Read at (b, q), with o the column of the bias row the slice's offset sends q to. -/
theorem finish_apply (off : Fin 2 → Nat) (hs : S1x1024.Slices off S1x128) (v16 : FVec Ideal S1x1024 .f32) (v17 : BitVec 1)
    (m l : FVec Ideal S1024x128 .f32) (b : Fin 1024) (q : Fin 128) (o : Fin 1024)
    (h0 : off 0 = 0) (ho : o.val = off 1 + q.val) :
    finish off hs v16 v17 m l (ix2 b q)
      = if v17 = 1#1 then max ((m (ix2 b q) + v16 (ix2 (0 : Fin 1) o)) + Cert.Spec.alpha * l (ix2 b q)) 0
        else (m (ix2 b q) + v16 (ix2 (0 : Fin 1) o)) + Cert.Spec.alpha * l (ix2 b q) := by
  have eb : broadcastTo S1024x128 (extractStridedSlice S1x128 off v16 hs) broadcasts_S1x128_S1024x128 (ix2 b q)
      = v16 (ix2 (0 : Fin 1) o) :=
    (broadcastTo_apply _ _ (ix2 b q) (ix2 (0 : Fin 1) q) (fun a => by
      match a with
      | ⟨0, _⟩ => rfl
      | ⟨1, _⟩ => rfl)).trans
    (extractStridedSlice_apply off v16 hs (ix2 (0 : Fin 1) q) (ix2 (0 : Fin 1) o) (fun a => by
      match a with
      | ⟨0, _⟩ => exact (Nat.add_zero _).symm.trans (congrArg (· + 0) h0.symm)
      | ⟨1, _⟩ => exact ho))
  have ey : addf (addf m (broadcastTo S1024x128 (extractStridedSlice S1x128 off v16 hs) broadcasts_S1x128_S1024x128))
        (mulf (broadcast S1024x128 (Scalar.ofBits (F := Ideal) .f32 0x3DBFE5C9#32)) l) (ix2 b q)
      = (m (ix2 b q) + v16 (ix2 (0 : Fin 1) o)) + Cert.Spec.alpha * l (ix2 b q) :=
    congrArg (fun y : EReal => (m (ix2 b q) + y) + Cert.Spec.alpha * l (ix2 b q)) eb
  by_cases h : v17 = 1#1
  · refine Eq.trans ?_ (if_pos h).symm
    subst h
    unfold finish
    exact (congrFun (shapeCast_self _ _) (ix2 b q)).trans
      ((congrFun (select_one _ _) (ix2 b q)).trans
        (congrArg₂ (fun x y : EReal => max x y) ey Ideal.ofBits_zero_f32))
  · refine Eq.trans ?_ (if_neg h).symm
    have hz := eq_zero_of_ne_one h
    subst hz
    unfold finish
    exact (congrFun (shapeCast_self _ _) (ix2 b q)).trans ((congrFun (select_zero _ _) (ix2 b q)).trans ey)

/-! ## One column block is the specification's layer on its 128 columns -/

/-- The block of columns c0 … c0 + 127: the kernel's value at (b, q) is the specification's layer at (b, c0 + q),
    given that the loaded vectors are the layer's activations and parameters entry by entry. -/
theorem block_apply (off : Fin 2 → Nat) (hs : S1x1024.Slices off S1x128) (c0 : Nat) (hc0 : c0 + 128 ≤ 1024)
    (h0 : off 0 = 0) (h1 : off 1 = c0) (p : Cert.Spec.LayerP) (r : Cert.Spec.Act)
    (v8 : Vec Ideal S1024x1024 .f32) (v10 : Vec Ideal S1x32x1024 .f32) (v15 : Vec Ideal S1x1x1024 .f32) (v17 : BitVec 1)
    (vc : Vec Ideal S1x128x1024 .i32) (vs : Vec Ideal S1x128x64 .f32) (vl : Vec Ideal S1x32x128 .f32)
    (hr : ∀ (b k : Fin 1024), v8 (ix2 b k) = r b k)
    (hla : ∀ (ρ : Fin 32) (k : Fin 1024), v10 (ix3 (0 : Fin 1) ρ k) = p.la ρ k)
    (hb : ∀ o : Fin 1024, v15 (ix3 (0 : Fin 1) (0 : Fin 1) o) = p.bias o)
    (hc : ∀ (q : Fin 128) (k : Fin 1024),
      vc (ix3 (0 : Fin 1) q k) = p.code ⟨c0 + q.val, by have := q.isLt; omega⟩ k)
    (hsc : ∀ (q : Fin 128) (g : Fin 64),
      vs (ix3 (0 : Fin 1) q g) = p.scale ⟨c0 + q.val, by have := q.isLt; omega⟩ g)
    (hl : ∀ (ρ : Fin 32) (q : Fin 128),
      vl (ix3 (0 : Fin 1) ρ q) = p.lb ⟨c0 + q.val, by have := q.isLt; omega⟩ ρ)
    (b : Fin 1024) (q : Fin 128) :
    finish off hs (k0_pay8 (F := Ideal) v15) v17 (k0_pay17 (F := Ideal) (k0_pay6 (F := Ideal) v8) vc vs)
        (k0_pay18 (F := Ideal) (k0_pay7 (F := Ideal) v8 v10) vl) (ix2 b q)
      = Cert.Spec.layer (decide (v17 = 1#1)) p r b ⟨c0 + q.val, by have := q.isLt; omega⟩ := by
  have hbase : k0_pay17 (F := Ideal) (k0_pay6 (F := Ideal) v8) vc vs (ix2 b q)
      = Cert.Spec.base p r b ⟨c0 + q.val, by have := q.isLt; omega⟩ :=
    (base_apply _ vc vs b q).trans (Finset.sum_congr rfl fun k _ =>
      congrArg₂ (fun x y : EReal => x * y) (hr b k)
        (congrArg₂ (fun (x : BitVec 32) (y : EReal) => (((x.toInt : ℝ)) : EReal) * y) (hc q k) (hsc q (Cert.Spec.grp k))))
  have hmid : ∀ ρ : Fin 32, k0_pay7 (F := Ideal) v8 v10 (ix2 b ρ) = Cert.Spec.mid p r b ρ := fun ρ =>
    (mid_apply v8 v10 b ρ).trans (Finset.sum_congr rfl fun k _ =>
      congrArg₂ (fun x y : EReal => x * y) (hr b k) (hla ρ k))
  have hlora : k0_pay18 (F := Ideal) (k0_pay7 (F := Ideal) v8 v10) vl (ix2 b q)
      = Cert.Spec.lora p r b ⟨c0 + q.val, by have := q.isLt; omega⟩ :=
    (lora_apply _ vl b q).trans (Finset.sum_congr rfl fun ρ _ =>
      congrArg₂ (fun x y : EReal => x * y) (hmid ρ) (hl ρ q))
  have hbias : k0_pay8 (F := Ideal) v15 (ix2 (0 : Fin 1) (⟨c0 + q.val, by have := q.isLt; omega⟩ : Fin 1024))
      = p.bias ⟨c0 + q.val, by have := q.isLt; omega⟩ :=
    (bias_row_apply v15 _).trans (hb _)
  refine (finish_apply off hs _ v17 _ _ b q ⟨c0 + q.val, by have := q.isLt; omega⟩ h0
    (congrArg (· + q.val) h1.symm)).trans ?_
  rw [hbase, hlora, hbias]
  rcases BitVec.eq_zero_or_eq_one v17 with h | h <;> subst h <;> rfl

end Cert.KernelIdeal.LayerValue

end
-- ==== Proof.KI.Layer.lean ====
/-
  The eight column blocks the kernel stores at every grid point are the specification's layer, 128 columns each.

  Each stored value is the same arithmetic cut at a different place between the loads; unfolding the cuts shows it is
  the finishing arithmetic at the block's offset applied to the block's base and adapter products, and the generic
  block lemma identifies that with the layer on columns 128 c … 128 c + 127.
-/
import proofs.«136264_j72249939853571_2_alg».proof.Proof.KI.LayerBlock

noncomputable section

open scoped BigOperators

namespace Cert.KernelIdeal.LayerValue

open Idealize.ShloMosaic Idealize.ShloMosaic.ValueIdx Cert.KernelIdeal Cert.KernelIdeal.Gen

section Blocks

variable (p : Cert.Spec.LayerP) (r : Cert.Spec.Act)
  (v8 : Vec Ideal S1024x1024 .f32) (v10 : Vec Ideal S1x32x1024 .f32) (v15 : Vec Ideal S1x1x1024 .f32) (v17 : BitVec 1)
  (vc : Vec Ideal S1x128x1024 .i32) (vs : Vec Ideal S1x128x64 .f32) (vl : Vec Ideal S1x32x128 .f32)

/-- Column block 0: the stored value is the finishing arithmetic at offset 0 of the block's two products. -/
theorem stored0_eq :
    k0_pay10 (F := Ideal) (k0_pay7 (F := Ideal) v8 v10) (k0_pay8 (F := Ideal) v15) v17 (k0_pay9 (F := Ideal) v8 vc vs) vl
      = finish ![0, 0] slices_S1x1024_o0_0_S1x128 (k0_pay8 (F := Ideal) v15) v17
          (k0_pay17 (F := Ideal) (k0_pay6 (F := Ideal) v8) vc vs) (k0_pay18 (F := Ideal) (k0_pay7 (F := Ideal) v8 v10) vl) := rfl

/-- Column block 0 at (b, q) is the layer at (b, 0 + q). -/
theorem block0_apply
    (hr : ∀ (b k : Fin 1024), v8 (ix2 b k) = r b k)
    (hla : ∀ (ρ : Fin 32) (k : Fin 1024), v10 (ix3 (0 : Fin 1) ρ k) = p.la ρ k)
    (hb : ∀ o : Fin 1024, v15 (ix3 (0 : Fin 1) (0 : Fin 1) o) = p.bias o)
    (hc : ∀ (q : Fin 128) (k : Fin 1024), vc (ix3 (0 : Fin 1) q k) = p.code ⟨0 + q.val, by have := q.isLt; omega⟩ k)
    (hsc : ∀ (q : Fin 128) (g : Fin 64), vs (ix3 (0 : Fin 1) q g) = p.scale ⟨0 + q.val, by have := q.isLt; omega⟩ g)
    (hl : ∀ (ρ : Fin 32) (q : Fin 128), vl (ix3 (0 : Fin 1) ρ q) = p.lb ⟨0 + q.val, by have := q.isLt; omega⟩ ρ)
    (b : Fin 1024) (q : Fin 128) :
    (k0_pay10 (F := Ideal) (k0_pay7 (F := Ideal) v8 v10) (k0_pay8 (F := Ideal) v15) v17 (k0_pay9 (F := Ideal) v8 vc vs) vl) (ix2 b q)
      = Cert.Spec.layer (decide (v17 = 1#1)) p r b ⟨0 + q.val, by have := q.isLt; omega⟩ :=
  (congrFun (stored0_eq v8 v10 v15 v17 vc vs vl) (ix2 b q)).trans
    (block_apply ![0, 0] slices_S1x1024_o0_0_S1x128 0 (by decide) rfl rfl p r v8 v10 v15 v17 vc vs vl
      hr hla hb hc hsc hl b q)

/-- Column block 1: the stored value is the finishing arithmetic at offset 128 of the block's two products. -/
theorem stored1_eq :
    k0_pay12 (F := Ideal) (k0_pay11 (F := Ideal) (k0_pay6 (F := Ideal) v8) (k0_pay7 (F := Ideal) v8 v10) (k0_pay8 (F := Ideal) v15) v17 vc vs vl)
      = finish ![0, 128] slices_S1x1024_o0_128_S1x128 (k0_pay8 (F := Ideal) v15) v17
          (k0_pay17 (F := Ideal) (k0_pay6 (F := Ideal) v8) vc vs) (k0_pay18 (F := Ideal) (k0_pay7 (F := Ideal) v8 v10) vl) := rfl

/-- Column block 1 at (b, q) is the layer at (b, 128 + q). -/
theorem block1_apply
    (hr : ∀ (b k : Fin 1024), v8 (ix2 b k) = r b k)
    (hla : ∀ (ρ : Fin 32) (k : Fin 1024), v10 (ix3 (0 : Fin 1) ρ k) = p.la ρ k)
    (hb : ∀ o : Fin 1024, v15 (ix3 (0 : Fin 1) (0 : Fin 1) o) = p.bias o)
    (hc : ∀ (q : Fin 128) (k : Fin 1024), vc (ix3 (0 : Fin 1) q k) = p.code ⟨128 + q.val, by have := q.isLt; omega⟩ k)
    (hsc : ∀ (q : Fin 128) (g : Fin 64), vs (ix3 (0 : Fin 1) q g) = p.scale ⟨128 + q.val, by have := q.isLt; omega⟩ g)
    (hl : ∀ (ρ : Fin 32) (q : Fin 128), vl (ix3 (0 : Fin 1) ρ q) = p.lb ⟨128 + q.val, by have := q.isLt; omega⟩ ρ)
    (b : Fin 1024) (q : Fin 128) :
    (k0_pay12 (F := Ideal) (k0_pay11 (F := Ideal) (k0_pay6 (F := Ideal) v8) (k0_pay7 (F := Ideal) v8 v10) (k0_pay8 (F := Ideal) v15) v17 vc vs vl)) (ix2 b q)
      = Cert.Spec.layer (decide (v17 = 1#1)) p r b ⟨128 + q.val, by have := q.isLt; omega⟩ :=
  (congrFun (stored1_eq v8 v10 v15 v17 vc vs vl) (ix2 b q)).trans
    (block_apply ![0, 128] slices_S1x1024_o0_128_S1x128 128 (by decide) rfl rfl p r v8 v10 v15 v17 vc vs vl
      hr hla hb hc hsc hl b q)

/-- Column block 2: the stored value is the finishing arithmetic at offset 256 of the block's two products. -/
theorem stored2_eq :
    k0_pay13 (F := Ideal) (k0_pay6 (F := Ideal) v8) (k0_pay7 (F := Ideal) v8 v10) (k0_pay8 (F := Ideal) v15) v17 vc vs vl
      = finish ![0, 256] slices_S1x1024_o0_256_S1x128 (k0_pay8 (F := Ideal) v15) v17
          (k0_pay17 (F := Ideal) (k0_pay6 (F := Ideal) v8) vc vs) (k0_pay18 (F := Ideal) (k0_pay7 (F := Ideal) v8 v10) vl) := rfl

/-- Column block 2 at (b, q) is the layer at (b, 256 + q). -/
theorem block2_apply
    (hr : ∀ (b k : Fin 1024), v8 (ix2 b k) = r b k)
    (hla : ∀ (ρ : Fin 32) (k : Fin 1024), v10 (ix3 (0 : Fin 1) ρ k) = p.la ρ k)
    (hb : ∀ o : Fin 1024, v15 (ix3 (0 : Fin 1) (0 : Fin 1) o) = p.bias o)
    (hc : ∀ (q : Fin 128) (k : Fin 1024), vc (ix3 (0 : Fin 1) q k) = p.code ⟨256 + q.val, by have := q.isLt; omega⟩ k)
    (hsc : ∀ (q : Fin 128) (g : Fin 64), vs (ix3 (0 : Fin 1) q g) = p.scale ⟨256 + q.val, by have := q.isLt; omega⟩ g)
    (hl : ∀ (ρ : Fin 32) (q : Fin 128), vl (ix3 (0 : Fin 1) ρ q) = p.lb ⟨256 + q.val, by have := q.isLt; omega⟩ ρ)
    (b : Fin 1024) (q : Fin 128) :
    (k0_pay13 (F := Ideal) (k0_pay6 (F := Ideal) v8) (k0_pay7 (F := Ideal) v8 v10) (k0_pay8 (F := Ideal) v15) v17 vc vs vl) (ix2 b q)
      = Cert.Spec.layer (decide (v17 = 1#1)) p r b ⟨256 + q.val, by have := q.isLt; omega⟩ :=
  (congrFun (stored2_eq v8 v10 v15 v17 vc vs vl) (ix2 b q)).trans
    (block_apply ![0, 256] slices_S1x1024_o0_256_S1x128 256 (by decide) rfl rfl p r v8 v10 v15 v17 vc vs vl
      hr hla hb hc hsc hl b q)

/-- Column block 3: the stored value is the finishing arithmetic at offset 384 of the block's two products. -/
theorem stored3_eq :
    k0_pay16 (F := Ideal) (k0_pay6 (F := Ideal) v8) (k0_pay7 (F := Ideal) v8 v10) (k0_pay8 (F := Ideal) v15) v17 (k0_pay14 (F := Ideal) vs) (k0_pay15 (F := Ideal) vc) vl
      = finish ![0, 384] slices_S1x1024_o0_384_S1x128 (k0_pay8 (F := Ideal) v15) v17
          (k0_pay17 (F := Ideal) (k0_pay6 (F := Ideal) v8) vc vs) (k0_pay18 (F := Ideal) (k0_pay7 (F := Ideal) v8 v10) vl) := rfl

/-- Column block 3 at (b, q) is the layer at (b, 384 + q). -/
theorem block3_apply
    (hr : ∀ (b k : Fin 1024), v8 (ix2 b k) = r b k)
    (hla : ∀ (ρ : Fin 32) (k : Fin 1024), v10 (ix3 (0 : Fin 1) ρ k) = p.la ρ k)
    (hb : ∀ o : Fin 1024, v15 (ix3 (0 : Fin 1) (0 : Fin 1) o) = p.bias o)
    (hc : ∀ (q : Fin 128) (k : Fin 1024), vc (ix3 (0 : Fin 1) q k) = p.code ⟨384 + q.val, by have := q.isLt; omega⟩ k)
    (hsc : ∀ (q : Fin 128) (g : Fin 64), vs (ix3 (0 : Fin 1) q g) = p.scale ⟨384 + q.val, by have := q.isLt; omega⟩ g)
    (hl : ∀ (ρ : Fin 32) (q : Fin 128), vl (ix3 (0 : Fin 1) ρ q) = p.lb ⟨384 + q.val, by have := q.isLt; omega⟩ ρ)
    (b : Fin 1024) (q : Fin 128) :
    (k0_pay16 (F := Ideal) (k0_pay6 (F := Ideal) v8) (k0_pay7 (F := Ideal) v8 v10) (k0_pay8 (F := Ideal) v15) v17 (k0_pay14 (F := Ideal) vs) (k0_pay15 (F := Ideal) vc) vl) (ix2 b q)
      = Cert.Spec.layer (decide (v17 = 1#1)) p r b ⟨384 + q.val, by have := q.isLt; omega⟩ :=
  (congrFun (stored3_eq v8 v10 v15 v17 vc vs vl) (ix2 b q)).trans
    (block_apply ![0, 384] slices_S1x1024_o0_384_S1x128 384 (by decide) rfl rfl p r v8 v10 v15 v17 vc vs vl
      hr hla hb hc hsc hl b q)

/-- Column block 4: the stored value is the finishing arithmetic at offset 512 of the block's two products. -/
theorem stored4_eq :
    k0_pay19 (F := Ideal) (k0_pay8 (F := Ideal) v15) v17 (k0_pay17 (F := Ideal) (k0_pay6 (F := Ideal) v8) vc vs) (k0_pay18 (F := Ideal) (k0_pay7 (F := Ideal) v8 v10) vl)
      = finish ![0, 512] slices_S1x1024_o0_512_S1x128 (k0_pay8 (F := Ideal) v15) v17
          (k0_pay17 (F := Ideal) (k0_pay6 (F := Ideal) v8) vc vs) (k0_pay18 (F := Ideal) (k0_pay7 (F := Ideal) v8 v10) vl) := rfl

/-- Column block 4 at (b, q) is the layer at (b, 512 + q). -/
theorem block4_apply
    (hr : ∀ (b k : Fin 1024), v8 (ix2 b k) = r b k)
    (hla : ∀ (ρ : Fin 32) (k : Fin 1024), v10 (ix3 (0 : Fin 1) ρ k) = p.la ρ k)
    (hb : ∀ o : Fin 1024, v15 (ix3 (0 : Fin 1) (0 : Fin 1) o) = p.bias o)
    (hc : ∀ (q : Fin 128) (k : Fin 1024), vc (ix3 (0 : Fin 1) q k) = p.code ⟨512 + q.val, by have := q.isLt; omega⟩ k)
    (hsc : ∀ (q : Fin 128) (g : Fin 64), vs (ix3 (0 : Fin 1) q g) = p.scale ⟨512 + q.val, by have := q.isLt; omega⟩ g)
    (hl : ∀ (ρ : Fin 32) (q : Fin 128), vl (ix3 (0 : Fin 1) ρ q) = p.lb ⟨512 + q.val, by have := q.isLt; omega⟩ ρ)
    (b : Fin 1024) (q : Fin 128) :
    (k0_pay19 (F := Ideal) (k0_pay8 (F := Ideal) v15) v17 (k0_pay17 (F := Ideal) (k0_pay6 (F := Ideal) v8) vc vs) (k0_pay18 (F := Ideal) (k0_pay7 (F := Ideal) v8 v10) vl)) (ix2 b q)
      = Cert.Spec.layer (decide (v17 = 1#1)) p r b ⟨512 + q.val, by have := q.isLt; omega⟩ :=
  (congrFun (stored4_eq v8 v10 v15 v17 vc vs vl) (ix2 b q)).trans
    (block_apply ![0, 512] slices_S1x1024_o0_512_S1x128 512 (by decide) rfl rfl p r v8 v10 v15 v17 vc vs vl
      hr hla hb hc hsc hl b q)

/-- Column block 5: the stored value is the finishing arithmetic at offset 640 of the block's two products. -/
theorem stored5_eq :
    k0_pay20 (F := Ideal) (k0_pay6 (F := Ideal) v8) (k0_pay7 (F := Ideal) v8 v10) (k0_pay8 (F := Ideal) v15) v17 vc vs vl
      = finish ![0, 640] slices_S1x1024_o0_640_S1x128 (k0_pay8 (F := Ideal) v15) v17
          (k0_pay17 (F := Ideal) (k0_pay6 (F := Ideal) v8) vc vs) (k0_pay18 (F := Ideal) (k0_pay7 (F := Ideal) v8 v10) vl) := rfl

/-- Column block 5 at (b, q) is the layer at (b, 640 + q). -/
theorem block5_apply
    (hr : ∀ (b k : Fin 1024), v8 (ix2 b k) = r b k)
    (hla : ∀ (ρ : Fin 32) (k : Fin 1024), v10 (ix3 (0 : Fin 1) ρ k) = p.la ρ k)
    (hb : ∀ o : Fin 1024, v15 (ix3 (0 : Fin 1) (0 : Fin 1) o) = p.bias o)
    (hc : ∀ (q : Fin 128) (k : Fin 1024), vc (ix3 (0 : Fin 1) q k) = p.code ⟨640 + q.val, by have := q.isLt; omega⟩ k)
    (hsc : ∀ (q : Fin 128) (g : Fin 64), vs (ix3 (0 : Fin 1) q g) = p.scale ⟨640 + q.val, by have := q.isLt; omega⟩ g)
    (hl : ∀ (ρ : Fin 32) (q : Fin 128), vl (ix3 (0 : Fin 1) ρ q) = p.lb ⟨640 + q.val, by have := q.isLt; omega⟩ ρ)
    (b : Fin 1024) (q : Fin 128) :
    (k0_pay20 (F := Ideal) (k0_pay6 (F := Ideal) v8) (k0_pay7 (F := Ideal) v8 v10) (k0_pay8 (F := Ideal) v15) v17 vc vs vl) (ix2 b q)
      = Cert.Spec.layer (decide (v17 = 1#1)) p r b ⟨640 + q.val, by have := q.isLt; omega⟩ :=
  (congrFun (stored5_eq v8 v10 v15 v17 vc vs vl) (ix2 b q)).trans
    (block_apply ![0, 640] slices_S1x1024_o0_640_S1x128 640 (by decide) rfl rfl p r v8 v10 v15 v17 vc vs vl
      hr hla hb hc hsc hl b q)

/-- Column block 6: the stored value is the finishing arithmetic at offset 768 of the block's two products. -/
theorem stored6_eq :
    k0_pay21 (F := Ideal) (k0_pay6 (F := Ideal) v8) (k0_pay7 (F := Ideal) v8 v10) (k0_pay8 (F := Ideal) v15) v17 vc vs vl
      = finish ![0, 768] slices_S1x1024_o0_768_S1x128 (k0_pay8 (F := Ideal) v15) v17
          (k0_pay17 (F := Ideal) (k0_pay6 (F := Ideal) v8) vc vs) (k0_pay18 (F := Ideal) (k0_pay7 (F := Ideal) v8 v10) vl) := rfl

/-- Column block 6 at (b, q) is the layer at (b, 768 + q). -/
theorem block6_apply
    (hr : ∀ (b k : Fin 1024), v8 (ix2 b k) = r b k)
    (hla : ∀ (ρ : Fin 32) (k : Fin 1024), v10 (ix3 (0 : Fin 1) ρ k) = p.la ρ k)
    (hb : ∀ o : Fin 1024, v15 (ix3 (0 : Fin 1) (0 : Fin 1) o) = p.bias o)
    (hc : ∀ (q : Fin 128) (k : Fin 1024), vc (ix3 (0 : Fin 1) q k) = p.code ⟨768 + q.val, by have := q.isLt; omega⟩ k)
    (hsc : ∀ (q : Fin 128) (g : Fin 64), vs (ix3 (0 : Fin 1) q g) = p.scale ⟨768 + q.val, by have := q.isLt; omega⟩ g)
    (hl : ∀ (ρ : Fin 32) (q : Fin 128), vl (ix3 (0 : Fin 1) ρ q) = p.lb ⟨768 + q.val, by have := q.isLt; omega⟩ ρ)
    (b : Fin 1024) (q : Fin 128) :
    (k0_pay21 (F := Ideal) (k0_pay6 (F := Ideal) v8) (k0_pay7 (F := Ideal) v8 v10) (k0_pay8 (F := Ideal) v15) v17 vc vs vl) (ix2 b q)
      = Cert.Spec.layer (decide (v17 = 1#1)) p r b ⟨768 + q.val, by have := q.isLt; omega⟩ :=
  (congrFun (stored6_eq v8 v10 v15 v17 vc vs vl) (ix2 b q)).trans
    (block_apply ![0, 768] slices_S1x1024_o0_768_S1x128 768 (by decide) rfl rfl p r v8 v10 v15 v17 vc vs vl
      hr hla hb hc hsc hl b q)

/-- Column block 7: the stored value is the finishing arithmetic at offset 896 of the block's two products. -/
theorem stored7_eq :
    k0_pay1 (F := Ideal) (k0_pay6 (F := Ideal) v8) (k0_pay7 (F := Ideal) v8 v10) (k0_pay8 (F := Ideal) v15) v17 (k0_pay22 (F := Ideal) vc vs) vl
      = finish ![0, 896] slices_S1x1024_o0_896_S1x128 (k0_pay8 (F := Ideal) v15) v17
          (k0_pay17 (F := Ideal) (k0_pay6 (F := Ideal) v8) vc vs) (k0_pay18 (F := Ideal) (k0_pay7 (F := Ideal) v8 v10) vl) := rfl

/-- Column block 7 at (b, q) is the layer at (b, 896 + q). -/
theorem block7_apply
    (hr : ∀ (b k : Fin 1024), v8 (ix2 b k) = r b k)
    (hla : ∀ (ρ : Fin 32) (k : Fin 1024), v10 (ix3 (0 : Fin 1) ρ k) = p.la ρ k)
    (hb : ∀ o : Fin 1024, v15 (ix3 (0 : Fin 1) (0 : Fin 1) o) = p.bias o)
    (hc : ∀ (q : Fin 128) (k : Fin 1024), vc (ix3 (0 : Fin 1) q k) = p.code ⟨896 + q.val, by have := q.isLt; omega⟩ k)
    (hsc : ∀ (q : Fin 128) (g : Fin 64), vs (ix3 (0 : Fin 1) q g) = p.scale ⟨896 + q.val, by have := q.isLt; omega⟩ g)
    (hl : ∀ (ρ : Fin 32) (q : Fin 128), vl (ix3 (0 : Fin 1) ρ q) = p.lb ⟨896 + q.val, by have := q.isLt; omega⟩ ρ)
    (b : Fin 1024) (q : Fin 128) :
    (k0_pay1 (F := Ideal) (k0_pay6 (F := Ideal) v8) (k0_pay7 (F := Ideal) v8 v10) (k0_pay8 (F := Ideal) v15) v17 (k0_pay22 (F := Ideal) vc vs) vl) (ix2 b q)
      = Cert.Spec.layer (decide (v17 = 1#1)) p r b ⟨896 + q.val, by have := q.isLt; omega⟩ :=
  (congrFun (stored7_eq v8 v10 v15 v17 vc vs vl) (ix2 b q)).trans
    (block_apply ![0, 896] slices_S1x1024_o0_896_S1x128 896 (by decide) rfl rfl p r v8 v10 v15 v17 vc vs vl
      hr hla hb hc hsc hl b q)

end Blocks

end Cert.KernelIdeal.LayerValue

end
-- ==== Proof.KI.LayerNorm.lean ====
/-
  The residual step and the row normalisation the kernel applies to the stream, entry by entry.

  The residual step adds the block's input back. The normalisation takes each row's mean (the row sum over the row
  length), centres the row, takes the mean of the squared centred row, and multiplies the centred entry by the inverse
  square root of that mean plus epsilon, then scales and shifts by the two parameter rows. Both row means are the
  same operation on two tables, so it is read once.
-/
import proofs.«136264_j72249939853571_2_alg».proof.Proof.Gen.KernelIdeal.Skeleton
import proofs.«136264_j72249939853571_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.LayerValue

open Idealize.ShloMosaic Idealize.ShloMosaic.ValueIdx Cert.KernelIdeal Cert.KernelIdeal.Gen

/-! ## Copies and the residual step -/

/-- The stream's first value is the input, unchanged. -/
theorem copy_in_eq {F : FTy → Type} [FloatOps F] (v : Vec F S1024x1024 .f32) : k0_pay4 (F := F) v = v :=
  shapeCast_self _ _

/-- A block's working table starts as the stream, unchanged. -/
theorem copy_stream_eq {F : FTy → Type} [FloatOps F] (v : Vec F S1024x1024 .f32) : k0_pay5 (F := F) v = v :=
  shapeCast_self _ _

/-- The residual step at (b, k): the two tables' entries added. -/
theorem residual_apply (v255 v256 : Vec Ideal S1024x1024 .f32) (b k : Fin 1024) :
    k0_pay2 (F := Ideal) v255 v256 (ix2 b k) = v255 (ix2 b k) + v256 (ix2 b k) := by
  unfold k0_pay2
  exact congrFun (shapeCast_self _ _) (ix2 b k)

/-! ## A row's mean -/

/-- The lane sum of row b is the sum of the row's entries. -/
theorem row_sum_apply (x : FVec Ideal S1024x1024 .f32) (b : Fin 1024) :
    multiReduction (F := Ideal) .add [1] S1024 x 0x00000000#32 reduces_S1024x1024_S1024 (.inl rfl) rfl (ix1 b)
      = ∑ k : Fin 1024, x (ix2 b k) :=
  (Ideal.multiReduction_add_single x 0x00000000#32 reduces_S1024x1024_S1024 (.inl rfl) rfl (ix1 b)).trans
    (Finset.sum_congr rfl fun k _ => congrArg x (funext fun c => Fin.ext (by
      match c with
      | ⟨0, _⟩ => rfl
      | ⟨1, _⟩ => rfl)))

/-- The column of row means: each row's lane sum over the row length. -/
def rowMean (x : FVec Ideal S1024x1024 .f32) : FVec Ideal S1024x1 .f32 :=
  divf
    (shapeCast S1024x1
      (multiReduction (F := Ideal) .add [1] S1024 x 0x00000000#32 reduces_S1024x1024_S1024 (.inl rfl) rfl)
      shapeCasts_S1024_S1024x1)
    (broadcast S1024x1 (Scalar.ofBits (F := Ideal) .f32 0x44800000#32))

theorem rowMean_apply (x : FVec Ideal S1024x1024 .f32) (b : Fin 1024) :
    rowMean x (ix2 b (0 : Fin 1)) = Ideal.div (∑ k : Fin 1024, x (ix2 b k)) Cert.Spec.rowLen := by
  unfold rowMean
  exact congrArg (fun y : EReal => Ideal.div y Cert.Spec.rowLen)
    ((shapeCast_apply _ _ (ix2 b (0 : Fin 1)) (ix1 b) (by
      rw [Shape.rowMajor_val_one, Shape.rowMajor_val_two]
      show b.val = b.val * 1 + (0 : Fin 1).val
      simp)).trans (row_sum_apply x b))

/-- A column spread along the rows reads the row's entry. -/
theorem column_spread_apply (y : FVec Ideal S1024x1 .f32) (b k : Fin 1024) :
    broadcastTo S1024x1024 y broadcasts_S1024x1_S1024x1024 (ix2 b k) = y (ix2 b (0 : Fin 1)) :=
  broadcastTo_apply _ _ (ix2 b k) (ix2 b (0 : Fin 1)) (fun a => by
    match a with
    | ⟨0, _⟩ => rfl
    | ⟨1, _⟩ => rfl)

/-- A parameter row spread along the columns reads the column's entry. -/
theorem param_row_apply (v : Vec Ideal S1x1x1024 .f32) (b k : Fin 1024) :
    broadcastTo S1024x1024 (shapeCast S1x1024 v shapeCasts_S1x1x1024_S1x1024) broadcasts_S1x1024_S1024x1024 (ix2 b k)
      = v (ix3 (0 : Fin 1) (0 : Fin 1) k) :=
  (broadcastTo_apply _ _ (ix2 b k) (ix2 (0 : Fin 1) k) (fun a => by
    match a with
    | ⟨0, _⟩ => rfl
    | ⟨1, _⟩ => rfl)).trans
  (shapeCast_apply v _ (ix2 (0 : Fin 1) k) (ix3 (0 : Fin 1) (0 : Fin 1) k) (by
    rw [Shape.rowMajor_val_two, Shape.rowMajor_val_three]
    show ((0 : Fin 1).val * 1 + (0 : Fin 1).val) * 1024 + k.val = (0 : Fin 1).val * 1024 + k.val
    simp))

/-! ## The normalisation -/

/-- The table with each row's mean taken off. -/
def centredV (x : FVec Ideal S1024x1024 .f32) : FVec Ideal S1024x1024 .f32 :=
  subf x (broadcastTo S1024x1024 (rowMean x) broadcasts_S1024x1_S1024x1024)

theorem centredV_apply (x : FVec Ideal S1024x1024 .f32) (b k : Fin 1024) :
    centredV x (ix2 b k) = x (ix2 b k) - Ideal.div (∑ k : Fin 1024, x (ix2 b k)) Cert.Spec.rowLen := by
  unfold centredV
  exact congrArg (fun y : EReal => x (ix2 b k) - y) ((column_spread_apply _ b k).trans (rowMean_apply x b))

/-- The normalised table: centred, times the inverse root of the squared centred row's mean plus epsilon, scaled and
    shifted by the two parameter rows. -/
def normV (x : FVec Ideal S1024x1024 .f32) (v272 v276 : Vec Ideal S1x1x1024 .f32) : FVec Ideal S1024x1024 .f32 :=
  shapeCast S1024x1024
    (addf
      (mulf
        (mulf (centredV x)
          (broadcastTo S1024x1024
            (rsqrt (addf (rowMean (mulf (centredV x) (centredV x)))
              (broadcast S1024x1 (Scalar.ofBits (F := Ideal) .f32 0x3727C5AC#32))))
            broadcasts_S1024x1_S1024x1024))
        (broadcastTo S1024x1024 (shapeCast S1x1024 v272 shapeCasts_S1x1x1024_S1x1024) broadcasts_S1x1024_S1024x1024))
      (broadcastTo S1024x1024 (shapeCast S1x1024 v276 shapeCasts_S1x1x1024_S1x1024) broadcasts_S1x1024_S1024x1024))
    shapeCasts_S1024x1024_S1024x1024

/-- The kernel's normalisation is that table. -/
theorem norm_eq (v255 : Vec Ideal S1024x1024 .f32) (v272 v276 : Vec Ideal S1x1x1024 .f32) :
    k0_pay3 (F := Ideal) v255 v272 v276 = normV v255 v272 v276 := rfl

theorem normV_apply (x : FVec Ideal S1024x1024 .f32) (v272 v276 : Vec Ideal S1x1x1024 .f32) (b k : Fin 1024) :
    normV x v272 v276 (ix2 b k)
      = (centredV x (ix2 b k)
            * Ideal.rsqrt (rowMean (mulf (centredV x) (centredV x)) (ix2 b (0 : Fin 1)) + Cert.Spec.eps))
          * v272 (ix3 (0 : Fin 1) (0 : Fin 1) k) + v276 (ix3 (0 : Fin 1) (0 : Fin 1) k) := by
  have e1 : broadcastTo S1024x1024
        (rsqrt (addf (rowMean (mulf (centredV x) (centredV x)))
          (broadcast S1024x1 (Scalar.ofBits (F := Ideal) .f32 0x3727C5AC#32))))
        broadcasts_S1024x1_S1024x1024 (ix2 b k)
      = Ideal.rsqrt (rowMean (mulf (centredV x) (centredV x)) (ix2 b (0 : Fin 1)) + Cert.Spec.eps) :=
    column_spread_apply _ b k
  unfold normV
  exact (congrFun (shapeCast_self _ _) (ix2 b k)).trans
    (congrArg₂ (fun u w : EReal => u + w)
      (congrArg₂ (fun u w : EReal => u * w)
        (congrArg (fun w : EReal => centredV x (ix2 b k) * w) e1) (param_row_apply v272 b k))
      (param_row_apply v276 b k))

/-- The kernel's normalisation at (b, k) is the specification's, given the loaded table and parameter rows entry by
    entry. -/
theorem norm_apply (g be : Fin 1024 → EReal) (h : Cert.Spec.Act)
    (v255 : Vec Ideal S1024x1024 .f32) (v272 v276 : Vec Ideal S1x1x1024 .f32)
    (hh : ∀ (b k : Fin 1024), v255 (ix2 b k) = h b k)
    (hg : ∀ k : Fin 1024, v272 (ix3 (0 : Fin 1) (0 : Fin 1) k) = g k)
    (hbe : ∀ k : Fin 1024, v276 (ix3 (0 : Fin 1) (0 : Fin 1) k) = be k) (b k : Fin 1024) :
    k0_pay3 (F := Ideal) v255 v272 v276 (ix2 b k) = Cert.Spec.norm g be h b k := by
  have hsum : (∑ k : Fin 1024, v255 (ix2 b k)) = ∑ k : Fin 1024, h b k := Finset.sum_congr rfl fun k _ => hh b k
  have hc : ∀ k : Fin 1024, centredV v255 (ix2 b k) = Cert.Spec.centred h b k := fun k =>
    (centredV_apply v255 b k).trans
      (congrArg₂ (fun u w : EReal => u - Ideal.div w Cert.Spec.rowLen) (hh b k) hsum)
  have hv : rowMean (mulf (centredV v255) (centredV v255)) (ix2 b (0 : Fin 1)) = Cert.Spec.variance h b :=
    (rowMean_apply _ b).trans (congrArg (fun y : EReal => Ideal.div y Cert.Spec.rowLen)
      (Finset.sum_congr rfl fun k _ => congrArg₂ (fun u w : EReal => u * w) (hc k) (hc k)))
  refine (congrFun (norm_eq v255 v272 v276) (ix2 b k)).trans ((normV_apply v255 v272 v276 b k).trans ?_)
  rw [hc k, hv, hg k, hbe k]
  rfl

end Cert.KernelIdeal.LayerValue

end
-- ==== Proof.KI.CaseValues.lean ====
/-
  What each of the five control cases leaves in the kernel's two carried tables and in the output, entry by entry.

  Every case writes the layer's running table in eight column blocks of 128; each block's value is the layer on its
  columns, so the table read back is the layer of the table the case read. The residual table is replaced by the
  running table plus itself at the end of a group of three layers, and then normalised row by row except after the
  last group; the last point copies it to the output.
-/
import proofs.«136264_j72249939853571_2_alg».proof.Proof.KI.Frame
import proofs.«136264_j72249939853571_2_alg».proof.Proof.KI.Layer
import proofs.«136264_j72249939853571_2_alg».proof.Proof.KI.LayerNorm
import Idealize.ShloMosaic.Lib.Pipeline.CanonAppend

set_option maxRecDepth 16384

noncomputable section

open scoped BigOperators

namespace Cert.KernelIdeal.LayerValue

open Idealize.ShloMosaic Idealize.ShloMosaic.ValueIdx Idealize.ShloMosaic.Tactic Cert.KernelIdeal Cert.KernelIdeal.Gen
  Cert.KernelIdeal.Body
open Idealize.SL.Sem
open Idealize.ShloMosaic.TcCoe

/-! ## Loads of a block's rows or columns, at an entry -/

/-- Zero offsets, rank 2 and rank 3. -/
theorem zero_off2 : (![0, 0] : Fin 2 → Nat) = fun _ => 0 := by
  funext a; match a with | ⟨0, _⟩ => rfl | ⟨1, _⟩ => rfl
theorem zero_off3 : (![0, 0, 0] : Fin 3 → Nat) = fun _ => 0 := by
  funext a; match a with | ⟨0, _⟩ => rfl | ⟨1, _⟩ => rfl | ⟨2, _⟩ => rfl

/-- Rows c0 … c0 + 127 of a [1, N, M] block, read at (0, q, k): the block at (0, c0 + q, k). -/
theorem ld_rows_apply {e : EltTy} {N M : Nat} (X : Vec Ideal ⟨3, ![1, N, M]⟩ e) (c0 : Nat) (hc : c0 + 128 ≤ N)
    (inb : ∀ a, (![0, c0, 0] : Fin 3 → Nat) a + (![1, 128, M] : Fin 3 → Nat) a ≤ (⟨3, ![1, N, M]⟩ : Shape).size a)
    (q : Fin 128) (k : Fin M) :
    View.ld X (Rect.unit ![0, c0, 0] ![1, 128, M] inb) (ix3 (0 : Fin 1) q k)
      = X (ix3 (0 : Fin 1) (⟨c0 + q.val, by have := q.isLt; omega⟩ : Fin N) k) :=
  congrArg X (funext fun a => Fin.ext (by
    match a with
    | ⟨0, _⟩ => rfl
    | ⟨1, _⟩ => show c0 + 1 * q.val = c0 + q.val; omega
    | ⟨2, _⟩ => show 0 + 1 * k.val = k.val; omega))

/-- Columns c0 … c0 + 127 of a [1, R, N] block, read at (0, ρ, q): the block at (0, ρ, c0 + q). -/
theorem ld_cols_apply {e : EltTy} {R N : Nat} (X : Vec Ideal ⟨3, ![1, R, N]⟩ e) (c0 : Nat) (hc : c0 + 128 ≤ N)
    (inb : ∀ a, (![0, 0, c0] : Fin 3 → Nat) a + (![1, R, 128] : Fin 3 → Nat) a ≤ (⟨3, ![1, R, N]⟩ : Shape).size a)
    (ρ : Fin R) (q : Fin 128) :
    View.ld X (Rect.unit ![0, 0, c0] ![1, R, 128] inb) (ix3 (0 : Fin 1) ρ q)
      = X (ix3 (0 : Fin 1) ρ (⟨c0 + q.val, by have := q.isLt; omega⟩ : Fin N)) :=
  congrArg X (funext fun a => Fin.ext (by
    match a with
    | ⟨0, _⟩ => rfl
    | ⟨1, _⟩ => show 0 + 1 * ρ.val = ρ.val; omega
    | ⟨2, _⟩ => show c0 + 1 * q.val = c0 + q.val; omega))

/-- A column block's stored value agrees with a function of the table's index as soon as it does at (b, c0 + q). -/
theorem piece_of_block (c0 : Nat) (hc : c0 + 128 ≤ 1024)
    (inb : ∀ a, (![0, c0] : Fin 2 → Nat) a + (![1024, 128] : Fin 2 → Nat) a ≤ S1024x1024.size a)
    (w : FVec Ideal S1024x128 .f32) (G : S1024x1024.Idx → EReal)
    (h : ∀ (b : Fin 1024) (q : Fin 128), w (ix2 b q) = G (ix2 b (⟨c0 + q.val, by have := q.isLt; omega⟩ : Fin 1024)))
    (x : (Rect.unit (s := S1024x1024) ![0, c0] ![1024, 128] inb).shape.Idx) :
    w x = G ((Rect.unit (s := S1024x1024) ![0, c0] ![1024, 128] inb).emb x) := by
  have hx1 : (x 1).val < 128 := (x 1).isLt
  have e1 : x = ix2 (x 0) (x 1) := eq_ix2 x
  have e2 : (Rect.unit (s := S1024x1024) ![0, c0] ![1024, 128] inb).emb x
      = ix2 (x 0) (⟨c0 + (x 1).val, by omega⟩ : Fin 1024) :=
    funext fun a => Fin.ext (by
      match a with
      | ⟨0, _⟩ => show 0 + 1 * (x 0).val = (x 0).val; omega
      | ⟨1, _⟩ => show c0 + 1 * (x 1).val = c0 + (x 1).val; omega)
  rw [e2]
  exact (congrArg w e1).trans (h (x 0) (x 1))

/-! ## The eight column blocks as one table -/

/-- The flag the kernel computes from the inner grid coordinate is "the coordinate is below 2". -/
theorem flag_iff : ∀ j : Fin 3, (Scalar.cmpi .slt (BitVec.ofNat 32 j.val) 2#32 = 1#1) ↔ j.val < 2 := by decide

theorem flag_decide (i : grid0.Coords) :
    decide (Scalar.cmpi .slt (BitVec.ofNat 32 (i 1).val) 2#32 = 1#1) = decide ((i 1).val < 2) :=
  decide_eq_decide.mpr (flag_iff (i 1))

/-- The eight column-block stores of one grid point, last made first: from the table the layer reads (v8), the flag,
    and the point's five parameter blocks, each store's value computed from the rows (codes, scales) or columns
    (second adapter matrix) of its own 128 output features. -/
def layerPieces (v8 : Vec Ideal S1024x1024 .f32) (v17 : BitVec 1) (x1 : Vec Ideal S1x1024x1024 .i32)
    (x2 : Vec Ideal S1x1024x64 .f32) (x3 : Vec Ideal S1x1x1024 .f32) (x4 x5 : Vec Ideal S1x32x1024 .f32) :
    List (View.Piece (Elt Ideal) S1024x1024 .f32) :=
  [
    (⟨Rect.unit (s := S1024x1024) ![0, 896] ![1024, 128] inb_S1024x1024_S1024x128_0_896,
      k0_pay1 (F := Ideal) (k0_pay6 (F := Ideal) v8) (k0_pay7 (F := Ideal) v8 x4) (k0_pay8 (F := Ideal) x3) v17 (k0_pay22 (F := Ideal) (View.ld x1 (Rect.unit (s := S1x1024x1024) ![0, 896, 0] ![1, 128, 1024] inb_S1x1024x1024_S1x128x1024_0_896_0)) (View.ld x2 (Rect.unit (s := S1x1024x64) ![0, 896, 0] ![1, 128, 64] inb_S1x1024x64_S1x128x64_0_896_0))) (View.ld x5 (Rect.unit (s := S1x32x1024) ![0, 0, 896] ![1, 32, 128] inb_S1x32x1024_S1x32x128_0_0_896))⟩ : View.Piece (Elt Ideal) S1024x1024 .f32),
    (⟨Rect.unit (s := S1024x1024) ![0, 768] ![1024, 128] inb_S1024x1024_S1024x128_0_768,
      k0_pay21 (F := Ideal) (k0_pay6 (F := Ideal) v8) (k0_pay7 (F := Ideal) v8 x4) (k0_pay8 (F := Ideal) x3) v17 (View.ld x1 (Rect.unit (s := S1x1024x1024) ![0, 768, 0] ![1, 128, 1024] inb_S1x1024x1024_S1x128x1024_0_768_0)) (View.ld x2 (Rect.unit (s := S1x1024x64) ![0, 768, 0] ![1, 128, 64] inb_S1x1024x64_S1x128x64_0_768_0)) (View.ld x5 (Rect.unit (s := S1x32x1024) ![0, 0, 768] ![1, 32, 128] inb_S1x32x1024_S1x32x128_0_0_768))⟩ : View.Piece (Elt Ideal) S1024x1024 .f32),
    (⟨Rect.unit (s := S1024x1024) ![0, 640] ![1024, 128] inb_S1024x1024_S1024x128_0_640,
      k0_pay20 (F := Ideal) (k0_pay6 (F := Ideal) v8) (k0_pay7 (F := Ideal) v8 x4) (k0_pay8 (F := Ideal) x3) v17 (View.ld x1 (Rect.unit (s := S1x1024x1024) ![0, 640, 0] ![1, 128, 1024] inb_S1x1024x1024_S1x128x1024_0_640_0)) (View.ld x2 (Rect.unit (s := S1x1024x64) ![0, 640, 0] ![1, 128, 64] inb_S1x1024x64_S1x128x64_0_640_0)) (View.ld x5 (Rect.unit (s := S1x32x1024) ![0, 0, 640] ![1, 32, 128] inb_S1x32x1024_S1x32x128_0_0_640))⟩ : View.Piece (Elt Ideal) S1024x1024 .f32),
    (⟨Rect.unit (s := S1024x1024) ![0, 512] ![1024, 128] inb_S1024x1024_S1024x128_0_512,
      k0_pay19 (F := Ideal) (k0_pay8 (F := Ideal) x3) v17 (k0_pay17 (F := Ideal) (k0_pay6 (F := Ideal) v8) (View.ld x1 (Rect.unit (s := S1x1024x1024) ![0, 512, 0] ![1, 128, 1024] inb_S1x1024x1024_S1x128x1024_0_512_0)) (View.ld x2 (Rect.unit (s := S1x1024x64) ![0, 512, 0] ![1, 128, 64] inb_S1x1024x64_S1x128x64_0_512_0))) (k0_pay18 (F := Ideal) (k0_pay7 (F := Ideal) v8 x4) (View.ld x5 (Rect.unit (s := S1x32x1024) ![0, 0, 512] ![1, 32, 128] inb_S1x32x1024_S1x32x128_0_0_512)))⟩ : View.Piece (Elt Ideal) S1024x1024 .f32),
    (⟨Rect.unit (s := S1024x1024) ![0, 384] ![1024, 128] inb_S1024x1024_S1024x128_0_384,
      k0_pay16 (F := Ideal) (k0_pay6 (F := Ideal) v8) (k0_pay7 (F := Ideal) v8 x4) (k0_pay8 (F := Ideal) x3) v17 (k0_pay14 (F := Ideal) (View.ld x2 (Rect.unit (s := S1x1024x64) ![0, 384, 0] ![1, 128, 64] inb_S1x1024x64_S1x128x64_0_384_0))) (k0_pay15 (F := Ideal) (View.ld x1 (Rect.unit (s := S1x1024x1024) ![0, 384, 0] ![1, 128, 1024] inb_S1x1024x1024_S1x128x1024_0_384_0))) (View.ld x5 (Rect.unit (s := S1x32x1024) ![0, 0, 384] ![1, 32, 128] inb_S1x32x1024_S1x32x128_0_0_384))⟩ : View.Piece (Elt Ideal) S1024x1024 .f32),
    (⟨Rect.unit (s := S1024x1024) ![0, 256] ![1024, 128] inb_S1024x1024_S1024x128_0_256,
      k0_pay13 (F := Ideal) (k0_pay6 (F := Ideal) v8) (k0_pay7 (F := Ideal) v8 x4) (k0_pay8 (F := Ideal) x3) v17 (View.ld x1 (Rect.unit (s := S1x1024x1024) ![0, 256, 0] ![1, 128, 1024] inb_S1x1024x1024_S1x128x1024_0_256_0)) (View.ld x2 (Rect.unit (s := S1x1024x64) ![0, 256, 0] ![1, 128, 64] inb_S1x1024x64_S1x128x64_0_256_0)) (View.ld x5 (Rect.unit (s := S1x32x1024) ![0, 0, 256] ![1, 32, 128] inb_S1x32x1024_S1x32x128_0_0_256))⟩ : View.Piece (Elt Ideal) S1024x1024 .f32),
    (⟨Rect.unit (s := S1024x1024) ![0, 128] ![1024, 128] inb_S1024x1024_S1024x128_0_128,
      k0_pay12 (F := Ideal) (k0_pay11 (F := Ideal) (k0_pay6 (F := Ideal) v8) (k0_pay7 (F := Ideal) v8 x4) (k0_pay8 (F := Ideal) x3) v17 (View.ld x1 (Rect.unit (s := S1x1024x1024) ![0, 128, 0] ![1, 128, 1024] inb_S1x1024x1024_S1x128x1024_0_128_0)) (View.ld x2 (Rect.unit (s := S1x1024x64) ![0, 128, 0] ![1, 128, 64] inb_S1x1024x64_S1x128x64_0_128_0)) (View.ld x5 (Rect.unit (s := S1x32x1024) ![0, 0, 128] ![1, 32, 128] inb_S1x32x1024_S1x32x128_0_0_128)))⟩ : View.Piece (Elt Ideal) S1024x1024 .f32),
    (⟨Rect.unit (s := S1024x1024) ![0, 0] ![1024, 128] inb_S1024x1024_S1024x128_0_0,
      k0_pay10 (F := Ideal) (k0_pay7 (F := Ideal) v8 x4) (k0_pay8 (F := Ideal) x3) v17 (k0_pay9 (F := Ideal) v8 (View.ld x1 (Rect.unit (s := S1x1024x1024) ![0, 0, 0] ![1, 128, 1024] inb_S1x1024x1024_S1x128x1024_0_0_0)) (View.ld x2 (Rect.unit (s := S1x1024x64) ![0, 0, 0] ![1, 128, 64] inb_S1x1024x64_S1x128x64_0_0_0))) (View.ld x5 (Rect.unit (s := S1x32x1024) ![0, 0, 0] ![1, 32, 128] inb_S1x32x1024_S1x32x128_0_0_0))⟩ : View.Piece (Elt Ideal) S1024x1024 .f32)
  ]

/-- Read back over any earlier stores, the eight blocks are the specification's layer of the table read. -/
theorem layerPieces_canon (L' : List (View.Piece (Elt Ideal) S1024x1024 .f32)) (p : Cert.Spec.LayerP) (rin : Cert.Spec.Act)
    (v8 : Vec Ideal S1024x1024 .f32) (v17 : BitVec 1) (x1 : Vec Ideal S1x1024x1024 .i32)
    (x2 : Vec Ideal S1x1024x64 .f32) (x3 : Vec Ideal S1x1x1024 .f32) (x4 x5 : Vec Ideal S1x32x1024 .f32)
    (hcode : ∀ (o k : Fin 1024), x1 (ix3 (0 : Fin 1) o k) = p.code o k)
    (hscale : ∀ (o : Fin 1024) (g : Fin 64), x2 (ix3 (0 : Fin 1) o g) = p.scale o g)
    (hbias : ∀ o : Fin 1024, x3 (ix3 (0 : Fin 1) (0 : Fin 1) o) = p.bias o)
    (hla : ∀ (ρ : Fin 32) (k : Fin 1024), x4 (ix3 (0 : Fin 1) ρ k) = p.la ρ k)
    (hlb : ∀ (ρ : Fin 32) (o : Fin 1024), x5 (ix3 (0 : Fin 1) ρ o) = p.lb o ρ)
    (hr : ∀ b k : Fin 1024, v8 (ix2 b k) = rin b k) (b o : Fin 1024) :
    View.canon (layerPieces v8 v17 x1 x2 x3 x4 x5 ++ L') (ix2 b o)
      = Cert.Spec.layer (decide (v17 = 1#1)) p rin b o := by
  refine View.canon_append_of_pieces
    (fun y : S1024x1024.Idx => Cert.Spec.layer (decide (v17 = 1#1)) p rin (y 0) (y 1)) L'
    (layerPieces v8 v17 x1 x2 x3 x4 x5) ?_ (ix2 b o)
    (View.cover_of_tiledL (layerPieces v8 v17 x1 x2 x3 x4 x5) ![1024, 128] (by sl_kernel_rfl) (ix2 b o))
  intro pc hpc
  simp only [layerPieces, List.mem_cons, List.not_mem_nil, or_false] at hpc
  rcases hpc with rfl | rfl | rfl | rfl | rfl | rfl | rfl | rfl
  · refine piece_of_block 896 (by decide) inb_S1024x1024_S1024x128_0_896 _
      (fun y : S1024x1024.Idx => Cert.Spec.layer (decide (v17 = 1#1)) p rin (y 0) (y 1)) ?_
    exact fun b q => block7_apply p rin v8 x4 x3 v17 _ _ _ hr hla hbias
      (fun q k => (ld_rows_apply x1 896 (by decide) _ q k).trans (hcode _ k))
      (fun q g => (ld_rows_apply x2 896 (by decide) _ q g).trans (hscale _ g))
      (fun ρ q => (ld_cols_apply x5 896 (by decide) _ ρ q).trans (hlb ρ _)) b q
  · refine piece_of_block 768 (by decide) inb_S1024x1024_S1024x128_0_768 _
      (fun y : S1024x1024.Idx => Cert.Spec.layer (decide (v17 = 1#1)) p rin (y 0) (y 1)) ?_
    exact fun b q => block6_apply p rin v8 x4 x3 v17 _ _ _ hr hla hbias
      (fun q k => (ld_rows_apply x1 768 (by decide) _ q k).trans (hcode _ k))
      (fun q g => (ld_rows_apply x2 768 (by decide) _ q g).trans (hscale _ g))
      (fun ρ q => (ld_cols_apply x5 768 (by decide) _ ρ q).trans (hlb ρ _)) b q
  · refine piece_of_block 640 (by decide) inb_S1024x1024_S1024x128_0_640 _
      (fun y : S1024x1024.Idx => Cert.Spec.layer (decide (v17 = 1#1)) p rin (y 0) (y 1)) ?_
    exact fun b q => block5_apply p rin v8 x4 x3 v17 _ _ _ hr hla hbias
      (fun q k => (ld_rows_apply x1 640 (by decide) _ q k).trans (hcode _ k))
      (fun q g => (ld_rows_apply x2 640 (by decide) _ q g).trans (hscale _ g))
      (fun ρ q => (ld_cols_apply x5 640 (by decide) _ ρ q).trans (hlb ρ _)) b q
  · refine piece_of_block 512 (by decide) inb_S1024x1024_S1024x128_0_512 _
      (fun y : S1024x1024.Idx => Cert.Spec.layer (decide (v17 = 1#1)) p rin (y 0) (y 1)) ?_
    exact fun b q => block4_apply p rin v8 x4 x3 v17 _ _ _ hr hla hbias
      (fun q k => (ld_rows_apply x1 512 (by decide) _ q k).trans (hcode _ k))
      (fun q g => (ld_rows_apply x2 512 (by decide) _ q g).trans (hscale _ g))
      (fun ρ q => (ld_cols_apply x5 512 (by decide) _ ρ q).trans (hlb ρ _)) b q
  · refine piece_of_block 384 (by decide) inb_S1024x1024_S1024x128_0_384 _
      (fun y : S1024x1024.Idx => Cert.Spec.layer (decide (v17 = 1#1)) p rin (y 0) (y 1)) ?_
    exact fun b q => block3_apply p rin v8 x4 x3 v17 _ _ _ hr hla hbias
      (fun q k => (ld_rows_apply x1 384 (by decide) _ q k).trans (hcode _ k))
      (fun q g => (ld_rows_apply x2 384 (by decide) _ q g).trans (hscale _ g))
      (fun ρ q => (ld_cols_apply x5 384 (by decide) _ ρ q).trans (hlb ρ _)) b q
  · refine piece_of_block 256 (by decide) inb_S1024x1024_S1024x128_0_256 _
      (fun y : S1024x1024.Idx => Cert.Spec.layer (decide (v17 = 1#1)) p rin (y 0) (y 1)) ?_
    exact fun b q => block2_apply p rin v8 x4 x3 v17 _ _ _ hr hla hbias
      (fun q k => (ld_rows_apply x1 256 (by decide) _ q k).trans (hcode _ k))
      (fun q g => (ld_rows_apply x2 256 (by decide) _ q g).trans (hscale _ g))
      (fun ρ q => (ld_cols_apply x5 256 (by decide) _ ρ q).trans (hlb ρ _)) b q
  · refine piece_of_block 128 (by decide) inb_S1024x1024_S1024x128_0_128 _
      (fun y : S1024x1024.Idx => Cert.Spec.layer (decide (v17 = 1#1)) p rin (y 0) (y 1)) ?_
    exact fun b q => block1_apply p rin v8 x4 x3 v17 _ _ _ hr hla hbias
      (fun q k => (ld_rows_apply x1 128 (by decide) _ q k).trans (hcode _ k))
      (fun q g => (ld_rows_apply x2 128 (by decide) _ q g).trans (hscale _ g))
      (fun ρ q => (ld_cols_apply x5 128 (by decide) _ ρ q).trans (hlb ρ _)) b q
  · refine piece_of_block 0 (by decide) inb_S1024x1024_S1024x128_0_0 _
      (fun y : S1024x1024.Idx => Cert.Spec.layer (decide (v17 = 1#1)) p rin (y 0) (y 1)) ?_
    exact fun b q => block0_apply p rin v8 x4 x3 v17 _ _ _ hr hla hbias
      (fun q k => (ld_rows_apply x1 0 (by decide) _ q k).trans (hcode _ k))
      (fun q g => (ld_rows_apply x2 0 (by decide) _ q g).trans (hscale _ g))
      (fun ρ q => (ld_cols_apply x5 0 (by decide) _ ρ q).trans (hlb ρ _)) b q

/-! ## The five control cases -/

/-- Case A: the running table after the point is the layer of the table the point's layer read. -/
theorem R_A (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec Ideal S1024x1024 .f32) (x1 : Vec Ideal S1x1024x1024 .i32) (x2 : Vec Ideal S1x1024x64 .f32) (x3 : Vec Ideal S1x1x1024 .f32) (x4 x5 : Vec Ideal S1x32x1024 .f32) (x6 x7 : Vec Ideal S1x1x1024 .f32)
    (p : Cert.Spec.LayerP) (rin : Cert.Spec.Act)
    (hcode : ∀ (o k : Fin 1024), x1 (ix3 (0 : Fin 1) o k) = p.code o k) (hscale : ∀ (o : Fin 1024) (g : Fin 64), x2 (ix3 (0 : Fin 1) o g) = p.scale o g)
    (hbias : ∀ o : Fin 1024, x3 (ix3 (0 : Fin 1) (0 : Fin 1) o) = p.bias o) (hla : ∀ (ρ : Fin 32) (k : Fin 1024), x4 (ix3 (0 : Fin 1) ρ k) = p.la ρ k)
    (hlb : ∀ (ρ : Fin 32) (o : Fin 1024), x5 (ix3 (0 : Fin 1) ρ o) = p.lb o ρ)
    (hr : ∀ b k : Fin 1024, x0 (ix2 b k) = rin b k) (b o : Fin 1024) :
    sout0_A_1 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 (ix2 b o) = Cert.Spec.layer (decide ((i 1).val < 2)) p rin b o := by
  unfold sout0_A_1
  rw [View.read_writes_junk_eq_canon]
  unfold kernelRun0_A
  dsimp only
  sl_unfold_words
  simp only [View.readAt_eq_ld, harg2.read_unread, harg3.read_unread, harg4.read_unread, harg5.read_unread, harg6.read_unread, harg7.read_unread,
    View.readCov_unit_zero (S := S1024x1024) _ zero_off2, copy_stream_eq, copy_in_eq,
    View.ld_unit_zero (S := S1024x1024) zero_off2, View.ld_unit_zero (S := S1x32x1024) zero_off3,
    View.ld_unit_zero (S := S1x1x1024) zero_off3]
  rw [← flag_decide i]
  exact layerPieces_canon [(⟨Rect.unit (s := S1024x1024) ![0, 0] S1024x1024.size inb_S1024x1024_S1024x1024_0_0, x0⟩ : View.Piece (Elt Ideal) S1024x1024 .f32)] p rin x0 _ x1 x2 x3 x4 x5 hcode hscale hbias hla hlb hr b o

/-- Case B: the running table after the point is the layer of the table the point's layer read. -/
theorem R_B (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i) (hc2 : ¬cond0_2 i) (hc3 : ¬cond0_3 i) (hc4 : ¬cond0_4 i)
    (x0 : Vec Ideal S1024x1024 .f32) (x1 : Vec Ideal S1x1024x1024 .i32) (x2 : Vec Ideal S1x1024x64 .f32) (x3 : Vec Ideal S1x1x1024 .f32) (x4 x5 : Vec Ideal S1x32x1024 .f32) (x6 x7 : Vec Ideal S1x1x1024 .f32) (xs0 : Vec Ideal S1024x1024 .f32)
    (p : Cert.Spec.LayerP) (rin : Cert.Spec.Act)
    (hcode : ∀ (o k : Fin 1024), x1 (ix3 (0 : Fin 1) o k) = p.code o k) (hscale : ∀ (o : Fin 1024) (g : Fin 64), x2 (ix3 (0 : Fin 1) o g) = p.scale o g)
    (hbias : ∀ o : Fin 1024, x3 (ix3 (0 : Fin 1) (0 : Fin 1) o) = p.bias o) (hla : ∀ (ρ : Fin 32) (k : Fin 1024), x4 (ix3 (0 : Fin 1) ρ k) = p.la ρ k)
    (hlb : ∀ (ρ : Fin 32) (o : Fin 1024), x5 (ix3 (0 : Fin 1) ρ o) = p.lb o ρ)
    (hr : ∀ b k : Fin 1024, xs0 (ix2 b k) = rin b k) (b o : Fin 1024) :
    sout0_B_1 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 (ix2 b o) = Cert.Spec.layer (decide ((i 1).val < 2)) p rin b o := by
  unfold sout0_B_1
  rw [View.read_writes_junk_eq_canon]
  unfold kernelRun0_B
  dsimp only
  sl_unfold_words
  simp only [View.readAt_eq_ld, harg3.read_unread, harg4.read_unread, harg5.read_unread, harg6.read_unread, harg7.read_unread, harg11.read_unread,
    View.readCov_unit_zero (S := S1024x1024) _ zero_off2, copy_stream_eq, copy_in_eq,
    View.ld_unit_zero (S := S1024x1024) zero_off2, View.ld_unit_zero (S := S1x32x1024) zero_off3,
    View.ld_unit_zero (S := S1x1x1024) zero_off3]
  rw [← flag_decide i]
  exact layerPieces_canon [(⟨Rect.unit (s := S1024x1024) ![0, 0] S1024x1024.size inb_S1024x1024_S1024x1024_0_0, xs0⟩ : View.Piece (Elt Ideal) S1024x1024 .f32)] p rin xs0 _ x1 x2 x3 x4 x5 hcode hscale hbias hla hlb hr b o

/-- Case C: the running table after the point is the layer of the table the point's layer read. -/
theorem R_C (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : ¬cond0_3 i) (hc4 : ¬cond0_4 i)
    (x0 : Vec Ideal S1024x1024 .f32) (x1 : Vec Ideal S1x1024x1024 .i32) (x2 : Vec Ideal S1x1024x64 .f32) (x3 : Vec Ideal S1x1x1024 .f32) (x4 x5 : Vec Ideal S1x32x1024 .f32) (x6 x7 : Vec Ideal S1x1x1024 .f32) (xs0 xs1 : Vec Ideal S1024x1024 .f32)
    (p : Cert.Spec.LayerP) (rin : Cert.Spec.Act)
    (hcode : ∀ (o k : Fin 1024), x1 (ix3 (0 : Fin 1) o k) = p.code o k) (hscale : ∀ (o : Fin 1024) (g : Fin 64), x2 (ix3 (0 : Fin 1) o g) = p.scale o g)
    (hbias : ∀ o : Fin 1024, x3 (ix3 (0 : Fin 1) (0 : Fin 1) o) = p.bias o) (hla : ∀ (ρ : Fin 32) (k : Fin 1024), x4 (ix3 (0 : Fin 1) ρ k) = p.la ρ k)
    (hlb : ∀ (ρ : Fin 32) (o : Fin 1024), x5 (ix3 (0 : Fin 1) ρ o) = p.lb o ρ)
    (hr : ∀ b k : Fin 1024, xs1 (ix2 b k) = rin b k) (b o : Fin 1024) :
    sout0_C_1 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1 (ix2 b o) = Cert.Spec.layer (decide ((i 1).val < 2)) p rin b o := by
  unfold sout0_C_1
  rw [View.read_writes_junk_eq_canon]
  unfold kernelRun0_C
  dsimp only
  sl_unfold_words
  simp only [View.readAt_eq_ld, harg3.read_unread, harg4.read_unread, harg5.read_unread, harg6.read_unread, harg7.read_unread, harg12.read_unread,
    View.readCov_unit_zero (S := S1024x1024) _ zero_off2, copy_stream_eq, copy_in_eq,
    View.ld_unit_zero (S := S1024x1024) zero_off2, View.ld_unit_zero (S := S1x32x1024) zero_off3,
    View.ld_unit_zero (S := S1x1x1024) zero_off3]
  rw [← flag_decide i]
  exact layerPieces_canon [] p rin xs1 _ x1 x2 x3 x4 x5 hcode hscale hbias hla hlb hr b o

/-- Case D: the running table after the point is the layer of the table the point's layer read. -/
theorem R_D (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec Ideal S1024x1024 .f32) (x1 : Vec Ideal S1x1024x1024 .i32) (x2 : Vec Ideal S1x1024x64 .f32) (x3 : Vec Ideal S1x1x1024 .f32) (x4 x5 : Vec Ideal S1x32x1024 .f32) (x6 x7 : Vec Ideal S1x1x1024 .f32) (xs0 xs1 : Vec Ideal S1024x1024 .f32)
    (p : Cert.Spec.LayerP) (rin : Cert.Spec.Act)
    (hcode : ∀ (o k : Fin 1024), x1 (ix3 (0 : Fin 1) o k) = p.code o k) (hscale : ∀ (o : Fin 1024) (g : Fin 64), x2 (ix3 (0 : Fin 1) o g) = p.scale o g)
    (hbias : ∀ o : Fin 1024, x3 (ix3 (0 : Fin 1) (0 : Fin 1) o) = p.bias o) (hla : ∀ (ρ : Fin 32) (k : Fin 1024), x4 (ix3 (0 : Fin 1) ρ k) = p.la ρ k)
    (hlb : ∀ (ρ : Fin 32) (o : Fin 1024), x5 (ix3 (0 : Fin 1) ρ o) = p.lb o ρ)
    (hr : ∀ b k : Fin 1024, xs1 (ix2 b k) = rin b k) (b o : Fin 1024) :
    sout0_D_1 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1 (ix2 b o) = Cert.Spec.layer (decide ((i 1).val < 2)) p rin b o := by
  unfold sout0_D_1
  rw [View.read_writes_junk_eq_canon]
  unfold kernelRun0_D
  dsimp only
  sl_unfold_words
  simp only [View.readAt_eq_ld, harg3.read_unread, harg4.read_unread, harg5.read_unread, harg6.read_unread, harg7.read_unread, harg12.read_unread,
    View.readCov_unit_zero (S := S1024x1024) _ zero_off2, copy_stream_eq, copy_in_eq,
    View.ld_unit_zero (S := S1024x1024) zero_off2, View.ld_unit_zero (S := S1x32x1024) zero_off3,
    View.ld_unit_zero (S := S1x1x1024) zero_off3]
  rw [← flag_decide i]
  exact layerPieces_canon [] p rin xs1 _ x1 x2 x3 x4 x5 hcode hscale hbias hla hlb hr b o

/-- Case E: the running table after the point is the layer of the table the point's layer read. -/
theorem R_E (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec Ideal S1024x1024 .f32) (x1 : Vec Ideal S1x1024x1024 .i32) (x2 : Vec Ideal S1x1024x64 .f32) (x3 : Vec Ideal S1x1x1024 .f32) (x4 x5 : Vec Ideal S1x32x1024 .f32) (x6 x7 : Vec Ideal S1x1x1024 .f32) (xs0 xs1 : Vec Ideal S1024x1024 .f32)
    (p : Cert.Spec.LayerP) (rin : Cert.Spec.Act)
    (hcode : ∀ (o k : Fin 1024), x1 (ix3 (0 : Fin 1) o k) = p.code o k) (hscale : ∀ (o : Fin 1024) (g : Fin 64), x2 (ix3 (0 : Fin 1) o g) = p.scale o g)
    (hbias : ∀ o : Fin 1024, x3 (ix3 (0 : Fin 1) (0 : Fin 1) o) = p.bias o) (hla : ∀ (ρ : Fin 32) (k : Fin 1024), x4 (ix3 (0 : Fin 1) ρ k) = p.la ρ k)
    (hlb : ∀ (ρ : Fin 32) (o : Fin 1024), x5 (ix3 (0 : Fin 1) ρ o) = p.lb o ρ)
    (hr : ∀ b k : Fin 1024, xs1 (ix2 b k) = rin b k) (b o : Fin 1024) :
    sout0_E_1 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1 (ix2 b o) = Cert.Spec.layer (decide ((i 1).val < 2)) p rin b o := by
  unfold sout0_E_1
  rw [View.read_writes_junk_eq_canon]
  unfold kernelRun0_E
  dsimp only
  sl_unfold_words
  simp only [View.readAt_eq_ld, harg3.read_unread, harg4.read_unread, harg5.read_unread, harg6.read_unread, harg7.read_unread, harg12.read_unread,
    View.readCov_unit_zero (S := S1024x1024) _ zero_off2, copy_stream_eq, copy_in_eq,
    View.ld_unit_zero (S := S1024x1024) zero_off2, View.ld_unit_zero (S := S1x32x1024) zero_off3,
    View.ld_unit_zero (S := S1x1x1024) zero_off3]
  rw [← flag_decide i]
  exact layerPieces_canon [] p rin xs1 _ x1 x2 x3 x4 x5 hcode hscale hbias hla hlb hr b o

end Cert.KernelIdeal.LayerValue

end
-- ==== Proof.KI.CaseValuesH.lean ====
/-
  What the kernel leaves in the residual stream's buffer at the points where it writes it, and in the output's buffer at
  the last point, entry by entry: at the first point the input table; at the last point of each of the first five
  blocks the row normalisation of the layer's value plus the stream; at the last point of all that sum itself, which is
  also what is written out.  The layer's value is whatever the point's eight column stores left, read back whole.
-/
import proofs.«136264_j72249939853571_2_alg».proof.Proof.KI.Frame
import proofs.«136264_j72249939853571_2_alg».proof.Proof.KI.LayerNorm

set_option maxRecDepth 16384

noncomputable section

namespace Cert.KernelIdeal.LayerValue

open Idealize.ShloMosaic Idealize.ShloMosaic.TcCoe Idealize.ShloMosaic.ValueIdx Idealize.ShloMosaic.Tactic Idealize.SL.Sem
open Cert.KernelIdeal Cert.KernelIdeal.Gen Cert.KernelIdeal.Body

/-- The zero offsets of a rank-2 rectangle. -/
theorem off2_zero : (![0, 0] : Fin S1024x1024.rank → ℕ) = fun _ => 0 := by
  funext a; fin_cases a <;> rfl

/-- The zero offsets of a rank-3 rectangle. -/
theorem off3_zero : (![0, 0, 0] : Fin S1x1x1024.rank → ℕ) = fun _ => 0 := by
  funext a; fin_cases a <;> rfl

/-! ## The first point: the stream is the input -/

theorem H_A (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : ¬cond0_2 i) (hc3 : ¬cond0_3 i) (hc4 : ¬cond0_4 i)
    (x0 : Vec Ideal S1024x1024 .f32) (x1 : Vec Ideal S1x1024x1024 .i32) (x2 : Vec Ideal S1x1024x64 .f32) (x3 : Vec Ideal S1x1x1024 .f32) (x4 x5 : Vec Ideal S1x32x1024 .f32) (x6 x7 : Vec Ideal S1x1x1024 .f32) (b k : Fin 1024) :
    sout0_A_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 (ix2 b k) = x0 (ix2 b k) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7)]
  unfold kernelRun0_A
  dsimp only
  sl_unfold_run_names
  rw [View.canon_unit_zero off2_zero, copy_in_eq, View.readAt_eq_ld, harg2.read_unread, View.ld_unit_zero off2_zero]

/-! ## The layer's value read back whole is what the eight column stores left -/

theorem loadR_D (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec Ideal S1024x1024 .f32) (x1 : Vec Ideal S1x1024x1024 .i32) (x2 : Vec Ideal S1x1024x64 .f32) (x3 : Vec Ideal S1x1x1024 .f32) (x4 x5 : Vec Ideal S1x32x1024 .f32) (x6 x7 : Vec Ideal S1x1x1024 .f32) (xs0 xs1 : Vec Ideal S1024x1024 .f32) :
    kernelRun0_D.sl.v255 c i arg3 harg3 arg4 harg4 arg5 harg5 arg6 harg6 arg7 harg7 arg12 harg12 x1 x2 x3 x4 x5 xs1
      = sout0_D_1 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1 := by
  unfold kernelRun0_D.sl.v255 sout0_D_1
  rw [View.readCov_eq_canon', View.read_writes_junk_eq_canon]
  show View.ld (View.canon _) (Rect.unit ![0, 0] S1024x1024.size inb_S1024x1024_S1024x1024_0_0) = View.canon _
  rw [View.ld_unit_zero off2_zero]
  rfl

theorem loadR_E (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec Ideal S1024x1024 .f32) (x1 : Vec Ideal S1x1024x1024 .i32) (x2 : Vec Ideal S1x1024x64 .f32) (x3 : Vec Ideal S1x1x1024 .f32) (x4 x5 : Vec Ideal S1x32x1024 .f32) (x6 x7 : Vec Ideal S1x1x1024 .f32) (xs0 xs1 : Vec Ideal S1024x1024 .f32) :
    kernelRun0_E.sl.v255 c i arg3 harg3 arg4 harg4 arg5 harg5 arg6 harg6 arg7 harg7 arg12 harg12 x1 x2 x3 x4 x5 xs1
      = sout0_E_1 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1 := by
  unfold kernelRun0_E.sl.v255 sout0_E_1
  rw [View.readCov_eq_canon', View.read_writes_junk_eq_canon]
  show View.ld (View.canon _) (Rect.unit ![0, 0] S1024x1024.size inb_S1024x1024_S1024x1024_0_0) = View.canon _
  rw [View.ld_unit_zero off2_zero]
  rfl

/-! ## The last point of one of the first five blocks: added back, then normalised -/

theorem H_D (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : cond0_3 i) (hc4 : ¬cond0_4 i)
    (x0 : Vec Ideal S1024x1024 .f32) (x1 : Vec Ideal S1x1024x1024 .i32) (x2 : Vec Ideal S1x1024x64 .f32) (x3 : Vec Ideal S1x1x1024 .f32) (x4 x5 : Vec Ideal S1x32x1024 .f32) (x6 x7 : Vec Ideal S1x1x1024 .f32) (xs0 xs1 : Vec Ideal S1024x1024 .f32)
    (η r' : Cert.Spec.Act) (g be : Fin 1024 → EReal) (hh : ∀ b k : Fin 1024, xs0 (ix2 b k) = η b k)
    (hR : ∀ b k : Fin 1024, sout0_D_1 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1 (ix2 b k) = r' b k)
    (hg : ∀ k : Fin 1024, x6 (ix3 (0 : Fin 1) (0 : Fin 1) k) = g k) (hbe : ∀ k : Fin 1024, x7 (ix3 (0 : Fin 1) (0 : Fin 1) k) = be k) (b k : Fin 1024) :
    sout0_D_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1 (ix2 b k) = Cert.Spec.norm g be (fun b k => r' b k + η b k) b k := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1)]
  unfold kernelRun0_D
  dsimp only
  rw [View.canon_cons_unit_zero off2_zero]
  refine norm_apply g be (fun b k => r' b k + η b k) _ _ _ (fun b k => ?_) (fun k => ?_) (fun k => ?_) b k
  · unfold kernelRun0_D.sl.v255_1 kernelRun0_D.sl.H11_1
    rw [View.readCov_unit_zero _ off2_zero]
    refine (residual_apply _ _ b k).trans ?_
    rw [loadR_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1, hR b k, View.readAt_eq_ld, harg11.read_unread, View.ld_unit_zero off2_zero, hh b k]
  · rw [View.readAt_eq_ld, harg8.read_unread, View.ld_unit_zero off3_zero, hg k]
  · rw [View.readAt_eq_ld, harg9.read_unread, View.ld_unit_zero off3_zero, hbe k]

/-! ## The last point: added back, and written out -/

theorem H_E (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec Ideal S1024x1024 .f32) (x1 : Vec Ideal S1x1024x1024 .i32) (x2 : Vec Ideal S1x1024x64 .f32) (x3 : Vec Ideal S1x1x1024 .f32) (x4 x5 : Vec Ideal S1x32x1024 .f32) (x6 x7 : Vec Ideal S1x1x1024 .f32) (xs0 xs1 : Vec Ideal S1024x1024 .f32)
    (η r' : Cert.Spec.Act) (hh : ∀ b k : Fin 1024, xs0 (ix2 b k) = η b k)
    (hR : ∀ b k : Fin 1024, sout0_E_1 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1 (ix2 b k) = r' b k) (b k : Fin 1024) :
    sout0_E_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1 (ix2 b k) = r' b k + η b k := by
  unfold sout0_E_0
  rw [View.read_writes_eq_canon _ _ _ (scover0_E_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1)]
  unfold kernelRun0_E
  dsimp only
  unfold kernelRun0_E.sl.H11_1
  rw [View.canon_unit_zero off2_zero]
  refine (residual_apply _ _ b k).trans ?_
  rw [loadR_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1, hR b k, View.readAt_eq_ld, harg11.read_unread, View.ld_unit_zero off2_zero, hh b k]

theorem O_E (c : Dev nD) (i : grid0.Coords) (arg2 : Memref sig .tc .vmem S1024x1024 .f32) (harg2 : arg2.IsWhole) (arg3 : Memref sig .tc .vmem S1x1024x1024 .i32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : cond0_4 i)
    (x0 : Vec Ideal S1024x1024 .f32) (x1 : Vec Ideal S1x1024x1024 .i32) (x2 : Vec Ideal S1x1024x64 .f32) (x3 : Vec Ideal S1x1x1024 .f32) (x4 x5 : Vec Ideal S1x32x1024 .f32) (x6 x7 : Vec Ideal S1x1x1024 .f32) (xs0 xs1 : Vec Ideal S1024x1024 .f32) (b k : Fin 1024) :
    out0_E_8 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1 (ix2 b k) = sout0_E_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1 (ix2 b k) := by
  unfold out0_E_8 sout0_E_0
  rw [View.read_writes_eq_canon _ _ _ (cover0_E_8 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1), View.read_writes_eq_canon _ _ _ (scover0_E_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 xs1)]
  unfold kernelRun0_E
  dsimp only
  rw [View.canon_unit_zero off2_zero]
  unfold kernelRun0_E.sl.v255_1
  rw [View.readCov_eq_canon']
  show View.ld (View.canon _) (Rect.unit ![0, 0] S1024x1024.size inb_S1024x1024_S1024x1024_0_0) (ix2 b k) = _
  rw [View.ld_unit_zero off2_zero]

end Cert.KernelIdeal.LayerValue

end
-- ==== Proof.Params.lean ====
/-
  The network's parameters read off the eight argument arrays, entry by entry: the activation table, the per-layer
  integer codes, group scales, biases and low-rank factors at block `i` and layer `j`, and the five normalisations'
  scales and shifts.  Both programs' results are stated over this one reading of the arguments.
-/
import proofs.«136264_j72249939853571_2_alg».proof.Proof.Spec
import Idealize.ShloMosaic.Lib.ValueIdx

noncomputable section

namespace Cert.Spec

open Idealize.ShloMosaic Idealize.ShloMosaic.ValueIdx

/-- The parameters the argument arrays hold: x [1024,1024], codes [6,3,1024,1024], scales [6,3,1024,64],
    bias [6,3,1024], la [6,3,32,1024], lb [6,3,1024,32], gamma and beta [5,1024]. -/
def paramsOf
    (a0 : (⟨2, ![1024, 1024]⟩ : Shape).Idx → EReal)
    (a1 : (⟨4, ![6, 3, 1024, 1024]⟩ : Shape).Idx → BitVec 32)
    (a2 : (⟨4, ![6, 3, 1024, 64]⟩ : Shape).Idx → EReal)
    (a3 : (⟨3, ![6, 3, 1024]⟩ : Shape).Idx → EReal)
    (a4 : (⟨4, ![6, 3, 32, 1024]⟩ : Shape).Idx → EReal)
    (a5 : (⟨4, ![6, 3, 1024, 32]⟩ : Shape).Idx → EReal)
    (a6 a7 : (⟨2, ![5, 1024]⟩ : Shape).Idx → EReal) : NetP where
  x := fun b k => a0 (ix2 b k)
  lay := fun i j =>
    { code := fun o k => a1 (ix4 i j o k)
      scale := fun o g => a2 (ix4 i j o g)
      bias := fun o => a3 (ix3 i j o)
      la := fun ρ k => a4 (ix4 i j ρ k)
      lb := fun o ρ => a5 (ix4 i j o ρ) }
  g := fun i k => a6 (ix2 i k)
  be := fun i k => a7 (ix2 i k)

end Cert.Spec

end
-- ==== Proof.SpecState.lean ====
/-
  The network as the kernel walks it: one layer per grid point t = 3 i + j, carrying two tables, the residual stream
  `h` and the running value `r`.  At j = 0 the layer reads h, else r; the first two layers of a block take the positive
  part; at j = 2 the block's input is added back to r and, for the first five blocks, the sum is normalised; that is the
  next h.  After the eighteenth point h is the network's result.
-/
import proofs.«136264_j72249939853571_2_alg».proof.Proof.Spec

noncomputable section

namespace Cert.Spec

/-- The parameters of the layer run at point `t` (points past the eighteenth repeat layer (0, 0)). -/
def layAt (P : NetP) (t : ℕ) : LayerP :=
  if h : t < 18 then P.lay ⟨t / 3, by omega⟩ ⟨t % 3, Nat.mod_lt _ (by decide)⟩ else P.lay 0 0

/-- One point's step from the pair (h, r) the point before left. -/
def stepAt (P : NetP) (t : ℕ) (s : Act × Act) : Act × Act :=
  let rin : Act := if t % 3 = 0 then s.1 else s.2
  let r' : Act := layer (decide (t % 3 < 2)) (layAt P t) rin
  let h' : Act :=
    if t % 3 = 2 then
      (if h5 : t / 3 < 5 then norm (P.g ⟨t / 3, h5⟩) (P.be ⟨t / 3, h5⟩) (fun b k => r' b k + s.1 b k)
       else fun b k => r' b k + s.1 b k)
    else s.1
  (h', r')

/-- The pair (h, r) after point `n`; before the first point h is the input (r is not read at a point with j = 0). -/
def stAt (P : NetP) : ℕ → Act × Act
  | 0 => stepAt P 0 (P.x, P.x)
  | n + 1 => stepAt P (n + 1) (stAt P n)

theorem stAt_succ (P : NetP) (n : ℕ) : stAt P (n + 1) = stepAt P (n + 1) (stAt P n) := rfl

/-- Three points are one block: from a stream value `h` in the first component at the point before the block. -/
theorem stepAt_block (P : NetP) (i : ℕ) (hi : i < 6) (s : Act × Act) :
    (stepAt P (3 * i + 2) (stepAt P (3 * i + 1) (stepAt P (3 * i) s))).1
      = (if h5 : i < 5 then norm (P.g ⟨i, h5⟩) (P.be ⟨i, h5⟩) (resid P ⟨i, hi⟩ s.1) else resid P ⟨i, hi⟩ s.1) := by
  have m0 : (3 * i) % 3 = 0 := by omega
  have m1 : (3 * i + 1) % 3 = 1 := by omega
  have m2 : (3 * i + 2) % 3 = 2 := by omega
  have d0 : (3 * i) / 3 = i := by omega
  have d1 : (3 * i + 1) / 3 = i := by omega
  have d2 : (3 * i + 2) / 3 = i := by omega
  have l0 : layAt P (3 * i) = P.lay ⟨i, hi⟩ 0 := by
    unfold layAt; rw [dif_pos (by omega)]; congr 1 <;> apply Fin.ext <;> simp [d0, m0]
  have l1 : layAt P (3 * i + 1) = P.lay ⟨i, hi⟩ 1 := by
    unfold layAt; rw [dif_pos (by omega)]; congr 1 <;> apply Fin.ext <;> simp [d1, m1]
  have l2 : layAt P (3 * i + 2) = P.lay ⟨i, hi⟩ 2 := by
    unfold layAt; rw [dif_pos (by omega)]; congr 1 <;> apply Fin.ext <;> simp [d2, m2]
  simp only [stepAt, m0, m1, m2, d2, l0, l1, l2, if_true, if_false, Nat.one_ne_zero, OfNat.ofNat_ne_zero,
    show (2 : ℕ) ≠ 0 from by decide, show (1 : ℕ) ≠ 2 from by decide, show (0 : ℕ) ≠ 2 from by decide,
    show decide ((0 : ℕ) < 2) = true from rfl, show decide ((1 : ℕ) < 2) = true from rfl,
    show decide ((2 : ℕ) < 2) = false from rfl]
  rfl

/-- After the last point of block `i` the first component is the stream after `i + 1` blocks. -/
theorem stAt_stream (P : NetP) : ∀ i : ℕ, i < 6 → (stAt P (3 * i + 2)).1 = stream P (i + 1) := by
  intro i
  induction i with
  | zero =>
    intro hi
    show (stepAt P 2 (stepAt P 1 (stepAt P 0 (P.x, P.x)))).1 = _
    have := stepAt_block P 0 hi (P.x, P.x)
    simp only [Nat.mul_zero, Nat.zero_add] at this
    rw [this]
    show _ = (if h5 : 0 < 5 then _ else _)
    rfl
  | succ i ih =>
    intro hi
    have hprev := ih (by omega)
    have e : 3 * (i + 1) + 2 = (3 * i + 2) + 1 + 1 + 1 := by ring
    rw [e, stAt_succ, stAt_succ, stAt_succ]
    have e0 : 3 * i + 2 + 1 = 3 * (i + 1) := by ring
    have e1 : 3 * i + 2 + 1 + 1 = 3 * (i + 1) + 1 := by ring
    have e2 : 3 * i + 2 + 1 + 1 + 1 = 3 * (i + 1) + 2 := by ring
    rw [e2, e1, e0, stepAt_block P (i + 1) hi, hprev]
    show _ = (if h5 : i + 1 < 5 then _ else if h6 : i + 1 < 6 then _ else _)
    by_cases h5 : i + 1 < 5
    · rw [dif_pos h5, dif_pos h5]
    · rw [dif_neg h5, dif_neg h5, dif_pos hi]

/-- After the eighteenth point the first component is the network's result. -/
theorem stAt_net (P : NetP) : (stAt P 17).1 = net P := stAt_stream P 5 (by decide)

end Cert.Spec

end
-- ==== Proof.KI.Value.lean ====
/-
  The kernel's two carried tables after each of the eighteen points are the specification's state, and what the output's
  buffer holds after the last point is the network's result.  By induction on the point: each point is in one of five
  control cases; the case's stored values are read entry by entry (the layer's eight column blocks as one layer of the
  specification, the residual sum, the row normalisation), and the point's input blocks are entries of the argument arrays.
-/
import proofs.«136264_j72249939853571_2_alg».proof.Proof.KI.Frame
import proofs.«136264_j72249939853571_2_alg».proof.Proof.KI.Blocks
import proofs.«136264_j72249939853571_2_alg».proof.Proof.KI.CaseValues
import proofs.«136264_j72249939853571_2_alg».proof.Proof.KI.CaseValuesH
import proofs.«136264_j72249939853571_2_alg».proof.Proof.Params
import proofs.«136264_j72249939853571_2_alg».proof.Proof.SpecState

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body Cert.KernelIdeal.Blocks Cert.Spec
open Cert.KernelIdeal.LayerValue

variable (m : (ℓ : Loc nD τ sig) → Buf (Elt Ideal) ℓ)

/-- The parameters core `c`'s argument arrays hold. -/
def P (c : Dev nD) : NetP :=
  paramsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Point t is (block t / 3, layer t % 3). -/
theorem coords : ∀ t : Fin cfg0.N, (grid0.coords t 0).val = t.val / 3 ∧ (grid0.coords t 1).val = t.val % 3 :=
  (by decide +kernel : ∀ t : Fin grid0.N, _)

/-! ## The layer's parameters at a point, entry by entry, are the point's blocks -/

theorem blk_code (c : Dev nD) (t : Fin cfg0.N) (o k : Fin 1024) :
    iblk m c 1 t (ix3 (0 : Fin 1) o k) = (layAt (P m c) t.val).code o k := by
  have hN : t.val < 18 := lt_of_lt_of_eq t.isLt N18
  rw [blk1 m c t ⟨t.val / 3, by omega⟩ ⟨t.val % 3, by omega⟩ (by show t.val = 3 * (t.val / 3) + t.val % 3; omega) o k]
  unfold layAt; rw [dif_pos hN]; rfl

theorem blk_scale (c : Dev nD) (t : Fin cfg0.N) (o : Fin 1024) (g : Fin 64) :
    iblk m c 2 t (ix3 (0 : Fin 1) o g) = (layAt (P m c) t.val).scale o g := by
  have hN : t.val < 18 := lt_of_lt_of_eq t.isLt N18
  rw [blk2 m c t ⟨t.val / 3, by omega⟩ ⟨t.val % 3, by omega⟩ (by show t.val = 3 * (t.val / 3) + t.val % 3; omega) o g]
  unfold layAt; rw [dif_pos hN]; rfl

theorem blk_bias (c : Dev nD) (t : Fin cfg0.N) (o : Fin 1024) :
    iblk m c 3 t (ix3 (0 : Fin 1) (0 : Fin 1) o) = (layAt (P m c) t.val).bias o := by
  have hN : t.val < 18 := lt_of_lt_of_eq t.isLt N18
  rw [blk3 m c t ⟨t.val / 3, by omega⟩ ⟨t.val % 3, by omega⟩ (by show t.val = 3 * (t.val / 3) + t.val % 3; omega) o]
  unfold layAt; rw [dif_pos hN]; rfl

theorem blk_la (c : Dev nD) (t : Fin cfg0.N) (r : Fin 32) (k : Fin 1024) :
    iblk m c 4 t (ix3 (0 : Fin 1) r k) = (layAt (P m c) t.val).la r k := by
  have hN : t.val < 18 := lt_of_lt_of_eq t.isLt N18
  rw [blk4 m c t ⟨t.val / 3, by omega⟩ ⟨t.val % 3, by omega⟩ (by show t.val = 3 * (t.val / 3) + t.val % 3; omega) r k]
  unfold layAt; rw [dif_pos hN]; rfl

theorem blk_lb (c : Dev nD) (t : Fin cfg0.N) (r : Fin 32) (o : Fin 1024) :
    iblk m c 5 t (ix3 (0 : Fin 1) r o) = (layAt (P m c) t.val).lb o r := by
  have hN : t.val < 18 := lt_of_lt_of_eq t.isLt N18
  rw [blk5 m c t ⟨t.val / 3, by omega⟩ ⟨t.val % 3, by omega⟩ (by show t.val = 3 * (t.val / 3) + t.val % 3; omega) r o]
  unfold layAt; rw [dif_pos hN]; rfl

theorem blk_g (c : Dev nD) (t : Fin cfg0.N) (h5 : t.val / 3 < 5) (k : Fin 1024) :
    iblk m c 6 t (ix3 (0 : Fin 1) (0 : Fin 1) k) = (P m c).g ⟨t.val / 3, h5⟩ k :=
  blk6 m c t ⟨t.val / 3, h5⟩ rfl k

theorem blk_be (c : Dev nD) (t : Fin cfg0.N) (h5 : t.val / 3 < 5) (k : Fin 1024) :
    iblk m c 7 t (ix3 (0 : Fin 1) (0 : Fin 1) k) = (P m c).be ⟨t.val / 3, h5⟩ k :=
  blk7 m c t ⟨t.val / 3, h5⟩ rfl k

theorem blk_x (c : Dev nD) (t : Fin cfg0.N) (b k : Fin 1024) : iblk m c 0 t (ix2 b k) = (P m c).x b k :=
  blk0 m c t b k

/-! ## One step of the specification's state, component by component -/

theorem stepAt_r (P : NetP) (t : ℕ) (s : Act × Act) :
    (stepAt P t s).2 = layer (decide (t % 3 < 2)) (layAt P t) (if t % 3 = 0 then s.1 else s.2) := rfl

theorem stepAt_h_keep (P : NetP) (t : ℕ) (s : Act × Act) (h : ¬t % 3 = 2) : (stepAt P t s).1 = s.1 := by
  show (if t % 3 = 2 then _ else s.1) = s.1
  rw [if_neg h]

theorem stepAt_h_norm (P : NetP) (t : ℕ) (s : Act × Act) (h2 : t % 3 = 2) (h5 : t / 3 < 5) :
    (stepAt P t s).1 = norm (P.g ⟨t / 3, h5⟩) (P.be ⟨t / 3, h5⟩) (fun b k => (stepAt P t s).2 b k + s.1 b k) := by
  show (if t % 3 = 2 then (if h5 : t / 3 < 5 then _ else _) else s.1) = _
  rw [if_pos h2, dif_pos h5]
  rfl

theorem stepAt_h_add (P : NetP) (t : ℕ) (s : Act × Act) (h2 : t % 3 = 2) (h5 : ¬t / 3 < 5) :
    (stepAt P t s).1 = fun b k => (stepAt P t s).2 b k + s.1 b k := by
  show (if t % 3 = 2 then (if h5 : t / 3 < 5 then _ else _) else s.1) = _
  rw [if_pos h2, dif_neg h5]
  rfl

/-! ## The induction over the points -/

/-- The statement carried along the points: after point `t` the two carried tables hold the specification's state. -/
def Inv (c : Dev nD) (t : Fin cfg0.N) (n : ℕ) : Prop :=
  (∀ b k : Fin 1024, (outsAt0 m c t.val t.isLt).2.1 (ix2 b k) = (stAt (P m c) n).1 b k)
  ∧ (∀ b k : Fin 1024, (outsAt0 m c t.val t.isLt).2.2 (ix2 b k) = (stAt (P m c) n).2 b k)

set_option maxHeartbeats 4000000 in
theorem inv_first (c : Dev nD) (t : Fin cfg0.N) (h : t.val = 0) : Inv m c t 0 := by
  have hj : (grid0.coords t 1).val = 0 := by rw [(coords t).2, h]
  have e := outsAt0_A m c t h
  have e1 : (outsAt0 m c t.val t.isLt).2.1 = _ := congrArg (fun z => z.2.1) e
  have e2 : (outsAt0 m c t.val t.isLt).2.2 = _ := congrArg (fun z => z.2.2) e
  have hs : stAt (P m c) 0 = stepAt (P m c) 0 ((P m c).x, (P m c).x) := rfl
  refine ⟨fun b k => ?_, fun b k => ?_⟩
  · rw [e1, hs, stepAt_h_keep _ _ _ (by decide)]
    exact (H_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsA t h).1 (condsA t h).2.1 (condsA t h).2.2.1 (condsA t h).2.2.2.1 (condsA t h).2.2.2.2 (iblk m c 0 t) (iblk m c 1 t) (iblk m c 2 t) (iblk m c 3 t) (iblk m c 4 t) (iblk m c 5 t) (iblk m c 6 t) (iblk m c 7 t) b k).trans (blk_x m c t b k)
  · rw [e2, hs, stepAt_r, if_pos (by decide)]
    refine (R_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsA t h).1 (condsA t h).2.1 (condsA t h).2.2.1 (condsA t h).2.2.2.1 (condsA t h).2.2.2.2 (iblk m c 0 t) (iblk m c 1 t) (iblk m c 2 t) (iblk m c 3 t) (iblk m c 4 t) (iblk m c 5 t) (iblk m c 6 t) (iblk m c 7 t) (layAt (P m c) t.val) (P m c).x (blk_code m c t) (blk_scale m c t) (blk_bias m c t) (blk_la m c t) (blk_lb m c t) (blk_x m c t) b k).trans ?_
    rw [hj, h]

set_option maxHeartbeats 16000000 in
theorem inv_step (c : Dev nD) (n : ℕ) (t : Fin cfg0.N) (ht : t.val = n + 1)
    (ihH : ∀ b k : Fin 1024, (outsAt0 m c (t.val - 1) (Nat.lt_of_le_of_lt (Nat.sub_le _ _) t.isLt)).2.1 (ix2 b k) = (stAt (P m c) n).1 b k)
    (ihR : ∀ b k : Fin 1024, (outsAt0 m c (t.val - 1) (Nat.lt_of_le_of_lt (Nat.sub_le _ _) t.isLt)).2.2 (ix2 b k) = (stAt (P m c) n).2 b k) : Inv m c t (n + 1) := by
  have hN : t.val < 18 := lt_of_lt_of_eq t.isLt N18
  have hj : (grid0.coords t 1).val = t.val % 3 := (coords t).2
  have hs : stAt (P m c) (n + 1) = stepAt (P m c) t.val (stAt (P m c) n) := by rw [ht]; rfl
  by_cases h0 : t.val % 3 = 0
  · -- the first point of a later block: the layer reads the stream, which is kept
    have e := outsAt0_B m c t h0 (by omega)
    have e1 : (outsAt0 m c t.val t.isLt).2.1 = _ := congrArg (fun z => z.2.1) e
    have e2 : (outsAt0 m c t.val t.isLt).2.2 = _ := congrArg (fun z => z.2.2) e
    refine ⟨fun b k => ?_, fun b k => ?_⟩
    · rw [e1, hs, stepAt_h_keep _ _ _ (by omega)]; exact ihH b k
    · rw [e2, hs, stepAt_r, if_pos h0]
      refine (R_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsB t h0 (by omega)).1 (condsB t h0 (by omega)).2.1 (condsB t h0 (by omega)).2.2.1 (condsB t h0 (by omega)).2.2.2.1 (condsB t h0 (by omega)).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (layAt (P m c) t.val) (stAt (P m c) n).1 (blk_code m c t) (blk_scale m c t) (blk_bias m c t) (blk_la m c t) (blk_lb m c t) ihH b k).trans ?_
      rw [hj]
  · by_cases h1 : t.val % 3 = 1
    · -- the middle point: the layer reads the running value, the stream is kept
      have e := outsAt0_C m c t h1
      have e1 : (outsAt0 m c t.val t.isLt).2.1 = _ := congrArg (fun z => z.2.1) e
      have e2 : (outsAt0 m c t.val t.isLt).2.2 = _ := congrArg (fun z => z.2.2) e
      refine ⟨fun b k => ?_, fun b k => ?_⟩
      · rw [e1, hs, stepAt_h_keep _ _ _ (by omega)]; exact ihH b k
      · rw [e2, hs, stepAt_r, if_neg h0]
        refine (R_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsC t h1).1 (condsC t h1).2.1 (condsC t h1).2.2.1 (condsC t h1).2.2.2.1 (condsC t h1).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2 (layAt (P m c) t.val) (stAt (P m c) n).2 (blk_code m c t) (blk_scale m c t) (blk_bias m c t) (blk_la m c t) (blk_lb m c t) ihR b k).trans ?_
        rw [hj]
    · have h2 : t.val % 3 = 2 := by omega
      by_cases h17 : t.val = 17
      · -- the last point: the block's input added back, nothing normalised
        have e := outsAt0_E m c t h17
        have e1 : (outsAt0 m c t.val t.isLt).2.1 = _ := congrArg (fun z => z.2.1) e
        have e2 : (outsAt0 m c t.val t.isLt).2.2 = _ := congrArg (fun z => z.2.2) e
        have hR : ∀ b k : Fin 1024, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsE t h17).1 (condsE t h17).2.1 (condsE t h17).2.2.1 (condsE t h17).2.2.2.1 (condsE t h17).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2 (ix2 b k) = (stepAt (P m c) t.val (stAt (P m c) n)).2 b k := by
          intro b k
          rw [stepAt_r, if_neg h0]
          refine (R_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsE t h17).1 (condsE t h17).2.1 (condsE t h17).2.2.1 (condsE t h17).2.2.2.1 (condsE t h17).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2 (layAt (P m c) t.val) (stAt (P m c) n).2 (blk_code m c t) (blk_scale m c t) (blk_bias m c t) (blk_la m c t) (blk_lb m c t) ihR b k).trans ?_
          rw [hj]
        refine ⟨fun b k => ?_, fun b k => ?_⟩
        · rw [e1, hs, stepAt_h_add _ _ _ h2 (by omega)]
          exact H_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsE t h17).1 (condsE t h17).2.1 (condsE t h17).2.2.1 (condsE t h17).2.2.2.1 (condsE t h17).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2 (stAt (P m c) n).1 (stepAt (P m c) t.val (stAt (P m c) n)).2 ihH hR b k
        · rw [e2, hs]; exact hR b k
      · -- the last point of one of the first five blocks: added back, then normalised
        have hlt : t.val < 15 := by omega
        have h5 : t.val / 3 < 5 := by omega
        have e := outsAt0_D m c t h2 hlt
        have e1 : (outsAt0 m c t.val t.isLt).2.1 = _ := congrArg (fun z => z.2.1) e
        have e2 : (outsAt0 m c t.val t.isLt).2.2 = _ := congrArg (fun z => z.2.2) e
        have hR : ∀ b k : Fin 1024, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsD t h2 hlt).1 (condsD t h2 hlt).2.1 (condsD t h2 hlt).2.2.1 (condsD t h2 hlt).2.2.2.1 (condsD t h2 hlt).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2 (ix2 b k) = (stepAt (P m c) t.val (stAt (P m c) n)).2 b k := by
          intro b k
          rw [stepAt_r, if_neg h0]
          refine (R_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsD t h2 hlt).1 (condsD t h2 hlt).2.1 (condsD t h2 hlt).2.2.1 (condsD t h2 hlt).2.2.2.1 (condsD t h2 hlt).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2 (layAt (P m c) t.val) (stAt (P m c) n).2 (blk_code m c t) (blk_scale m c t) (blk_bias m c t) (blk_la m c t) (blk_lb m c t) ihR b k).trans ?_
          rw [hj]
        refine ⟨fun b k => ?_, fun b k => ?_⟩
        · rw [e1, hs, stepAt_h_norm _ _ _ h2 h5]
          exact H_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsD t h2 hlt).1 (condsD t h2 hlt).2.1 (condsD t h2 hlt).2.2.1 (condsD t h2 hlt).2.2.2.1 (condsD t h2 hlt).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2 (stAt (P m c) n).1 (stepAt (P m c) t.val (stAt (P m c) n)).2
            ((P m c).g ⟨t.val / 3, h5⟩) ((P m c).be ⟨t.val / 3, h5⟩) ihH hR (blk_g m c t h5) (blk_be m c t h5) b k
        · rw [e2, hs]; exact hR b k

/-- After every point the two carried tables hold the specification's state. -/
theorem inv (c : Dev nD) : ∀ (n : ℕ) (t : Fin cfg0.N), t.val = n → Inv m c t n := by
  intro n
  induction n with
  | zero => exact fun t h => inv_first m c t h
  | succ n ih =>
    intro t ht
    have hp : t.val - 1 = n := by omega
    have ih' := ih ⟨t.val - 1, Nat.lt_of_le_of_lt (Nat.sub_le _ _) t.isLt⟩ hp
    exact inv_step m c n t ht ih'.1 ih'.2

set_option maxHeartbeats 4000000 in
/-- What the output's buffer holds after the last point is the network's result. -/
theorem out_last (c : Dev nD) (t : Fin cfg0.N) (h17 : t.val = 17) (b k : Fin 1024) :
    (outsAt0 m c t.val t.isLt).1 (ix2 b k) = net (P m c) b k := by
  have e := outsAt0_E m c t h17
  have e0 : (outsAt0 m c t.val t.isLt).1 = _ := congrArg (fun z => z.1) e
  have e1 : (outsAt0 m c t.val t.isLt).2.1 = _ := congrArg (fun z => z.2.1) e
  rw [e0]
  refine (O_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsE t h17).1 (condsE t h17).2.1 (condsE t h17).2.2.1 (condsE t h17).2.2.2.1 (condsE t h17).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2 b k).trans ?_
  have key : sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (condsE t h17).1 (condsE t h17).2.1 (condsE t h17).2.2.1 (condsE t h17).2.2.2.1 (condsE t h17).2.2.2.2 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2 (ix2 b k) = (stAt (P m c) 17).1 b k := by
    have := (inv m c 17 t h17).1 b k
    rw [e1] at this
    exact this
  rw [key, stAt_net]

end Cert.KernelIdeal.KValue

end
-- ==== Proof.KI.Final.lean ====
/-
  The idealized kernel's run with its result named: the output array is written back once, at the last point, as one
  whole block, so it ends holding what the output's buffer held after that point — the network's result, entry by entry.
-/
import proofs.«136264_j72249939853571_2_alg».proof.Proof.KI.Value
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body Cert.Spec

variable (m : (ℓ : Loc nD τ sig) → Buf (Elt Ideal) ℓ) (ρ : Dev nD → PrngReg)

theorem lt17 : 17 < cfg0.N := by rw [N18]; decide

/-- The last point. -/
def tLast : Fin cfg0.N := ⟨17, lt17⟩

theorem tLast_val : tLast.val = 17 := rfl

/-- What the kernel's result array ends holding on core `c`: what the output's buffer held after the last point. -/
def out (c : Dev nD) : Buf (Elt Ideal) ((c.tc : Thread nD τ).loc main_v8) :=
  fun y => (outsAt0 m c tLast.val tLast.isLt).1 y

/-- The output window's one block is the whole array. -/
theorem idx8 : ∀ t : Fin cfg0.N, win0_8.index t (0 : Fin 2) = 0 ∧ win0_8.index t (1 : Fin 2) = 0 :=
  (by decide +kernel : ∀ t : Fin grid0.N, _)

/-- What the last point writes back is `out` read through the block. -/
theorem flushed8 (c : Dev nD) (t : Fin cfg0.N) (hf : (cfg0.win 8).flush t = true) :
    (dats m 0 c).flushed 8 t = ((cfg0.win 8).blk t).view.read (Elt Ideal) (out m c) := by
  have hN : t.val < 18 := lt_of_lt_of_eq t.isLt N18
  have h17 : t.val = 17 := by have := (flush0_8 t).mp hf; omega
  obtain rfl : t = tLast := Fin.ext h17
  show (cfg0.win 8).cut (grid0.coords tLast) ((dats m 0 c).after 8 tLast) = _
  rw [after0_8]
  obtain ⟨e0, e1⟩ := idx8 tLast
  funext y
  show (outsAt0 m c tLast.val tLast.isLt).1 y = (outsAt0 m c tLast.val tLast.isLt).1 (((cfg0.win 8).blk tLast).view.emb y)
  refine congrArg _ (funext fun a => Fin.ext ?_)
  match a with
  | ⟨0, _⟩ => show (y 0).val = win0_8.index tLast (0 : Fin 2) * 1024 + 1 * (y 0).val; rw [e0]; omega
  | ⟨1, _⟩ => show (y 1).val = win0_8.index tLast (1 : Fin 2) * 1024 + 1 * (y 1).val; rw [e1]; omega

/-- Every entry of the array lies in the block the last point writes back. -/
theorem cover8 (c : Dev nD) (i : ((cfg0.win 8).arr.view.loc (c.tc : Thread nD τ)).2.ty.Idx) :
    ∃ t : Fin cfg0.N, (cfg0.win 8).flush t = true ∧ i ∈ ((cfg0.win 8).blk t).view.set := by
  refine ⟨tLast, (flush0_8 _).mpr (by rw [tLast_val]), ?_⟩
  show i ∈ ((View.whole main_v8).slice (win0_8.rect tLast)).set
  rw [View.set_slice_whole, Rect.mem_set_unit]
  obtain ⟨e0, e1⟩ := idx8 tLast
  intro a
  match a with
  | ⟨0, _⟩ =>
    show win0_8.index tLast (0 : Fin 2) * 1024 ≤ (i 0).val ∧ (i 0).val < win0_8.index tLast (0 : Fin 2) * 1024 + 1024
    rw [e0]; have hi : (i 0).val < 1024 := (i 0).isLt; exact ⟨by omega, by show (i 0).val < 0 * 1024 + 1024; omega⟩
  | ⟨1, _⟩ =>
    show win0_8.index tLast (1 : Fin 2) * 1024 ≤ (i 1).val ∧ (i 1).val < win0_8.index tLast (1 : Fin 2) * 1024 + 1024
    rw [e1]; have hi : (i 1).val < 1024 := (i 1).isLt; exact ⟨by omega, by show (i 1).val < 0 * 1024 + 1024; omega⟩

/-- The result array after the run is `out`. -/
theorem final (c : Dev nD) : (dats m 0 c).arrAt 8 cfg0.N = out m c :=
  (dats m 0 c).arrAt_eq_of_cover 8 (out m c) (fun t hf => flushed8 m c t hf) (cover8 c)

/-- `out`, entry by entry, is the network's result on the parameters the arguments hold. -/
theorem out_apply (c : Dev nD) (b k : Fin 1024) : out m c (ix2 b k) = net (P m c) b k :=
  out_last m c tLast tLast_val b k

/-- The idealized kernel's run: every weakly fair execution terminates with the result array at `out` and the arguments
    unchanged. -/
theorem run :
    θ_run (defs (F := Ideal)) (onTc (τ := τ) (main (F := Ideal))) ⟨m, fun _ => 0, ρ⟩ (fun r => ∀ c : Dev nD,
      r.2.mem ((c.tc : Thread nD τ).loc main_v8) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main (F := Ideal) m ρ)

end Cert.KernelIdeal.KValue

end
-- ==== Proof.Ref.Stages.lean ====
/-
  The reference program's stages as functions of the argument arrays: one layer (the dequantised weight table
  applied to an activation table, the bias, and the low-rank correction), the positive part, the row variance,
  the row normalisation, and their composition over the six blocks.  Each is the composition, in the program's
  order, of the operations the program applies, generic only in the position the slices are taken at.
-/
import proofs.«136264_j72249939853571_2_alg».proof.ReferenceIdeal
import Idealize.ShloMosaic.Lib.ValueIdx

noncomputable section

namespace Cert.ReferenceIdeal.Stages

open Idealize.ShloMosaic Idealize.ShloMosaic.ValueIdx
open Cert.ReferenceIdeal
open Cert.ReferenceIdeal.Facts₀

variable [Facts₀]

/-- One layer at the slices taken at `o4` (rank-4 arrays) and `o3` (the bias array): the activation table `r` against
    the transposed dequantised weight table, plus the bias, plus the adapter's weight times the low-rank product. -/
def refLayer {o4 : Fin 4 → ℕ} {o3 : Fin 3 → ℕ}
    (h1 : S6x3x1024x1024.Slices o4 S1x1x1024x1024) (h2 : S6x3x1024x64.Slices o4 S1x1x1024x64)
    (h3 : S6x3x1024.Slices o3 S1x1x1024) (h4 : S6x3x32x1024.Slices o4 S1x1x32x1024)
    (h5 : S6x3x1024x32.Slices o4 S1x1x1024x32)
    (a1 : IVec S6x3x1024x1024 32) (a2 : FVec Ideal S6x3x1024x64 .f32) (a3 : FVec Ideal S6x3x1024 .f32)
    (a4 : FVec Ideal S6x3x32x1024 .f32) (a5 : FVec Ideal S6x3x1024x32 .f32)
    (r : FVec Ideal S1024x1024 .f32) : FVec Ideal S1024x1024 .f32 :=
  let v0 : IVec S1x1x1024x1024 32 := extractStridedSlice S1x1x1024x1024 o4 a1 h1
  let v1 : IVec S1024x1024 32 := shapeCast S1024x1024 v0 shapeCasts_S1x1x1024x1024_S1024x1024
  let v2 : FVec Ideal S1x1x1024x64 .f32 := extractStridedSlice S1x1x1024x64 o4 a2 h2
  let v3 : FVec Ideal S1024x64 .f32 := shapeCast S1024x64 v2 shapeCasts_S1x1x1024x64_S1024x64
  let v4 : FVec Ideal S1x1x1024 .f32 := extractStridedSlice S1x1x1024 o3 a3 h3
  let v5 : FVec Ideal S1024 .f32 := shapeCast S1024 v4 shapeCasts_S1x1x1024_S1024
  let v6 : FVec Ideal S1x1x32x1024 .f32 := extractStridedSlice S1x1x32x1024 o4 a4 h4
  let v7 : FVec Ideal S32x1024 .f32 := shapeCast S32x1024 v6 shapeCasts_S1x1x32x1024_S32x1024
  let v8 : FVec Ideal S1x1x1024x32 .f32 := extractStridedSlice S1x1x1024x32 o4 a5 h5
  let v9 : FVec Ideal S1024x32 .f32 := shapeCast S1024x32 v8 shapeCasts_S1x1x1024x32_S1024x32
  let v10 : FVec Ideal S1024x1024 .f32 := sitofp .f32 v1
  let v11 : FVec Ideal S1024x64x16 .f32 := shapeCast S1024x64x16 v10 shapeCasts_S1024x1024_S1024x64x16
  let v12 : FVec Ideal S1024x64x1 .f32 := broadcastInDim S1024x64x1 ![0, 1] bcast_S1024x64_S1024x64x1_0_1 v3
  let v13 : FVec Ideal S1024x64x16 .f32 := broadcastInDim S1024x64x16 ![0, 1, 2] bcast_S1024x64x1_S1024x64x16_0_1_2 v12
  let v14 : FVec Ideal S1024x64x16 .f32 := mulf v11 v13
  let v15 : FVec Ideal S1024x1024 .f32 := shapeCast S1024x1024 v14 shapeCasts_S1024x64x16_S1024x1024
  let v16 : FVec Ideal S1024x1024 .f32 := transpose S1024x1024 [1, 0] v15 transposes_S1024x1024_S1024x1024_1_0
  let v17 : FVec Ideal S1024x1024 .f32 :=
    Host.dotGeneral (F := Ideal) dot_S1024x1024_S1024x1024_S1024x1024_1_0_0_1_n_n none r v16
  let v18 : FVec Ideal S1x1024 .f32 := broadcastInDim S1x1024 ![1] bcast_S1024_S1x1024_1 v5
  let v19 : FVec Ideal S1024x1024 .f32 := broadcastInDim S1024x1024 ![0, 1] bcast_S1x1024_S1024x1024_0_1 v18
  let v20 : FVec Ideal S1024x1024 .f32 := addf v17 v19
  let v21 : FVec Ideal S1024x32 .f32 := transpose S1024x32 [1, 0] v7 transposes_S32x1024_S1024x32_1_0
  let v22 : FVec Ideal S1024x32 .f32 :=
    Host.dotGeneral (F := Ideal) dot_S1024x1024_S1024x32_S1024x32_1_0_0_1_n_n none r v21
  let v23 : FVec Ideal S32x1024 .f32 := transpose S32x1024 [1, 0] v9 transposes_S1024x32_S32x1024_1_0
  let v24 : FVec Ideal S1024x1024 .f32 :=
    Host.dotGeneral (F := Ideal) dot_S1024x32_S32x1024_S1024x1024_1_0_0_1_n_n none v22 v23
  let cst : FVec Ideal S_ .f32 := constant (F := Ideal) S_ .f32 0x3DBFE5C9#32
  let v25 : FVec Ideal S1024x1024 .f32 := broadcastInDim S1024x1024 ![] bcast_S_S1024x1024 cst
  let v26 : FVec Ideal S1024x1024 .f32 := mulf v25 v24
  addf v20 v26

/-- The positive part, entry by entry. -/
def refRelu (x : FVec Ideal S1024x1024 .f32) : FVec Ideal S1024x1024 .f32 :=
  maximumf x (broadcastInDim S1024x1024 ![] bcast_S_S1024x1024 (constant (F := Ideal) S_ .f32 0x00000000#32))

/-- The row variance with `cnt` degrees of freedom removed: the mean of the squared centred row, over
    `1024 − cnt`, where that count is positive (else not a number). -/
def refVar (x : FVec Ideal S1024x1024 .f32) (cnt : IVec S_ 32) : FVec Ideal S1024x1 .f32 :=
  let cst : FVec Ideal S_ .f32 := constant (F := Ideal) S_ .f32 0x00000000#32
  let v0 : FVec Ideal S1024 .f32 := Host.reduceAdd (F := Ideal) x cst reducesTo_S1024x1024_S1024_d1 h_S_
  let v1 : FVec Ideal S1024x1 .f32 := broadcastInDim S1024x1 ![0] bcast_S1024_S1024x1_0 v0
  let cst_0 : FVec Ideal S_ .f32 := constant (F := Ideal) S_ .f32 0x44800000#32
  let v2 : FVec Ideal S1024x1 .f32 := broadcastInDim S1024x1 ![] bcast_S_S1024x1 cst_0
  let v3 : FVec Ideal S1024x1 .f32 := Host.divf (F := Ideal) v1 v2
  let v4 : FVec Ideal S1024x1024 .f32 := broadcastInDim S1024x1024 ![0, 1] bcast_S1024x1_S1024x1024_0_1 v3
  let v5 : FVec Ideal S1024x1024 .f32 := subf x v4
  let v6 : FVec Ideal S1024x1024 .f32 := mulf v5 v5
  let v7 : FVec Ideal S_ .f32 := sitofp .f32 cnt
  let cst_1 : FVec Ideal S_ .f32 := constant (F := Ideal) S_ .f32 0x44800000#32
  let v8 : FVec Ideal S_ .f32 := subf cst_1 v7
  let cst_2 : FVec Ideal S_ .f32 := constant (F := Ideal) S_ .f32 0x00000000#32
  let v9 : FVec Ideal S1024 .f32 := Host.reduceAdd (F := Ideal) v6 cst_2 reducesTo_S1024x1024_S1024_d1 h_S_
  let v10 : FVec Ideal S1024x1 .f32 := broadcastInDim S1024x1 ![0] bcast_S1024_S1024x1_0 v9
  let v11 : FVec Ideal S1024x1 .f32 := broadcastInDim S1024x1 ![] bcast_S_S1024x1 v8
  let v12 : FVec Ideal S1024x1 .f32 := Host.divf (F := Ideal) v10 v11
  let cst_3 : FVec Ideal S_ .f32 := constant (F := Ideal) S_ .f32 0x00000000#32
  let v13 : IVec S_ 1 := cmpf .ogt v8 cst_3
  let cst_4 : FVec Ideal S_ .f32 := constant (F := Ideal) S_ .f32 0x7FC00000#32
  let w0 : FVec Ideal S_ .f32 := id cst_4
  let w1 : FVec Ideal S1024x1 .f32 := broadcastInDim S1024x1 ![] bcast_S_S1024x1 w0
  select (broadcastInDim S1024x1 ![] bcast_S_S1024x1 v13) v12 w1

/-- The row normalisation with the scale and shift rows sliced at `o2`. -/
def refNorm {o2 : Fin 2 → ℕ} (h6 : S5x1024.Slices o2 S1x1024)
    (a6 a7 : FVec Ideal S5x1024 .f32) (h : FVec Ideal S1024x1024 .f32) : FVec Ideal S1024x1024 .f32 :=
  let v87 : FVec Ideal S1x1024 .f32 := extractStridedSlice S1x1024 o2 a6 h6
  let v88 : FVec Ideal S1024 .f32 := shapeCast S1024 v87 shapeCasts_S1x1024_S1024
  let v89 : FVec Ideal S1x1024 .f32 := extractStridedSlice S1x1024 o2 a7 h6
  let v90 : FVec Ideal S1024 .f32 := shapeCast S1024 v89 shapeCasts_S1x1024_S1024
  let cst_2 : FVec Ideal S_ .f32 := constant (F := Ideal) S_ .f32 0x00000000#32
  let v91 : FVec Ideal S1024 .f32 := Host.reduceAdd (F := Ideal) h cst_2 reducesTo_S1024x1024_S1024_d1 h_S_
  let v92 : FVec Ideal S1024x1 .f32 := broadcastInDim S1024x1 ![0] bcast_S1024_S1024x1_0 v91
  let cst_3 : FVec Ideal S_ .f32 := constant (F := Ideal) S_ .f32 0x44800000#32
  let v93 : FVec Ideal S1024x1 .f32 := broadcastInDim S1024x1 ![] bcast_S_S1024x1 cst_3
  let v94 : FVec Ideal S1024x1 .f32 := Host.divf (F := Ideal) v92 v93
  let c : IVec S_ 32 := constantI S_ 32 0#32
  let v95 : FVec Ideal S1024x1 .f32 := refVar h c
  let v96 : FVec Ideal S1024x1024 .f32 := broadcastInDim S1024x1024 ![0, 1] bcast_S1024x1_S1024x1024_0_1 v94
  let v97 : FVec Ideal S1024x1024 .f32 := subf h v96
  let cst_4 : FVec Ideal S_ .f32 := constant (F := Ideal) S_ .f32 0x3727C5AC#32
  let v98 : FVec Ideal S1024x1 .f32 := broadcastInDim S1024x1 ![] bcast_S_S1024x1 cst_4
  let v99 : FVec Ideal S1024x1 .f32 := addf v95 v98
  let v100 : FVec Ideal S1024x1 .f32 := Host.rsqrt (F := Ideal) v99
  let v101 : FVec Ideal S1024x1024 .f32 := broadcastInDim S1024x1024 ![0, 1] bcast_S1024x1_S1024x1024_0_1 v100
  let v102 : FVec Ideal S1024x1024 .f32 := mulf v97 v101
  let v103 : FVec Ideal S1x1024 .f32 := broadcastInDim S1x1024 ![1] bcast_S1024_S1x1024_1 v88
  let v104 : FVec Ideal S1024x1024 .f32 := broadcastInDim S1024x1024 ![0, 1] bcast_S1x1024_S1024x1024_0_1 v103
  let v105 : FVec Ideal S1024x1024 .f32 := mulf v102 v104
  let v106 : FVec Ideal S1x1024 .f32 := broadcastInDim S1x1024 ![1] bcast_S1024_S1x1024_1 v90
  let v107 : FVec Ideal S1024x1024 .f32 := broadcastInDim S1024x1024 ![0, 1] bcast_S1x1024_S1024x1024_0_1 v106
  addf v105 v107

/-- Block `i` before its normalisation, at the slices of its three layers: two layers each followed by the positive
    part, a third layer, and the block's input added back. -/
def refBlock {p0 p1 p2 : Fin 4 → ℕ} {q0 q1 q2 : Fin 3 → ℕ}
    (h10 : S6x3x1024x1024.Slices p0 S1x1x1024x1024) (h20 : S6x3x1024x64.Slices p0 S1x1x1024x64)
    (h30 : S6x3x1024.Slices q0 S1x1x1024) (h40 : S6x3x32x1024.Slices p0 S1x1x32x1024)
    (h50 : S6x3x1024x32.Slices p0 S1x1x1024x32)
    (h11 : S6x3x1024x1024.Slices p1 S1x1x1024x1024) (h21 : S6x3x1024x64.Slices p1 S1x1x1024x64)
    (h31 : S6x3x1024.Slices q1 S1x1x1024) (h41 : S6x3x32x1024.Slices p1 S1x1x32x1024)
    (h51 : S6x3x1024x32.Slices p1 S1x1x1024x32)
    (h12 : S6x3x1024x1024.Slices p2 S1x1x1024x1024) (h22 : S6x3x1024x64.Slices p2 S1x1x1024x64)
    (h32 : S6x3x1024.Slices q2 S1x1x1024) (h42 : S6x3x32x1024.Slices p2 S1x1x32x1024)
    (h52 : S6x3x1024x32.Slices p2 S1x1x1024x32)
    (a1 : IVec S6x3x1024x1024 32) (a2 : FVec Ideal S6x3x1024x64 .f32) (a3 : FVec Ideal S6x3x1024 .f32)
    (a4 : FVec Ideal S6x3x32x1024 .f32) (a5 : FVec Ideal S6x3x1024x32 .f32)
    (x : FVec Ideal S1024x1024 .f32) : FVec Ideal S1024x1024 .f32 :=
  addf (refLayer h12 h22 h32 h42 h52 a1 a2 a3 a4 a5
    (refRelu (refLayer h11 h21 h31 h41 h51 a1 a2 a3 a4 a5
      (refRelu (refLayer h10 h20 h30 h40 h50 a1 a2 a3 a4 a5 x))))) x

/-- The reference program's residual stream after block 0 and its normalisation. -/
def refS1 (a0 : FVec Ideal S1024x1024 .f32) (a1 : IVec S6x3x1024x1024 32) (a2 : FVec Ideal S6x3x1024x64 .f32)
    (a3 : FVec Ideal S6x3x1024 .f32) (a4 : FVec Ideal S6x3x32x1024 .f32) (a5 : FVec Ideal S6x3x1024x32 .f32)
    (a6 a7 : FVec Ideal S5x1024 .f32) : FVec Ideal S1024x1024 .f32 :=
  refNorm slices_S5x1024_S1x1024_0_0 a6 a7
    (refBlock slices_S6x3x1024x1024_S1x1x1024x1024_0_0_0_0 slices_S6x3x1024x64_S1x1x1024x64_0_0_0_0
      slices_S6x3x1024_S1x1x1024_0_0_0 slices_S6x3x32x1024_S1x1x32x1024_0_0_0_0 slices_S6x3x1024x32_S1x1x1024x32_0_0_0_0
      slices_S6x3x1024x1024_S1x1x1024x1024_0_1_0_0 slices_S6x3x1024x64_S1x1x1024x64_0_1_0_0
      slices_S6x3x1024_S1x1x1024_0_1_0 slices_S6x3x32x1024_S1x1x32x1024_0_1_0_0 slices_S6x3x1024x32_S1x1x1024x32_0_1_0_0
      slices_S6x3x1024x1024_S1x1x1024x1024_0_2_0_0 slices_S6x3x1024x64_S1x1x1024x64_0_2_0_0
      slices_S6x3x1024_S1x1x1024_0_2_0 slices_S6x3x32x1024_S1x1x32x1024_0_2_0_0 slices_S6x3x1024x32_S1x1x1024x32_0_2_0_0
      a1 a2 a3 a4 a5 a0)

/-- The reference program's residual stream after block 1 and its normalisation. -/
def refS2 (a0 : FVec Ideal S1024x1024 .f32) (a1 : IVec S6x3x1024x1024 32) (a2 : FVec Ideal S6x3x1024x64 .f32)
    (a3 : FVec Ideal S6x3x1024 .f32) (a4 : FVec Ideal S6x3x32x1024 .f32) (a5 : FVec Ideal S6x3x1024x32 .f32)
    (a6 a7 : FVec Ideal S5x1024 .f32) : FVec Ideal S1024x1024 .f32 :=
  refNorm slices_S5x1024_S1x1024_1_0 a6 a7
    (refBlock slices_S6x3x1024x1024_S1x1x1024x1024_1_0_0_0 slices_S6x3x1024x64_S1x1x1024x64_1_0_0_0
      slices_S6x3x1024_S1x1x1024_1_0_0 slices_S6x3x32x1024_S1x1x32x1024_1_0_0_0 slices_S6x3x1024x32_S1x1x1024x32_1_0_0_0
      slices_S6x3x1024x1024_S1x1x1024x1024_1_1_0_0 slices_S6x3x1024x64_S1x1x1024x64_1_1_0_0
      slices_S6x3x1024_S1x1x1024_1_1_0 slices_S6x3x32x1024_S1x1x32x1024_1_1_0_0 slices_S6x3x1024x32_S1x1x1024x32_1_1_0_0
      slices_S6x3x1024x1024_S1x1x1024x1024_1_2_0_0 slices_S6x3x1024x64_S1x1x1024x64_1_2_0_0
      slices_S6x3x1024_S1x1x1024_1_2_0 slices_S6x3x32x1024_S1x1x32x1024_1_2_0_0 slices_S6x3x1024x32_S1x1x1024x32_1_2_0_0
      a1 a2 a3 a4 a5 (refS1 a0 a1 a2 a3 a4 a5 a6 a7))

/-- The reference program's residual stream after block 2 and its normalisation. -/
def refS3 (a0 : FVec Ideal S1024x1024 .f32) (a1 : IVec S6x3x1024x1024 32) (a2 : FVec Ideal S6x3x1024x64 .f32)
    (a3 : FVec Ideal S6x3x1024 .f32) (a4 : FVec Ideal S6x3x32x1024 .f32) (a5 : FVec Ideal S6x3x1024x32 .f32)
    (a6 a7 : FVec Ideal S5x1024 .f32) : FVec Ideal S1024x1024 .f32 :=
  refNorm slices_S5x1024_S1x1024_2_0 a6 a7
    (refBlock slices_S6x3x1024x1024_S1x1x1024x1024_2_0_0_0 slices_S6x3x1024x64_S1x1x1024x64_2_0_0_0
      slices_S6x3x1024_S1x1x1024_2_0_0 slices_S6x3x32x1024_S1x1x32x1024_2_0_0_0 slices_S6x3x1024x32_S1x1x1024x32_2_0_0_0
      slices_S6x3x1024x1024_S1x1x1024x1024_2_1_0_0 slices_S6x3x1024x64_S1x1x1024x64_2_1_0_0
      slices_S6x3x1024_S1x1x1024_2_1_0 slices_S6x3x32x1024_S1x1x32x1024_2_1_0_0 slices_S6x3x1024x32_S1x1x1024x32_2_1_0_0
      slices_S6x3x1024x1024_S1x1x1024x1024_2_2_0_0 slices_S6x3x1024x64_S1x1x1024x64_2_2_0_0
      slices_S6x3x1024_S1x1x1024_2_2_0 slices_S6x3x32x1024_S1x1x32x1024_2_2_0_0 slices_S6x3x1024x32_S1x1x1024x32_2_2_0_0
      a1 a2 a3 a4 a5 (refS2 a0 a1 a2 a3 a4 a5 a6 a7))

/-- The reference program's residual stream after block 3 and its normalisation. -/
def refS4 (a0 : FVec Ideal S1024x1024 .f32) (a1 : IVec S6x3x1024x1024 32) (a2 : FVec Ideal S6x3x1024x64 .f32)
    (a3 : FVec Ideal S6x3x1024 .f32) (a4 : FVec Ideal S6x3x32x1024 .f32) (a5 : FVec Ideal S6x3x1024x32 .f32)
    (a6 a7 : FVec Ideal S5x1024 .f32) : FVec Ideal S1024x1024 .f32 :=
  refNorm slices_S5x1024_S1x1024_3_0 a6 a7
    (refBlock slices_S6x3x1024x1024_S1x1x1024x1024_3_0_0_0 slices_S6x3x1024x64_S1x1x1024x64_3_0_0_0
      slices_S6x3x1024_S1x1x1024_3_0_0 slices_S6x3x32x1024_S1x1x32x1024_3_0_0_0 slices_S6x3x1024x32_S1x1x1024x32_3_0_0_0
      slices_S6x3x1024x1024_S1x1x1024x1024_3_1_0_0 slices_S6x3x1024x64_S1x1x1024x64_3_1_0_0
      slices_S6x3x1024_S1x1x1024_3_1_0 slices_S6x3x32x1024_S1x1x32x1024_3_1_0_0 slices_S6x3x1024x32_S1x1x1024x32_3_1_0_0
      slices_S6x3x1024x1024_S1x1x1024x1024_3_2_0_0 slices_S6x3x1024x64_S1x1x1024x64_3_2_0_0
      slices_S6x3x1024_S1x1x1024_3_2_0 slices_S6x3x32x1024_S1x1x32x1024_3_2_0_0 slices_S6x3x1024x32_S1x1x1024x32_3_2_0_0
      a1 a2 a3 a4 a5 (refS3 a0 a1 a2 a3 a4 a5 a6 a7))

/-- The reference program's residual stream after block 4 and its normalisation. -/
def refS5 (a0 : FVec Ideal S1024x1024 .f32) (a1 : IVec S6x3x1024x1024 32) (a2 : FVec Ideal S6x3x1024x64 .f32)
    (a3 : FVec Ideal S6x3x1024 .f32) (a4 : FVec Ideal S6x3x32x1024 .f32) (a5 : FVec Ideal S6x3x1024x32 .f32)
    (a6 a7 : FVec Ideal S5x1024 .f32) : FVec Ideal S1024x1024 .f32 :=
  refNorm slices_S5x1024_S1x1024_4_0 a6 a7
    (refBlock slices_S6x3x1024x1024_S1x1x1024x1024_4_0_0_0 slices_S6x3x1024x64_S1x1x1024x64_4_0_0_0
      slices_S6x3x1024_S1x1x1024_4_0_0 slices_S6x3x32x1024_S1x1x32x1024_4_0_0_0 slices_S6x3x1024x32_S1x1x1024x32_4_0_0_0
      slices_S6x3x1024x1024_S1x1x1024x1024_4_1_0_0 slices_S6x3x1024x64_S1x1x1024x64_4_1_0_0
      slices_S6x3x1024_S1x1x1024_4_1_0 slices_S6x3x32x1024_S1x1x32x1024_4_1_0_0 slices_S6x3x1024x32_S1x1x1024x32_4_1_0_0
      slices_S6x3x1024x1024_S1x1x1024x1024_4_2_0_0 slices_S6x3x1024x64_S1x1x1024x64_4_2_0_0
      slices_S6x3x1024_S1x1x1024_4_2_0 slices_S6x3x32x1024_S1x1x32x1024_4_2_0_0 slices_S6x3x1024x32_S1x1x1024x32_4_2_0_0
      a1 a2 a3 a4 a5 (refS4 a0 a1 a2 a3 a4 a5 a6 a7))

/-- The reference program's residual stream after block 5, which is not normalised. -/
def refS6 (a0 : FVec Ideal S1024x1024 .f32) (a1 : IVec S6x3x1024x1024 32) (a2 : FVec Ideal S6x3x1024x64 .f32)
    (a3 : FVec Ideal S6x3x1024 .f32) (a4 : FVec Ideal S6x3x32x1024 .f32) (a5 : FVec Ideal S6x3x1024x32 .f32)
    (a6 a7 : FVec Ideal S5x1024 .f32) : FVec Ideal S1024x1024 .f32 :=
  refBlock slices_S6x3x1024x1024_S1x1x1024x1024_5_0_0_0 slices_S6x3x1024x64_S1x1x1024x64_5_0_0_0
      slices_S6x3x1024_S1x1x1024_5_0_0 slices_S6x3x32x1024_S1x1x32x1024_5_0_0_0 slices_S6x3x1024x32_S1x1x1024x32_5_0_0_0
      slices_S6x3x1024x1024_S1x1x1024x1024_5_1_0_0 slices_S6x3x1024x64_S1x1x1024x64_5_1_0_0
      slices_S6x3x1024_S1x1x1024_5_1_0 slices_S6x3x32x1024_S1x1x32x1024_5_1_0_0 slices_S6x3x1024x32_S1x1x1024x32_5_1_0_0
      slices_S6x3x1024x1024_S1x1x1024x1024_5_2_0_0 slices_S6x3x1024x64_S1x1x1024x64_5_2_0_0
      slices_S6x3x1024_S1x1x1024_5_2_0 slices_S6x3x32x1024_S1x1x32x1024_5_2_0_0 slices_S6x3x1024x32_S1x1x1024x32_5_2_0_0
      a1 a2 a3 a4 a5 (refS5 a0 a1 a2 a3 a4 a5 a6 a7)

/-- The reference program's result: the residual stream after the six blocks. -/
def refNet (a0 : FVec Ideal S1024x1024 .f32) (a1 : IVec S6x3x1024x1024 32) (a2 : FVec Ideal S6x3x1024x64 .f32)
    (a3 : FVec Ideal S6x3x1024 .f32) (a4 : FVec Ideal S6x3x32x1024 .f32) (a5 : FVec Ideal S6x3x1024x32 .f32)
    (a6 a7 : FVec Ideal S5x1024 .f32) : FVec Ideal S1024x1024 .f32 :=
  refS6 a0 a1 a2 a3 a4 a5 a6 a7

end Cert.ReferenceIdeal.Stages

end
-- ==== Proof.Ref.Run0.lean ====
/-
  The reference program as one straight line of operations: its 804 operations in the program's order, the bodies of
  the functions it calls standing at their calls, cut into consecutive pieces; the program is that line; hence every
  execution ends with each buffer at the fold of the operations over the launch contents.
-/
import proofs.«136264_j72249939853571_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Two list facts -/

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- An operation that writes the one buffer `y`, a member of `W`, writes inside `W`. -/
theorem writes_sub_of {W : List (Ref sig .tc)} {y : Ref sig .tc} {op : HloOp τ sig (Elt F)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-! ## The program's operations, in order, in consecutive pieces

Each piece is a stretch of the program inside one of its twelve parts and inside one stage (a layer with what follows
it, or a normalisation); the outlined functions' bodies stand at their calls. With each piece: the buffers it
writes, that it touches only buffers of the core that runs it, that each operation determines its results, and that a buffer it
does not write keeps its contents. -/

abbrev q0 : List (HloOp τ sig (Elt F)) :=
  [
    unary main_arg1 main_v0 ((extractStridedSlice S1x1x1024x1024 ![0, 0, 0, 0] · slices_S6x3x1024x1024_S1x1x1024x1024_0_0_0_0) : (⟨S6x3x1024x1024, .i32⟩ : BufTy).Contents (Elt F) → (⟨S1x1x1024x1024, .i32⟩ : BufTy).Contents (Elt F)),
    reshape main_v0 main_v1 rfl shapeCasts_S1x1x1024x1024_S1024x1024,
    unary main_arg2 main_v2 ((extractStridedSlice S1x1x1024x64 ![0, 0, 0, 0] · slices_S6x3x1024x64_S1x1x1024x64_0_0_0_0) : (⟨S6x3x1024x64, .f32⟩ : BufTy).Contents (Elt F) → (⟨S1x1x1024x64, .f32⟩ : BufTy).Contents (Elt F)),
    reshape main_v2 main_v3 rfl shapeCasts_S1x1x1024x64_S1024x64,
    unary main_arg3 main_v4 ((extractStridedSlice S1x1x1024 ![0, 0, 0] · slices_S6x3x1024_S1x1x1024_0_0_0) : (⟨S6x3x1024, .f32⟩ : BufTy).Contents (Elt F) → (⟨S1x1x1024, .f32⟩ : BufTy).Contents (Elt F)),
    reshape main_v4 main_v5 rfl shapeCasts_S1x1x1024_S1024,
    unary main_arg4 main_v6 ((extractStridedSlice S1x1x32x1024 ![0, 0, 0, 0] · slices_S6x3x32x1024_S1x1x32x1024_0_0_0_0) : (⟨S6x3x32x1024, .f32⟩ : BufTy).Contents (Elt F) → (⟨S1x1x32x1024, .f32⟩ : BufTy).Contents (Elt F)),
    reshape main_v6 main_v7 rfl shapeCasts_S1x1x32x1024_S32x1024,
    unary main_arg5 main_v8 ((extractStridedSlice S1x1x1024x32 ![0, 0, 0, 0] · slices_S6x3x1024x32_S1x1x1024x32_0_0_0_0) : (⟨S6x3x1024x32, .f32⟩ : BufTy).Contents (Elt F) → (⟨S1x1x1024x32, .f32⟩ : BufTy).Contents (Elt F)),
    reshape main_v8 main_v9 rfl shapeCasts_S1x1x1024x32_S1024x32,
    unary main_v1 main_v10 (sitofp .f32 : (⟨S1024x1024, .i32⟩ : BufTy).Contents (Elt F) → (⟨S1024x1024, .f32⟩ : BufTy).Contents (Elt F)),
    reshape main_v10 main_v11 rfl shapeCasts_S1024x1024_S1024x64x16,
    unary main_v3 main_v12 (broadcastInDim S1024x64x1 ![0, 1] bcast_S1024x64_S1024x64x1_0_1 : (⟨S1024x64, .f32⟩ : BufTy).Contents (Elt F) → (⟨S1024x64x1, .f32⟩ : BufTy).Contents (Elt F)),
    unary main_v12 main_v13 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v11 main_v13 main_v14 (mulf : (⟨S1024x64x16, .f32⟩ : BufTy).Contents (Elt F) → (⟨S1024x64x16, .f32⟩ : BufTy).Contents (Elt F) → (⟨S1024x64x16, .f32⟩ : BufTy).Contents (Elt F)),
    reshape main_v14 main_v15 rfl shapeCasts_S1024x64x16_S1024x1024,
    unary main_v15 main_v16 ((transpose S1024x1024 [1, 0] · transposes_S1024x1024_S1024x1024_1_0) : (⟨S1024x1024, .f32⟩ : BufTy).Contents (Elt F) → (⟨S1024x1024, .f32⟩ : BufTy).Contents (Elt F)),
    binary main_arg0 main_v16 main_v17 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v5 main_v18 (broadcastInDim S1x1024 ![1] bcast_S1024_S1x1024_1 : (⟨S1024, .f32⟩ : BufTy).Contents (Elt F) → (⟨S1x1024, .f32⟩ : BufTy).Contents (Elt F)),
    unary main_v18 main_v19 (broadcastInDim S1024x1024 ![0, 1] bcast_S1x1024_S1024x1024_0_1 : (⟨S1x1024, .f32⟩ : BufTy).Contents (Elt F) → (⟨S1024x1024, .f32⟩ : BufTy).Contents (Elt F)),
    binary main_v17 main_v19 main_v20 (addf : (⟨S1024x1024, .f32⟩ : BufTy).Contents (Elt F) → (⟨S1024x1024, .f32⟩ : BufTy).Contents (Elt F) → (⟨S1024x1024, .f32⟩ : BufTy).Contents (Elt F)),
    unary main_v7 main_v21 ((transpose S1024x32 [1, 0] · transposes_S32x1024_S1024x32_1_0) : (⟨S32x1024, .f32⟩ : BufTy).Contents (Elt F) → (⟨S1024x32, .f32⟩ : BufTy).Contents (Elt F)),
    binary main_arg0 main_v21 main_v22 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v9 main_v23 ((transpose S32x1024 [1, 0] · transposes_S1024x32_S32x1024_1_0) : (⟨S1024x32, .f32⟩ : BufTy).Contents (Elt F) → (⟨S32x1024, .f32⟩ : BufTy).Contents (Elt F)),
    binary main_v22 main_v23 main_v24 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst (constant S_ .f32 0x3DBFE5C9#32),
    unary main_cst main_v25 (broadcastInDim S1024x1024 ![] bcast_S_S1024x1024 : (⟨S_, .f32⟩ : BufTy).Contents (Elt F) → (⟨S1024x1024, .f32⟩ : BufTy).Contents (Elt F)),
    binary main_v25 main_v24 main_v26 (mulf : (⟨S1024x1024, .f32⟩ : BufTy).Contents (Elt F) → (⟨S1024x1024, .f32⟩ : BufTy).Contents (Elt F) → (⟨S1024x1024, .f32⟩ : BufTy).Contents (Elt F)),
    binary main_v20 main_v26 main_v27 (addf : (⟨S1024x1024, .f32⟩ : BufTy).Contents (Elt F) → (⟨S1024x1024, .f32⟩ : BufTy).Contents (Elt F) → (⟨S1024x1024, .f32⟩ : BufTy).Contents (Elt F)),
    TRef.nullary main_call0.cst (constant S_ .f32 0x00000000#32),
    TRef.unary main_call0.cst main_call0.v0 (broadcastInDim S1024x1024 ![] bcast_S_S1024x1024),
    TRef.binary (.of main_v27) main_call0.v0 main_call0.v1 maximumf ]

abbrev W_q0 : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_cst, main_v25, main_v26, main_v27, main_call0_cst, main_call0_v0, main_v28]

theorem q0_sub : (q0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q0_fresh : (q0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q0_writes : (q0 : List (HloOp τ sig (Elt F))).Forall fun op => op.writes ⊆ ((W_q0).map (Proc.devRef (τ := τ) .tc)).toFinset :=
  ⟨writes_sub_of (y := main_v0) rfl (by decide),
   writes_sub_of (y := main_v1) rfl (by decide),
   writes_sub_of (y := main_v2) rfl (by decide),
   writes_sub_of (y := main_v3) rfl (by decide),
   writes_sub_of (y := main_v4) rfl (by decide),
   writes_sub_of (y := main_v5) rfl (by decide),
   writes_sub_of (y := main_v6) rfl (by decide),
   writes_sub_of (y := main_v7) rfl (by decide),
   writes_sub_of (y := main_v8) rfl (by decide),
   writes_sub_of (y := main_v9) rfl (by decide),
   writes_sub_of (y := main_v10) rfl (by decide),
   writes_sub_of (y := main_v11) rfl (by decide),
   writes_sub_of (y := main_v12) rfl (by decide),
   writes_sub_of (y := main_v13) rfl (by decide),
   writes_sub_of (y := main_v14) rfl (by decide),
   writes_sub_of (y := main_v15) rfl (by decide),
   writes_sub_of (y := main_v16) rfl (by decide),
   writes_sub_of (y := main_v17) rfl (by decide),
   writes_sub_of (y := main_v18) rfl (by decide),
   writes_sub_of (y := main_v19) rfl (by decide),
   writes_sub_of (y := main_v20) rfl (by decide),
   writes_sub_of (y := main_v21) rfl (by decide),
   writes_sub_of (y := main_v22) rfl (by decide),
   writes_sub_of (y := main_v23) rfl (by decide),
   writes_sub_of (y := main_v24) rfl (by decide),
   writes_sub_of (y := main_cst) rfl (by decide),
   writes_sub_of (y := main_v25) rfl (by decide),
   writes_sub_of (y := main_v26) rfl (by decide),
   writes_sub_of (y := main_v27) rfl (by decide),
   writes_sub_of (y := main_call0_cst) rfl (by decide),
   writes_sub_of (y := main_call0_v0) rfl (by decide),
   writes_sub_of (y := main_v28) rfl (by decide)⟩

theorem q0_keep (V : Valuation τ sig (Elt F)) {r : Ref sig .tc} (hr : r ∉ W_q0) :
    after q0 V (Proc.devRef .tc r) = V (Proc.devRef .tc r) :=
  after_of_writes_sub q0 V q0_writes hr

abbrev q32 : List (HloOp τ sig (Elt F)) :=
  [
    unary main_arg1 main_v29 ((extractStridedSlice S1x1x1024x1024 ![0, 1, 0, 0] · slices_S6x3x1024x1024_S1x1x1024x1024_0_1_0_0) : (⟨S6x3x1024x1024, .i32⟩ : BufTy).Contents (Elt F) → (⟨S1x1x1024x1024, .i32⟩ : BufTy).Contents (Elt F)),
    reshape main_v29 main_v30 rfl shapeCasts_S1x1x1024x1024_S1024x1024,
    unary main_arg2 main_v31 ((extractStridedSlice S1x1x1024x64 ![0, 1, 0, 0] · slices_S6x3x1024x64_S1x1x1024x64_0_1_0_0) : (⟨S6x3x1024x64, .f32⟩ : BufTy).Contents (Elt F) → (⟨S1x1x1024x64, .f32⟩ : BufTy).Contents (Elt F)),
    reshape main_v31 main_v32 rfl shapeCasts_S1x1x1024x64_S1024x64,
    unary main_arg3 main_v33 ((extractStridedSlice S1x1x1024 ![0, 1, 0] · slices_S6x3x1024_S1x1x1024_0_1_0) : (⟨S6x3x1024, .f32⟩ : BufTy).Contents (Elt F) → (⟨S1x1x1024, .f32⟩ : BufTy).Contents (Elt F)),
    reshape main_v33 main_v34 rfl shapeCasts_S1x1x1024_S1024,
    unary main_arg4 main_v35 ((extractStridedSlice S1x1x32x1024 ![0, 1, 0, 0] · slices_S6x3x32x1024_S1x1x32x1024_0_1_0_0) : (⟨S6x3x32x1024, .f32⟩ : BufTy).Contents (Elt F) → (⟨S1x1x32x1024, .f32⟩ : BufTy).Contents (Elt F)),
    reshape main_v35 main_v36 rfl shapeCasts_S1x1x32x1024_S32x1024,
    unary main_arg5 main_v37 ((extractStridedSlice S1x1x1024x32 ![0, 1, 0, 0] · slices_S6x3x1024x32_S1x1x1024x32_0_1_0_0) : (⟨S6x3x1024x32, .f32⟩ : BufTy).Contents (Elt F) → (⟨S1x1x1024x32, .f32⟩ : BufTy).Contents (Elt F)),
    reshape main_v37 main_v38 rfl shapeCasts_S1x1x1024x32_S1024x32,
    unary main_v30 main_v39 (sitofp .f32 : (⟨S1024x1024, .i32⟩ : BufTy).Contents (Elt F) → (⟨S1024x1024, .f32⟩ : BufTy).Contents (Elt F)),
    reshape main_v39 main_v40 rfl shapeCasts_S1024x1024_S1024x64x16,
    unary main_v32 main_v41 (broadcastInDim S1024x64x1 ![0, 1] bcast_S1024x64_S1024x64x1_0_1 : (⟨S1024x64, .f32⟩ : BufTy).Contents (Elt F) → (⟨S1024x64x1, .f32⟩ : BufTy).Contents (Elt F)),
    unary main_v41 main_v42 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v40 main_v42 main_v43 (mulf : (⟨S1024x64x16, .f32⟩ : BufTy).Contents (Elt F) → (⟨S1024x64x16, .f32⟩ : BufTy).Contents (Elt F) → (⟨S1024x64x16, .f32⟩ : BufTy).Contents (Elt F)),
    reshape main_v43 main_v44 rfl shapeCasts_S1024x64x16_S1024x1024,
    unary main_v44 main_v45 ((transpose S1024x1024 [1, 0] · transposes_S1024x1024_S1024x1024_1_0) : (⟨S1024x1024, .f32⟩ : BufTy).Contents (Elt F) → (⟨S1024x1024, .f32⟩ : BufTy).Contents (Elt F)),
    binary main_v28 main_v45 main_v46 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v34 main_v47 (broadcastInDim S1x1024 ![1] bcast_S1024_S1x1024_1 : (⟨S1024, .f32⟩ : BufTy).Contents (Elt F) → (⟨S1x1024, .f32⟩ : BufTy).Contents (Elt F)),
    unary main_v47 main_v48 (broadcastInDim S1024x1024 ![0, 1] bcast_S1x1024_S1024x1024_0_1 : (⟨S1x1024, .f32⟩ : BufTy).Contents (Elt F) → (⟨S1024x1024, .f32⟩ : BufTy).Contents (Elt F)),
    binary main_v46 main_v48 main_v49 (addf : (⟨S1024x1024, .f32⟩ : BufTy).Contents (Elt F) → (⟨S1024x1024, .f32⟩ : BufTy).Contents (Elt F) → (⟨S1024x1024, .f32⟩ : BufTy).Contents (Elt F)),
    unary main_v36 main_v50 ((transpose S1024x32 [1, 0] · transposes_S32x1024_S1024x32_1_0) : (⟨S32x1024, .f32⟩ : BufTy).Contents (Elt F) → (⟨S1024x32, .f32⟩ : BufTy).Contents (Elt F)),
    binary main_v28 main_v50 main_v51 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v38 main_v52 ((transpose S32x1024 [1, 0] · transposes_S1024x32_S32x1024_1_0) : (⟨S1024x32, .f32⟩ : BufTy).Contents (Elt F) → (⟨S32x1024, .f32⟩ : BufTy).Contents (Elt F)),
    binary main_v51 main_v52 main_v53 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_0 (constant S_ .f32 0x3DBFE5C9#32),
    unary main_cst_0 main_v54 (broadcastInDim S1024x1024 ![] bcast_S_S1024x1024 : (⟨S_, .f32⟩ : BufTy).Contents (Elt F) → (⟨S1024x1024, .f32⟩ : BufTy).Contents (Elt F)),
    binary main_v54 main_v53 main_v55 (mulf : (⟨S1024x1024, .f32⟩ : BufTy).Contents (Elt F) → (⟨S1024x1024, .f32⟩ : BufTy).Contents (Elt F) → (⟨S1024x1024, .f32⟩ : BufTy).Contents (Elt F)),
    binary main_v49 main_v55 main_v56 (addf : (⟨S1024x1024, .f32⟩ : BufTy).Contents (Elt F) → (⟨S1024x1024, .f32⟩ : BufTy).Contents (Elt F) → (⟨S1024x1024, .f32⟩ : BufTy).Contents (Elt F)),
    TRef.nullary main_call1.cst (constant S_ .f32 0x00000000#32),
    TRef.unary main_call1.cst main_call1.v0 (broadcastInDim S1024x1024 ![] bcast_S_S1024x1024),
    TRef.binary (.of main_v56) main_call1.v0 main_call1.v1 maximumf ]

abbrev W_q32 : List (Ref sig .tc) :=
  [main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_cst_0, main_v54, main_v55, main_v56, main_call1_cst, main_call1_v0, main_v57]

theorem q32_sub : (q32 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q32_fresh : (q32 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q32_writes : (q32 : List (HloOp τ sig (Elt F))).Forall fun op => op.writes ⊆ ((W_q32).map (Proc.devRef (τ := τ) .tc)).toFinset :=
  ⟨writes_sub_of (y := main_v29) rfl (by decide),
   writes_sub_of (y := main_v30) rfl (by decide),
   writes_sub_of (y := main_v31) rfl (by decide),
   writes_sub_of (y := main_v32) rfl (by decide),
   writes_sub_of (y := main_v33) rfl (by decide),
   writes_sub_of (y := main_v34) rfl (by decide),
   writes_sub_of (y := main_v35) rfl (by decide),
   writes_sub_of (y := main_v36) rfl (by decide),
   writes_sub_of (y := main_v37) rfl (by decide),
   writes_sub_of (y := main_v38) rfl (by decide),
   writes_sub_of (y := main_v39) rfl (by decide),
   writes_sub_of (y := main_v40) rfl (by decide),
   writes_sub_of (y := main_v41) rfl (by decide),
   writes_sub_of (y := main_v42) rfl (by decide),
   writes_sub_of (y := main_v43) rfl (by decide),
   writes_sub_of (y := main_v44) rfl (by decide),
   writes_sub_of (y := main_v45) rfl (by decide),
   writes_sub_of (y := main_v46) rfl (by decide),
   writes_sub_of (y := main_v47) rfl (by decide),
   writes_sub_of (y := main_v48) rfl (by decide),
   writes_sub_of (y := main_v49) rfl (by decide),
   writes_sub_of (y := main_v50) rfl (by decide),
   writes_sub_of (y := main_v51) rfl (by decide),
   writes_sub_of (y := main_v52) rfl (by decide),
   writes_sub_of (y := main_v53) rfl (by decide),
   writes_sub_of (y := main_cst_0) rfl (by decide),
   writes_sub_of (y := main_v54) rfl (by decide),
   writes_sub_of (y := main_v55) rfl (by decide),
   writes_sub_of (y := main_v56) rfl (by decide),
   writes_sub_of (y := main_call1_cst) rfl (by decide),
   writes_sub_of (y := main_call1_v0) rfl (by decide),
   writes_sub_of (y := main_v57) rfl (by decide)⟩

theorem q32_keep (V : Valuation τ sig (Elt F)) {r : Ref sig .tc} (hr : r ∉ W_q32) :
    after q32 V (Proc.devRef .tc r) = V (Proc.devRef .tc r) :=
  after_of_writes_sub q32 V q32_writes hr

abbrev q64 : List (HloOp τ sig (Elt F)) :=
  [
    unary main_arg1 main_v58 ((extractStridedSlice S1x1x1024x1024 ![0, 2, 0, 0] · slices_S6x3x1024x1024_S1x1x1024x1024_0_2_0_0) : (⟨S6x3x1024x1024, .i32⟩ : BufTy).Contents (Elt F) → (⟨S1x1x1024x1024, .i32⟩ : BufTy).Contents (Elt F)),
    reshape main_v58 main_v59 rfl shapeCasts_S1x1x1024x1024_S1024x1024,
    unary main_arg2 main_v60 ((extractStridedSlice S1x1x1024x64 ![0, 2, 0, 0] · slices_S6x3x1024x64_S1x1x1024x64_0_2_0_0) : (⟨S6x3x1024x64, .f32⟩ : BufTy).Contents (Elt F) → (⟨S1x1x1024x64, .f32⟩ : BufTy).Contents (Elt F)),
    reshape main_v60 main_v61 rfl shapeCasts_S1x1x1024x64_S1024x64,
    unary main_arg3 main_v62 ((extractStridedSlice S1x1x1024 ![0, 2, 0] · slices_S6x3x1024_S1x1x1024_0_2_0) : (⟨S6x3x1024, .f32⟩ : BufTy).Contents (Elt F) → (⟨S1x1x1024, .f32⟩ : BufTy).Contents (Elt F)),
    reshape main_v62 main_v63 rfl shapeCasts_S1x1x1024_S1024,
    unary main_arg4 main_v64 ((extractStridedSlice S1x1x32x1024 ![0, 2, 0, 0] · slices_S6x3x32x1024_S1x1x32x1024_0_2_0_0) : (⟨S6x3x32x1024, .f32⟩ : BufTy).Contents (Elt F) → (⟨S1x1x32x1024, .f32⟩ : BufTy).Contents (Elt F)),
    reshape main_v64 main_v65 rfl shapeCasts_S1x1x32x1024_S32x1024,
    unary main_arg5 main_v66 ((extractStridedSlice S1x1x1024x32 ![0, 2, 0, 0] · slices_S6x3x1024x32_S1x1x1024x32_0_2_0_0) : (⟨S6x3x1024x32, .f32⟩ : BufTy).Contents (Elt F) → (⟨S1x1x1024x32, .f32⟩ : BufTy).Contents (Elt F)),
    reshape main_v66 main_v67 rfl shapeCasts_S1x1x1024x32_S1024x32,
    unary main_v59 main_v68 (sitofp .f32 : (⟨S1024x1024, .i32⟩ : BufTy).Contents (Elt F) → (⟨S1024x1024, .f32⟩ : BufTy).Contents (Elt F)),
    reshape main_v68 main_v69 rfl shapeCasts_S1024x1024_S1024x64x16,
    unary main_v61 main_v70 (broadcastInDim S1024x64x1 ![0, 1] bcast_S1024x64_S1024x64x1_0_1 : (⟨S1024x64, .f32⟩ : BufTy).Contents (Elt F) → (⟨S1024x64x1, .f32⟩ : BufTy).Contents (Elt F)),
    unary main_v70 main_v71 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v69 main_v71 main_v72 (mulf : (⟨S1024x64x16, .f32⟩ : BufTy).Contents (Elt F) → (⟨S1024x64x16, .f32⟩ : BufTy).Contents (Elt F) → (⟨S1024x64x16, .f32⟩ : BufTy).Contents (Elt F)),
    reshape main_v72 main_v73 rfl shapeCasts_S1024x64x16_S1024x1024,
    unary main_v73 main_v74 ((transpose S1024x1024 [1, 0] · transposes_S1024x1024_S1024x1024_1_0) : (⟨S1024x1024, .f32⟩ : BufTy).Contents (Elt F) → (⟨S1024x1024, .f32⟩ : BufTy).Contents (Elt F)),
    binary main_v57 main_v74 main_v75 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v63 main_v76 (broadcastInDim S1x1024 ![1] bcast_S1024_S1x1024_1 : (⟨S1024, .f32⟩ : BufTy).Contents (Elt F) → (⟨S1x1024, .f32⟩ : BufTy).Contents (Elt F)),
    unary main_v76 main_v77 (broadcastInDim S1024x1024 ![0, 1] bcast_S1x1024_S1024x1024_0_1 : (⟨S1x1024, .f32⟩ : BufTy).Contents (Elt F) → (⟨S1024x1024, .f32⟩ : BufTy).Contents (Elt F)),
    binary main_v75 main_v77 main_v78 (addf : (⟨S1024x1024, .f32⟩ : BufTy).Contents (Elt F) → (⟨S1024x1024, .f32⟩ : BufTy).Contents (Elt F) → (⟨S1024x1024, .f32⟩ : BufTy).Contents (Elt F)),
    unary main_v65 main_v79 ((transpose S1024x32 [1, 0] · transposes_S32x1024_S1024x32_1_0) : (⟨S32x1024, .f32⟩ : BufTy).Contents (Elt F) → (⟨S1024x32, .f32⟩ : BufTy).Contents (Elt F)),
    binary main_v57 main_v79 main_v80 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v67 main_v81 ((transpose S32x1024 [1, 0] · transposes_S1024x32_S32x1024_1_0) : (⟨S1024x32, .f32⟩ : BufTy).Contents (Elt F) → (⟨S32x1024, .f32⟩ : BufTy).Contents (Elt F)),
    binary main_v80 main_v81 main_v82 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_1 (constant S_ .f32 0x3DBFE5C9#32),
    unary main_cst_1 main_v83 (broadcastInDim S1024x1024 ![] bcast_S_S1024x1024 : (⟨S_, .f32⟩ : BufTy).Contents (Elt F) → (⟨S1024x1024, .f32⟩ : BufTy).Contents (Elt F)),
    binary main_v83 main_v82 main_v84 (mulf : (⟨S1024x1024, .f32⟩ : BufTy).Contents (Elt F) → (⟨S1024x1024, .f32⟩ : BufTy).Contents (Elt F) → (⟨S1024x1024, .f32⟩ : BufTy).Contents (Elt F)),
    binary main_v78 main_v84 main_v85 (addf : (⟨S1024x1024, .f32⟩ : BufTy).Contents (Elt F) → (⟨S1024x1024, .f32⟩ : BufTy).Contents (Elt F) → (⟨S1024x1024, .f32⟩ : BufTy).Contents (Elt F)),
    binary main_v85 main_arg0 main_v86 (addf : (⟨S1024x1024, .f32⟩ : BufTy).Contents (Elt F) → (⟨S1024x1024, .f32⟩ : BufTy).Contents (Elt F) → (⟨S1024x1024, .f32⟩ : BufTy).Contents (Elt F)) ]

abbrev W_q64 : List (Ref sig .tc) :=
  [main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_cst_1, main_v83, main_v84, main_v85, main_v86]

theorem q64_sub : (q64 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., binary_bufs_sub ..⟩

theorem q64_fresh : (q64 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q64_writes : (q64 : List (HloOp τ sig (Elt F))).Forall fun op => op.writes ⊆ ((W_q64).map (Proc.devRef (τ := τ) .tc)).toFinset :=
  ⟨writes_sub_of (y := main_v58) rfl (by decide),
   writes_sub_of (y := main_v59) rfl (by decide),
   writes_sub_of (y := main_v60) rfl (by decide),
   writes_sub_of (y := main_v61) rfl (by decide),
   writes_sub_of (y := main_v62) rfl (by decide),
   writes_sub_of (y := main_v63) rfl (by decide),
   writes_sub_of (y := main_v64) rfl (by decide),
   writes_sub_of (y := main_v65) rfl (by decide),
   writes_sub_of (y := main_v66) rfl (by decide),
   writes_sub_of (y := main_v67) rfl (by decide),
   writes_sub_of (y := main_v68) rfl (by decide),
   writes_sub_of (y := main_v69) rfl (by decide),
   writes_sub_of (y := main_v70) rfl (by decide),
   writes_sub_of (y := main_v71) rfl (by decide),
   writes_sub_of (y := main_v72) rfl (by decide),
   writes_sub_of (y := main_v73) rfl (by decide),
   writes_sub_of (y := main_v74) rfl (by decide),
   writes_sub_of (y := main_v75) rfl (by decide),
   writes_sub_of (y := main_v76) rfl (by decide),
   writes_sub_of (y := main_v77) rfl (by decide),
   writes_sub_of (y := main_v78) rfl (by decide),
   writes_sub_of (y := main_v79) rfl (by decide),
   writes_sub_of (y := main_v80) rfl (by decide),
   writes_sub_of (y := main_v81) rfl (by decide),
   writes_sub_of (y := main_v82) rfl (by decide),
   writes_sub_of (y := main_cst_1) rfl (by decide),
   writes_sub_of (y := main_v83) rfl (by decide),
   writes_sub_of (y := main_v84) rfl (by decide),
   writes_sub_of (y := main_v85) rfl (by decide),
   writes_sub_of (y := main_v86) rfl (by decide)⟩

theorem q64_keep (V : Valuation τ sig (Elt F)) {r : Ref sig .tc} (hr : r ∉ W_q64) :
    after q64 V (Proc.devRef .tc r) = V (Proc.devRef .tc r) :=
  after_of_writes_sub q64 V q64_writes hr

abbrev q94 : List (HloOp τ sig (Elt F)) :=
  [
    unary main_arg6 main_v87 ((extractStridedSlice S1x1024 ![0, 0] · slices_S5x1024_S1x1024_0_0) : (⟨S5x1024, .f32⟩ : BufTy).Contents (Elt F) → (⟨S1x1024, .f32⟩ : BufTy).Contents (Elt F)),
    reshape main_v87 main_v88 rfl shapeCasts_S1x1024_S1024,
    unary main_arg7 main_v89 ((extractStridedSlice S1x1024 ![0, 0] · slices_S5x1024_S1x1024_0_0) : (⟨S5x1024, .f32⟩ : BufTy).Contents (Elt F) → (⟨S1x1024, .f32⟩ : BufTy).Contents (Elt F)),
    reshape main_v89 main_v90 rfl shapeCasts_S1x1024_S1024,
    nullary main_cst_2 (constant S_ .f32 0x00000000#32),
    binary main_v86 main_cst_2 main_v91 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    unary main_v91 main_v92 (broadcastInDim S1024x1 ![0] bcast_S1024_S1024x1_0 : (⟨S1024, .f32⟩ : BufTy).Contents (Elt F) → (⟨S1024x1, .f32⟩ : BufTy).Contents (Elt F)),
    nullary main_cst_3 (constant S_ .f32 0x44800000#32),
    unary main_cst_3 main_v93 (broadcastInDim S1024x1 ![] bcast_S_S1024x1 : (⟨S_, .f32⟩ : BufTy).Contents (Elt F) → (⟨S1024x1, .f32⟩ : BufTy).Contents (Elt F)),
    binary main_v92 main_v93 main_v94 (Host.divf : (⟨S1024x1, .f32⟩ : BufTy).Contents (Elt F) → (⟨S1024x1, .f32⟩ : BufTy).Contents (Elt F) → (⟨S1024x1, .f32⟩ : BufTy).Contents (Elt F)),
    nullary main_c (constantI S_ 32 0#32),
    TRef.nullary main_call2.cst (constant S_ .f32 0x00000000#32),
    TRef.binary (.of main_v86) main_call2.cst main_call2.v0 (fun x v => Host.reduceAdd x v reducesTo_S1024x1024_S1024_d1 h_S_),
    TRef.unary main_call2.v0 main_call2.v1 (broadcastInDim S1024x1 ![0] bcast_S1024_S1024x1_0),
    TRef.nullary main_call2.cst_0 (constant S_ .f32 0x44800000#32),
    TRef.unary main_call2.cst_0 main_call2.v2 (broadcastInDim S1024x1 ![] bcast_S_S1024x1),
    TRef.binary main_call2.v1 main_call2.v2 main_call2.v3 Host.divf,
    TRef.unary main_call2.v3 main_call2.v4 (broadcastInDim S1024x1024 ![0, 1] bcast_S1024x1_S1024x1024_0_1),
    TRef.binary (.of main_v86) main_call2.v4 main_call2.v5 subf,
    TRef.binary main_call2.v5 main_call2.v5 main_call2.v6 mulf,
    TRef.unary (.of main_c) main_call2.v7 (sitofp .f32),
    TRef.nullary main_call2.cst_1 (constant S_ .f32 0x44800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S1024x1024_S1024_d1 h_S_),
    TRef.unary main_call2.v9 main_call2.v10 (broadcastInDim S1024x1 ![0] bcast_S1024_S1024x1_0),
    TRef.unary main_call2.v8 main_call2.v11 (broadcastInDim S1024x1 ![] bcast_S_S1024x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S1024x1 ![] bcast_S_S1024x1),
    TRef.ternary main_call2.v13 main_call2.v12 main_call2.call0.v1 main_call2.call0.v2 (fun p a b => select (broadcastInDim S1024x1 ![] bcast_S_S1024x1 p) a b),
    unary main_v94 main_v96 (broadcastInDim S1024x1024 ![0, 1] bcast_S1024x1_S1024x1024_0_1 : (⟨S1024x1, .f32⟩ : BufTy).Contents (Elt F) → (⟨S1024x1024, .f32⟩ : BufTy).Contents (Elt F)),
    binary main_v86 main_v96 main_v97 (subf : (⟨S1024x1024, .f32⟩ : BufTy).Contents (Elt F) → (⟨S1024x1024, .f32⟩ : BufTy).Contents (Elt F) → (⟨S1024x1024, .f32⟩ : BufTy).Contents (Elt F)),
    nullary main_cst_4 (constant S_ .f32 0x3727C5AC#32),
    unary main_cst_4 main_v98 (broadcastInDim S1024x1 ![] bcast_S_S1024x1 : (⟨S_, .f32⟩ : BufTy).Contents (Elt F) → (⟨S1024x1, .f32⟩ : BufTy).Contents (Elt F)),
    binary main_v95 main_v98 main_v99 (addf : (⟨S1024x1, .f32⟩ : BufTy).Contents (Elt F) → (⟨S1024x1, .f32⟩ : BufTy).Contents (Elt F) → (⟨S1024x1, .f32⟩ : BufTy).Contents (Elt F)),
    unary main_v99 main_v100 (Host.rsqrt : (⟨S1024x1, .f32⟩ : BufTy).Contents (Elt F) → (⟨S1024x1, .f32⟩ : BufTy).Contents (Elt F)),
    unary main_v100 main_v101 (broadcastInDim S1024x1024 ![0, 1] bcast_S1024x1_S1024x1024_0_1 : (⟨S1024x1, .f32⟩ : BufTy).Contents (Elt F) → (⟨S1024x1024, .f32⟩ : BufTy).Contents (Elt F)),
    binary main_v97 main_v101 main_v102 (mulf : (⟨S1024x1024, .f32⟩ : BufTy).Contents (Elt F) → (⟨S1024x1024, .f32⟩ : BufTy).Contents (Elt F) → (⟨S1024x1024, .f32⟩ : BufTy).Contents (Elt F)),
    unary main_v88 main_v103 (broadcastInDim S1x1024 ![1] bcast_S1024_S1x1024_1 : (⟨S1024, .f32⟩ : BufTy).Contents (Elt F) → (⟨S1x1024, .f32⟩ : BufTy).Contents (Elt F)),
    unary main_v103 main_v104 (broadcastInDim S1024x1024 ![0, 1] bcast_S1x1024_S1024x1024_0_1 : (⟨S1x1024, .f32⟩ : BufTy).Contents (Elt F) → (⟨S1024x1024, .f32⟩ : BufTy).Contents (Elt F)),
    binary main_v102 main_v104 main_v105 (mulf : (⟨S1024x1024, .f32⟩ : BufTy).Contents (Elt F) → (⟨S1024x1024, .f32⟩ : BufTy).Contents (Elt F) → (⟨S1024x1024, .f32⟩ : BufTy).Contents (Elt F)),
    unary main_v90 main_v106 (broadcastInDim S1x1024 ![1] bcast_S1024_S1x1024_1 : (⟨S1024, .f32⟩ : BufTy).Contents (Elt F) → (⟨S1x1024, .f32⟩ : BufTy).Contents (Elt F)),
    unary main_v106 main_v107 (broadcastInDim S1024x1024 ![0, 1] bcast_S1x1024_S1024x1024_0_1 : (⟨S1x1024, .f32⟩ : BufTy).Contents (Elt F) → (⟨S1024x1024, .f32⟩ : BufTy).Contents (Elt F)),
    binary main_v105 main_v107 main_v108 (addf : (⟨S1024x1024, .f32⟩ : BufTy).Contents (Elt F) → (⟨S1024x1024, .f32⟩ : BufTy).Contents (Elt F) → (⟨S1024x1024, .f32⟩ : BufTy).Contents (Elt F)) ]

abbrev W_q94 : List (Ref sig .tc) :=
  [main_v87, main_v88, main_v89, main_v90, main_cst_2, main_v91, main_v92, main_cst_3, main_v93, main_v94, main_c, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v95, main_v96, main_v97, main_cst_4, main_v98, main_v99, main_v100, main_v101, main_v102, main_v103, main_v104, main_v105, main_v106, main_v107, main_v108]

theorem q94_sub : (q94 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem q94_fresh : (q94 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q94_writes : (q94 : List (HloOp τ sig (Elt F))).Forall fun op => op.writes ⊆ ((W_q94).map (Proc.devRef (τ := τ) .tc)).toFinset :=
  ⟨writes_sub_of (y := main_v87) rfl (by decide),
   writes_sub_of (y := main_v88) rfl (by decide),
   writes_sub_of (y := main_v89) rfl (by decide),
   writes_sub_of (y := main_v90) rfl (by decide),
   writes_sub_of (y := main_cst_2) rfl (by decide),
   writes_sub_of (y := main_v91) rfl (by decide),
   writes_sub_of (y := main_v92) rfl (by decide),
   writes_sub_of (y := main_cst_3) rfl (by decide),
   writes_sub_of (y := main_v93) rfl (by decide),
   writes_sub_of (y := main_v94) rfl (by decide),
   writes_sub_of (y := main_c) rfl (by decide),
   writes_sub_of (y := main_call2_cst) rfl (by decide),
   writes_sub_of (y := main_call2_v0) rfl (by decide),
   writes_sub_of (y := main_call2_v1) rfl (by decide),
   writes_sub_of (y := main_call2_cst_0) rfl (by decide),
   writes_sub_of (y := main_call2_v2) rfl (by decide),
   writes_sub_of (y := main_call2_v3) rfl (by decide),
   writes_sub_of (y := main_call2_v4) rfl (by decide),
   writes_sub_of (y := main_call2_v5) rfl (by decide),
   writes_sub_of (y := main_call2_v6) rfl (by decide),
   writes_sub_of (y := main_call2_v7) rfl (by decide),
   writes_sub_of (y := main_call2_cst_1) rfl (by decide),
   writes_sub_of (y := main_call2_v8) rfl (by decide),
   writes_sub_of (y := main_call2_cst_2) rfl (by decide),
   writes_sub_of (y := main_call2_v9) rfl (by decide),
   writes_sub_of (y := main_call2_v10) rfl (by decide),
   writes_sub_of (y := main_call2_v11) rfl (by decide),
   writes_sub_of (y := main_call2_v12) rfl (by decide),
   writes_sub_of (y := main_call2_cst_3) rfl (by decide),
   writes_sub_of (y := main_call2_v13) rfl (by decide),
   writes_sub_of (y := main_call2_cst_4) rfl (by decide),
   writes_sub_of (y := main_call2_call0_v0) rfl (by decide),
   writes_sub_of (y := main_call2_call0_v1) rfl (by decide),
   writes_sub_of (y := main_v95) rfl (by decide),
   writes_sub_of (y := main_v96) rfl (by decide),
   writes_sub_of (y := main_v97) rfl (by decide),
   writes_sub_of (y := main_cst_4) rfl (by decide),
   writes_sub_of (y := main_v98) rfl (by decide),
   writes_sub_of (y := main_v99) rfl (by decide),
   writes_sub_of (y := main_v100) rfl (by decide),
   writes_sub_of (y := main_v101) rfl (by decide),
   writes_sub_of (y := main_v102) rfl (by decide),
   writes_sub_of (y := main_v103) rfl (by decide),
   writes_sub_of (y := main_v104) rfl (by decide),
   writes_sub_of (y := main_v105) rfl (by decide),
   writes_sub_of (y := main_v106) rfl (by decide),
   writes_sub_of (y := main_v107) rfl (by decide),
   writes_sub_of (y := main_v108) rfl (by decide)⟩

theorem q94_keep (V : Valuation τ sig (Elt F)) {r : Ref sig .tc} (hr : r ∉ W_q94) :
    after q94 V (Proc.devRef .tc r) = V (Proc.devRef .tc r) :=
  after_of_writes_sub q94 V q94_writes hr

abbrev q142 : List (HloOp τ sig (Elt F)) :=
  [
    unary main_arg1 main_v109 ((extractStridedSlice S1x1x1024x1024 ![1, 0, 0, 0] · slices_S6x3x1024x1024_S1x1x1024x1024_1_0_0_0) : (⟨S6x3x1024x1024, .i32⟩ : BufTy).Contents (Elt F) → (⟨S1x1x1024x1024, .i32⟩ : BufTy).Contents (Elt F)),
    reshape main_v109 main_v110 rfl shapeCasts_S1x1x1024x1024_S1024x1024,
    unary main_arg2 main_v111 ((extractStridedSlice S1x1x1024x64 ![1, 0, 0, 0] · slices_S6x3x1024x64_S1x1x1024x64_1_0_0_0) : (⟨S6x3x1024x64, .f32⟩ : BufTy).Contents (Elt F) → (⟨S1x1x1024x64, .f32⟩ : BufTy).Contents (Elt F)),
    reshape main_v111 main_v112 rfl shapeCasts_S1x1x1024x64_S1024x64 ]

abbrev W_q142 : List (Ref sig .tc) :=
  [main_v109, main_v110, main_v111, main_v112]

theorem q142_sub : (q142 : List (HloOp τ sig (Elt F))).Forall fun op => op.bufs ⊆ tcRefs τ sig :=
  ⟨unary_bufs_sub .., reshape_bufs_sub .., unary_bufs_sub .., reshape_bufs_sub ..⟩

theorem q142_fresh : (q142 : List (HloOp τ sig (Elt F))).Forall fun op => op.fresh = ∅ :=
  ⟨rfl, rfl, rfl, rfl⟩

theorem q142_writes : (q142 : List (HloOp τ sig (Elt F))).Forall fun op => op.writes ⊆ ((W_q142).map (Proc.devRef (τ := τ) .tc)).toFinset :=
  ⟨writes_sub_of (y := main_v109) rfl (by decide),
   writes_sub_of (y := main_v110) rfl (by decide),
   writes_sub_of (y := main_v111) rfl (by decide),
   writes_sub_of (y := main_v112) rfl (by decide)⟩

theorem q142_keep (V : Valuation τ sig (Elt F)) {r : Ref sig .tc} (hr : r ∉ W_q142) :
    after q142 V (Proc.devRef .tc r) = V (Proc.devRef .tc r) :=
  after_of_writes_sub q142 V q142_writes hr

abbrev q146 : List (HloOp τ sig (Elt F)) :=
  [
    unary main_arg3 main_v113 ((extractStridedSlice S1x1x1024 ![1, 0, 0] · slices_S6x3x1024_S1x1x1024_1_0_0) : (⟨S6x3x1024, .f32⟩ : BufTy).Contents (Elt F) → (⟨S1x1x1024, .f32⟩ : BufTy).Contents (Elt F)),
    reshape main_v113 main_v114 rfl shapeCasts_S1x1x1024_S1024,
    unary main_arg4 main_v115 ((extractStridedSlice S1x1x32x1024 ![1, 0, 0, 0] · slices_S6x3x32x1024_S1x1x32x1024_1_0_0_0) : (⟨S6x3x32x1024, .f32⟩ : BufTy).Contents (Elt F) → (⟨S1x1x32x1024, .f32⟩ : BufTy).Contents (Elt F)),
    reshape main_v115 main_v116 rfl shapeCasts_S1x1x32x1024_S32x1024,
    unary main_arg5 main_v117 ((extractStridedSlice S1x1x1024x32 ![1, 0, 0, 0] · slices_S6x3x1024x32_S1x1x1024x32_1_0_0_0) : (⟨S6x3x1024x32, .f32⟩ : BufTy).Contents (Elt F) → (⟨S1x1x1024x32, .f32⟩ : BufTy).Contents (Elt F)),
    reshape main_v117 main_v118 rfl shapeCasts_S1x1x1024x32_S1024x32,
    unary main_v110 main_v119 (sitofp .f32 : (⟨S1024x1024, .i32⟩ : BufTy).Contents (Elt F) → (⟨S1024x1024, .f32⟩ : BufTy).Contents (Elt F)),
    reshape main_v119 main_v120 rfl shapeCasts_S1024x1024_S1024x64x16,
    unary main_v112 main_v121 (broadcastInDim S1024x64x1 ![0, 1] bcast_S1024x64_S1024x64x1_0_1 : (⟨S1024x64, .f32⟩ : BufTy).Contents (Elt F) → (⟨S1024x64x1, .f32⟩ : BufTy).Contents (Elt F)),
    unary main_v121 main_v122 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v120 main_v122 main_v123 (mulf : (⟨S1024x64x16, .f32⟩ : BufTy).Contents (Elt F) → (⟨S1024x64x16, .f32⟩ : BufTy).Contents (Elt F) → (⟨S1024x64x16, .f32⟩ : BufTy).Contents (Elt F)),
    reshape main_v123 main_v124 rfl shapeCasts_S1024x64x16_S1024x1024,
    unary main_v124 main_v125 ((transpose S1024x1024 [1, 0] · transposes_S1024x1024_S1024x1024_1_0) : (⟨S1024x1024, .f32⟩ : BufTy).Contents (Elt F) → (⟨S1024x1024, .f32⟩ : BufTy).Contents (Elt F)),
    binary main_v108 main_v125 main_v126 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v114 main_v127 (broadcastInDim S1x1024 ![1] bcast_S1024_S1x1024_1 : (⟨S1024, .f32⟩ : BufTy).Contents (Elt F) → (⟨S1x1024, .f32⟩ : BufTy).Contents (Elt F)),
    unary main_v127 main_v128 (broadcastInDim S1024x1024 ![0, 1] bcast_S1x1024_S1024x1024_0_1 : (⟨S1x1024, .f32⟩ : BufTy).Contents (Elt F) → (⟨S1024x1024, .f32⟩ : BufTy).Contents (Elt F)),
    binary main_v126 main_v128 main_v129 (addf : (⟨S1024x1024, .f32⟩ : BufTy).Contents (Elt F) → (⟨S1024x1024, .f32⟩ : BufTy).Contents (Elt F) → (⟨S1024x1024, .f32⟩ : BufTy).Contents (Elt F)),
    unary main_v116 main_v130 ((transpose S1024x32 [1, 0] · transposes_S32x1024_S1024x32_1_0) : (⟨S32x1024, .f32⟩ : BufTy).Contents (Elt F) → (⟨S1024x32, .f32⟩ : BufTy).Contents (Elt F)),
    binary main_v108 main_v130 main_v131 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v118 main_v132 ((transpose S32x1024 [1, 0] · transposes_S1024x32_S32x1024_1_0) : (⟨S1024x32, .f32⟩ : BufTy).Contents (Elt F) → (⟨S32x1024, .f32⟩ : BufTy).Contents (Elt F)),
    binary main_v131 main_v132 main_v133 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_5 (constant S_ .f32 0x3DBFE5C9#32),
    unary main_cst_5 main_v134 (broadcastInDim S1024x1024 ![] bcast_S_S1024x1024 : (⟨S_, .f32⟩ : BufTy).Contents (Elt F) → (⟨S1024x1024, .f32⟩ : BufTy).Contents (Elt F)),
    binary main_v134 main_v133 main_v135 (mulf : (⟨S1024x1024, .f32⟩ : BufTy).Contents (Elt F) → (⟨S1024x1024, .f32⟩ : BufTy).Contents (Elt F) → (⟨S1024x1024, .f32⟩ : BufTy).Contents (Elt F)),
    binary main_v129 main_v135 main_v136 (addf : (⟨S1024x1024, .f32⟩ : BufTy).Contents (Elt F) → (⟨S1024x1024, .f32⟩ : BufTy).Contents (Elt F) → (⟨S1024x1024, .f32⟩ : BufTy).Contents (Elt F)),
    TRef.nullary main_call3.cst (constant S_ .f32 0x00000000#32),
    TRef.unary main_call3.cst main_call3.v0 (broadcastInDim S1024x1024 ![] bcast_S_S1024x1024),
    TRef.binary (.of main_v136) main_call3.v0 main_call3.v1 maximumf ]

abbrev W_q146 : List (Ref sig .tc) :=
  [main_v113, main_v114, main_v115, main_v116, main_v117, main_v118, main_v119, main_v120, main_v121, main_v122, main_v123, main_v124, main_v125, main_v126, main_v127, main_v128, main_v129, main_v130, main_v131, main_v132, main_v133, main_cst_5, main_v134, main_v135, main_v136, main_call3_cst, main_call3_v0, main_v137]

theorem q146_sub : (q146 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q146_fresh : (q146 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem q146_writes : (q146 : List (HloOp τ sig (Elt F))).Forall fun op => op.writes ⊆ ((W_q146).map (Proc.devRef (τ := τ) .tc)).toFinset :=
  ⟨writes_sub_of (y := main_v113) rfl (by decide),
   writes_sub_of (y := main_v114) rfl (by decide),
   writes_sub_of (y := main_v115) rfl (by decide),
   writes_sub_of (y := main_v116) rfl (by decide),
   writes_sub_of (y := main_v117) rfl (by decide),
   writes_sub_of (y := main_v118) rfl (by decide),
   writes_sub_of (y := main_v119) rfl (by decide),
   writes_sub_of (y := main_v120) rfl (by decide),
   writes_sub_of (y := main_v121) rfl (by decide),
   writes_sub_of (y := main_v122) rfl (by decide),
   writes_sub_of (y := main_v123) rfl (by decide),
   writes_sub_of (y := main_v124) rfl (by decide),
   writes_sub_of (y := main_v125) rfl (by decide),
   writes_sub_of (y := main_v126) rfl (by decide),
   writes_sub_of (y := main_v127) rfl (by decide),
   writes_sub_of (y := main_v128) rfl (by decide),
   writes_sub_of (y := main_v129) rfl (by decide),
   writes_sub_of (y := main_v130) rfl (by decide),
   writes_sub_of (y := main_v131) rfl (by decide),
   writes_sub_of (y := main_v132) rfl (by decide),
   writes_sub_of (y := main_v133) rfl (by decide),
   writes_sub_of (y := main_cst_5) rfl (by decide),
   writes_sub_of (y := main_v134) rfl (by decide),
   writes_sub_of (y := main_v135) rfl (by decide),
   writes_sub_of (y := main_v136) rfl (by decide),
   writes_sub_of (y := main_call3_cst) rfl (by decide),
   writes_sub_of (y := main_call3_v0) rfl (by decide),
   writes_sub_of (y := main_v137) rfl (by decide)⟩

theorem q146_keep (V : Valuation τ sig (Elt F)) {r : Ref sig .tc} (hr : r ∉ W_q146) :
    after q146 V (Proc.devRef .tc r) = V (Proc.devRef .tc r) :=
  after_of_writes_sub q146 V q146_writes hr

abbrev q174 : List (HloOp τ sig (Elt F)) :=
  [
    unary main_arg1 main_v138 ((extractStridedSlice S1x1x1024x1024 ![1, 1, 0, 0] · slices_S6x3x1024x1024_S1x1x1024x1024_1_1_0_0) : (⟨S6x3x1024x1024, .i32⟩ : BufTy).Contents (Elt F) → (⟨S1x1x1024x1024, .i32⟩ : BufTy).Contents (Elt F)),
    reshape main_v138 main_v139 rfl shapeCasts_S1x1x1024x1024_S1024x1024,
    unary main_arg2 main_v140 ((extractStridedSlice S1x1x1024x64 ![1, 1, 0, 0] · slices_S6x3x1024x64_S1x1x1024x64_1_1_0_0) : (⟨S6x3x1024x64, .f32⟩ : BufTy).Contents (Elt F) → (⟨S1x1x1024x64, .f32⟩ : BufTy).Contents (Elt F)),
    reshape main_v140 main_v141 rfl shapeCasts_S1x1x1024x64_S1024x64,
    unary main_arg3 main_v142 ((extractStridedSlice S1x1x1024 ![1, 1, 0] · slices_S6x3x1024_S1x1x1024_1_1_0) : (⟨S6x3x1024, .f32⟩ : BufTy).Contents (Elt F) → (⟨S1x1x1024, .f32⟩ : BufTy).Contents (Elt F)),
    reshape main_v142 main_v143 rfl shapeCasts_S1x1x1024_S1024,
    unary main_arg4 main_v144 ((extractStridedSlice S1x1x32x1024 ![1, 1, 0, 0] · slices_S6x3x32x1024_S1x1x32x1024_1_1_0_0) : (⟨S6x3x32x1024, .f32⟩ : BufTy).Contents (Elt F) → (⟨S1x1x32x1024, .f32⟩ : BufTy).Contents (Elt F)),
    reshape main_v144 main_v145 rfl shapeCasts_S1x1x32x1024_S32x1024,
    unary main_arg5 main_v146 ((extractStridedSlice S1x1x1024x32 ![1, 1, 0, 0] · slices_S6x3x1024x32_S1x1x1024x32_1_1_0_0) : (⟨S6x3x1024x32, .f32⟩ : BufTy).Contents (Elt F) → (⟨S1x1x1024x32, .f32⟩ : BufTy).Contents (Elt F)),
    reshape main_v146 main_v147 rfl shapeCasts_S1x1x1024x32_S1024x32,
    unary main_v139 main_v148 (sitofp .f32 : (⟨S1024x1024, .i32⟩ : BufTy).Contents (Elt F) → (⟨S1024x1024, .f32⟩ : BufTy).Contents (Elt F)),
    reshape main_v148 main_v149 rfl shapeCasts_S1024x1024_S1024x64x16,
    unary main_v141 main_v150 (broadcastInDim S1024x64x1 ![0, 1] bcast_S1024x64_S1024x64x1_0_1 : (⟨S1024x64, .f32⟩ : BufTy).Contents (Elt F) → (⟨S1024x64x1, .f32⟩ : BufTy).Contents (Elt F)),
    unary main_v150 main_v151 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v149 main_v151 main_v152 (mulf : (⟨S1024x64x16, .f32⟩ : BufTy).Contents (Elt F) → (⟨S1024x64x16, .f32⟩ : BufTy).Contents (Elt F) → (⟨S1024x64x16, .f32⟩ : BufTy).Contents (Elt F)),
    reshape main_v152 main_v153 rfl shapeCasts_S1024x64x16_S1024x1024,
    unary main_v153 main_v154 ((transpose S1024x1024 [1, 0] · transposes_S1024x1024_S1024x1024_1_0) : (⟨S1024x1024, .f32⟩ : BufTy).Contents (Elt F) → (⟨S1024x1024, .f32⟩ : BufTy).Contents (Elt F)),
    binary main_v137 main_v154 main_v155 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v143 main_v156 (broadcastInDim S1x1024 ![1] bcast_S1024_S1x1024_1 : (⟨S1024, .f32⟩ : BufTy).Contents (Elt F) → (⟨S1x1024, .f32⟩ : BufTy).Contents (Elt F)),
    unary main_v156 main_v157 (broadcastInDim S1024x1024 ![0, 1] bcast_S1x1024_S1024x1024_0_1 : (⟨S1x1024, .f32⟩ : BufTy).Contents (Elt F) → (⟨S1024x1024, .f32⟩ : BufTy).Contents (Elt F)),
    binary main_v155 main_v157 main_v158 (addf : (⟨S1024x1024, .f32⟩ : BufTy).Contents (Elt F) → (⟨S1024x1024, .f32⟩ : BufTy).Contents (Elt F) → (⟨S1024x1024, .f32⟩ : BufTy).Contents (Elt F)),
    unary main_v145 main_v159 ((transpose S1024x32 [1, 0] · transposes_S32x1024_S1024x32_1_0) : (⟨S32x1024, .f32⟩ : BufTy).Contents (Elt F) → (⟨S1024x32, .f32⟩ : BufTy).Contents (Elt F)),
    binary main_v137 main_v159 main_v160 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v147 main_v161 ((transpose S32x1024 [1, 0] · transposes_S1024x32_S32x1024_1_0) : (⟨S1024x32, .f32⟩ : BufTy).Contents (Elt F) → (⟨S32x1024, .f32⟩ : BufTy).Contents (Elt F)),
    binary main_v160 main_v161 main_v162 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_6 (constant S_ .f32 0x3DBFE5C9#32),
    unary main_cst_6 main_v163 (broadcastInDim S1024x1024 ![] bcast_S_S1024x1024 : (⟨S_, .f32⟩ : BufTy).Contents (Elt F) → (⟨S1024x1024, .f32⟩ : BufTy).Contents (Elt F)),
    binary main_v163 main_v162 main_v164 (mulf : (⟨S1024x1024, .f32⟩ : BufTy).Contents (Elt F) → (⟨S1024x1024, .f32⟩ : BufTy).Contents (Elt F) → (⟨S1024x1024, .f32⟩ : BufTy).Contents (Elt F)),
    binary main_v158 main_v164 main_v165 (addf : (⟨S1024x1024, .f32⟩ : BufTy).Contents (Elt F) → (⟨S1024x1024, .f32⟩ : BufTy).Contents (Elt F) → (⟨S1024x1024, .f32⟩ : BufTy).Contents (Elt F)),
    TRef.nullary main_call4.cst (constant S_ .f32 0x00000000#32),
    TRef.unary main_call4.cst main_call4.v0 (broadcastInDim S1024x1024 ![] bcast_S_S1024x1024),
    TRef.binary (.of main_v165) main_call4.v0 main_call4.v1 maximumf ]

abbrev W_q174 : List (Ref sig .tc) :=
  [main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_cst_6, main_v163, main_v164, main_v165, main_call4_cst, main_call4_v0, main_v166]

theorem q174_sub : (q174 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q174_fresh : (q174 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q174_writes : (q174 : List (HloOp τ sig (Elt F))).Forall fun op => op.writes ⊆ ((W_q174).map (Proc.devRef (τ := τ) .tc)).toFinset :=
  ⟨writes_sub_of (y := main_v138) rfl (by decide),
   writes_sub_of (y := main_v139) rfl (by decide),
   writes_sub_of (y := main_v140) rfl (by decide),
   writes_sub_of (y := main_v141) rfl (by decide),
   writes_sub_of (y := main_v142) rfl (by decide),
   writes_sub_of (y := main_v143) rfl (by decide),
   writes_sub_of (y := main_v144) rfl (by decide),
   writes_sub_of (y := main_v145) rfl (by decide),
   writes_sub_of (y := main_v146) rfl (by decide),
   writes_sub_of (y := main_v147) rfl (by decide),
   writes_sub_of (y := main_v148) rfl (by decide),
   writes_sub_of (y := main_v149) rfl (by decide),
   writes_sub_of (y := main_v150) rfl (by decide),
   writes_sub_of (y := main_v151) rfl (by decide),
   writes_sub_of (y := main_v152) rfl (by decide),
   writes_sub_of (y := main_v153) rfl (by decide),
   writes_sub_of (y := main_v154) rfl (by decide),
   writes_sub_of (y := main_v155) rfl (by decide),
   writes_sub_of (y := main_v156) rfl (by decide),
   writes_sub_of (y := main_v157) rfl (by decide),
   writes_sub_of (y := main_v158) rfl (by decide),
   writes_sub_of (y := main_v159) rfl (by decide),
   writes_sub_of (y := main_v160) rfl (by decide),
   writes_sub_of (y := main_v161) rfl (by decide),
   writes_sub_of (y := main_v162) rfl (by decide),
   writes_sub_of (y := main_cst_6) rfl (by decide),
   writes_sub_of (y := main_v163) rfl (by decide),
   writes_sub_of (y := main_v164) rfl (by decide),
   writes_sub_of (y := main_v165) rfl (by decide),
   writes_sub_of (y := main_call4_cst) rfl (by decide),
   writes_sub_of (y := main_call4_v0) rfl (by decide),
   writes_sub_of (y := main_v166) rfl (by decide)⟩

theorem q174_keep (V : Valuation τ sig (Elt F)) {r : Ref sig .tc} (hr : r ∉ W_q174) :
    after q174 V (Proc.devRef .tc r) = V (Proc.devRef .tc r) :=
  after_of_writes_sub q174 V q174_writes hr

abbrev q206 : List (HloOp τ sig (Elt F)) :=
  [
    unary main_arg1 main_v167 ((extractStridedSlice S1x1x1024x1024 ![1, 2, 0, 0] · slices_S6x3x1024x1024_S1x1x1024x1024_1_2_0_0) : (⟨S6x3x1024x1024, .i32⟩ : BufTy).Contents (Elt F) → (⟨S1x1x1024x1024, .i32⟩ : BufTy).Contents (Elt F)),
    reshape main_v167 main_v168 rfl shapeCasts_S1x1x1024x1024_S1024x1024,
    unary main_arg2 main_v169 ((extractStridedSlice S1x1x1024x64 ![1, 2, 0, 0] · slices_S6x3x1024x64_S1x1x1024x64_1_2_0_0) : (⟨S6x3x1024x64, .f32⟩ : BufTy).Contents (Elt F) → (⟨S1x1x1024x64, .f32⟩ : BufTy).Contents (Elt F)),
    reshape main_v169 main_v170 rfl shapeCasts_S1x1x1024x64_S1024x64 ]

abbrev W_q206 : List (Ref sig .tc) :=
  [main_v167, main_v168, main_v169, main_v170]

theorem q206_sub : (q206 : List (HloOp τ sig (Elt F))).Forall fun op => op.bufs ⊆ tcRefs τ sig :=
  ⟨unary_bufs_sub .., reshape_bufs_sub .., unary_bufs_sub .., reshape_bufs_sub ..⟩

theorem q206_fresh : (q206 : List (HloOp τ sig (Elt F))).Forall fun op => op.fresh = ∅ :=
  ⟨rfl, rfl, rfl, rfl⟩

theorem q206_writes : (q206 : List (HloOp τ sig (Elt F))).Forall fun op => op.writes ⊆ ((W_q206).map (Proc.devRef (τ := τ) .tc)).toFinset :=
  ⟨writes_sub_of (y := main_v167) rfl (by decide),
   writes_sub_of (y := main_v168) rfl (by decide),
   writes_sub_of (y := main_v169) rfl (by decide),
   writes_sub_of (y := main_v170) rfl (by decide)⟩

theorem q206_keep (V : Valuation τ sig (Elt F)) {r : Ref sig .tc} (hr : r ∉ W_q206) :
    after q206 V (Proc.devRef .tc r) = V (Proc.devRef .tc r) :=
  after_of_writes_sub q206 V q206_writes hr

abbrev q210 : List (HloOp τ sig (Elt F)) :=
  [
    unary main_arg3 main_v171 ((extractStridedSlice S1x1x1024 ![1, 2, 0] · slices_S6x3x1024_S1x1x1024_1_2_0) : (⟨S6x3x1024, .f32⟩ : BufTy).Contents (Elt F) → (⟨S1x1x1024, .f32⟩ : BufTy).Contents (Elt F)),
    reshape main_v171 main_v172 rfl shapeCasts_S1x1x1024_S1024,
    unary main_arg4 main_v173 ((extractStridedSlice S1x1x32x1024 ![1, 2, 0, 0] · slices_S6x3x32x1024_S1x1x32x1024_1_2_0_0) : (⟨S6x3x32x1024, .f32⟩ : BufTy).Contents (Elt F) → (⟨S1x1x32x1024, .f32⟩ : BufTy).Contents (Elt F)),
    reshape main_v173 main_v174 rfl shapeCasts_S1x1x32x1024_S32x1024,
    unary main_arg5 main_v175 ((extractStridedSlice S1x1x1024x32 ![1, 2, 0, 0] · slices_S6x3x1024x32_S1x1x1024x32_1_2_0_0) : (⟨S6x3x1024x32, .f32⟩ : BufTy).Contents (Elt F) → (⟨S1x1x1024x32, .f32⟩ : BufTy).Contents (Elt F)),
    reshape main_v175 main_v176 rfl shapeCasts_S1x1x1024x32_S1024x32,
    unary main_v168 main_v177 (sitofp .f32 : (⟨S1024x1024, .i32⟩ : BufTy).Contents (Elt F) → (⟨S1024x1024, .f32⟩ : BufTy).Contents (Elt F)),
    reshape main_v177 main_v178 rfl shapeCasts_S1024x1024_S1024x64x16,
    unary main_v170 main_v179 (broadcastInDim S1024x64x1 ![0, 1] bcast_S1024x64_S1024x64x1_0_1 : (⟨S1024x64, .f32⟩ : BufTy).Contents (Elt F) → (⟨S1024x64x1, .f32⟩ : BufTy).Contents (Elt F)),
    unary main_v179 main_v180 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v178 main_v180 main_v181 (mulf : (⟨S1024x64x16, .f32⟩ : BufTy).Contents (Elt F) → (⟨S1024x64x16, .f32⟩ : BufTy).Contents (Elt F) → (⟨S1024x64x16, .f32⟩ : BufTy).Contents (Elt F)),
    reshape main_v181 main_v182 rfl shapeCasts_S1024x64x16_S1024x1024,
    unary main_v182 main_v183 ((transpose S1024x1024 [1, 0] · transposes_S1024x1024_S1024x1024_1_0) : (⟨S1024x1024, .f32⟩ : BufTy).Contents (Elt F) → (⟨S1024x1024, .f32⟩ : BufTy).Contents (Elt F)),
    binary main_v166 main_v183 main_v184 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v172 main_v185 (broadcastInDim S1x1024 ![1] bcast_S1024_S1x1024_1 : (⟨S1024, .f32⟩ : BufTy).Contents (Elt F) → (⟨S1x1024, .f32⟩ : BufTy).Contents (Elt F)),
    unary main_v185 main_v186 (broadcastInDim S1024x1024 ![0, 1] bcast_S1x1024_S1024x1024_0_1 : (⟨S1x1024, .f32⟩ : BufTy).Contents (Elt F) → (⟨S1024x1024, .f32⟩ : BufTy).Contents (Elt F)),
    binary main_v184 main_v186 main_v187 (addf : (⟨S1024x1024, .f32⟩ : BufTy).Contents (Elt F) → (⟨S1024x1024, .f32⟩ : BufTy).Contents (Elt F) → (⟨S1024x1024, .f32⟩ : BufTy).Contents (Elt F)),
    unary main_v174 main_v188 ((transpose S1024x32 [1, 0] · transposes_S32x1024_S1024x32_1_0) : (⟨S32x1024, .f32⟩ : BufTy).Contents (Elt F) → (⟨S1024x32, .f32⟩ : BufTy).Contents (Elt F)),
    binary main_v166 main_v188 main_v189 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v176 main_v190 ((transpose S32x1024 [1, 0] · transposes_S1024x32_S32x1024_1_0) : (⟨S1024x32, .f32⟩ : BufTy).Contents (Elt F) → (⟨S32x1024, .f32⟩ : BufTy).Contents (Elt F)),
    binary main_v189 main_v190 main_v191 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_7 (constant S_ .f32 0x3DBFE5C9#32),
    unary main_cst_7 main_v192 (broadcastInDim S1024x1024 ![] bcast_S_S1024x1024 : (⟨S_, .f32⟩ : BufTy).Contents (Elt F) → (⟨S1024x1024, .f32⟩ : BufTy).Contents (Elt F)),
    binary main_v192 main_v191 main_v193 (mulf : (⟨S1024x1024, .f32⟩ : BufTy).Contents (Elt F) → (⟨S1024x1024, .f32⟩ : BufTy).Contents (Elt F) → (⟨S1024x1024, .f32⟩ : BufTy).Contents (Elt F)),
    binary main_v187 main_v193 main_v194 (addf : (⟨S1024x1024, .f32⟩ : BufTy).Contents (Elt F) → (⟨S1024x1024, .f32⟩ : BufTy).Contents (Elt F) → (⟨S1024x1024, .f32⟩ : BufTy).Contents (Elt F)),
    binary main_v194 main_v108 main_v195 (addf : (⟨S1024x1024, .f32⟩ : BufTy).Contents (Elt F) → (⟨S1024x1024, .f32⟩ : BufTy).Contents (Elt F) → (⟨S1024x1024, .f32⟩ : BufTy).Contents (Elt F)) ]

abbrev W_q210 : List (Ref sig .tc) :=
  [main_v171, main_v172, main_v173, main_v174, main_v175, main_v176, main_v177, main_v178, main_v179, main_v180, main_v181, main_v182, main_v183, main_v184, main_v185, main_v186, main_v187, main_v188, main_v189, main_v190, main_v191, main_cst_7, main_v192, main_v193, main_v194, main_v195]

theorem q210_sub : (q210 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., binary_bufs_sub ..⟩

theorem q210_fresh : (q210 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem q210_writes : (q210 : List (HloOp τ sig (Elt F))).Forall fun op => op.writes ⊆ ((W_q210).map (Proc.devRef (τ := τ) .tc)).toFinset :=
  ⟨writes_sub_of (y := main_v171) rfl (by decide),
   writes_sub_of (y := main_v172) rfl (by decide),
   writes_sub_of (y := main_v173) rfl (by decide),
   writes_sub_of (y := main_v174) rfl (by decide),
   writes_sub_of (y := main_v175) rfl (by decide),
   writes_sub_of (y := main_v176) rfl (by decide),
   writes_sub_of (y := main_v177) rfl (by decide),
   writes_sub_of (y := main_v178) rfl (by decide),
   writes_sub_of (y := main_v179) rfl (by decide),
   writes_sub_of (y := main_v180) rfl (by decide),
   writes_sub_of (y := main_v181) rfl (by decide),
   writes_sub_of (y := main_v182) rfl (by decide),
   writes_sub_of (y := main_v183) rfl (by decide),
   writes_sub_of (y := main_v184) rfl (by decide),
   writes_sub_of (y := main_v185) rfl (by decide),
   writes_sub_of (y := main_v186) rfl (by decide),
   writes_sub_of (y := main_v187) rfl (by decide),
   writes_sub_of (y := main_v188) rfl (by decide),
   writes_sub_of (y := main_v189) rfl (by decide),
   writes_sub_of (y := main_v190) rfl (by decide),
   writes_sub_of (y := main_v191) rfl (by decide),
   writes_sub_of (y := main_cst_7) rfl (by decide),
   writes_sub_of (y := main_v192) rfl (by decide),
   writes_sub_of (y := main_v193) rfl (by decide),
   writes_sub_of (y := main_v194) rfl (by decide),
   writes_sub_of (y := main_v195) rfl (by decide)⟩

theorem q210_keep (V : Valuation τ sig (Elt F)) {r : Ref sig .tc} (hr : r ∉ W_q210) :
    after q210 V (Proc.devRef .tc r) = V (Proc.devRef .tc r) :=
  after_of_writes_sub q210 V q210_writes hr

abbrev q236 : List (HloOp τ sig (Elt F)) :=
  [
    unary main_arg6 main_v196 ((extractStridedSlice S1x1024 ![1, 0] · slices_S5x1024_S1x1024_1_0) : (⟨S5x1024, .f32⟩ : BufTy).Contents (Elt F) → (⟨S1x1024, .f32⟩ : BufTy).Contents (Elt F)),
    reshape main_v196 main_v197 rfl shapeCasts_S1x1024_S1024,
    unary main_arg7 main_v198 ((extractStridedSlice S1x1024 ![1, 0] · slices_S5x1024_S1x1024_1_0) : (⟨S5x1024, .f32⟩ : BufTy).Contents (Elt F) → (⟨S1x1024, .f32⟩ : BufTy).Contents (Elt F)),
    reshape main_v198 main_v199 rfl shapeCasts_S1x1024_S1024,
    nullary main_cst_8 (constant S_ .f32 0x00000000#32),
    binary main_v195 main_cst_8 main_v200 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    unary main_v200 main_v201 (broadcastInDim S1024x1 ![0] bcast_S1024_S1024x1_0 : (⟨S1024, .f32⟩ : BufTy).Contents (Elt F) → (⟨S1024x1, .f32⟩ : BufTy).Contents (Elt F)),
    nullary main_cst_9 (constant S_ .f32 0x44800000#32),
    unary main_cst_9 main_v202 (broadcastInDim S1024x1 ![] bcast_S_S1024x1 : (⟨S_, .f32⟩ : BufTy).Contents (Elt F) → (⟨S1024x1, .f32⟩ : BufTy).Contents (Elt F)),
    binary main_v201 main_v202 main_v203 (Host.divf : (⟨S1024x1, .f32⟩ : BufTy).Contents (Elt F) → (⟨S1024x1, .f32⟩ : BufTy).Contents (Elt F) → (⟨S1024x1, .f32⟩ : BufTy).Contents (Elt F)),
    nullary main_c_10 (constantI S_ 32 0#32),
    TRef.nullary main_call5.cst (constant S_ .f32 0x00000000#32),
    TRef.binary (.of main_v195) main_call5.cst main_call5.v0 (fun x v => Host.reduceAdd x v reducesTo_S1024x1024_S1024_d1 h_S_),
    TRef.unary main_call5.v0 main_call5.v1 (broadcastInDim S1024x1 ![0] bcast_S1024_S1024x1_0),
    TRef.nullary main_call5.cst_0 (constant S_ .f32 0x44800000#32),
    TRef.unary main_call5.cst_0 main_call5.v2 (broadcastInDim S1024x1 ![] bcast_S_S1024x1),
    TRef.binary main_call5.v1 main_call5.v2 main_call5.v3 Host.divf,
    TRef.unary main_call5.v3 main_call5.v4 (broadcastInDim S1024x1024 ![0, 1] bcast_S1024x1_S1024x1024_0_1),
    TRef.binary (.of main_v195) main_call5.v4 main_call5.v5 subf,
    TRef.binary main_call5.v5 main_call5.v5 main_call5.v6 mulf,
    TRef.unary (.of main_c_10) main_call5.v7 (sitofp .f32),
    TRef.nullary main_call5.cst_1 (constant S_ .f32 0x44800000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S1024x1024_S1024_d1 h_S_),
    TRef.unary main_call5.v9 main_call5.v10 (broadcastInDim S1024x1 ![0] bcast_S1024_S1024x1_0),
    TRef.unary main_call5.v8 main_call5.v11 (broadcastInDim S1024x1 ![] bcast_S_S1024x1),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S1024x1 ![] bcast_S_S1024x1),
    TRef.ternary main_call5.v13 main_call5.v12 main_call5.call0.v1 main_call5.call0.v2 (fun p a b => select (broadcastInDim S1024x1 ![] bcast_S_S1024x1 p) a b),
    unary main_v203 main_v205 (broadcastInDim S1024x1024 ![0, 1] bcast_S1024x1_S1024x1024_0_1 : (⟨S1024x1, .f32⟩ : BufTy).Contents (Elt F) → (⟨S1024x1024, .f32⟩ : BufTy).Contents (Elt F)),
    binary main_v195 main_v205 main_v206 (subf : (⟨S1024x1024, .f32⟩ : BufTy).Contents (Elt F) → (⟨S1024x1024, .f32⟩ : BufTy).Contents (Elt F) → (⟨S1024x1024, .f32⟩ : BufTy).Contents (Elt F)),
    nullary main_cst_11 (constant S_ .f32 0x3727C5AC#32),
    unary main_cst_11 main_v207 (broadcastInDim S1024x1 ![] bcast_S_S1024x1 : (⟨S_, .f32⟩ : BufTy).Contents (Elt F) → (⟨S1024x1, .f32⟩ : BufTy).Contents (Elt F)),
    binary main_v204 main_v207 main_v208 (addf : (⟨S1024x1, .f32⟩ : BufTy).Contents (Elt F) → (⟨S1024x1, .f32⟩ : BufTy).Contents (Elt F) → (⟨S1024x1, .f32⟩ : BufTy).Contents (Elt F)),
    unary main_v208 main_v209 (Host.rsqrt : (⟨S1024x1, .f32⟩ : BufTy).Contents (Elt F) → (⟨S1024x1, .f32⟩ : BufTy).Contents (Elt F)),
    unary main_v209 main_v210 (broadcastInDim S1024x1024 ![0, 1] bcast_S1024x1_S1024x1024_0_1 : (⟨S1024x1, .f32⟩ : BufTy).Contents (Elt F) → (⟨S1024x1024, .f32⟩ : BufTy).Contents (Elt F)),
    binary main_v206 main_v210 main_v211 (mulf : (⟨S1024x1024, .f32⟩ : BufTy).Contents (Elt F) → (⟨S1024x1024, .f32⟩ : BufTy).Contents (Elt F) → (⟨S1024x1024, .f32⟩ : BufTy).Contents (Elt F)),
    unary main_v197 main_v212 (broadcastInDim S1x1024 ![1] bcast_S1024_S1x1024_1 : (⟨S1024, .f32⟩ : BufTy).Contents (Elt F) → (⟨S1x1024, .f32⟩ : BufTy).Contents (Elt F)),
    unary main_v212 main_v213 (broadcastInDim S1024x1024 ![0, 1] bcast_S1x1024_S1024x1024_0_1 : (⟨S1x1024, .f32⟩ : BufTy).Contents (Elt F) → (⟨S1024x1024, .f32⟩ : BufTy).Contents (Elt F)),
    binary main_v211 main_v213 main_v214 (mulf : (⟨S1024x1024, .f32⟩ : BufTy).Contents (Elt F) → (⟨S1024x1024, .f32⟩ : BufTy).Contents (Elt F) → (⟨S1024x1024, .f32⟩ : BufTy).Contents (Elt F)),
    unary main_v199 main_v215 (broadcastInDim S1x1024 ![1] bcast_S1024_S1x1024_1 : (⟨S1024, .f32⟩ : BufTy).Contents (Elt F) → (⟨S1x1024, .f32⟩ : BufTy).Contents (Elt F)),
    unary main_v215 main_v216 (broadcastInDim S1024x1024 ![0, 1] bcast_S1x1024_S1024x1024_0_1 : (⟨S1x1024, .f32⟩ : BufTy).Contents (Elt F) → (⟨S1024x1024, .f32⟩ : BufTy).Contents (Elt F)),
    binary main_v214 main_v216 main_v217 (addf : (⟨S1024x1024, .f32⟩ : BufTy).Contents (Elt F) → (⟨S1024x1024, .f32⟩ : BufTy).Contents (Elt F) → (⟨S1024x1024, .f32⟩ : BufTy).Contents (Elt F)) ]

abbrev W_q236 : List (Ref sig .tc) :=
  [main_v196, main_v197, main_v198, main_v199, main_cst_8, main_v200, main_v201, main_cst_9, main_v202, main_v203, main_c_10, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v204, main_v205, main_v206, main_cst_11, main_v207, main_v208, main_v209, main_v210, main_v211, main_v212, main_v213, main_v214, main_v215, main_v216, main_v217]

theorem q236_sub : (q236 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem q236_fresh : (q236 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q236_writes : (q236 : List (HloOp τ sig (Elt F))).Forall fun op => op.writes ⊆ ((W_q236).map (Proc.devRef (τ := τ) .tc)).toFinset :=
  ⟨writes_sub_of (y := main_v196) rfl (by decide),
   writes_sub_of (y := main_v197) rfl (by decide),
   writes_sub_of (y := main_v198) rfl (by decide),
   writes_sub_of (y := main_v199) rfl (by decide),
   writes_sub_of (y := main_cst_8) rfl (by decide),
   writes_sub_of (y := main_v200) rfl (by decide),
   writes_sub_of (y := main_v201) rfl (by decide),
   writes_sub_of (y := main_cst_9) rfl (by decide),
   writes_sub_of (y := main_v202) rfl (by decide),
   writes_sub_of (y := main_v203) rfl (by decide),
   writes_sub_of (y := main_c_10) rfl (by decide),
   writes_sub_of (y := main_call5_cst) rfl (by decide),
   writes_sub_of (y := main_call5_v0) rfl (by decide),
   writes_sub_of (y := main_call5_v1) rfl (by decide),
   writes_sub_of (y := main_call5_cst_0) rfl (by decide),
   writes_sub_of (y := main_call5_v2) rfl (by decide),
   writes_sub_of (y := main_call5_v3) rfl (by decide),
   writes_sub_of (y := main_call5_v4) rfl (by decide),
   writes_sub_of (y := main_call5_v5) rfl (by decide),
   writes_sub_of (y := main_call5_v6) rfl (by decide),
   writes_sub_of (y := main_call5_v7) rfl (by decide),
   writes_sub_of (y := main_call5_cst_1) rfl (by decide),
   writes_sub_of (y := main_call5_v8) rfl (by decide),
   writes_sub_of (y := main_call5_cst_2) rfl (by decide),
   writes_sub_of (y := main_call5_v9) rfl (by decide),
   writes_sub_of (y := main_call5_v10) rfl (by decide),
   writes_sub_of (y := main_call5_v11) rfl (by decide),
   writes_sub_of (y := main_call5_v12) rfl (by decide),
   writes_sub_of (y := main_call5_cst_3) rfl (by decide),
   writes_sub_of (y := main_call5_v13) rfl (by decide),
   writes_sub_of (y := main_call5_cst_4) rfl (by decide),
   writes_sub_of (y := main_call5_call0_v0) rfl (by decide),
   writes_sub_of (y := main_call5_call0_v1) rfl (by decide),
   writes_sub_of (y := main_v204) rfl (by decide),
   writes_sub_of (y := main_v205) rfl (by decide),
   writes_sub_of (y := main_v206) rfl (by decide),
   writes_sub_of (y := main_cst_11) rfl (by decide),
   writes_sub_of (y := main_v207) rfl (by decide),
   writes_sub_of (y := main_v208) rfl (by decide),
   writes_sub_of (y := main_v209) rfl (by decide),
   writes_sub_of (y := main_v210) rfl (by decide),
   writes_sub_of (y := main_v211) rfl (by decide),
   writes_sub_of (y := main_v212) rfl (by decide),
   writes_sub_of (y := main_v213) rfl (by decide),
   writes_sub_of (y := main_v214) rfl (by decide),
   writes_sub_of (y := main_v215) rfl (by decide),
   writes_sub_of (y := main_v216) rfl (by decide),
   writes_sub_of (y := main_v217) rfl (by decide)⟩

theorem q236_keep (V : Valuation τ sig (Elt F)) {r : Ref sig .tc} (hr : r ∉ W_q236) :
    after q236 V (Proc.devRef .tc r) = V (Proc.devRef .tc r) :=
  after_of_writes_sub q236 V q236_writes hr

abbrev q284 : List (HloOp τ sig (Elt F)) :=
  [
    unary main_arg1 main_v218 ((extractStridedSlice S1x1x1024x1024 ![2, 0, 0, 0] · slices_S6x3x1024x1024_S1x1x1024x1024_2_0_0_0) : (⟨S6x3x1024x1024, .i32⟩ : BufTy).Contents (Elt F) → (⟨S1x1x1024x1024, .i32⟩ : BufTy).Contents (Elt F)),
    reshape main_v218 main_v219 rfl shapeCasts_S1x1x1024x1024_S1024x1024,
    unary main_arg2 main_v220 ((extractStridedSlice S1x1x1024x64 ![2, 0, 0, 0] · slices_S6x3x1024x64_S1x1x1024x64_2_0_0_0) : (⟨S6x3x1024x64, .f32⟩ : BufTy).Contents (Elt F) → (⟨S1x1x1024x64, .f32⟩ : BufTy).Contents (Elt F)),
    reshape main_v220 main_v221 rfl shapeCasts_S1x1x1024x64_S1024x64,
    unary main_arg3 main_v222 ((extractStridedSlice S1x1x1024 ![2, 0, 0] · slices_S6x3x1024_S1x1x1024_2_0_0) : (⟨S6x3x1024, .f32⟩ : BufTy).Contents (Elt F) → (⟨S1x1x1024, .f32⟩ : BufTy).Contents (Elt F)),
    reshape main_v222 main_v223 rfl shapeCasts_S1x1x1024_S1024,
    unary main_arg4 main_v224 ((extractStridedSlice S1x1x32x1024 ![2, 0, 0, 0] · slices_S6x3x32x1024_S1x1x32x1024_2_0_0_0) : (⟨S6x3x32x1024, .f32⟩ : BufTy).Contents (Elt F) → (⟨S1x1x32x1024, .f32⟩ : BufTy).Contents (Elt F)),
    reshape main_v224 main_v225 rfl shapeCasts_S1x1x32x1024_S32x1024 ]

abbrev W_q284 : List (Ref sig .tc) :=
  [main_v218, main_v219, main_v220, main_v221, main_v222, main_v223, main_v224, main_v225]

theorem q284_sub : (q284 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub ..⟩

theorem q284_fresh : (q284 : List (HloOp τ sig (Elt F))).Forall fun op => op.fresh = ∅ :=
  ⟨rfl, rfl, rfl, rfl, rfl, rfl, rfl, rfl⟩

theorem q284_writes : (q284 : List (HloOp τ sig (Elt F))).Forall fun op => op.writes ⊆ ((W_q284).map (Proc.devRef (τ := τ) .tc)).toFinset :=
  ⟨writes_sub_of (y := main_v218) rfl (by decide),
   writes_sub_of (y := main_v219) rfl (by decide),
   writes_sub_of (y := main_v220) rfl (by decide),
   writes_sub_of (y := main_v221) rfl (by decide),
   writes_sub_of (y := main_v222) rfl (by decide),
   writes_sub_of (y := main_v223) rfl (by decide),
   writes_sub_of (y := main_v224) rfl (by decide),
   writes_sub_of (y := main_v225) rfl (by decide)⟩

theorem q284_keep (V : Valuation τ sig (Elt F)) {r : Ref sig .tc} (hr : r ∉ W_q284) :
    after q284 V (Proc.devRef .tc r) = V (Proc.devRef .tc r) :=
  after_of_writes_sub q284 V q284_writes hr

abbrev q292 : List (HloOp τ sig (Elt F)) :=
  [
    unary main_arg5 main_v226 ((extractStridedSlice S1x1x1024x32 ![2, 0, 0, 0] · slices_S6x3x1024x32_S1x1x1024x32_2_0_0_0) : (⟨S6x3x1024x32, .f32⟩ : BufTy).Contents (Elt F) → (⟨S1x1x1024x32, .f32⟩ : BufTy).Contents (Elt F)),
    reshape main_v226 main_v227 rfl shapeCasts_S1x1x1024x32_S1024x32,
    unary main_v219 main_v228 (sitofp .f32 : (⟨S1024x1024, .i32⟩ : BufTy).Contents (Elt F) → (⟨S1024x1024, .f32⟩ : BufTy).Contents (Elt F)),
    reshape main_v228 main_v229 rfl shapeCasts_S1024x1024_S1024x64x16,
    unary main_v221 main_v230 (broadcastInDim S1024x64x1 ![0, 1] bcast_S1024x64_S1024x64x1_0_1 : (⟨S1024x64, .f32⟩ : BufTy).Contents (Elt F) → (⟨S1024x64x1, .f32⟩ : BufTy).Contents (Elt F)),
    unary main_v230 main_v231 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v229 main_v231 main_v232 (mulf : (⟨S1024x64x16, .f32⟩ : BufTy).Contents (Elt F) → (⟨S1024x64x16, .f32⟩ : BufTy).Contents (Elt F) → (⟨S1024x64x16, .f32⟩ : BufTy).Contents (Elt F)),
    reshape main_v232 main_v233 rfl shapeCasts_S1024x64x16_S1024x1024,
    unary main_v233 main_v234 ((transpose S1024x1024 [1, 0] · transposes_S1024x1024_S1024x1024_1_0) : (⟨S1024x1024, .f32⟩ : BufTy).Contents (Elt F) → (⟨S1024x1024, .f32⟩ : BufTy).Contents (Elt F)),
    binary main_v217 main_v234 main_v235 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v223 main_v236 (broadcastInDim S1x1024 ![1] bcast_S1024_S1x1024_1 : (⟨S1024, .f32⟩ : BufTy).Contents (Elt F) → (⟨S1x1024, .f32⟩ : BufTy).Contents (Elt F)),
    unary main_v236 main_v237 (broadcastInDim S1024x1024 ![0, 1] bcast_S1x1024_S1024x1024_0_1 : (⟨S1x1024, .f32⟩ : BufTy).Contents (Elt F) → (⟨S1024x1024, .f32⟩ : BufTy).Contents (Elt F)),
    binary main_v235 main_v237 main_v238 (addf : (⟨S1024x1024, .f32⟩ : BufTy).Contents (Elt F) → (⟨S1024x1024, .f32⟩ : BufTy).Contents (Elt F) → (⟨S1024x1024, .f32⟩ : BufTy).Contents (Elt F)),
    unary main_v225 main_v239 ((transpose S1024x32 [1, 0] · transposes_S32x1024_S1024x32_1_0) : (⟨S32x1024, .f32⟩ : BufTy).Contents (Elt F) → (⟨S1024x32, .f32⟩ : BufTy).Contents (Elt F)),
    binary main_v217 main_v239 main_v240 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v227 main_v241 ((transpose S32x1024 [1, 0] · transposes_S1024x32_S32x1024_1_0) : (⟨S1024x32, .f32⟩ : BufTy).Contents (Elt F) → (⟨S32x1024, .f32⟩ : BufTy).Contents (Elt F)),
    binary main_v240 main_v241 main_v242 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_12 (constant S_ .f32 0x3DBFE5C9#32),
    unary main_cst_12 main_v243 (broadcastInDim S1024x1024 ![] bcast_S_S1024x1024 : (⟨S_, .f32⟩ : BufTy).Contents (Elt F) → (⟨S1024x1024, .f32⟩ : BufTy).Contents (Elt F)),
    binary main_v243 main_v242 main_v244 (mulf : (⟨S1024x1024, .f32⟩ : BufTy).Contents (Elt F) → (⟨S1024x1024, .f32⟩ : BufTy).Contents (Elt F) → (⟨S1024x1024, .f32⟩ : BufTy).Contents (Elt F)),
    binary main_v238 main_v244 main_v245 (addf : (⟨S1024x1024, .f32⟩ : BufTy).Contents (Elt F) → (⟨S1024x1024, .f32⟩ : BufTy).Contents (Elt F) → (⟨S1024x1024, .f32⟩ : BufTy).Contents (Elt F)),
    TRef.nullary main_call6.cst (constant S_ .f32 0x00000000#32),
    TRef.unary main_call6.cst main_call6.v0 (broadcastInDim S1024x1024 ![] bcast_S_S1024x1024),
    TRef.binary (.of main_v245) main_call6.v0 main_call6.v1 maximumf ]

abbrev W_q292 : List (Ref sig .tc) :=
  [main_v226, main_v227, main_v228, main_v229, main_v230, main_v231, main_v232, main_v233, main_v234, main_v235, main_v236, main_v237, main_v238, main_v239, main_v240, main_v241, main_v242, main_cst_12, main_v243, main_v244, main_v245, main_call6_cst, main_call6_v0, main_v246]

theorem q292_sub : (q292 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q292_fresh : (q292 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem q292_writes : (q292 : List (HloOp τ sig (Elt F))).Forall fun op => op.writes ⊆ ((W_q292).map (Proc.devRef (τ := τ) .tc)).toFinset :=
  ⟨writes_sub_of (y := main_v226) rfl (by decide),
   writes_sub_of (y := main_v227) rfl (by decide),
   writes_sub_of (y := main_v228) rfl (by decide),
   writes_sub_of (y := main_v229) rfl (by decide),
   writes_sub_of (y := main_v230) rfl (by decide),
   writes_sub_of (y := main_v231) rfl (by decide),
   writes_sub_of (y := main_v232) rfl (by decide),
   writes_sub_of (y := main_v233) rfl (by decide),
   writes_sub_of (y := main_v234) rfl (by decide),
   writes_sub_of (y := main_v235) rfl (by decide),
   writes_sub_of (y := main_v236) rfl (by decide),
   writes_sub_of (y := main_v237) rfl (by decide),
   writes_sub_of (y := main_v238) rfl (by decide),
   writes_sub_of (y := main_v239) rfl (by decide),
   writes_sub_of (y := main_v240) rfl (by decide),
   writes_sub_of (y := main_v241) rfl (by decide),
   writes_sub_of (y := main_v242) rfl (by decide),
   writes_sub_of (y := main_cst_12) rfl (by decide),
   writes_sub_of (y := main_v243) rfl (by decide),
   writes_sub_of (y := main_v244) rfl (by decide),
   writes_sub_of (y := main_v245) rfl (by decide),
   writes_sub_of (y := main_call6_cst) rfl (by decide),
   writes_sub_of (y := main_call6_v0) rfl (by decide),
   writes_sub_of (y := main_v246) rfl (by decide)⟩

theorem q292_keep (V : Valuation τ sig (Elt F)) {r : Ref sig .tc} (hr : r ∉ W_q292) :
    after q292 V (Proc.devRef .tc r) = V (Proc.devRef .tc r) :=
  after_of_writes_sub q292 V q292_writes hr

abbrev q316 : List (HloOp τ sig (Elt F)) :=
  [
    unary main_arg1 main_v247 ((extractStridedSlice S1x1x1024x1024 ![2, 1, 0, 0] · slices_S6x3x1024x1024_S1x1x1024x1024_2_1_0_0) : (⟨S6x3x1024x1024, .i32⟩ : BufTy).Contents (Elt F) → (⟨S1x1x1024x1024, .i32⟩ : BufTy).Contents (Elt F)),
    reshape main_v247 main_v248 rfl shapeCasts_S1x1x1024x1024_S1024x1024,
    unary main_arg2 main_v249 ((extractStridedSlice S1x1x1024x64 ![2, 1, 0, 0] · slices_S6x3x1024x64_S1x1x1024x64_2_1_0_0) : (⟨S6x3x1024x64, .f32⟩ : BufTy).Contents (Elt F) → (⟨S1x1x1024x64, .f32⟩ : BufTy).Contents (Elt F)),
    reshape main_v249 main_v250 rfl shapeCasts_S1x1x1024x64_S1024x64,
    unary main_arg3 main_v251 ((extractStridedSlice S1x1x1024 ![2, 1, 0] · slices_S6x3x1024_S1x1x1024_2_1_0) : (⟨S6x3x1024, .f32⟩ : BufTy).Contents (Elt F) → (⟨S1x1x1024, .f32⟩ : BufTy).Contents (Elt F)),
    reshape main_v251 main_v252 rfl shapeCasts_S1x1x1024_S1024,
    unary main_arg4 main_v253 ((extractStridedSlice S1x1x32x1024 ![2, 1, 0, 0] · slices_S6x3x32x1024_S1x1x32x1024_2_1_0_0) : (⟨S6x3x32x1024, .f32⟩ : BufTy).Contents (Elt F) → (⟨S1x1x32x1024, .f32⟩ : BufTy).Contents (Elt F)),
    reshape main_v253 main_v254 rfl shapeCasts_S1x1x32x1024_S32x1024,
    unary main_arg5 main_v255 ((extractStridedSlice S1x1x1024x32 ![2, 1, 0, 0] · slices_S6x3x1024x32_S1x1x1024x32_2_1_0_0) : (⟨S6x3x1024x32, .f32⟩ : BufTy).Contents (Elt F) → (⟨S1x1x1024x32, .f32⟩ : BufTy).Contents (Elt F)),
    reshape main_v255 main_v256 rfl shapeCasts_S1x1x1024x32_S1024x32,
    unary main_v248 main_v257 (sitofp .f32 : (⟨S1024x1024, .i32⟩ : BufTy).Contents (Elt F) → (⟨S1024x1024, .f32⟩ : BufTy).Contents (Elt F)),
    reshape main_v257 main_v258 rfl shapeCasts_S1024x1024_S1024x64x16,
    unary main_v250 main_v259 (broadcastInDim S1024x64x1 ![0, 1] bcast_S1024x64_S1024x64x1_0_1 : (⟨S1024x64, .f32⟩ : BufTy).Contents (Elt F) → (⟨S1024x64x1, .f32⟩ : BufTy).Contents (Elt F)),
    unary main_v259 main_v260 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v258 main_v260 main_v261 (mulf : (⟨S1024x64x16, .f32⟩ : BufTy).Contents (Elt F) → (⟨S1024x64x16, .f32⟩ : BufTy).Contents (Elt F) → (⟨S1024x64x16, .f32⟩ : BufTy).Contents (Elt F)),
    reshape main_v261 main_v262 rfl shapeCasts_S1024x64x16_S1024x1024,
    unary main_v262 main_v263 ((transpose S1024x1024 [1, 0] · transposes_S1024x1024_S1024x1024_1_0) : (⟨S1024x1024, .f32⟩ : BufTy).Contents (Elt F) → (⟨S1024x1024, .f32⟩ : BufTy).Contents (Elt F)),
    binary main_v246 main_v263 main_v264 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v252 main_v265 (broadcastInDim S1x1024 ![1] bcast_S1024_S1x1024_1 : (⟨S1024, .f32⟩ : BufTy).Contents (Elt F) → (⟨S1x1024, .f32⟩ : BufTy).Contents (Elt F)),
    unary main_v265 main_v266 (broadcastInDim S1024x1024 ![0, 1] bcast_S1x1024_S1024x1024_0_1 : (⟨S1x1024, .f32⟩ : BufTy).Contents (Elt F) → (⟨S1024x1024, .f32⟩ : BufTy).Contents (Elt F)),
    binary main_v264 main_v266 main_v267 (addf : (⟨S1024x1024, .f32⟩ : BufTy).Contents (Elt F) → (⟨S1024x1024, .f32⟩ : BufTy).Contents (Elt F) → (⟨S1024x1024, .f32⟩ : BufTy).Contents (Elt F)),
    unary main_v254 main_v268 ((transpose S1024x32 [1, 0] · transposes_S32x1024_S1024x32_1_0) : (⟨S32x1024, .f32⟩ : BufTy).Contents (Elt F) → (⟨S1024x32, .f32⟩ : BufTy).Contents (Elt F)),
    binary main_v246 main_v268 main_v269 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v256 main_v270 ((transpose S32x1024 [1, 0] · transposes_S1024x32_S32x1024_1_0) : (⟨S1024x32, .f32⟩ : BufTy).Contents (Elt F) → (⟨S32x1024, .f32⟩ : BufTy).Contents (Elt F)),
    binary main_v269 main_v270 main_v271 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_13 (constant S_ .f32 0x3DBFE5C9#32),
    unary main_cst_13 main_v272 (broadcastInDim S1024x1024 ![] bcast_S_S1024x1024 : (⟨S_, .f32⟩ : BufTy).Contents (Elt F) → (⟨S1024x1024, .f32⟩ : BufTy).Contents (Elt F)),
    binary main_v272 main_v271 main_v273 (mulf : (⟨S1024x1024, .f32⟩ : BufTy).Contents (Elt F) → (⟨S1024x1024, .f32⟩ : BufTy).Contents (Elt F) → (⟨S1024x1024, .f32⟩ : BufTy).Contents (Elt F)),
    binary main_v267 main_v273 main_v274 (addf : (⟨S1024x1024, .f32⟩ : BufTy).Contents (Elt F) → (⟨S1024x1024, .f32⟩ : BufTy).Contents (Elt F) → (⟨S1024x1024, .f32⟩ : BufTy).Contents (Elt F)),
    TRef.nullary main_call7.cst (constant S_ .f32 0x00000000#32),
    TRef.unary main_call7.cst main_call7.v0 (broadcastInDim S1024x1024 ![] bcast_S_S1024x1024),
    TRef.binary (.of main_v274) main_call7.v0 main_call7.v1 maximumf ]

abbrev W_q316 : List (Ref sig .tc) :=
  [main_v247, main_v248, main_v249, main_v250, main_v251, main_v252, main_v253, main_v254, main_v255, main_v256, main_v257, main_v258, main_v259, main_v260, main_v261, main_v262, main_v263, main_v264, main_v265, main_v266, main_v267, main_v268, main_v269, main_v270, main_v271, main_cst_13, main_v272, main_v273, main_v274, main_call7_cst, main_call7_v0, main_v275]

theorem q316_sub : (q316 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q316_fresh : (q316 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q316_writes : (q316 : List (HloOp τ sig (Elt F))).Forall fun op => op.writes ⊆ ((W_q316).map (Proc.devRef (τ := τ) .tc)).toFinset :=
  ⟨writes_sub_of (y := main_v247) rfl (by decide),
   writes_sub_of (y := main_v248) rfl (by decide),
   writes_sub_of (y := main_v249) rfl (by decide),
   writes_sub_of (y := main_v250) rfl (by decide),
   writes_sub_of (y := main_v251) rfl (by decide),
   writes_sub_of (y := main_v252) rfl (by decide),
   writes_sub_of (y := main_v253) rfl (by decide),
   writes_sub_of (y := main_v254) rfl (by decide),
   writes_sub_of (y := main_v255) rfl (by decide),
   writes_sub_of (y := main_v256) rfl (by decide),
   writes_sub_of (y := main_v257) rfl (by decide),
   writes_sub_of (y := main_v258) rfl (by decide),
   writes_sub_of (y := main_v259) rfl (by decide),
   writes_sub_of (y := main_v260) rfl (by decide),
   writes_sub_of (y := main_v261) rfl (by decide),
   writes_sub_of (y := main_v262) rfl (by decide),
   writes_sub_of (y := main_v263) rfl (by decide),
   writes_sub_of (y := main_v264) rfl (by decide),
   writes_sub_of (y := main_v265) rfl (by decide),
   writes_sub_of (y := main_v266) rfl (by decide),
   writes_sub_of (y := main_v267) rfl (by decide),
   writes_sub_of (y := main_v268) rfl (by decide),
   writes_sub_of (y := main_v269) rfl (by decide),
   writes_sub_of (y := main_v270) rfl (by decide),
   writes_sub_of (y := main_v271) rfl (by decide),
   writes_sub_of (y := main_cst_13) rfl (by decide),
   writes_sub_of (y := main_v272) rfl (by decide),
   writes_sub_of (y := main_v273) rfl (by decide),
   writes_sub_of (y := main_v274) rfl (by decide),
   writes_sub_of (y := main_call7_cst) rfl (by decide),
   writes_sub_of (y := main_call7_v0) rfl (by decide),
   writes_sub_of (y := main_v275) rfl (by decide)⟩

theorem q316_keep (V : Valuation τ sig (Elt F)) {r : Ref sig .tc} (hr : r ∉ W_q316) :
    after q316 V (Proc.devRef .tc r) = V (Proc.devRef .tc r) :=
  after_of_writes_sub q316 V q316_writes hr

abbrev q348 : List (HloOp τ sig (Elt F)) :=
  [
    unary main_arg1 main_v276 ((extractStridedSlice S1x1x1024x1024 ![2, 2, 0, 0] · slices_S6x3x1024x1024_S1x1x1024x1024_2_2_0_0) : (⟨S6x3x1024x1024, .i32⟩ : BufTy).Contents (Elt F) → (⟨S1x1x1024x1024, .i32⟩ : BufTy).Contents (Elt F)),
    reshape main_v276 main_v277 rfl shapeCasts_S1x1x1024x1024_S1024x1024,
    unary main_arg2 main_v278 ((extractStridedSlice S1x1x1024x64 ![2, 2, 0, 0] · slices_S6x3x1024x64_S1x1x1024x64_2_2_0_0) : (⟨S6x3x1024x64, .f32⟩ : BufTy).Contents (Elt F) → (⟨S1x1x1024x64, .f32⟩ : BufTy).Contents (Elt F)),
    reshape main_v278 main_v279 rfl shapeCasts_S1x1x1024x64_S1024x64,
    unary main_arg3 main_v280 ((extractStridedSlice S1x1x1024 ![2, 2, 0] · slices_S6x3x1024_S1x1x1024_2_2_0) : (⟨S6x3x1024, .f32⟩ : BufTy).Contents (Elt F) → (⟨S1x1x1024, .f32⟩ : BufTy).Contents (Elt F)),
    reshape main_v280 main_v281 rfl shapeCasts_S1x1x1024_S1024,
    unary main_arg4 main_v282 ((extractStridedSlice S1x1x32x1024 ![2, 2, 0, 0] · slices_S6x3x32x1024_S1x1x32x1024_2_2_0_0) : (⟨S6x3x32x1024, .f32⟩ : BufTy).Contents (Elt F) → (⟨S1x1x32x1024, .f32⟩ : BufTy).Contents (Elt F)),
    reshape main_v282 main_v283 rfl shapeCasts_S1x1x32x1024_S32x1024 ]

abbrev W_q348 : List (Ref sig .tc) :=
  [main_v276, main_v277, main_v278, main_v279, main_v280, main_v281, main_v282, main_v283]

theorem q348_sub : (q348 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub ..⟩

theorem q348_fresh : (q348 : List (HloOp τ sig (Elt F))).Forall fun op => op.fresh = ∅ :=
  ⟨rfl, rfl, rfl, rfl, rfl, rfl, rfl, rfl⟩

theorem q348_writes : (q348 : List (HloOp τ sig (Elt F))).Forall fun op => op.writes ⊆ ((W_q348).map (Proc.devRef (τ := τ) .tc)).toFinset :=
  ⟨writes_sub_of (y := main_v276) rfl (by decide),
   writes_sub_of (y := main_v277) rfl (by decide),
   writes_sub_of (y := main_v278) rfl (by decide),
   writes_sub_of (y := main_v279) rfl (by decide),
   writes_sub_of (y := main_v280) rfl (by decide),
   writes_sub_of (y := main_v281) rfl (by decide),
   writes_sub_of (y := main_v282) rfl (by decide),
   writes_sub_of (y := main_v283) rfl (by decide)⟩

theorem q348_keep (V : Valuation τ sig (Elt F)) {r : Ref sig .tc} (hr : r ∉ W_q348) :
    after q348 V (Proc.devRef .tc r) = V (Proc.devRef .tc r) :=
  after_of_writes_sub q348 V q348_writes hr

abbrev q356 : List (HloOp τ sig (Elt F)) :=
  [
    unary main_arg5 main_v284 ((extractStridedSlice S1x1x1024x32 ![2, 2, 0, 0] · slices_S6x3x1024x32_S1x1x1024x32_2_2_0_0) : (⟨S6x3x1024x32, .f32⟩ : BufTy).Contents (Elt F) → (⟨S1x1x1024x32, .f32⟩ : BufTy).Contents (Elt F)),
    reshape main_v284 main_v285 rfl shapeCasts_S1x1x1024x32_S1024x32,
    unary main_v277 main_v286 (sitofp .f32 : (⟨S1024x1024, .i32⟩ : BufTy).Contents (Elt F) → (⟨S1024x1024, .f32⟩ : BufTy).Contents (Elt F)),
    reshape main_v286 main_v287 rfl shapeCasts_S1024x1024_S1024x64x16,
    unary main_v279 main_v288 (broadcastInDim S1024x64x1 ![0, 1] bcast_S1024x64_S1024x64x1_0_1 : (⟨S1024x64, .f32⟩ : BufTy).Contents (Elt F) → (⟨S1024x64x1, .f32⟩ : BufTy).Contents (Elt F)),
    unary main_v288 main_v289 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v287 main_v289 main_v290 (mulf : (⟨S1024x64x16, .f32⟩ : BufTy).Contents (Elt F) → (⟨S1024x64x16, .f32⟩ : BufTy).Contents (Elt F) → (⟨S1024x64x16, .f32⟩ : BufTy).Contents (Elt F)),
    reshape main_v290 main_v291 rfl shapeCasts_S1024x64x16_S1024x1024,
    unary main_v291 main_v292 ((transpose S1024x1024 [1, 0] · transposes_S1024x1024_S1024x1024_1_0) : (⟨S1024x1024, .f32⟩ : BufTy).Contents (Elt F) → (⟨S1024x1024, .f32⟩ : BufTy).Contents (Elt F)),
    binary main_v275 main_v292 main_v293 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v281 main_v294 (broadcastInDim S1x1024 ![1] bcast_S1024_S1x1024_1 : (⟨S1024, .f32⟩ : BufTy).Contents (Elt F) → (⟨S1x1024, .f32⟩ : BufTy).Contents (Elt F)),
    unary main_v294 main_v295 (broadcastInDim S1024x1024 ![0, 1] bcast_S1x1024_S1024x1024_0_1 : (⟨S1x1024, .f32⟩ : BufTy).Contents (Elt F) → (⟨S1024x1024, .f32⟩ : BufTy).Contents (Elt F)),
    binary main_v293 main_v295 main_v296 (addf : (⟨S1024x1024, .f32⟩ : BufTy).Contents (Elt F) → (⟨S1024x1024, .f32⟩ : BufTy).Contents (Elt F) → (⟨S1024x1024, .f32⟩ : BufTy).Contents (Elt F)),
    unary main_v283 main_v297 ((transpose S1024x32 [1, 0] · transposes_S32x1024_S1024x32_1_0) : (⟨S32x1024, .f32⟩ : BufTy).Contents (Elt F) → (⟨S1024x32, .f32⟩ : BufTy).Contents (Elt F)),
    binary main_v275 main_v297 main_v298 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v285 main_v299 ((transpose S32x1024 [1, 0] · transposes_S1024x32_S32x1024_1_0) : (⟨S1024x32, .f32⟩ : BufTy).Contents (Elt F) → (⟨S32x1024, .f32⟩ : BufTy).Contents (Elt F)),
    binary main_v298 main_v299 main_v300 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_14 (constant S_ .f32 0x3DBFE5C9#32),
    unary main_cst_14 main_v301 (broadcastInDim S1024x1024 ![] bcast_S_S1024x1024 : (⟨S_, .f32⟩ : BufTy).Contents (Elt F) → (⟨S1024x1024, .f32⟩ : BufTy).Contents (Elt F)),
    binary main_v301 main_v300 main_v302 (mulf : (⟨S1024x1024, .f32⟩ : BufTy).Contents (Elt F) → (⟨S1024x1024, .f32⟩ : BufTy).Contents (Elt F) → (⟨S1024x1024, .f32⟩ : BufTy).Contents (Elt F)),
    binary main_v296 main_v302 main_v303 (addf : (⟨S1024x1024, .f32⟩ : BufTy).Contents (Elt F) → (⟨S1024x1024, .f32⟩ : BufTy).Contents (Elt F) → (⟨S1024x1024, .f32⟩ : BufTy).Contents (Elt F)),
    binary main_v303 main_v217 main_v304 (addf : (⟨S1024x1024, .f32⟩ : BufTy).Contents (Elt F) → (⟨S1024x1024, .f32⟩ : BufTy).Contents (Elt F) → (⟨S1024x1024, .f32⟩ : BufTy).Contents (Elt F)) ]

abbrev W_q356 : List (Ref sig .tc) :=
  [main_v284, main_v285, main_v286, main_v287, main_v288, main_v289, main_v290, main_v291, main_v292, main_v293, main_v294, main_v295, main_v296, main_v297, main_v298, main_v299, main_v300, main_cst_14, main_v301, main_v302, main_v303, main_v304]

theorem q356_sub : (q356 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., binary_bufs_sub ..⟩

theorem q356_fresh : (q356 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem q356_writes : (q356 : List (HloOp τ sig (Elt F))).Forall fun op => op.writes ⊆ ((W_q356).map (Proc.devRef (τ := τ) .tc)).toFinset :=
  ⟨writes_sub_of (y := main_v284) rfl (by decide),
   writes_sub_of (y := main_v285) rfl (by decide),
   writes_sub_of (y := main_v286) rfl (by decide),
   writes_sub_of (y := main_v287) rfl (by decide),
   writes_sub_of (y := main_v288) rfl (by decide),
   writes_sub_of (y := main_v289) rfl (by decide),
   writes_sub_of (y := main_v290) rfl (by decide),
   writes_sub_of (y := main_v291) rfl (by decide),
   writes_sub_of (y := main_v292) rfl (by decide),
   writes_sub_of (y := main_v293) rfl (by decide),
   writes_sub_of (y := main_v294) rfl (by decide),
   writes_sub_of (y := main_v295) rfl (by decide),
   writes_sub_of (y := main_v296) rfl (by decide),
   writes_sub_of (y := main_v297) rfl (by decide),
   writes_sub_of (y := main_v298) rfl (by decide),
   writes_sub_of (y := main_v299) rfl (by decide),
   writes_sub_of (y := main_v300) rfl (by decide),
   writes_sub_of (y := main_cst_14) rfl (by decide),
   writes_sub_of (y := main_v301) rfl (by decide),
   writes_sub_of (y := main_v302) rfl (by decide),
   writes_sub_of (y := main_v303) rfl (by decide),
   writes_sub_of (y := main_v304) rfl (by decide)⟩

theorem q356_keep (V : Valuation τ sig (Elt F)) {r : Ref sig .tc} (hr : r ∉ W_q356) :
    after q356 V (Proc.devRef .tc r) = V (Proc.devRef .tc r) :=
  after_of_writes_sub q356 V q356_writes hr

abbrev q378 : List (HloOp τ sig (Elt F)) :=
  [
    unary main_arg6 main_v305 ((extractStridedSlice S1x1024 ![2, 0] · slices_S5x1024_S1x1024_2_0) : (⟨S5x1024, .f32⟩ : BufTy).Contents (Elt F) → (⟨S1x1024, .f32⟩ : BufTy).Contents (Elt F)),
    reshape main_v305 main_v306 rfl shapeCasts_S1x1024_S1024,
    unary main_arg7 main_v307 ((extractStridedSlice S1x1024 ![2, 0] · slices_S5x1024_S1x1024_2_0) : (⟨S5x1024, .f32⟩ : BufTy).Contents (Elt F) → (⟨S1x1024, .f32⟩ : BufTy).Contents (Elt F)),
    reshape main_v307 main_v308 rfl shapeCasts_S1x1024_S1024,
    nullary main_cst_15 (constant S_ .f32 0x00000000#32),
    binary main_v304 main_cst_15 main_v309 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    unary main_v309 main_v310 (broadcastInDim S1024x1 ![0] bcast_S1024_S1024x1_0 : (⟨S1024, .f32⟩ : BufTy).Contents (Elt F) → (⟨S1024x1, .f32⟩ : BufTy).Contents (Elt F)),
    nullary main_cst_16 (constant S_ .f32 0x44800000#32),
    unary main_cst_16 main_v311 (broadcastInDim S1024x1 ![] bcast_S_S1024x1 : (⟨S_, .f32⟩ : BufTy).Contents (Elt F) → (⟨S1024x1, .f32⟩ : BufTy).Contents (Elt F)),
    binary main_v310 main_v311 main_v312 (Host.divf : (⟨S1024x1, .f32⟩ : BufTy).Contents (Elt F) → (⟨S1024x1, .f32⟩ : BufTy).Contents (Elt F) → (⟨S1024x1, .f32⟩ : BufTy).Contents (Elt F)),
    nullary main_c_17 (constantI S_ 32 0#32),
    TRef.nullary main_call8.cst (constant S_ .f32 0x00000000#32),
    TRef.binary (.of main_v304) main_call8.cst main_call8.v0 (fun x v => Host.reduceAdd x v reducesTo_S1024x1024_S1024_d1 h_S_),
    TRef.unary main_call8.v0 main_call8.v1 (broadcastInDim S1024x1 ![0] bcast_S1024_S1024x1_0),
    TRef.nullary main_call8.cst_0 (constant S_ .f32 0x44800000#32),
    TRef.unary main_call8.cst_0 main_call8.v2 (broadcastInDim S1024x1 ![] bcast_S_S1024x1),
    TRef.binary main_call8.v1 main_call8.v2 main_call8.v3 Host.divf,
    TRef.unary main_call8.v3 main_call8.v4 (broadcastInDim S1024x1024 ![0, 1] bcast_S1024x1_S1024x1024_0_1),
    TRef.binary (.of main_v304) main_call8.v4 main_call8.v5 subf,
    TRef.binary main_call8.v5 main_call8.v5 main_call8.v6 mulf,
    TRef.unary (.of main_c_17) main_call8.v7 (sitofp .f32),
    TRef.nullary main_call8.cst_1 (constant S_ .f32 0x44800000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S1024x1024_S1024_d1 h_S_),
    TRef.unary main_call8.v9 main_call8.v10 (broadcastInDim S1024x1 ![0] bcast_S1024_S1024x1_0),
    TRef.unary main_call8.v8 main_call8.v11 (broadcastInDim S1024x1 ![] bcast_S_S1024x1),
    TRef.binary main_call8.v10 main_call8.v11 main_call8.v12 Host.divf,
    TRef.nullary main_call8.cst_3 (constant S_ .f32 0x00000000#32),
    TRef.binary main_call8.v8 main_call8.cst_3 main_call8.v13 (cmpf .ogt),
    TRef.nullary main_call8.cst_4 (constant S_ .f32 0x7FC00000#32),
    TRef.unary main_call8.cst_4 main_call8.call0.v0 id,
    TRef.unary main_call8.call0.v0 main_call8.call0.v1 (broadcastInDim S1024x1 ![] bcast_S_S1024x1),
    TRef.ternary main_call8.v13 main_call8.v12 main_call8.call0.v1 main_call8.call0.v2 (fun p a b => select (broadcastInDim S1024x1 ![] bcast_S_S1024x1 p) a b),
    unary main_v312 main_v314 (broadcastInDim S1024x1024 ![0, 1] bcast_S1024x1_S1024x1024_0_1 : (⟨S1024x1, .f32⟩ : BufTy).Contents (Elt F) → (⟨S1024x1024, .f32⟩ : BufTy).Contents (Elt F)),
    binary main_v304 main_v314 main_v315 (subf : (⟨S1024x1024, .f32⟩ : BufTy).Contents (Elt F) → (⟨S1024x1024, .f32⟩ : BufTy).Contents (Elt F) → (⟨S1024x1024, .f32⟩ : BufTy).Contents (Elt F)),
    nullary main_cst_18 (constant S_ .f32 0x3727C5AC#32),
    unary main_cst_18 main_v316 (broadcastInDim S1024x1 ![] bcast_S_S1024x1 : (⟨S_, .f32⟩ : BufTy).Contents (Elt F) → (⟨S1024x1, .f32⟩ : BufTy).Contents (Elt F)),
    binary main_v313 main_v316 main_v317 (addf : (⟨S1024x1, .f32⟩ : BufTy).Contents (Elt F) → (⟨S1024x1, .f32⟩ : BufTy).Contents (Elt F) → (⟨S1024x1, .f32⟩ : BufTy).Contents (Elt F)),
    unary main_v317 main_v318 (Host.rsqrt : (⟨S1024x1, .f32⟩ : BufTy).Contents (Elt F) → (⟨S1024x1, .f32⟩ : BufTy).Contents (Elt F)),
    unary main_v318 main_v319 (broadcastInDim S1024x1024 ![0, 1] bcast_S1024x1_S1024x1024_0_1 : (⟨S1024x1, .f32⟩ : BufTy).Contents (Elt F) → (⟨S1024x1024, .f32⟩ : BufTy).Contents (Elt F)),
    binary main_v315 main_v319 main_v320 (mulf : (⟨S1024x1024, .f32⟩ : BufTy).Contents (Elt F) → (⟨S1024x1024, .f32⟩ : BufTy).Contents (Elt F) → (⟨S1024x1024, .f32⟩ : BufTy).Contents (Elt F)),
    unary main_v306 main_v321 (broadcastInDim S1x1024 ![1] bcast_S1024_S1x1024_1 : (⟨S1024, .f32⟩ : BufTy).Contents (Elt F) → (⟨S1x1024, .f32⟩ : BufTy).Contents (Elt F)),
    unary main_v321 main_v322 (broadcastInDim S1024x1024 ![0, 1] bcast_S1x1024_S1024x1024_0_1 : (⟨S1x1024, .f32⟩ : BufTy).Contents (Elt F) → (⟨S1024x1024, .f32⟩ : BufTy).Contents (Elt F)),
    binary main_v320 main_v322 main_v323 (mulf : (⟨S1024x1024, .f32⟩ : BufTy).Contents (Elt F) → (⟨S1024x1024, .f32⟩ : BufTy).Contents (Elt F) → (⟨S1024x1024, .f32⟩ : BufTy).Contents (Elt F)),
    unary main_v308 main_v324 (broadcastInDim S1x1024 ![1] bcast_S1024_S1x1024_1 : (⟨S1024, .f32⟩ : BufTy).Contents (Elt F) → (⟨S1x1024, .f32⟩ : BufTy).Contents (Elt F)),
    unary main_v324 main_v325 (broadcastInDim S1024x1024 ![0, 1] bcast_S1x1024_S1024x1024_0_1 : (⟨S1x1024, .f32⟩ : BufTy).Contents (Elt F) → (⟨S1024x1024, .f32⟩ : BufTy).Contents (Elt F)),
    binary main_v323 main_v325 main_v326 (addf : (⟨S1024x1024, .f32⟩ : BufTy).Contents (Elt F) → (⟨S1024x1024, .f32⟩ : BufTy).Contents (Elt F) → (⟨S1024x1024, .f32⟩ : BufTy).Contents (Elt F)) ]

abbrev W_q378 : List (Ref sig .tc) :=
  [main_v305, main_v306, main_v307, main_v308, main_cst_15, main_v309, main_v310, main_cst_16, main_v311, main_v312, main_c_17, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_v12, main_call8_cst_3, main_call8_v13, main_call8_cst_4, main_call8_call0_v0, main_call8_call0_v1, main_v313, main_v314, main_v315, main_cst_18, main_v316, main_v317, main_v318, main_v319, main_v320, main_v321, main_v322, main_v323, main_v324, main_v325, main_v326]

theorem q378_sub : (q378 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem q378_fresh : (q378 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q378_writes : (q378 : List (HloOp τ sig (Elt F))).Forall fun op => op.writes ⊆ ((W_q378).map (Proc.devRef (τ := τ) .tc)).toFinset :=
  ⟨writes_sub_of (y := main_v305) rfl (by decide),
   writes_sub_of (y := main_v306) rfl (by decide),
   writes_sub_of (y := main_v307) rfl (by decide),
   writes_sub_of (y := main_v308) rfl (by decide),
   writes_sub_of (y := main_cst_15) rfl (by decide),
   writes_sub_of (y := main_v309) rfl (by decide),
   writes_sub_of (y := main_v310) rfl (by decide),
   writes_sub_of (y := main_cst_16) rfl (by decide),
   writes_sub_of (y := main_v311) rfl (by decide),
   writes_sub_of (y := main_v312) rfl (by decide),
   writes_sub_of (y := main_c_17) rfl (by decide),
   writes_sub_of (y := main_call8_cst) rfl (by decide),
   writes_sub_of (y := main_call8_v0) rfl (by decide),
   writes_sub_of (y := main_call8_v1) rfl (by decide),
   writes_sub_of (y := main_call8_cst_0) rfl (by decide),
   writes_sub_of (y := main_call8_v2) rfl (by decide),
   writes_sub_of (y := main_call8_v3) rfl (by decide),
   writes_sub_of (y := main_call8_v4) rfl (by decide),
   writes_sub_of (y := main_call8_v5) rfl (by decide),
   writes_sub_of (y := main_call8_v6) rfl (by decide),
   writes_sub_of (y := main_call8_v7) rfl (by decide),
   writes_sub_of (y := main_call8_cst_1) rfl (by decide),
   writes_sub_of (y := main_call8_v8) rfl (by decide),
   writes_sub_of (y := main_call8_cst_2) rfl (by decide),
   writes_sub_of (y := main_call8_v9) rfl (by decide),
   writes_sub_of (y := main_call8_v10) rfl (by decide),
   writes_sub_of (y := main_call8_v11) rfl (by decide),
   writes_sub_of (y := main_call8_v12) rfl (by decide),
   writes_sub_of (y := main_call8_cst_3) rfl (by decide),
   writes_sub_of (y := main_call8_v13) rfl (by decide),
   writes_sub_of (y := main_call8_cst_4) rfl (by decide),
   writes_sub_of (y := main_call8_call0_v0) rfl (by decide),
   writes_sub_of (y := main_call8_call0_v1) rfl (by decide),
   writes_sub_of (y := main_v313) rfl (by decide),
   writes_sub_of (y := main_v314) rfl (by decide),
   writes_sub_of (y := main_v315) rfl (by decide),
   writes_sub_of (y := main_cst_18) rfl (by decide),
   writes_sub_of (y := main_v316) rfl (by decide),
   writes_sub_of (y := main_v317) rfl (by decide),
   writes_sub_of (y := main_v318) rfl (by decide),
   writes_sub_of (y := main_v319) rfl (by decide),
   writes_sub_of (y := main_v320) rfl (by decide),
   writes_sub_of (y := main_v321) rfl (by decide),
   writes_sub_of (y := main_v322) rfl (by decide),
   writes_sub_of (y := main_v323) rfl (by decide),
   writes_sub_of (y := main_v324) rfl (by decide),
   writes_sub_of (y := main_v325) rfl (by decide),
   writes_sub_of (y := main_v326) rfl (by decide)⟩

theorem q378_keep (V : Valuation τ sig (Elt F)) {r : Ref sig .tc} (hr : r ∉ W_q378) :
    after q378 V (Proc.devRef .tc r) = V (Proc.devRef .tc r) :=
  after_of_writes_sub q378 V q378_writes hr

abbrev q426 : List (HloOp τ sig (Elt F)) :=
  [
    unary main_arg1 main_v327 ((extractStridedSlice S1x1x1024x1024 ![3, 0, 0, 0] · slices_S6x3x1024x1024_S1x1x1024x1024_3_0_0_0) : (⟨S6x3x1024x1024, .i32⟩ : BufTy).Contents (Elt F) → (⟨S1x1x1024x1024, .i32⟩ : BufTy).Contents (Elt F)),
    reshape main_v327 main_v328 rfl shapeCasts_S1x1x1024x1024_S1024x1024,
    unary main_arg2 main_v329 ((extractStridedSlice S1x1x1024x64 ![3, 0, 0, 0] · slices_S6x3x1024x64_S1x1x1024x64_3_0_0_0) : (⟨S6x3x1024x64, .f32⟩ : BufTy).Contents (Elt F) → (⟨S1x1x1024x64, .f32⟩ : BufTy).Contents (Elt F)),
    reshape main_v329 main_v330 rfl shapeCasts_S1x1x1024x64_S1024x64,
    unary main_arg3 main_v331 ((extractStridedSlice S1x1x1024 ![3, 0, 0] · slices_S6x3x1024_S1x1x1024_3_0_0) : (⟨S6x3x1024, .f32⟩ : BufTy).Contents (Elt F) → (⟨S1x1x1024, .f32⟩ : BufTy).Contents (Elt F)),
    reshape main_v331 main_v332 rfl shapeCasts_S1x1x1024_S1024,
    unary main_arg4 main_v333 ((extractStridedSlice S1x1x32x1024 ![3, 0, 0, 0] · slices_S6x3x32x1024_S1x1x32x1024_3_0_0_0) : (⟨S6x3x32x1024, .f32⟩ : BufTy).Contents (Elt F) → (⟨S1x1x32x1024, .f32⟩ : BufTy).Contents (Elt F)),
    reshape main_v333 main_v334 rfl shapeCasts_S1x1x32x1024_S32x1024,
    unary main_arg5 main_v335 ((extractStridedSlice S1x1x1024x32 ![3, 0, 0, 0] · slices_S6x3x1024x32_S1x1x1024x32_3_0_0_0) : (⟨S6x3x1024x32, .f32⟩ : BufTy).Contents (Elt F) → (⟨S1x1x1024x32, .f32⟩ : BufTy).Contents (Elt F)),
    reshape main_v335 main_v336 rfl shapeCasts_S1x1x1024x32_S1024x32,
    unary main_v328 main_v337 (sitofp .f32 : (⟨S1024x1024, .i32⟩ : BufTy).Contents (Elt F) → (⟨S1024x1024, .f32⟩ : BufTy).Contents (Elt F)),
    reshape main_v337 main_v338 rfl shapeCasts_S1024x1024_S1024x64x16 ]

abbrev W_q426 : List (Ref sig .tc) :=
  [main_v327, main_v328, main_v329, main_v330, main_v331, main_v332, main_v333, main_v334, main_v335, main_v336, main_v337, main_v338]

theorem q426_sub : (q426 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

theorem q426_fresh : (q426 : List (HloOp τ sig (Elt F))).Forall fun op => op.fresh = ∅ :=
  ⟨rfl, rfl, rfl, rfl, rfl, rfl, rfl, rfl, rfl, rfl, rfl, rfl⟩

theorem q426_writes : (q426 : List (HloOp τ sig (Elt F))).Forall fun op => op.writes ⊆ ((W_q426).map (Proc.devRef (τ := τ) .tc)).toFinset :=
  ⟨writes_sub_of (y := main_v327) rfl (by decide),
   writes_sub_of (y := main_v328) rfl (by decide),
   writes_sub_of (y := main_v329) rfl (by decide),
   writes_sub_of (y := main_v330) rfl (by decide),
   writes_sub_of (y := main_v331) rfl (by decide),
   writes_sub_of (y := main_v332) rfl (by decide),
   writes_sub_of (y := main_v333) rfl (by decide),
   writes_sub_of (y := main_v334) rfl (by decide),
   writes_sub_of (y := main_v335) rfl (by decide),
   writes_sub_of (y := main_v336) rfl (by decide),
   writes_sub_of (y := main_v337) rfl (by decide),
   writes_sub_of (y := main_v338) rfl (by decide)⟩

theorem q426_keep (V : Valuation τ sig (Elt F)) {r : Ref sig .tc} (hr : r ∉ W_q426) :
    after q426 V (Proc.devRef .tc r) = V (Proc.devRef .tc r) :=
  after_of_writes_sub q426 V q426_writes hr

abbrev q438 : List (HloOp τ sig (Elt F)) :=
  [
    unary main_v330 main_v339 (broadcastInDim S1024x64x1 ![0, 1] bcast_S1024x64_S1024x64x1_0_1 : (⟨S1024x64, .f32⟩ : BufTy).Contents (Elt F) → (⟨S1024x64x1, .f32⟩ : BufTy).Contents (Elt F)),
    unary main_v339 main_v340 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v338 main_v340 main_v341 (mulf : (⟨S1024x64x16, .f32⟩ : BufTy).Contents (Elt F) → (⟨S1024x64x16, .f32⟩ : BufTy).Contents (Elt F) → (⟨S1024x64x16, .f32⟩ : BufTy).Contents (Elt F)),
    reshape main_v341 main_v342 rfl shapeCasts_S1024x64x16_S1024x1024,
    unary main_v342 main_v343 ((transpose S1024x1024 [1, 0] · transposes_S1024x1024_S1024x1024_1_0) : (⟨S1024x1024, .f32⟩ : BufTy).Contents (Elt F) → (⟨S1024x1024, .f32⟩ : BufTy).Contents (Elt F)),
    binary main_v326 main_v343 main_v344 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v332 main_v345 (broadcastInDim S1x1024 ![1] bcast_S1024_S1x1024_1 : (⟨S1024, .f32⟩ : BufTy).Contents (Elt F) → (⟨S1x1024, .f32⟩ : BufTy).Contents (Elt F)),
    unary main_v345 main_v346 (broadcastInDim S1024x1024 ![0, 1] bcast_S1x1024_S1024x1024_0_1 : (⟨S1x1024, .f32⟩ : BufTy).Contents (Elt F) → (⟨S1024x1024, .f32⟩ : BufTy).Contents (Elt F)),
    binary main_v344 main_v346 main_v347 (addf : (⟨S1024x1024, .f32⟩ : BufTy).Contents (Elt F) → (⟨S1024x1024, .f32⟩ : BufTy).Contents (Elt F) → (⟨S1024x1024, .f32⟩ : BufTy).Contents (Elt F)),
    unary main_v334 main_v348 ((transpose S1024x32 [1, 0] · transposes_S32x1024_S1024x32_1_0) : (⟨S32x1024, .f32⟩ : BufTy).Contents (Elt F) → (⟨S1024x32, .f32⟩ : BufTy).Contents (Elt F)),
    binary main_v326 main_v348 main_v349 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v336 main_v350 ((transpose S32x1024 [1, 0] · transposes_S1024x32_S32x1024_1_0) : (⟨S1024x32, .f32⟩ : BufTy).Contents (Elt F) → (⟨S32x1024, .f32⟩ : BufTy).Contents (Elt F)),
    binary main_v349 main_v350 main_v351 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_19 (constant S_ .f32 0x3DBFE5C9#32),
    unary main_cst_19 main_v352 (broadcastInDim S1024x1024 ![] bcast_S_S1024x1024 : (⟨S_, .f32⟩ : BufTy).Contents (Elt F) → (⟨S1024x1024, .f32⟩ : BufTy).Contents (Elt F)),
    binary main_v352 main_v351 main_v353 (mulf : (⟨S1024x1024, .f32⟩ : BufTy).Contents (Elt F) → (⟨S1024x1024, .f32⟩ : BufTy).Contents (Elt F) → (⟨S1024x1024, .f32⟩ : BufTy).Contents (Elt F)),
    binary main_v347 main_v353 main_v354 (addf : (⟨S1024x1024, .f32⟩ : BufTy).Contents (Elt F) → (⟨S1024x1024, .f32⟩ : BufTy).Contents (Elt F) → (⟨S1024x1024, .f32⟩ : BufTy).Contents (Elt F)),
    TRef.nullary main_call9.cst (constant S_ .f32 0x00000000#32),
    TRef.unary main_call9.cst main_call9.v0 (broadcastInDim S1024x1024 ![] bcast_S_S1024x1024),
    TRef.binary (.of main_v354) main_call9.v0 main_call9.v1 maximumf ]

abbrev W_q438 : List (Ref sig .tc) :=
  [main_v339, main_v340, main_v341, main_v342, main_v343, main_v344, main_v345, main_v346, main_v347, main_v348, main_v349, main_v350, main_v351, main_cst_19, main_v352, main_v353, main_v354, main_call9_cst, main_call9_v0, main_v355]

theorem q438_sub : (q438 : List (HloOp τ sig (Elt F))).Forall fun op => op.bufs ⊆ tcRefs τ sig :=
  ⟨unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q438_fresh : (q438 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem q438_writes : (q438 : List (HloOp τ sig (Elt F))).Forall fun op => op.writes ⊆ ((W_q438).map (Proc.devRef (τ := τ) .tc)).toFinset :=
  ⟨writes_sub_of (y := main_v339) rfl (by decide),
   writes_sub_of (y := main_v340) rfl (by decide),
   writes_sub_of (y := main_v341) rfl (by decide),
   writes_sub_of (y := main_v342) rfl (by decide),
   writes_sub_of (y := main_v343) rfl (by decide),
   writes_sub_of (y := main_v344) rfl (by decide),
   writes_sub_of (y := main_v345) rfl (by decide),
   writes_sub_of (y := main_v346) rfl (by decide),
   writes_sub_of (y := main_v347) rfl (by decide),
   writes_sub_of (y := main_v348) rfl (by decide),
   writes_sub_of (y := main_v349) rfl (by decide),
   writes_sub_of (y := main_v350) rfl (by decide),
   writes_sub_of (y := main_v351) rfl (by decide),
   writes_sub_of (y := main_cst_19) rfl (by decide),
   writes_sub_of (y := main_v352) rfl (by decide),
   writes_sub_of (y := main_v353) rfl (by decide),
   writes_sub_of (y := main_v354) rfl (by decide),
   writes_sub_of (y := main_call9_cst) rfl (by decide),
   writes_sub_of (y := main_call9_v0) rfl (by decide),
   writes_sub_of (y := main_v355) rfl (by decide)⟩

theorem q438_keep (V : Valuation τ sig (Elt F)) {r : Ref sig .tc} (hr : r ∉ W_q438) :
    after q438 V (Proc.devRef .tc r) = V (Proc.devRef .tc r) :=
  after_of_writes_sub q438 V q438_writes hr

abbrev q458 : List (HloOp τ sig (Elt F)) :=
  [
    unary main_arg1 main_v356 ((extractStridedSlice S1x1x1024x1024 ![3, 1, 0, 0] · slices_S6x3x1024x1024_S1x1x1024x1024_3_1_0_0) : (⟨S6x3x1024x1024, .i32⟩ : BufTy).Contents (Elt F) → (⟨S1x1x1024x1024, .i32⟩ : BufTy).Contents (Elt F)),
    reshape main_v356 main_v357 rfl shapeCasts_S1x1x1024x1024_S1024x1024,
    unary main_arg2 main_v358 ((extractStridedSlice S1x1x1024x64 ![3, 1, 0, 0] · slices_S6x3x1024x64_S1x1x1024x64_3_1_0_0) : (⟨S6x3x1024x64, .f32⟩ : BufTy).Contents (Elt F) → (⟨S1x1x1024x64, .f32⟩ : BufTy).Contents (Elt F)),
    reshape main_v358 main_v359 rfl shapeCasts_S1x1x1024x64_S1024x64,
    unary main_arg3 main_v360 ((extractStridedSlice S1x1x1024 ![3, 1, 0] · slices_S6x3x1024_S1x1x1024_3_1_0) : (⟨S6x3x1024, .f32⟩ : BufTy).Contents (Elt F) → (⟨S1x1x1024, .f32⟩ : BufTy).Contents (Elt F)),
    reshape main_v360 main_v361 rfl shapeCasts_S1x1x1024_S1024,
    unary main_arg4 main_v362 ((extractStridedSlice S1x1x32x1024 ![3, 1, 0, 0] · slices_S6x3x32x1024_S1x1x32x1024_3_1_0_0) : (⟨S6x3x32x1024, .f32⟩ : BufTy).Contents (Elt F) → (⟨S1x1x32x1024, .f32⟩ : BufTy).Contents (Elt F)),
    reshape main_v362 main_v363 rfl shapeCasts_S1x1x32x1024_S32x1024,
    unary main_arg5 main_v364 ((extractStridedSlice S1x1x1024x32 ![3, 1, 0, 0] · slices_S6x3x1024x32_S1x1x1024x32_3_1_0_0) : (⟨S6x3x1024x32, .f32⟩ : BufTy).Contents (Elt F) → (⟨S1x1x1024x32, .f32⟩ : BufTy).Contents (Elt F)),
    reshape main_v364 main_v365 rfl shapeCasts_S1x1x1024x32_S1024x32,
    unary main_v357 main_v366 (sitofp .f32 : (⟨S1024x1024, .i32⟩ : BufTy).Contents (Elt F) → (⟨S1024x1024, .f32⟩ : BufTy).Contents (Elt F)),
    reshape main_v366 main_v367 rfl shapeCasts_S1024x1024_S1024x64x16,
    unary main_v359 main_v368 (broadcastInDim S1024x64x1 ![0, 1] bcast_S1024x64_S1024x64x1_0_1 : (⟨S1024x64, .f32⟩ : BufTy).Contents (Elt F) → (⟨S1024x64x1, .f32⟩ : BufTy).Contents (Elt F)),
    unary main_v368 main_v369 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v367 main_v369 main_v370 (mulf : (⟨S1024x64x16, .f32⟩ : BufTy).Contents (Elt F) → (⟨S1024x64x16, .f32⟩ : BufTy).Contents (Elt F) → (⟨S1024x64x16, .f32⟩ : BufTy).Contents (Elt F)),
    reshape main_v370 main_v371 rfl shapeCasts_S1024x64x16_S1024x1024,
    unary main_v371 main_v372 ((transpose S1024x1024 [1, 0] · transposes_S1024x1024_S1024x1024_1_0) : (⟨S1024x1024, .f32⟩ : BufTy).Contents (Elt F) → (⟨S1024x1024, .f32⟩ : BufTy).Contents (Elt F)),
    binary main_v355 main_v372 main_v373 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v361 main_v374 (broadcastInDim S1x1024 ![1] bcast_S1024_S1x1024_1 : (⟨S1024, .f32⟩ : BufTy).Contents (Elt F) → (⟨S1x1024, .f32⟩ : BufTy).Contents (Elt F)),
    unary main_v374 main_v375 (broadcastInDim S1024x1024 ![0, 1] bcast_S1x1024_S1024x1024_0_1 : (⟨S1x1024, .f32⟩ : BufTy).Contents (Elt F) → (⟨S1024x1024, .f32⟩ : BufTy).Contents (Elt F)),
    binary main_v373 main_v375 main_v376 (addf : (⟨S1024x1024, .f32⟩ : BufTy).Contents (Elt F) → (⟨S1024x1024, .f32⟩ : BufTy).Contents (Elt F) → (⟨S1024x1024, .f32⟩ : BufTy).Contents (Elt F)),
    unary main_v363 main_v377 ((transpose S1024x32 [1, 0] · transposes_S32x1024_S1024x32_1_0) : (⟨S32x1024, .f32⟩ : BufTy).Contents (Elt F) → (⟨S1024x32, .f32⟩ : BufTy).Contents (Elt F)),
    binary main_v355 main_v377 main_v378 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v365 main_v379 ((transpose S32x1024 [1, 0] · transposes_S1024x32_S32x1024_1_0) : (⟨S1024x32, .f32⟩ : BufTy).Contents (Elt F) → (⟨S32x1024, .f32⟩ : BufTy).Contents (Elt F)),
    binary main_v378 main_v379 main_v380 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_20 (constant S_ .f32 0x3DBFE5C9#32),
    unary main_cst_20 main_v381 (broadcastInDim S1024x1024 ![] bcast_S_S1024x1024 : (⟨S_, .f32⟩ : BufTy).Contents (Elt F) → (⟨S1024x1024, .f32⟩ : BufTy).Contents (Elt F)),
    binary main_v381 main_v380 main_v382 (mulf : (⟨S1024x1024, .f32⟩ : BufTy).Contents (Elt F) → (⟨S1024x1024, .f32⟩ : BufTy).Contents (Elt F) → (⟨S1024x1024, .f32⟩ : BufTy).Contents (Elt F)),
    binary main_v376 main_v382 main_v383 (addf : (⟨S1024x1024, .f32⟩ : BufTy).Contents (Elt F) → (⟨S1024x1024, .f32⟩ : BufTy).Contents (Elt F) → (⟨S1024x1024, .f32⟩ : BufTy).Contents (Elt F)),
    TRef.nullary main_call10.cst (constant S_ .f32 0x00000000#32),
    TRef.unary main_call10.cst main_call10.v0 (broadcastInDim S1024x1024 ![] bcast_S_S1024x1024),
    TRef.binary (.of main_v383) main_call10.v0 main_call10.v1 maximumf ]

abbrev W_q458 : List (Ref sig .tc) :=
  [main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_cst_20, main_v381, main_v382, main_v383, main_call10_cst, main_call10_v0, main_v384]

theorem q458_sub : (q458 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q458_fresh : (q458 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q458_writes : (q458 : List (HloOp τ sig (Elt F))).Forall fun op => op.writes ⊆ ((W_q458).map (Proc.devRef (τ := τ) .tc)).toFinset :=
  ⟨writes_sub_of (y := main_v356) rfl (by decide),
   writes_sub_of (y := main_v357) rfl (by decide),
   writes_sub_of (y := main_v358) rfl (by decide),
   writes_sub_of (y := main_v359) rfl (by decide),
   writes_sub_of (y := main_v360) rfl (by decide),
   writes_sub_of (y := main_v361) rfl (by decide),
   writes_sub_of (y := main_v362) rfl (by decide),
   writes_sub_of (y := main_v363) rfl (by decide),
   writes_sub_of (y := main_v364) rfl (by decide),
   writes_sub_of (y := main_v365) rfl (by decide),
   writes_sub_of (y := main_v366) rfl (by decide),
   writes_sub_of (y := main_v367) rfl (by decide),
   writes_sub_of (y := main_v368) rfl (by decide),
   writes_sub_of (y := main_v369) rfl (by decide),
   writes_sub_of (y := main_v370) rfl (by decide),
   writes_sub_of (y := main_v371) rfl (by decide),
   writes_sub_of (y := main_v372) rfl (by decide),
   writes_sub_of (y := main_v373) rfl (by decide),
   writes_sub_of (y := main_v374) rfl (by decide),
   writes_sub_of (y := main_v375) rfl (by decide),
   writes_sub_of (y := main_v376) rfl (by decide),
   writes_sub_of (y := main_v377) rfl (by decide),
   writes_sub_of (y := main_v378) rfl (by decide),
   writes_sub_of (y := main_v379) rfl (by decide),
   writes_sub_of (y := main_v380) rfl (by decide),
   writes_sub_of (y := main_cst_20) rfl (by decide),
   writes_sub_of (y := main_v381) rfl (by decide),
   writes_sub_of (y := main_v382) rfl (by decide),
   writes_sub_of (y := main_v383) rfl (by decide),
   writes_sub_of (y := main_call10_cst) rfl (by decide),
   writes_sub_of (y := main_call10_v0) rfl (by decide),
   writes_sub_of (y := main_v384) rfl (by decide)⟩

theorem q458_keep (V : Valuation τ sig (Elt F)) {r : Ref sig .tc} (hr : r ∉ W_q458) :
    after q458 V (Proc.devRef .tc r) = V (Proc.devRef .tc r) :=
  after_of_writes_sub q458 V q458_writes hr

abbrev q490 : List (HloOp τ sig (Elt F)) :=
  [
    unary main_arg1 main_v385 ((extractStridedSlice S1x1x1024x1024 ![3, 2, 0, 0] · slices_S6x3x1024x1024_S1x1x1024x1024_3_2_0_0) : (⟨S6x3x1024x1024, .i32⟩ : BufTy).Contents (Elt F) → (⟨S1x1x1024x1024, .i32⟩ : BufTy).Contents (Elt F)),
    reshape main_v385 main_v386 rfl shapeCasts_S1x1x1024x1024_S1024x1024,
    unary main_arg2 main_v387 ((extractStridedSlice S1x1x1024x64 ![3, 2, 0, 0] · slices_S6x3x1024x64_S1x1x1024x64_3_2_0_0) : (⟨S6x3x1024x64, .f32⟩ : BufTy).Contents (Elt F) → (⟨S1x1x1024x64, .f32⟩ : BufTy).Contents (Elt F)),
    reshape main_v387 main_v388 rfl shapeCasts_S1x1x1024x64_S1024x64,
    unary main_arg3 main_v389 ((extractStridedSlice S1x1x1024 ![3, 2, 0] · slices_S6x3x1024_S1x1x1024_3_2_0) : (⟨S6x3x1024, .f32⟩ : BufTy).Contents (Elt F) → (⟨S1x1x1024, .f32⟩ : BufTy).Contents (Elt F)),
    reshape main_v389 main_v390 rfl shapeCasts_S1x1x1024_S1024,
    unary main_arg4 main_v391 ((extractStridedSlice S1x1x32x1024 ![3, 2, 0, 0] · slices_S6x3x32x1024_S1x1x32x1024_3_2_0_0) : (⟨S6x3x32x1024, .f32⟩ : BufTy).Contents (Elt F) → (⟨S1x1x32x1024, .f32⟩ : BufTy).Contents (Elt F)),
    reshape main_v391 main_v392 rfl shapeCasts_S1x1x32x1024_S32x1024,
    unary main_arg5 main_v393 ((extractStridedSlice S1x1x1024x32 ![3, 2, 0, 0] · slices_S6x3x1024x32_S1x1x1024x32_3_2_0_0) : (⟨S6x3x1024x32, .f32⟩ : BufTy).Contents (Elt F) → (⟨S1x1x1024x32, .f32⟩ : BufTy).Contents (Elt F)),
    reshape main_v393 main_v394 rfl shapeCasts_S1x1x1024x32_S1024x32,
    unary main_v386 main_v395 (sitofp .f32 : (⟨S1024x1024, .i32⟩ : BufTy).Contents (Elt F) → (⟨S1024x1024, .f32⟩ : BufTy).Contents (Elt F)),
    reshape main_v395 main_v396 rfl shapeCasts_S1024x1024_S1024x64x16 ]

abbrev W_q490 : List (Ref sig .tc) :=
  [main_v385, main_v386, main_v387, main_v388, main_v389, main_v390, main_v391, main_v392, main_v393, main_v394, main_v395, main_v396]

theorem q490_sub : (q490 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

theorem q490_fresh : (q490 : List (HloOp τ sig (Elt F))).Forall fun op => op.fresh = ∅ :=
  ⟨rfl, rfl, rfl, rfl, rfl, rfl, rfl, rfl, rfl, rfl, rfl, rfl⟩

theorem q490_writes : (q490 : List (HloOp τ sig (Elt F))).Forall fun op => op.writes ⊆ ((W_q490).map (Proc.devRef (τ := τ) .tc)).toFinset :=
  ⟨writes_sub_of (y := main_v385) rfl (by decide),
   writes_sub_of (y := main_v386) rfl (by decide),
   writes_sub_of (y := main_v387) rfl (by decide),
   writes_sub_of (y := main_v388) rfl (by decide),
   writes_sub_of (y := main_v389) rfl (by decide),
   writes_sub_of (y := main_v390) rfl (by decide),
   writes_sub_of (y := main_v391) rfl (by decide),
   writes_sub_of (y := main_v392) rfl (by decide),
   writes_sub_of (y := main_v393) rfl (by decide),
   writes_sub_of (y := main_v394) rfl (by decide),
   writes_sub_of (y := main_v395) rfl (by decide),
   writes_sub_of (y := main_v396) rfl (by decide)⟩

theorem q490_keep (V : Valuation τ sig (Elt F)) {r : Ref sig .tc} (hr : r ∉ W_q490) :
    after q490 V (Proc.devRef .tc r) = V (Proc.devRef .tc r) :=
  after_of_writes_sub q490 V q490_writes hr

abbrev q502 : List (HloOp τ sig (Elt F)) :=
  [
    unary main_v388 main_v397 (broadcastInDim S1024x64x1 ![0, 1] bcast_S1024x64_S1024x64x1_0_1 : (⟨S1024x64, .f32⟩ : BufTy).Contents (Elt F) → (⟨S1024x64x1, .f32⟩ : BufTy).Contents (Elt F)),
    unary main_v397 main_v398 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v396 main_v398 main_v399 (mulf : (⟨S1024x64x16, .f32⟩ : BufTy).Contents (Elt F) → (⟨S1024x64x16, .f32⟩ : BufTy).Contents (Elt F) → (⟨S1024x64x16, .f32⟩ : BufTy).Contents (Elt F)),
    reshape main_v399 main_v400 rfl shapeCasts_S1024x64x16_S1024x1024,
    unary main_v400 main_v401 ((transpose S1024x1024 [1, 0] · transposes_S1024x1024_S1024x1024_1_0) : (⟨S1024x1024, .f32⟩ : BufTy).Contents (Elt F) → (⟨S1024x1024, .f32⟩ : BufTy).Contents (Elt F)),
    binary main_v384 main_v401 main_v402 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v390 main_v403 (broadcastInDim S1x1024 ![1] bcast_S1024_S1x1024_1 : (⟨S1024, .f32⟩ : BufTy).Contents (Elt F) → (⟨S1x1024, .f32⟩ : BufTy).Contents (Elt F)),
    unary main_v403 main_v404 (broadcastInDim S1024x1024 ![0, 1] bcast_S1x1024_S1024x1024_0_1 : (⟨S1x1024, .f32⟩ : BufTy).Contents (Elt F) → (⟨S1024x1024, .f32⟩ : BufTy).Contents (Elt F)),
    binary main_v402 main_v404 main_v405 (addf : (⟨S1024x1024, .f32⟩ : BufTy).Contents (Elt F) → (⟨S1024x1024, .f32⟩ : BufTy).Contents (Elt F) → (⟨S1024x1024, .f32⟩ : BufTy).Contents (Elt F)),
    unary main_v392 main_v406 ((transpose S1024x32 [1, 0] · transposes_S32x1024_S1024x32_1_0) : (⟨S32x1024, .f32⟩ : BufTy).Contents (Elt F) → (⟨S1024x32, .f32⟩ : BufTy).Contents (Elt F)),
    binary main_v384 main_v406 main_v407 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v394 main_v408 ((transpose S32x1024 [1, 0] · transposes_S1024x32_S32x1024_1_0) : (⟨S1024x32, .f32⟩ : BufTy).Contents (Elt F) → (⟨S32x1024, .f32⟩ : BufTy).Contents (Elt F)),
    binary main_v407 main_v408 main_v409 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_21 (constant S_ .f32 0x3DBFE5C9#32),
    unary main_cst_21 main_v410 (broadcastInDim S1024x1024 ![] bcast_S_S1024x1024 : (⟨S_, .f32⟩ : BufTy).Contents (Elt F) → (⟨S1024x1024, .f32⟩ : BufTy).Contents (Elt F)),
    binary main_v410 main_v409 main_v411 (mulf : (⟨S1024x1024, .f32⟩ : BufTy).Contents (Elt F) → (⟨S1024x1024, .f32⟩ : BufTy).Contents (Elt F) → (⟨S1024x1024, .f32⟩ : BufTy).Contents (Elt F)),
    binary main_v405 main_v411 main_v412 (addf : (⟨S1024x1024, .f32⟩ : BufTy).Contents (Elt F) → (⟨S1024x1024, .f32⟩ : BufTy).Contents (Elt F) → (⟨S1024x1024, .f32⟩ : BufTy).Contents (Elt F)),
    binary main_v412 main_v326 main_v413 (addf : (⟨S1024x1024, .f32⟩ : BufTy).Contents (Elt F) → (⟨S1024x1024, .f32⟩ : BufTy).Contents (Elt F) → (⟨S1024x1024, .f32⟩ : BufTy).Contents (Elt F)) ]

abbrev W_q502 : List (Ref sig .tc) :=
  [main_v397, main_v398, main_v399, main_v400, main_v401, main_v402, main_v403, main_v404, main_v405, main_v406, main_v407, main_v408, main_v409, main_cst_21, main_v410, main_v411, main_v412, main_v413]

theorem q502_sub : (q502 : List (HloOp τ sig (Elt F))).Forall fun op => op.bufs ⊆ tcRefs τ sig :=
  ⟨unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., binary_bufs_sub ..⟩

theorem q502_fresh : (q502 : List (HloOp τ sig (Elt F))).Forall fun op => op.fresh = ∅ :=
  ⟨rfl, rfl, rfl, rfl, rfl, rfl, rfl, rfl, rfl, rfl, rfl, rfl, rfl, rfl, rfl, rfl, rfl, rfl⟩

theorem q502_writes : (q502 : List (HloOp τ sig (Elt F))).Forall fun op => op.writes ⊆ ((W_q502).map (Proc.devRef (τ := τ) .tc)).toFinset :=
  ⟨writes_sub_of (y := main_v397) rfl (by decide),
   writes_sub_of (y := main_v398) rfl (by decide),
   writes_sub_of (y := main_v399) rfl (by decide),
   writes_sub_of (y := main_v400) rfl (by decide),
   writes_sub_of (y := main_v401) rfl (by decide),
   writes_sub_of (y := main_v402) rfl (by decide),
   writes_sub_of (y := main_v403) rfl (by decide),
   writes_sub_of (y := main_v404) rfl (by decide),
   writes_sub_of (y := main_v405) rfl (by decide),
   writes_sub_of (y := main_v406) rfl (by decide),
   writes_sub_of (y := main_v407) rfl (by decide),
   writes_sub_of (y := main_v408) rfl (by decide),
   writes_sub_of (y := main_v409) rfl (by decide),
   writes_sub_of (y := main_cst_21) rfl (by decide),
   writes_sub_of (y := main_v410) rfl (by decide),
   writes_sub_of (y := main_v411) rfl (by decide),
   writes_sub_of (y := main_v412) rfl (by decide),
   writes_sub_of (y := main_v413) rfl (by decide)⟩

theorem q502_keep (V : Valuation τ sig (Elt F)) {r : Ref sig .tc} (hr : r ∉ W_q502) :
    after q502 V (Proc.devRef .tc r) = V (Proc.devRef .tc r) :=
  after_of_writes_sub q502 V q502_writes hr

abbrev q520 : List (HloOp τ sig (Elt F)) :=
  [
    unary main_arg6 main_v414 ((extractStridedSlice S1x1024 ![3, 0] · slices_S5x1024_S1x1024_3_0) : (⟨S5x1024, .f32⟩ : BufTy).Contents (Elt F) → (⟨S1x1024, .f32⟩ : BufTy).Contents (Elt F)),
    reshape main_v414 main_v415 rfl shapeCasts_S1x1024_S1024,
    unary main_arg7 main_v416 ((extractStridedSlice S1x1024 ![3, 0] · slices_S5x1024_S1x1024_3_0) : (⟨S5x1024, .f32⟩ : BufTy).Contents (Elt F) → (⟨S1x1024, .f32⟩ : BufTy).Contents (Elt F)),
    reshape main_v416 main_v417 rfl shapeCasts_S1x1024_S1024,
    nullary main_cst_22 (constant S_ .f32 0x00000000#32),
    binary main_v413 main_cst_22 main_v418 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    unary main_v418 main_v419 (broadcastInDim S1024x1 ![0] bcast_S1024_S1024x1_0 : (⟨S1024, .f32⟩ : BufTy).Contents (Elt F) → (⟨S1024x1, .f32⟩ : BufTy).Contents (Elt F)),
    nullary main_cst_23 (constant S_ .f32 0x44800000#32),
    unary main_cst_23 main_v420 (broadcastInDim S1024x1 ![] bcast_S_S1024x1 : (⟨S_, .f32⟩ : BufTy).Contents (Elt F) → (⟨S1024x1, .f32⟩ : BufTy).Contents (Elt F)),
    binary main_v419 main_v420 main_v421 (Host.divf : (⟨S1024x1, .f32⟩ : BufTy).Contents (Elt F) → (⟨S1024x1, .f32⟩ : BufTy).Contents (Elt F) → (⟨S1024x1, .f32⟩ : BufTy).Contents (Elt F)),
    nullary main_c_24 (constantI S_ 32 0#32),
    TRef.nullary main_call11.cst (constant S_ .f32 0x00000000#32),
    TRef.binary (.of main_v413) main_call11.cst main_call11.v0 (fun x v => Host.reduceAdd x v reducesTo_S1024x1024_S1024_d1 h_S_),
    TRef.unary main_call11.v0 main_call11.v1 (broadcastInDim S1024x1 ![0] bcast_S1024_S1024x1_0),
    TRef.nullary main_call11.cst_0 (constant S_ .f32 0x44800000#32),
    TRef.unary main_call11.cst_0 main_call11.v2 (broadcastInDim S1024x1 ![] bcast_S_S1024x1),
    TRef.binary main_call11.v1 main_call11.v2 main_call11.v3 Host.divf,
    TRef.unary main_call11.v3 main_call11.v4 (broadcastInDim S1024x1024 ![0, 1] bcast_S1024x1_S1024x1024_0_1),
    TRef.binary (.of main_v413) main_call11.v4 main_call11.v5 subf,
    TRef.binary main_call11.v5 main_call11.v5 main_call11.v6 mulf,
    TRef.unary (.of main_c_24) main_call11.v7 (sitofp .f32),
    TRef.nullary main_call11.cst_1 (constant S_ .f32 0x44800000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S1024x1024_S1024_d1 h_S_),
    TRef.unary main_call11.v9 main_call11.v10 (broadcastInDim S1024x1 ![0] bcast_S1024_S1024x1_0),
    TRef.unary main_call11.v8 main_call11.v11 (broadcastInDim S1024x1 ![] bcast_S_S1024x1),
    TRef.binary main_call11.v10 main_call11.v11 main_call11.v12 Host.divf,
    TRef.nullary main_call11.cst_3 (constant S_ .f32 0x00000000#32),
    TRef.binary main_call11.v8 main_call11.cst_3 main_call11.v13 (cmpf .ogt),
    TRef.nullary main_call11.cst_4 (constant S_ .f32 0x7FC00000#32),
    TRef.unary main_call11.cst_4 main_call11.call0.v0 id,
    TRef.unary main_call11.call0.v0 main_call11.call0.v1 (broadcastInDim S1024x1 ![] bcast_S_S1024x1),
    TRef.ternary main_call11.v13 main_call11.v12 main_call11.call0.v1 main_call11.call0.v2 (fun p a b => select (broadcastInDim S1024x1 ![] bcast_S_S1024x1 p) a b),
    unary main_v421 main_v423 (broadcastInDim S1024x1024 ![0, 1] bcast_S1024x1_S1024x1024_0_1 : (⟨S1024x1, .f32⟩ : BufTy).Contents (Elt F) → (⟨S1024x1024, .f32⟩ : BufTy).Contents (Elt F)),
    binary main_v413 main_v423 main_v424 (subf : (⟨S1024x1024, .f32⟩ : BufTy).Contents (Elt F) → (⟨S1024x1024, .f32⟩ : BufTy).Contents (Elt F) → (⟨S1024x1024, .f32⟩ : BufTy).Contents (Elt F)),
    nullary main_cst_25 (constant S_ .f32 0x3727C5AC#32),
    unary main_cst_25 main_v425 (broadcastInDim S1024x1 ![] bcast_S_S1024x1 : (⟨S_, .f32⟩ : BufTy).Contents (Elt F) → (⟨S1024x1, .f32⟩ : BufTy).Contents (Elt F)),
    binary main_v422 main_v425 main_v426 (addf : (⟨S1024x1, .f32⟩ : BufTy).Contents (Elt F) → (⟨S1024x1, .f32⟩ : BufTy).Contents (Elt F) → (⟨S1024x1, .f32⟩ : BufTy).Contents (Elt F)),
    unary main_v426 main_v427 (Host.rsqrt : (⟨S1024x1, .f32⟩ : BufTy).Contents (Elt F) → (⟨S1024x1, .f32⟩ : BufTy).Contents (Elt F)),
    unary main_v427 main_v428 (broadcastInDim S1024x1024 ![0, 1] bcast_S1024x1_S1024x1024_0_1 : (⟨S1024x1, .f32⟩ : BufTy).Contents (Elt F) → (⟨S1024x1024, .f32⟩ : BufTy).Contents (Elt F)),
    binary main_v424 main_v428 main_v429 (mulf : (⟨S1024x1024, .f32⟩ : BufTy).Contents (Elt F) → (⟨S1024x1024, .f32⟩ : BufTy).Contents (Elt F) → (⟨S1024x1024, .f32⟩ : BufTy).Contents (Elt F)),
    unary main_v415 main_v430 (broadcastInDim S1x1024 ![1] bcast_S1024_S1x1024_1 : (⟨S1024, .f32⟩ : BufTy).Contents (Elt F) → (⟨S1x1024, .f32⟩ : BufTy).Contents (Elt F)),
    unary main_v430 main_v431 (broadcastInDim S1024x1024 ![0, 1] bcast_S1x1024_S1024x1024_0_1 : (⟨S1x1024, .f32⟩ : BufTy).Contents (Elt F) → (⟨S1024x1024, .f32⟩ : BufTy).Contents (Elt F)),
    binary main_v429 main_v431 main_v432 (mulf : (⟨S1024x1024, .f32⟩ : BufTy).Contents (Elt F) → (⟨S1024x1024, .f32⟩ : BufTy).Contents (Elt F) → (⟨S1024x1024, .f32⟩ : BufTy).Contents (Elt F)),
    unary main_v417 main_v433 (broadcastInDim S1x1024 ![1] bcast_S1024_S1x1024_1 : (⟨S1024, .f32⟩ : BufTy).Contents (Elt F) → (⟨S1x1024, .f32⟩ : BufTy).Contents (Elt F)),
    unary main_v433 main_v434 (broadcastInDim S1024x1024 ![0, 1] bcast_S1x1024_S1024x1024_0_1 : (⟨S1x1024, .f32⟩ : BufTy).Contents (Elt F) → (⟨S1024x1024, .f32⟩ : BufTy).Contents (Elt F)),
    binary main_v432 main_v434 main_v435 (addf : (⟨S1024x1024, .f32⟩ : BufTy).Contents (Elt F) → (⟨S1024x1024, .f32⟩ : BufTy).Contents (Elt F) → (⟨S1024x1024, .f32⟩ : BufTy).Contents (Elt F)) ]

abbrev W_q520 : List (Ref sig .tc) :=
  [main_v414, main_v415, main_v416, main_v417, main_cst_22, main_v418, main_v419, main_cst_23, main_v420, main_v421, main_c_24, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_v12, main_call11_cst_3, main_call11_v13, main_call11_cst_4, main_call11_call0_v0, main_call11_call0_v1, main_v422, main_v423, main_v424, main_cst_25, main_v425, main_v426, main_v427, main_v428, main_v429, main_v430, main_v431, main_v432, main_v433, main_v434, main_v435]

theorem q520_sub : (q520 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem q520_fresh : (q520 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q520_writes : (q520 : List (HloOp τ sig (Elt F))).Forall fun op => op.writes ⊆ ((W_q520).map (Proc.devRef (τ := τ) .tc)).toFinset :=
  ⟨writes_sub_of (y := main_v414) rfl (by decide),
   writes_sub_of (y := main_v415) rfl (by decide),
   writes_sub_of (y := main_v416) rfl (by decide),
   writes_sub_of (y := main_v417) rfl (by decide),
   writes_sub_of (y := main_cst_22) rfl (by decide),
   writes_sub_of (y := main_v418) rfl (by decide),
   writes_sub_of (y := main_v419) rfl (by decide),
   writes_sub_of (y := main_cst_23) rfl (by decide),
   writes_sub_of (y := main_v420) rfl (by decide),
   writes_sub_of (y := main_v421) rfl (by decide),
   writes_sub_of (y := main_c_24) rfl (by decide),
   writes_sub_of (y := main_call11_cst) rfl (by decide),
   writes_sub_of (y := main_call11_v0) rfl (by decide),
   writes_sub_of (y := main_call11_v1) rfl (by decide),
   writes_sub_of (y := main_call11_cst_0) rfl (by decide),
   writes_sub_of (y := main_call11_v2) rfl (by decide),
   writes_sub_of (y := main_call11_v3) rfl (by decide),
   writes_sub_of (y := main_call11_v4) rfl (by decide),
   writes_sub_of (y := main_call11_v5) rfl (by decide),
   writes_sub_of (y := main_call11_v6) rfl (by decide),
   writes_sub_of (y := main_call11_v7) rfl (by decide),
   writes_sub_of (y := main_call11_cst_1) rfl (by decide),
   writes_sub_of (y := main_call11_v8) rfl (by decide),
   writes_sub_of (y := main_call11_cst_2) rfl (by decide),
   writes_sub_of (y := main_call11_v9) rfl (by decide),
   writes_sub_of (y := main_call11_v10) rfl (by decide),
   writes_sub_of (y := main_call11_v11) rfl (by decide),
   writes_sub_of (y := main_call11_v12) rfl (by decide),
   writes_sub_of (y := main_call11_cst_3) rfl (by decide),
   writes_sub_of (y := main_call11_v13) rfl (by decide),
   writes_sub_of (y := main_call11_cst_4) rfl (by decide),
   writes_sub_of (y := main_call11_call0_v0) rfl (by decide),
   writes_sub_of (y := main_call11_call0_v1) rfl (by decide),
   writes_sub_of (y := main_v422) rfl (by decide),
   writes_sub_of (y := main_v423) rfl (by decide),
   writes_sub_of (y := main_v424) rfl (by decide),
   writes_sub_of (y := main_cst_25) rfl (by decide),
   writes_sub_of (y := main_v425) rfl (by decide),
   writes_sub_of (y := main_v426) rfl (by decide),
   writes_sub_of (y := main_v427) rfl (by decide),
   writes_sub_of (y := main_v428) rfl (by decide),
   writes_sub_of (y := main_v429) rfl (by decide),
   writes_sub_of (y := main_v430) rfl (by decide),
   writes_sub_of (y := main_v431) rfl (by decide),
   writes_sub_of (y := main_v432) rfl (by decide),
   writes_sub_of (y := main_v433) rfl (by decide),
   writes_sub_of (y := main_v434) rfl (by decide),
   writes_sub_of (y := main_v435) rfl (by decide)⟩

theorem q520_keep (V : Valuation τ sig (Elt F)) {r : Ref sig .tc} (hr : r ∉ W_q520) :
    after q520 V (Proc.devRef .tc r) = V (Proc.devRef .tc r) :=
  after_of_writes_sub q520 V q520_writes hr

abbrev q568 : List (HloOp τ sig (Elt F)) :=
  [
    unary main_arg1 main_v436 ((extractStridedSlice S1x1x1024x1024 ![4, 0, 0, 0] · slices_S6x3x1024x1024_S1x1x1024x1024_4_0_0_0) : (⟨S6x3x1024x1024, .i32⟩ : BufTy).Contents (Elt F) → (⟨S1x1x1024x1024, .i32⟩ : BufTy).Contents (Elt F)),
    reshape main_v436 main_v437 rfl shapeCasts_S1x1x1024x1024_S1024x1024,
    unary main_arg2 main_v438 ((extractStridedSlice S1x1x1024x64 ![4, 0, 0, 0] · slices_S6x3x1024x64_S1x1x1024x64_4_0_0_0) : (⟨S6x3x1024x64, .f32⟩ : BufTy).Contents (Elt F) → (⟨S1x1x1024x64, .f32⟩ : BufTy).Contents (Elt F)),
    reshape main_v438 main_v439 rfl shapeCasts_S1x1x1024x64_S1024x64,
    unary main_arg3 main_v440 ((extractStridedSlice S1x1x1024 ![4, 0, 0] · slices_S6x3x1024_S1x1x1024_4_0_0) : (⟨S6x3x1024, .f32⟩ : BufTy).Contents (Elt F) → (⟨S1x1x1024, .f32⟩ : BufTy).Contents (Elt F)),
    reshape main_v440 main_v441 rfl shapeCasts_S1x1x1024_S1024,
    unary main_arg4 main_v442 ((extractStridedSlice S1x1x32x1024 ![4, 0, 0, 0] · slices_S6x3x32x1024_S1x1x32x1024_4_0_0_0) : (⟨S6x3x32x1024, .f32⟩ : BufTy).Contents (Elt F) → (⟨S1x1x32x1024, .f32⟩ : BufTy).Contents (Elt F)),
    reshape main_v442 main_v443 rfl shapeCasts_S1x1x32x1024_S32x1024,
    unary main_arg5 main_v444 ((extractStridedSlice S1x1x1024x32 ![4, 0, 0, 0] · slices_S6x3x1024x32_S1x1x1024x32_4_0_0_0) : (⟨S6x3x1024x32, .f32⟩ : BufTy).Contents (Elt F) → (⟨S1x1x1024x32, .f32⟩ : BufTy).Contents (Elt F)),
    reshape main_v444 main_v445 rfl shapeCasts_S1x1x1024x32_S1024x32,
    unary main_v437 main_v446 (sitofp .f32 : (⟨S1024x1024, .i32⟩ : BufTy).Contents (Elt F) → (⟨S1024x1024, .f32⟩ : BufTy).Contents (Elt F)),
    reshape main_v446 main_v447 rfl shapeCasts_S1024x1024_S1024x64x16,
    unary main_v439 main_v448 (broadcastInDim S1024x64x1 ![0, 1] bcast_S1024x64_S1024x64x1_0_1 : (⟨S1024x64, .f32⟩ : BufTy).Contents (Elt F) → (⟨S1024x64x1, .f32⟩ : BufTy).Contents (Elt F)),
    unary main_v448 main_v449 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v447 main_v449 main_v450 (mulf : (⟨S1024x64x16, .f32⟩ : BufTy).Contents (Elt F) → (⟨S1024x64x16, .f32⟩ : BufTy).Contents (Elt F) → (⟨S1024x64x16, .f32⟩ : BufTy).Contents (Elt F)),
    reshape main_v450 main_v451 rfl shapeCasts_S1024x64x16_S1024x1024 ]

abbrev W_q568 : List (Ref sig .tc) :=
  [main_v436, main_v437, main_v438, main_v439, main_v440, main_v441, main_v442, main_v443, main_v444, main_v445, main_v446, main_v447, main_v448, main_v449, main_v450, main_v451]

theorem q568_sub : (q568 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub ..⟩

theorem q568_fresh : (q568 : List (HloOp τ sig (Elt F))).Forall fun op => op.fresh = ∅ :=
  ⟨rfl, rfl, rfl, rfl, rfl, rfl, rfl, rfl, rfl, rfl, rfl, rfl, rfl, rfl, rfl, rfl⟩

theorem q568_writes : (q568 : List (HloOp τ sig (Elt F))).Forall fun op => op.writes ⊆ ((W_q568).map (Proc.devRef (τ := τ) .tc)).toFinset :=
  ⟨writes_sub_of (y := main_v436) rfl (by decide),
   writes_sub_of (y := main_v437) rfl (by decide),
   writes_sub_of (y := main_v438) rfl (by decide),
   writes_sub_of (y := main_v439) rfl (by decide),
   writes_sub_of (y := main_v440) rfl (by decide),
   writes_sub_of (y := main_v441) rfl (by decide),
   writes_sub_of (y := main_v442) rfl (by decide),
   writes_sub_of (y := main_v443) rfl (by decide),
   writes_sub_of (y := main_v444) rfl (by decide),
   writes_sub_of (y := main_v445) rfl (by decide),
   writes_sub_of (y := main_v446) rfl (by decide),
   writes_sub_of (y := main_v447) rfl (by decide),
   writes_sub_of (y := main_v448) rfl (by decide),
   writes_sub_of (y := main_v449) rfl (by decide),
   writes_sub_of (y := main_v450) rfl (by decide),
   writes_sub_of (y := main_v451) rfl (by decide)⟩

theorem q568_keep (V : Valuation τ sig (Elt F)) {r : Ref sig .tc} (hr : r ∉ W_q568) :
    after q568 V (Proc.devRef .tc r) = V (Proc.devRef .tc r) :=
  after_of_writes_sub q568 V q568_writes hr

abbrev q584 : List (HloOp τ sig (Elt F)) :=
  [
    unary main_v451 main_v452 ((transpose S1024x1024 [1, 0] · transposes_S1024x1024_S1024x1024_1_0) : (⟨S1024x1024, .f32⟩ : BufTy).Contents (Elt F) → (⟨S1024x1024, .f32⟩ : BufTy).Contents (Elt F)),
    binary main_v435 main_v452 main_v453 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v441 main_v454 (broadcastInDim S1x1024 ![1] bcast_S1024_S1x1024_1 : (⟨S1024, .f32⟩ : BufTy).Contents (Elt F) → (⟨S1x1024, .f32⟩ : BufTy).Contents (Elt F)),
    unary main_v454 main_v455 (broadcastInDim S1024x1024 ![0, 1] bcast_S1x1024_S1024x1024_0_1 : (⟨S1x1024, .f32⟩ : BufTy).Contents (Elt F) → (⟨S1024x1024, .f32⟩ : BufTy).Contents (Elt F)),
    binary main_v453 main_v455 main_v456 (addf : (⟨S1024x1024, .f32⟩ : BufTy).Contents (Elt F) → (⟨S1024x1024, .f32⟩ : BufTy).Contents (Elt F) → (⟨S1024x1024, .f32⟩ : BufTy).Contents (Elt F)),
    unary main_v443 main_v457 ((transpose S1024x32 [1, 0] · transposes_S32x1024_S1024x32_1_0) : (⟨S32x1024, .f32⟩ : BufTy).Contents (Elt F) → (⟨S1024x32, .f32⟩ : BufTy).Contents (Elt F)),
    binary main_v435 main_v457 main_v458 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v445 main_v459 ((transpose S32x1024 [1, 0] · transposes_S1024x32_S32x1024_1_0) : (⟨S1024x32, .f32⟩ : BufTy).Contents (Elt F) → (⟨S32x1024, .f32⟩ : BufTy).Contents (Elt F)),
    binary main_v458 main_v459 main_v460 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_26 (constant S_ .f32 0x3DBFE5C9#32),
    unary main_cst_26 main_v461 (broadcastInDim S1024x1024 ![] bcast_S_S1024x1024 : (⟨S_, .f32⟩ : BufTy).Contents (Elt F) → (⟨S1024x1024, .f32⟩ : BufTy).Contents (Elt F)),
    binary main_v461 main_v460 main_v462 (mulf : (⟨S1024x1024, .f32⟩ : BufTy).Contents (Elt F) → (⟨S1024x1024, .f32⟩ : BufTy).Contents (Elt F) → (⟨S1024x1024, .f32⟩ : BufTy).Contents (Elt F)),
    binary main_v456 main_v462 main_v463 (addf : (⟨S1024x1024, .f32⟩ : BufTy).Contents (Elt F) → (⟨S1024x1024, .f32⟩ : BufTy).Contents (Elt F) → (⟨S1024x1024, .f32⟩ : BufTy).Contents (Elt F)),
    TRef.nullary main_call12.cst (constant S_ .f32 0x00000000#32),
    TRef.unary main_call12.cst main_call12.v0 (broadcastInDim S1024x1024 ![] bcast_S_S1024x1024),
    TRef.binary (.of main_v463) main_call12.v0 main_call12.v1 maximumf ]

abbrev W_q584 : List (Ref sig .tc) :=
  [main_v452, main_v453, main_v454, main_v455, main_v456, main_v457, main_v458, main_v459, main_v460, main_cst_26, main_v461, main_v462, main_v463, main_call12_cst, main_call12_v0, main_v464]

theorem q584_sub : (q584 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q584_fresh : (q584 : List (HloOp τ sig (Elt F))).Forall fun op => op.fresh = ∅ :=
  ⟨rfl, rfl, rfl, rfl, rfl, rfl, rfl, rfl, rfl, rfl, rfl, rfl, rfl, rfl, rfl, rfl⟩

theorem q584_writes : (q584 : List (HloOp τ sig (Elt F))).Forall fun op => op.writes ⊆ ((W_q584).map (Proc.devRef (τ := τ) .tc)).toFinset :=
  ⟨writes_sub_of (y := main_v452) rfl (by decide),
   writes_sub_of (y := main_v453) rfl (by decide),
   writes_sub_of (y := main_v454) rfl (by decide),
   writes_sub_of (y := main_v455) rfl (by decide),
   writes_sub_of (y := main_v456) rfl (by decide),
   writes_sub_of (y := main_v457) rfl (by decide),
   writes_sub_of (y := main_v458) rfl (by decide),
   writes_sub_of (y := main_v459) rfl (by decide),
   writes_sub_of (y := main_v460) rfl (by decide),
   writes_sub_of (y := main_cst_26) rfl (by decide),
   writes_sub_of (y := main_v461) rfl (by decide),
   writes_sub_of (y := main_v462) rfl (by decide),
   writes_sub_of (y := main_v463) rfl (by decide),
   writes_sub_of (y := main_call12_cst) rfl (by decide),
   writes_sub_of (y := main_call12_v0) rfl (by decide),
   writes_sub_of (y := main_v464) rfl (by decide)⟩

theorem q584_keep (V : Valuation τ sig (Elt F)) {r : Ref sig .tc} (hr : r ∉ W_q584) :
    after q584 V (Proc.devRef .tc r) = V (Proc.devRef .tc r) :=
  after_of_writes_sub q584 V q584_writes hr

abbrev q600 : List (HloOp τ sig (Elt F)) :=
  [
    unary main_arg1 main_v465 ((extractStridedSlice S1x1x1024x1024 ![4, 1, 0, 0] · slices_S6x3x1024x1024_S1x1x1024x1024_4_1_0_0) : (⟨S6x3x1024x1024, .i32⟩ : BufTy).Contents (Elt F) → (⟨S1x1x1024x1024, .i32⟩ : BufTy).Contents (Elt F)),
    reshape main_v465 main_v466 rfl shapeCasts_S1x1x1024x1024_S1024x1024,
    unary main_arg2 main_v467 ((extractStridedSlice S1x1x1024x64 ![4, 1, 0, 0] · slices_S6x3x1024x64_S1x1x1024x64_4_1_0_0) : (⟨S6x3x1024x64, .f32⟩ : BufTy).Contents (Elt F) → (⟨S1x1x1024x64, .f32⟩ : BufTy).Contents (Elt F)),
    reshape main_v467 main_v468 rfl shapeCasts_S1x1x1024x64_S1024x64,
    unary main_arg3 main_v469 ((extractStridedSlice S1x1x1024 ![4, 1, 0] · slices_S6x3x1024_S1x1x1024_4_1_0) : (⟨S6x3x1024, .f32⟩ : BufTy).Contents (Elt F) → (⟨S1x1x1024, .f32⟩ : BufTy).Contents (Elt F)),
    reshape main_v469 main_v470 rfl shapeCasts_S1x1x1024_S1024,
    unary main_arg4 main_v471 ((extractStridedSlice S1x1x32x1024 ![4, 1, 0, 0] · slices_S6x3x32x1024_S1x1x32x1024_4_1_0_0) : (⟨S6x3x32x1024, .f32⟩ : BufTy).Contents (Elt F) → (⟨S1x1x32x1024, .f32⟩ : BufTy).Contents (Elt F)),
    reshape main_v471 main_v472 rfl shapeCasts_S1x1x32x1024_S32x1024,
    unary main_arg5 main_v473 ((extractStridedSlice S1x1x1024x32 ![4, 1, 0, 0] · slices_S6x3x1024x32_S1x1x1024x32_4_1_0_0) : (⟨S6x3x1024x32, .f32⟩ : BufTy).Contents (Elt F) → (⟨S1x1x1024x32, .f32⟩ : BufTy).Contents (Elt F)),
    reshape main_v473 main_v474 rfl shapeCasts_S1x1x1024x32_S1024x32,
    unary main_v466 main_v475 (sitofp .f32 : (⟨S1024x1024, .i32⟩ : BufTy).Contents (Elt F) → (⟨S1024x1024, .f32⟩ : BufTy).Contents (Elt F)),
    reshape main_v475 main_v476 rfl shapeCasts_S1024x1024_S1024x64x16,
    unary main_v468 main_v477 (broadcastInDim S1024x64x1 ![0, 1] bcast_S1024x64_S1024x64x1_0_1 : (⟨S1024x64, .f32⟩ : BufTy).Contents (Elt F) → (⟨S1024x64x1, .f32⟩ : BufTy).Contents (Elt F)),
    unary main_v477 main_v478 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v476 main_v478 main_v479 (mulf : (⟨S1024x64x16, .f32⟩ : BufTy).Contents (Elt F) → (⟨S1024x64x16, .f32⟩ : BufTy).Contents (Elt F) → (⟨S1024x64x16, .f32⟩ : BufTy).Contents (Elt F)),
    reshape main_v479 main_v480 rfl shapeCasts_S1024x64x16_S1024x1024,
    unary main_v480 main_v481 ((transpose S1024x1024 [1, 0] · transposes_S1024x1024_S1024x1024_1_0) : (⟨S1024x1024, .f32⟩ : BufTy).Contents (Elt F) → (⟨S1024x1024, .f32⟩ : BufTy).Contents (Elt F)),
    binary main_v464 main_v481 main_v482 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v470 main_v483 (broadcastInDim S1x1024 ![1] bcast_S1024_S1x1024_1 : (⟨S1024, .f32⟩ : BufTy).Contents (Elt F) → (⟨S1x1024, .f32⟩ : BufTy).Contents (Elt F)),
    unary main_v483 main_v484 (broadcastInDim S1024x1024 ![0, 1] bcast_S1x1024_S1024x1024_0_1 : (⟨S1x1024, .f32⟩ : BufTy).Contents (Elt F) → (⟨S1024x1024, .f32⟩ : BufTy).Contents (Elt F)),
    binary main_v482 main_v484 main_v485 (addf : (⟨S1024x1024, .f32⟩ : BufTy).Contents (Elt F) → (⟨S1024x1024, .f32⟩ : BufTy).Contents (Elt F) → (⟨S1024x1024, .f32⟩ : BufTy).Contents (Elt F)),
    unary main_v472 main_v486 ((transpose S1024x32 [1, 0] · transposes_S32x1024_S1024x32_1_0) : (⟨S32x1024, .f32⟩ : BufTy).Contents (Elt F) → (⟨S1024x32, .f32⟩ : BufTy).Contents (Elt F)),
    binary main_v464 main_v486 main_v487 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v474 main_v488 ((transpose S32x1024 [1, 0] · transposes_S1024x32_S32x1024_1_0) : (⟨S1024x32, .f32⟩ : BufTy).Contents (Elt F) → (⟨S32x1024, .f32⟩ : BufTy).Contents (Elt F)),
    binary main_v487 main_v488 main_v489 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_27 (constant S_ .f32 0x3DBFE5C9#32),
    unary main_cst_27 main_v490 (broadcastInDim S1024x1024 ![] bcast_S_S1024x1024 : (⟨S_, .f32⟩ : BufTy).Contents (Elt F) → (⟨S1024x1024, .f32⟩ : BufTy).Contents (Elt F)),
    binary main_v490 main_v489 main_v491 (mulf : (⟨S1024x1024, .f32⟩ : BufTy).Contents (Elt F) → (⟨S1024x1024, .f32⟩ : BufTy).Contents (Elt F) → (⟨S1024x1024, .f32⟩ : BufTy).Contents (Elt F)),
    binary main_v485 main_v491 main_v492 (addf : (⟨S1024x1024, .f32⟩ : BufTy).Contents (Elt F) → (⟨S1024x1024, .f32⟩ : BufTy).Contents (Elt F) → (⟨S1024x1024, .f32⟩ : BufTy).Contents (Elt F)),
    TRef.nullary main_call13.cst (constant S_ .f32 0x00000000#32),
    TRef.unary main_call13.cst main_call13.v0 (broadcastInDim S1024x1024 ![] bcast_S_S1024x1024),
    TRef.binary (.of main_v492) main_call13.v0 main_call13.v1 maximumf ]

abbrev W_q600 : List (Ref sig .tc) :=
  [main_v465, main_v466, main_v467, main_v468, main_v469, main_v470, main_v471, main_v472, main_v473, main_v474, main_v475, main_v476, main_v477, main_v478, main_v479, main_v480, main_v481, main_v482, main_v483, main_v484, main_v485, main_v486, main_v487, main_v488, main_v489, main_cst_27, main_v490, main_v491, main_v492, main_call13_cst, main_call13_v0, main_v493]

theorem q600_sub : (q600 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q600_fresh : (q600 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q600_writes : (q600 : List (HloOp τ sig (Elt F))).Forall fun op => op.writes ⊆ ((W_q600).map (Proc.devRef (τ := τ) .tc)).toFinset :=
  ⟨writes_sub_of (y := main_v465) rfl (by decide),
   writes_sub_of (y := main_v466) rfl (by decide),
   writes_sub_of (y := main_v467) rfl (by decide),
   writes_sub_of (y := main_v468) rfl (by decide),
   writes_sub_of (y := main_v469) rfl (by decide),
   writes_sub_of (y := main_v470) rfl (by decide),
   writes_sub_of (y := main_v471) rfl (by decide),
   writes_sub_of (y := main_v472) rfl (by decide),
   writes_sub_of (y := main_v473) rfl (by decide),
   writes_sub_of (y := main_v474) rfl (by decide),
   writes_sub_of (y := main_v475) rfl (by decide),
   writes_sub_of (y := main_v476) rfl (by decide),
   writes_sub_of (y := main_v477) rfl (by decide),
   writes_sub_of (y := main_v478) rfl (by decide),
   writes_sub_of (y := main_v479) rfl (by decide),
   writes_sub_of (y := main_v480) rfl (by decide),
   writes_sub_of (y := main_v481) rfl (by decide),
   writes_sub_of (y := main_v482) rfl (by decide),
   writes_sub_of (y := main_v483) rfl (by decide),
   writes_sub_of (y := main_v484) rfl (by decide),
   writes_sub_of (y := main_v485) rfl (by decide),
   writes_sub_of (y := main_v486) rfl (by decide),
   writes_sub_of (y := main_v487) rfl (by decide),
   writes_sub_of (y := main_v488) rfl (by decide),
   writes_sub_of (y := main_v489) rfl (by decide),
   writes_sub_of (y := main_cst_27) rfl (by decide),
   writes_sub_of (y := main_v490) rfl (by decide),
   writes_sub_of (y := main_v491) rfl (by decide),
   writes_sub_of (y := main_v492) rfl (by decide),
   writes_sub_of (y := main_call13_cst) rfl (by decide),
   writes_sub_of (y := main_call13_v0) rfl (by decide),
   writes_sub_of (y := main_v493) rfl (by decide)⟩

theorem q600_keep (V : Valuation τ sig (Elt F)) {r : Ref sig .tc} (hr : r ∉ W_q600) :
    after q600 V (Proc.devRef .tc r) = V (Proc.devRef .tc r) :=
  after_of_writes_sub q600 V q600_writes hr

abbrev q632 : List (HloOp τ sig (Elt F)) :=
  [
    unary main_arg1 main_v494 ((extractStridedSlice S1x1x1024x1024 ![4, 2, 0, 0] · slices_S6x3x1024x1024_S1x1x1024x1024_4_2_0_0) : (⟨S6x3x1024x1024, .i32⟩ : BufTy).Contents (Elt F) → (⟨S1x1x1024x1024, .i32⟩ : BufTy).Contents (Elt F)),
    reshape main_v494 main_v495 rfl shapeCasts_S1x1x1024x1024_S1024x1024,
    unary main_arg2 main_v496 ((extractStridedSlice S1x1x1024x64 ![4, 2, 0, 0] · slices_S6x3x1024x64_S1x1x1024x64_4_2_0_0) : (⟨S6x3x1024x64, .f32⟩ : BufTy).Contents (Elt F) → (⟨S1x1x1024x64, .f32⟩ : BufTy).Contents (Elt F)),
    reshape main_v496 main_v497 rfl shapeCasts_S1x1x1024x64_S1024x64,
    unary main_arg3 main_v498 ((extractStridedSlice S1x1x1024 ![4, 2, 0] · slices_S6x3x1024_S1x1x1024_4_2_0) : (⟨S6x3x1024, .f32⟩ : BufTy).Contents (Elt F) → (⟨S1x1x1024, .f32⟩ : BufTy).Contents (Elt F)),
    reshape main_v498 main_v499 rfl shapeCasts_S1x1x1024_S1024,
    unary main_arg4 main_v500 ((extractStridedSlice S1x1x32x1024 ![4, 2, 0, 0] · slices_S6x3x32x1024_S1x1x32x1024_4_2_0_0) : (⟨S6x3x32x1024, .f32⟩ : BufTy).Contents (Elt F) → (⟨S1x1x32x1024, .f32⟩ : BufTy).Contents (Elt F)),
    reshape main_v500 main_v501 rfl shapeCasts_S1x1x32x1024_S32x1024,
    unary main_arg5 main_v502 ((extractStridedSlice S1x1x1024x32 ![4, 2, 0, 0] · slices_S6x3x1024x32_S1x1x1024x32_4_2_0_0) : (⟨S6x3x1024x32, .f32⟩ : BufTy).Contents (Elt F) → (⟨S1x1x1024x32, .f32⟩ : BufTy).Contents (Elt F)),
    reshape main_v502 main_v503 rfl shapeCasts_S1x1x1024x32_S1024x32,
    unary main_v495 main_v504 (sitofp .f32 : (⟨S1024x1024, .i32⟩ : BufTy).Contents (Elt F) → (⟨S1024x1024, .f32⟩ : BufTy).Contents (Elt F)),
    reshape main_v504 main_v505 rfl shapeCasts_S1024x1024_S1024x64x16,
    unary main_v497 main_v506 (broadcastInDim S1024x64x1 ![0, 1] bcast_S1024x64_S1024x64x1_0_1 : (⟨S1024x64, .f32⟩ : BufTy).Contents (Elt F) → (⟨S1024x64x1, .f32⟩ : BufTy).Contents (Elt F)),
    unary main_v506 main_v507 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v505 main_v507 main_v508 (mulf : (⟨S1024x64x16, .f32⟩ : BufTy).Contents (Elt F) → (⟨S1024x64x16, .f32⟩ : BufTy).Contents (Elt F) → (⟨S1024x64x16, .f32⟩ : BufTy).Contents (Elt F)),
    reshape main_v508 main_v509 rfl shapeCasts_S1024x64x16_S1024x1024 ]

abbrev W_q632 : List (Ref sig .tc) :=
  [main_v494, main_v495, main_v496, main_v497, main_v498, main_v499, main_v500, main_v501, main_v502, main_v503, main_v504, main_v505, main_v506, main_v507, main_v508, main_v509]

theorem q632_sub : (q632 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub ..⟩

theorem q632_fresh : (q632 : List (HloOp τ sig (Elt F))).Forall fun op => op.fresh = ∅ :=
  ⟨rfl, rfl, rfl, rfl, rfl, rfl, rfl, rfl, rfl, rfl, rfl, rfl, rfl, rfl, rfl, rfl⟩

theorem q632_writes : (q632 : List (HloOp τ sig (Elt F))).Forall fun op => op.writes ⊆ ((W_q632).map (Proc.devRef (τ := τ) .tc)).toFinset :=
  ⟨writes_sub_of (y := main_v494) rfl (by decide),
   writes_sub_of (y := main_v495) rfl (by decide),
   writes_sub_of (y := main_v496) rfl (by decide),
   writes_sub_of (y := main_v497) rfl (by decide),
   writes_sub_of (y := main_v498) rfl (by decide),
   writes_sub_of (y := main_v499) rfl (by decide),
   writes_sub_of (y := main_v500) rfl (by decide),
   writes_sub_of (y := main_v501) rfl (by decide),
   writes_sub_of (y := main_v502) rfl (by decide),
   writes_sub_of (y := main_v503) rfl (by decide),
   writes_sub_of (y := main_v504) rfl (by decide),
   writes_sub_of (y := main_v505) rfl (by decide),
   writes_sub_of (y := main_v506) rfl (by decide),
   writes_sub_of (y := main_v507) rfl (by decide),
   writes_sub_of (y := main_v508) rfl (by decide),
   writes_sub_of (y := main_v509) rfl (by decide)⟩

theorem q632_keep (V : Valuation τ sig (Elt F)) {r : Ref sig .tc} (hr : r ∉ W_q632) :
    after q632 V (Proc.devRef .tc r) = V (Proc.devRef .tc r) :=
  after_of_writes_sub q632 V q632_writes hr

abbrev q648 : List (HloOp τ sig (Elt F)) :=
  [
    unary main_v509 main_v510 ((transpose S1024x1024 [1, 0] · transposes_S1024x1024_S1024x1024_1_0) : (⟨S1024x1024, .f32⟩ : BufTy).Contents (Elt F) → (⟨S1024x1024, .f32⟩ : BufTy).Contents (Elt F)),
    binary main_v493 main_v510 main_v511 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v499 main_v512 (broadcastInDim S1x1024 ![1] bcast_S1024_S1x1024_1 : (⟨S1024, .f32⟩ : BufTy).Contents (Elt F) → (⟨S1x1024, .f32⟩ : BufTy).Contents (Elt F)),
    unary main_v512 main_v513 (broadcastInDim S1024x1024 ![0, 1] bcast_S1x1024_S1024x1024_0_1 : (⟨S1x1024, .f32⟩ : BufTy).Contents (Elt F) → (⟨S1024x1024, .f32⟩ : BufTy).Contents (Elt F)),
    binary main_v511 main_v513 main_v514 (addf : (⟨S1024x1024, .f32⟩ : BufTy).Contents (Elt F) → (⟨S1024x1024, .f32⟩ : BufTy).Contents (Elt F) → (⟨S1024x1024, .f32⟩ : BufTy).Contents (Elt F)),
    unary main_v501 main_v515 ((transpose S1024x32 [1, 0] · transposes_S32x1024_S1024x32_1_0) : (⟨S32x1024, .f32⟩ : BufTy).Contents (Elt F) → (⟨S1024x32, .f32⟩ : BufTy).Contents (Elt F)),
    binary main_v493 main_v515 main_v516 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v503 main_v517 ((transpose S32x1024 [1, 0] · transposes_S1024x32_S32x1024_1_0) : (⟨S1024x32, .f32⟩ : BufTy).Contents (Elt F) → (⟨S32x1024, .f32⟩ : BufTy).Contents (Elt F)),
    binary main_v516 main_v517 main_v518 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_28 (constant S_ .f32 0x3DBFE5C9#32),
    unary main_cst_28 main_v519 (broadcastInDim S1024x1024 ![] bcast_S_S1024x1024 : (⟨S_, .f32⟩ : BufTy).Contents (Elt F) → (⟨S1024x1024, .f32⟩ : BufTy).Contents (Elt F)),
    binary main_v519 main_v518 main_v520 (mulf : (⟨S1024x1024, .f32⟩ : BufTy).Contents (Elt F) → (⟨S1024x1024, .f32⟩ : BufTy).Contents (Elt F) → (⟨S1024x1024, .f32⟩ : BufTy).Contents (Elt F)),
    binary main_v514 main_v520 main_v521 (addf : (⟨S1024x1024, .f32⟩ : BufTy).Contents (Elt F) → (⟨S1024x1024, .f32⟩ : BufTy).Contents (Elt F) → (⟨S1024x1024, .f32⟩ : BufTy).Contents (Elt F)),
    binary main_v521 main_v435 main_v522 (addf : (⟨S1024x1024, .f32⟩ : BufTy).Contents (Elt F) → (⟨S1024x1024, .f32⟩ : BufTy).Contents (Elt F) → (⟨S1024x1024, .f32⟩ : BufTy).Contents (Elt F)) ]

abbrev W_q648 : List (Ref sig .tc) :=
  [main_v510, main_v511, main_v512, main_v513, main_v514, main_v515, main_v516, main_v517, main_v518, main_cst_28, main_v519, main_v520, main_v521, main_v522]

theorem q648_sub : (q648 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., binary_bufs_sub ..⟩

theorem q648_fresh : (q648 : List (HloOp τ sig (Elt F))).Forall fun op => op.fresh = ∅ :=
  ⟨rfl, rfl, rfl, rfl, rfl, rfl, rfl, rfl, rfl, rfl, rfl, rfl, rfl, rfl⟩

theorem q648_writes : (q648 : List (HloOp τ sig (Elt F))).Forall fun op => op.writes ⊆ ((W_q648).map (Proc.devRef (τ := τ) .tc)).toFinset :=
  ⟨writes_sub_of (y := main_v510) rfl (by decide),
   writes_sub_of (y := main_v511) rfl (by decide),
   writes_sub_of (y := main_v512) rfl (by decide),
   writes_sub_of (y := main_v513) rfl (by decide),
   writes_sub_of (y := main_v514) rfl (by decide),
   writes_sub_of (y := main_v515) rfl (by decide),
   writes_sub_of (y := main_v516) rfl (by decide),
   writes_sub_of (y := main_v517) rfl (by decide),
   writes_sub_of (y := main_v518) rfl (by decide),
   writes_sub_of (y := main_cst_28) rfl (by decide),
   writes_sub_of (y := main_v519) rfl (by decide),
   writes_sub_of (y := main_v520) rfl (by decide),
   writes_sub_of (y := main_v521) rfl (by decide),
   writes_sub_of (y := main_v522) rfl (by decide)⟩

theorem q648_keep (V : Valuation τ sig (Elt F)) {r : Ref sig .tc} (hr : r ∉ W_q648) :
    after q648 V (Proc.devRef .tc r) = V (Proc.devRef .tc r) :=
  after_of_writes_sub q648 V q648_writes hr

abbrev q662 : List (HloOp τ sig (Elt F)) :=
  [
    unary main_arg6 main_v523 ((extractStridedSlice S1x1024 ![4, 0] · slices_S5x1024_S1x1024_4_0) : (⟨S5x1024, .f32⟩ : BufTy).Contents (Elt F) → (⟨S1x1024, .f32⟩ : BufTy).Contents (Elt F)),
    reshape main_v523 main_v524 rfl shapeCasts_S1x1024_S1024,
    unary main_arg7 main_v525 ((extractStridedSlice S1x1024 ![4, 0] · slices_S5x1024_S1x1024_4_0) : (⟨S5x1024, .f32⟩ : BufTy).Contents (Elt F) → (⟨S1x1024, .f32⟩ : BufTy).Contents (Elt F)),
    reshape main_v525 main_v526 rfl shapeCasts_S1x1024_S1024,
    nullary main_cst_29 (constant S_ .f32 0x00000000#32),
    binary main_v522 main_cst_29 main_v527 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    unary main_v527 main_v528 (broadcastInDim S1024x1 ![0] bcast_S1024_S1024x1_0 : (⟨S1024, .f32⟩ : BufTy).Contents (Elt F) → (⟨S1024x1, .f32⟩ : BufTy).Contents (Elt F)),
    nullary main_cst_30 (constant S_ .f32 0x44800000#32),
    unary main_cst_30 main_v529 (broadcastInDim S1024x1 ![] bcast_S_S1024x1 : (⟨S_, .f32⟩ : BufTy).Contents (Elt F) → (⟨S1024x1, .f32⟩ : BufTy).Contents (Elt F)),
    binary main_v528 main_v529 main_v530 (Host.divf : (⟨S1024x1, .f32⟩ : BufTy).Contents (Elt F) → (⟨S1024x1, .f32⟩ : BufTy).Contents (Elt F) → (⟨S1024x1, .f32⟩ : BufTy).Contents (Elt F)),
    nullary main_c_31 (constantI S_ 32 0#32),
    TRef.nullary main_call14.cst (constant S_ .f32 0x00000000#32),
    TRef.binary (.of main_v522) main_call14.cst main_call14.v0 (fun x v => Host.reduceAdd x v reducesTo_S1024x1024_S1024_d1 h_S_),
    TRef.unary main_call14.v0 main_call14.v1 (broadcastInDim S1024x1 ![0] bcast_S1024_S1024x1_0),
    TRef.nullary main_call14.cst_0 (constant S_ .f32 0x44800000#32),
    TRef.unary main_call14.cst_0 main_call14.v2 (broadcastInDim S1024x1 ![] bcast_S_S1024x1),
    TRef.binary main_call14.v1 main_call14.v2 main_call14.v3 Host.divf,
    TRef.unary main_call14.v3 main_call14.v4 (broadcastInDim S1024x1024 ![0, 1] bcast_S1024x1_S1024x1024_0_1),
    TRef.binary (.of main_v522) main_call14.v4 main_call14.v5 subf,
    TRef.binary main_call14.v5 main_call14.v5 main_call14.v6 mulf,
    TRef.unary (.of main_c_31) main_call14.v7 (sitofp .f32),
    TRef.nullary main_call14.cst_1 (constant S_ .f32 0x44800000#32),
    TRef.binary main_call14.cst_1 main_call14.v7 main_call14.v8 subf,
    TRef.nullary main_call14.cst_2 (constant S_ .f32 0x00000000#32),
    TRef.binary main_call14.v6 main_call14.cst_2 main_call14.v9 (fun x v => Host.reduceAdd x v reducesTo_S1024x1024_S1024_d1 h_S_),
    TRef.unary main_call14.v9 main_call14.v10 (broadcastInDim S1024x1 ![0] bcast_S1024_S1024x1_0),
    TRef.unary main_call14.v8 main_call14.v11 (broadcastInDim S1024x1 ![] bcast_S_S1024x1),
    TRef.binary main_call14.v10 main_call14.v11 main_call14.v12 Host.divf,
    TRef.nullary main_call14.cst_3 (constant S_ .f32 0x00000000#32),
    TRef.binary main_call14.v8 main_call14.cst_3 main_call14.v13 (cmpf .ogt),
    TRef.nullary main_call14.cst_4 (constant S_ .f32 0x7FC00000#32),
    TRef.unary main_call14.cst_4 main_call14.call0.v0 id,
    TRef.unary main_call14.call0.v0 main_call14.call0.v1 (broadcastInDim S1024x1 ![] bcast_S_S1024x1),
    TRef.ternary main_call14.v13 main_call14.v12 main_call14.call0.v1 main_call14.call0.v2 (fun p a b => select (broadcastInDim S1024x1 ![] bcast_S_S1024x1 p) a b),
    unary main_v530 main_v532 (broadcastInDim S1024x1024 ![0, 1] bcast_S1024x1_S1024x1024_0_1 : (⟨S1024x1, .f32⟩ : BufTy).Contents (Elt F) → (⟨S1024x1024, .f32⟩ : BufTy).Contents (Elt F)),
    binary main_v522 main_v532 main_v533 (subf : (⟨S1024x1024, .f32⟩ : BufTy).Contents (Elt F) → (⟨S1024x1024, .f32⟩ : BufTy).Contents (Elt F) → (⟨S1024x1024, .f32⟩ : BufTy).Contents (Elt F)),
    nullary main_cst_32 (constant S_ .f32 0x3727C5AC#32),
    unary main_cst_32 main_v534 (broadcastInDim S1024x1 ![] bcast_S_S1024x1 : (⟨S_, .f32⟩ : BufTy).Contents (Elt F) → (⟨S1024x1, .f32⟩ : BufTy).Contents (Elt F)),
    binary main_v531 main_v534 main_v535 (addf : (⟨S1024x1, .f32⟩ : BufTy).Contents (Elt F) → (⟨S1024x1, .f32⟩ : BufTy).Contents (Elt F) → (⟨S1024x1, .f32⟩ : BufTy).Contents (Elt F)),
    unary main_v535 main_v536 (Host.rsqrt : (⟨S1024x1, .f32⟩ : BufTy).Contents (Elt F) → (⟨S1024x1, .f32⟩ : BufTy).Contents (Elt F)),
    unary main_v536 main_v537 (broadcastInDim S1024x1024 ![0, 1] bcast_S1024x1_S1024x1024_0_1 : (⟨S1024x1, .f32⟩ : BufTy).Contents (Elt F) → (⟨S1024x1024, .f32⟩ : BufTy).Contents (Elt F)),
    binary main_v533 main_v537 main_v538 (mulf : (⟨S1024x1024, .f32⟩ : BufTy).Contents (Elt F) → (⟨S1024x1024, .f32⟩ : BufTy).Contents (Elt F) → (⟨S1024x1024, .f32⟩ : BufTy).Contents (Elt F)),
    unary main_v524 main_v539 (broadcastInDim S1x1024 ![1] bcast_S1024_S1x1024_1 : (⟨S1024, .f32⟩ : BufTy).Contents (Elt F) → (⟨S1x1024, .f32⟩ : BufTy).Contents (Elt F)),
    unary main_v539 main_v540 (broadcastInDim S1024x1024 ![0, 1] bcast_S1x1024_S1024x1024_0_1 : (⟨S1x1024, .f32⟩ : BufTy).Contents (Elt F) → (⟨S1024x1024, .f32⟩ : BufTy).Contents (Elt F)),
    binary main_v538 main_v540 main_v541 (mulf : (⟨S1024x1024, .f32⟩ : BufTy).Contents (Elt F) → (⟨S1024x1024, .f32⟩ : BufTy).Contents (Elt F) → (⟨S1024x1024, .f32⟩ : BufTy).Contents (Elt F)),
    unary main_v526 main_v542 (broadcastInDim S1x1024 ![1] bcast_S1024_S1x1024_1 : (⟨S1024, .f32⟩ : BufTy).Contents (Elt F) → (⟨S1x1024, .f32⟩ : BufTy).Contents (Elt F)),
    unary main_v542 main_v543 (broadcastInDim S1024x1024 ![0, 1] bcast_S1x1024_S1024x1024_0_1 : (⟨S1x1024, .f32⟩ : BufTy).Contents (Elt F) → (⟨S1024x1024, .f32⟩ : BufTy).Contents (Elt F)),
    binary main_v541 main_v543 main_v544 (addf : (⟨S1024x1024, .f32⟩ : BufTy).Contents (Elt F) → (⟨S1024x1024, .f32⟩ : BufTy).Contents (Elt F) → (⟨S1024x1024, .f32⟩ : BufTy).Contents (Elt F)) ]

abbrev W_q662 : List (Ref sig .tc) :=
  [main_v523, main_v524, main_v525, main_v526, main_cst_29, main_v527, main_v528, main_cst_30, main_v529, main_v530, main_c_31, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_v12, main_call14_cst_3, main_call14_v13, main_call14_cst_4, main_call14_call0_v0, main_call14_call0_v1, main_v531, main_v532, main_v533, main_cst_32, main_v534, main_v535, main_v536, main_v537, main_v538, main_v539, main_v540, main_v541, main_v542, main_v543, main_v544]

theorem q662_sub : (q662 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem q662_fresh : (q662 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q662_writes : (q662 : List (HloOp τ sig (Elt F))).Forall fun op => op.writes ⊆ ((W_q662).map (Proc.devRef (τ := τ) .tc)).toFinset :=
  ⟨writes_sub_of (y := main_v523) rfl (by decide),
   writes_sub_of (y := main_v524) rfl (by decide),
   writes_sub_of (y := main_v525) rfl (by decide),
   writes_sub_of (y := main_v526) rfl (by decide),
   writes_sub_of (y := main_cst_29) rfl (by decide),
   writes_sub_of (y := main_v527) rfl (by decide),
   writes_sub_of (y := main_v528) rfl (by decide),
   writes_sub_of (y := main_cst_30) rfl (by decide),
   writes_sub_of (y := main_v529) rfl (by decide),
   writes_sub_of (y := main_v530) rfl (by decide),
   writes_sub_of (y := main_c_31) rfl (by decide),
   writes_sub_of (y := main_call14_cst) rfl (by decide),
   writes_sub_of (y := main_call14_v0) rfl (by decide),
   writes_sub_of (y := main_call14_v1) rfl (by decide),
   writes_sub_of (y := main_call14_cst_0) rfl (by decide),
   writes_sub_of (y := main_call14_v2) rfl (by decide),
   writes_sub_of (y := main_call14_v3) rfl (by decide),
   writes_sub_of (y := main_call14_v4) rfl (by decide),
   writes_sub_of (y := main_call14_v5) rfl (by decide),
   writes_sub_of (y := main_call14_v6) rfl (by decide),
   writes_sub_of (y := main_call14_v7) rfl (by decide),
   writes_sub_of (y := main_call14_cst_1) rfl (by decide),
   writes_sub_of (y := main_call14_v8) rfl (by decide),
   writes_sub_of (y := main_call14_cst_2) rfl (by decide),
   writes_sub_of (y := main_call14_v9) rfl (by decide),
   writes_sub_of (y := main_call14_v10) rfl (by decide),
   writes_sub_of (y := main_call14_v11) rfl (by decide),
   writes_sub_of (y := main_call14_v12) rfl (by decide),
   writes_sub_of (y := main_call14_cst_3) rfl (by decide),
   writes_sub_of (y := main_call14_v13) rfl (by decide),
   writes_sub_of (y := main_call14_cst_4) rfl (by decide),
   writes_sub_of (y := main_call14_call0_v0) rfl (by decide),
   writes_sub_of (y := main_call14_call0_v1) rfl (by decide),
   writes_sub_of (y := main_v531) rfl (by decide),
   writes_sub_of (y := main_v532) rfl (by decide),
   writes_sub_of (y := main_v533) rfl (by decide),
   writes_sub_of (y := main_cst_32) rfl (by decide),
   writes_sub_of (y := main_v534) rfl (by decide),
   writes_sub_of (y := main_v535) rfl (by decide),
   writes_sub_of (y := main_v536) rfl (by decide),
   writes_sub_of (y := main_v537) rfl (by decide),
   writes_sub_of (y := main_v538) rfl (by decide),
   writes_sub_of (y := main_v539) rfl (by decide),
   writes_sub_of (y := main_v540) rfl (by decide),
   writes_sub_of (y := main_v541) rfl (by decide),
   writes_sub_of (y := main_v542) rfl (by decide),
   writes_sub_of (y := main_v543) rfl (by decide),
   writes_sub_of (y := main_v544) rfl (by decide)⟩

theorem q662_keep (V : Valuation τ sig (Elt F)) {r : Ref sig .tc} (hr : r ∉ W_q662) :
    after q662 V (Proc.devRef .tc r) = V (Proc.devRef .tc r) :=
  after_of_writes_sub q662 V q662_writes hr

abbrev q710 : List (HloOp τ sig (Elt F)) :=
  [
    unary main_arg1 main_v545 ((extractStridedSlice S1x1x1024x1024 ![5, 0, 0, 0] · slices_S6x3x1024x1024_S1x1x1024x1024_5_0_0_0) : (⟨S6x3x1024x1024, .i32⟩ : BufTy).Contents (Elt F) → (⟨S1x1x1024x1024, .i32⟩ : BufTy).Contents (Elt F)),
    reshape main_v545 main_v546 rfl shapeCasts_S1x1x1024x1024_S1024x1024,
    unary main_arg2 main_v547 ((extractStridedSlice S1x1x1024x64 ![5, 0, 0, 0] · slices_S6x3x1024x64_S1x1x1024x64_5_0_0_0) : (⟨S6x3x1024x64, .f32⟩ : BufTy).Contents (Elt F) → (⟨S1x1x1024x64, .f32⟩ : BufTy).Contents (Elt F)),
    reshape main_v547 main_v548 rfl shapeCasts_S1x1x1024x64_S1024x64,
    unary main_arg3 main_v549 ((extractStridedSlice S1x1x1024 ![5, 0, 0] · slices_S6x3x1024_S1x1x1024_5_0_0) : (⟨S6x3x1024, .f32⟩ : BufTy).Contents (Elt F) → (⟨S1x1x1024, .f32⟩ : BufTy).Contents (Elt F)),
    reshape main_v549 main_v550 rfl shapeCasts_S1x1x1024_S1024,
    unary main_arg4 main_v551 ((extractStridedSlice S1x1x32x1024 ![5, 0, 0, 0] · slices_S6x3x32x1024_S1x1x32x1024_5_0_0_0) : (⟨S6x3x32x1024, .f32⟩ : BufTy).Contents (Elt F) → (⟨S1x1x32x1024, .f32⟩ : BufTy).Contents (Elt F)),
    reshape main_v551 main_v552 rfl shapeCasts_S1x1x32x1024_S32x1024,
    unary main_arg5 main_v553 ((extractStridedSlice S1x1x1024x32 ![5, 0, 0, 0] · slices_S6x3x1024x32_S1x1x1024x32_5_0_0_0) : (⟨S6x3x1024x32, .f32⟩ : BufTy).Contents (Elt F) → (⟨S1x1x1024x32, .f32⟩ : BufTy).Contents (Elt F)),
    reshape main_v553 main_v554 rfl shapeCasts_S1x1x1024x32_S1024x32,
    unary main_v546 main_v555 (sitofp .f32 : (⟨S1024x1024, .i32⟩ : BufTy).Contents (Elt F) → (⟨S1024x1024, .f32⟩ : BufTy).Contents (Elt F)),
    reshape main_v555 main_v556 rfl shapeCasts_S1024x1024_S1024x64x16,
    unary main_v548 main_v557 (broadcastInDim S1024x64x1 ![0, 1] bcast_S1024x64_S1024x64x1_0_1 : (⟨S1024x64, .f32⟩ : BufTy).Contents (Elt F) → (⟨S1024x64x1, .f32⟩ : BufTy).Contents (Elt F)),
    unary main_v557 main_v558 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v556 main_v558 main_v559 (mulf : (⟨S1024x64x16, .f32⟩ : BufTy).Contents (Elt F) → (⟨S1024x64x16, .f32⟩ : BufTy).Contents (Elt F) → (⟨S1024x64x16, .f32⟩ : BufTy).Contents (Elt F)),
    reshape main_v559 main_v560 rfl shapeCasts_S1024x64x16_S1024x1024,
    unary main_v560 main_v561 ((transpose S1024x1024 [1, 0] · transposes_S1024x1024_S1024x1024_1_0) : (⟨S1024x1024, .f32⟩ : BufTy).Contents (Elt F) → (⟨S1024x1024, .f32⟩ : BufTy).Contents (Elt F)),
    binary main_v544 main_v561 main_v562 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v550 main_v563 (broadcastInDim S1x1024 ![1] bcast_S1024_S1x1024_1 : (⟨S1024, .f32⟩ : BufTy).Contents (Elt F) → (⟨S1x1024, .f32⟩ : BufTy).Contents (Elt F)),
    unary main_v563 main_v564 (broadcastInDim S1024x1024 ![0, 1] bcast_S1x1024_S1024x1024_0_1 : (⟨S1x1024, .f32⟩ : BufTy).Contents (Elt F) → (⟨S1024x1024, .f32⟩ : BufTy).Contents (Elt F)) ]

abbrev W_q710 : List (Ref sig .tc) :=
  [main_v545, main_v546, main_v547, main_v548, main_v549, main_v550, main_v551, main_v552, main_v553, main_v554, main_v555, main_v556, main_v557, main_v558, main_v559, main_v560, main_v561, main_v562, main_v563, main_v564]

theorem q710_sub : (q710 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub ..⟩

theorem q710_fresh : (q710 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem q710_writes : (q710 : List (HloOp τ sig (Elt F))).Forall fun op => op.writes ⊆ ((W_q710).map (Proc.devRef (τ := τ) .tc)).toFinset :=
  ⟨writes_sub_of (y := main_v545) rfl (by decide),
   writes_sub_of (y := main_v546) rfl (by decide),
   writes_sub_of (y := main_v547) rfl (by decide),
   writes_sub_of (y := main_v548) rfl (by decide),
   writes_sub_of (y := main_v549) rfl (by decide),
   writes_sub_of (y := main_v550) rfl (by decide),
   writes_sub_of (y := main_v551) rfl (by decide),
   writes_sub_of (y := main_v552) rfl (by decide),
   writes_sub_of (y := main_v553) rfl (by decide),
   writes_sub_of (y := main_v554) rfl (by decide),
   writes_sub_of (y := main_v555) rfl (by decide),
   writes_sub_of (y := main_v556) rfl (by decide),
   writes_sub_of (y := main_v557) rfl (by decide),
   writes_sub_of (y := main_v558) rfl (by decide),
   writes_sub_of (y := main_v559) rfl (by decide),
   writes_sub_of (y := main_v560) rfl (by decide),
   writes_sub_of (y := main_v561) rfl (by decide),
   writes_sub_of (y := main_v562) rfl (by decide),
   writes_sub_of (y := main_v563) rfl (by decide),
   writes_sub_of (y := main_v564) rfl (by decide)⟩

theorem q710_keep (V : Valuation τ sig (Elt F)) {r : Ref sig .tc} (hr : r ∉ W_q710) :
    after q710 V (Proc.devRef .tc r) = V (Proc.devRef .tc r) :=
  after_of_writes_sub q710 V q710_writes hr

abbrev q730 : List (HloOp τ sig (Elt F)) :=
  [
    binary main_v562 main_v564 main_v565 (addf : (⟨S1024x1024, .f32⟩ : BufTy).Contents (Elt F) → (⟨S1024x1024, .f32⟩ : BufTy).Contents (Elt F) → (⟨S1024x1024, .f32⟩ : BufTy).Contents (Elt F)),
    unary main_v552 main_v566 ((transpose S1024x32 [1, 0] · transposes_S32x1024_S1024x32_1_0) : (⟨S32x1024, .f32⟩ : BufTy).Contents (Elt F) → (⟨S1024x32, .f32⟩ : BufTy).Contents (Elt F)),
    binary main_v544 main_v566 main_v567 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v554 main_v568 ((transpose S32x1024 [1, 0] · transposes_S1024x32_S32x1024_1_0) : (⟨S1024x32, .f32⟩ : BufTy).Contents (Elt F) → (⟨S32x1024, .f32⟩ : BufTy).Contents (Elt F)),
    binary main_v567 main_v568 main_v569 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_33 (constant S_ .f32 0x3DBFE5C9#32),
    unary main_cst_33 main_v570 (broadcastInDim S1024x1024 ![] bcast_S_S1024x1024 : (⟨S_, .f32⟩ : BufTy).Contents (Elt F) → (⟨S1024x1024, .f32⟩ : BufTy).Contents (Elt F)),
    binary main_v570 main_v569 main_v571 (mulf : (⟨S1024x1024, .f32⟩ : BufTy).Contents (Elt F) → (⟨S1024x1024, .f32⟩ : BufTy).Contents (Elt F) → (⟨S1024x1024, .f32⟩ : BufTy).Contents (Elt F)),
    binary main_v565 main_v571 main_v572 (addf : (⟨S1024x1024, .f32⟩ : BufTy).Contents (Elt F) → (⟨S1024x1024, .f32⟩ : BufTy).Contents (Elt F) → (⟨S1024x1024, .f32⟩ : BufTy).Contents (Elt F)),
    TRef.nullary main_call15.cst (constant S_ .f32 0x00000000#32),
    TRef.unary main_call15.cst main_call15.v0 (broadcastInDim S1024x1024 ![] bcast_S_S1024x1024),
    TRef.binary (.of main_v572) main_call15.v0 main_call15.v1 maximumf ]

abbrev W_q730 : List (Ref sig .tc) :=
  [main_v565, main_v566, main_v567, main_v568, main_v569, main_cst_33, main_v570, main_v571, main_v572, main_call15_cst, main_call15_v0, main_v573]

theorem q730_sub : (q730 : List (HloOp τ sig (Elt F))).Forall fun op => op.bufs ⊆ tcRefs τ sig :=
  ⟨binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q730_fresh : (q730 : List (HloOp τ sig (Elt F))).Forall fun op => op.fresh = ∅ :=
  ⟨rfl, rfl, rfl, rfl, rfl, rfl, rfl, rfl, rfl, rfl, rfl, rfl⟩

theorem q730_writes : (q730 : List (HloOp τ sig (Elt F))).Forall fun op => op.writes ⊆ ((W_q730).map (Proc.devRef (τ := τ) .tc)).toFinset :=
  ⟨writes_sub_of (y := main_v565) rfl (by decide),
   writes_sub_of (y := main_v566) rfl (by decide),
   writes_sub_of (y := main_v567) rfl (by decide),
   writes_sub_of (y := main_v568) rfl (by decide),
   writes_sub_of (y := main_v569) rfl (by decide),
   writes_sub_of (y := main_cst_33) rfl (by decide),
   writes_sub_of (y := main_v570) rfl (by decide),
   writes_sub_of (y := main_v571) rfl (by decide),
   writes_sub_of (y := main_v572) rfl (by decide),
   writes_sub_of (y := main_call15_cst) rfl (by decide),
   writes_sub_of (y := main_call15_v0) rfl (by decide),
   writes_sub_of (y := main_v573) rfl (by decide)⟩

theorem q730_keep (V : Valuation τ sig (Elt F)) {r : Ref sig .tc} (hr : r ∉ W_q730) :
    after q730 V (Proc.devRef .tc r) = V (Proc.devRef .tc r) :=
  after_of_writes_sub q730 V q730_writes hr

abbrev q742 : List (HloOp τ sig (Elt F)) :=
  [
    unary main_arg1 main_v574 ((extractStridedSlice S1x1x1024x1024 ![5, 1, 0, 0] · slices_S6x3x1024x1024_S1x1x1024x1024_5_1_0_0) : (⟨S6x3x1024x1024, .i32⟩ : BufTy).Contents (Elt F) → (⟨S1x1x1024x1024, .i32⟩ : BufTy).Contents (Elt F)),
    reshape main_v574 main_v575 rfl shapeCasts_S1x1x1024x1024_S1024x1024,
    unary main_arg2 main_v576 ((extractStridedSlice S1x1x1024x64 ![5, 1, 0, 0] · slices_S6x3x1024x64_S1x1x1024x64_5_1_0_0) : (⟨S6x3x1024x64, .f32⟩ : BufTy).Contents (Elt F) → (⟨S1x1x1024x64, .f32⟩ : BufTy).Contents (Elt F)),
    reshape main_v576 main_v577 rfl shapeCasts_S1x1x1024x64_S1024x64,
    unary main_arg3 main_v578 ((extractStridedSlice S1x1x1024 ![5, 1, 0] · slices_S6x3x1024_S1x1x1024_5_1_0) : (⟨S6x3x1024, .f32⟩ : BufTy).Contents (Elt F) → (⟨S1x1x1024, .f32⟩ : BufTy).Contents (Elt F)),
    reshape main_v578 main_v579 rfl shapeCasts_S1x1x1024_S1024,
    unary main_arg4 main_v580 ((extractStridedSlice S1x1x32x1024 ![5, 1, 0, 0] · slices_S6x3x32x1024_S1x1x32x1024_5_1_0_0) : (⟨S6x3x32x1024, .f32⟩ : BufTy).Contents (Elt F) → (⟨S1x1x32x1024, .f32⟩ : BufTy).Contents (Elt F)),
    reshape main_v580 main_v581 rfl shapeCasts_S1x1x32x1024_S32x1024,
    unary main_arg5 main_v582 ((extractStridedSlice S1x1x1024x32 ![5, 1, 0, 0] · slices_S6x3x1024x32_S1x1x1024x32_5_1_0_0) : (⟨S6x3x1024x32, .f32⟩ : BufTy).Contents (Elt F) → (⟨S1x1x1024x32, .f32⟩ : BufTy).Contents (Elt F)),
    reshape main_v582 main_v583 rfl shapeCasts_S1x1x1024x32_S1024x32,
    unary main_v575 main_v584 (sitofp .f32 : (⟨S1024x1024, .i32⟩ : BufTy).Contents (Elt F) → (⟨S1024x1024, .f32⟩ : BufTy).Contents (Elt F)),
    reshape main_v584 main_v585 rfl shapeCasts_S1024x1024_S1024x64x16,
    unary main_v577 main_v586 (broadcastInDim S1024x64x1 ![0, 1] bcast_S1024x64_S1024x64x1_0_1 : (⟨S1024x64, .f32⟩ : BufTy).Contents (Elt F) → (⟨S1024x64x1, .f32⟩ : BufTy).Contents (Elt F)),
    unary main_v586 main_v587 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v585 main_v587 main_v588 (mulf : (⟨S1024x64x16, .f32⟩ : BufTy).Contents (Elt F) → (⟨S1024x64x16, .f32⟩ : BufTy).Contents (Elt F) → (⟨S1024x64x16, .f32⟩ : BufTy).Contents (Elt F)),
    reshape main_v588 main_v589 rfl shapeCasts_S1024x64x16_S1024x1024,
    unary main_v589 main_v590 ((transpose S1024x1024 [1, 0] · transposes_S1024x1024_S1024x1024_1_0) : (⟨S1024x1024, .f32⟩ : BufTy).Contents (Elt F) → (⟨S1024x1024, .f32⟩ : BufTy).Contents (Elt F)),
    binary main_v573 main_v590 main_v591 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v579 main_v592 (broadcastInDim S1x1024 ![1] bcast_S1024_S1x1024_1 : (⟨S1024, .f32⟩ : BufTy).Contents (Elt F) → (⟨S1x1024, .f32⟩ : BufTy).Contents (Elt F)),
    unary main_v592 main_v593 (broadcastInDim S1024x1024 ![0, 1] bcast_S1x1024_S1024x1024_0_1 : (⟨S1x1024, .f32⟩ : BufTy).Contents (Elt F) → (⟨S1024x1024, .f32⟩ : BufTy).Contents (Elt F)),
    binary main_v591 main_v593 main_v594 (addf : (⟨S1024x1024, .f32⟩ : BufTy).Contents (Elt F) → (⟨S1024x1024, .f32⟩ : BufTy).Contents (Elt F) → (⟨S1024x1024, .f32⟩ : BufTy).Contents (Elt F)),
    unary main_v581 main_v595 ((transpose S1024x32 [1, 0] · transposes_S32x1024_S1024x32_1_0) : (⟨S32x1024, .f32⟩ : BufTy).Contents (Elt F) → (⟨S1024x32, .f32⟩ : BufTy).Contents (Elt F)),
    binary main_v573 main_v595 main_v596 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v583 main_v597 ((transpose S32x1024 [1, 0] · transposes_S1024x32_S32x1024_1_0) : (⟨S1024x32, .f32⟩ : BufTy).Contents (Elt F) → (⟨S32x1024, .f32⟩ : BufTy).Contents (Elt F)),
    binary main_v596 main_v597 main_v598 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_34 (constant S_ .f32 0x3DBFE5C9#32),
    unary main_cst_34 main_v599 (broadcastInDim S1024x1024 ![] bcast_S_S1024x1024 : (⟨S_, .f32⟩ : BufTy).Contents (Elt F) → (⟨S1024x1024, .f32⟩ : BufTy).Contents (Elt F)),
    binary main_v599 main_v598 main_v600 (mulf : (⟨S1024x1024, .f32⟩ : BufTy).Contents (Elt F) → (⟨S1024x1024, .f32⟩ : BufTy).Contents (Elt F) → (⟨S1024x1024, .f32⟩ : BufTy).Contents (Elt F)),
    binary main_v594 main_v600 main_v601 (addf : (⟨S1024x1024, .f32⟩ : BufTy).Contents (Elt F) → (⟨S1024x1024, .f32⟩ : BufTy).Contents (Elt F) → (⟨S1024x1024, .f32⟩ : BufTy).Contents (Elt F)),
    TRef.nullary main_call16.cst (constant S_ .f32 0x00000000#32),
    TRef.unary main_call16.cst main_call16.v0 (broadcastInDim S1024x1024 ![] bcast_S_S1024x1024),
    TRef.binary (.of main_v601) main_call16.v0 main_call16.v1 maximumf ]

abbrev W_q742 : List (Ref sig .tc) :=
  [main_v574, main_v575, main_v576, main_v577, main_v578, main_v579, main_v580, main_v581, main_v582, main_v583, main_v584, main_v585, main_v586, main_v587, main_v588, main_v589, main_v590, main_v591, main_v592, main_v593, main_v594, main_v595, main_v596, main_v597, main_v598, main_cst_34, main_v599, main_v600, main_v601, main_call16_cst, main_call16_v0, main_v602]

theorem q742_sub : (q742 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩

theorem q742_fresh : (q742 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem q742_writes : (q742 : List (HloOp τ sig (Elt F))).Forall fun op => op.writes ⊆ ((W_q742).map (Proc.devRef (τ := τ) .tc)).toFinset :=
  ⟨writes_sub_of (y := main_v574) rfl (by decide),
   writes_sub_of (y := main_v575) rfl (by decide),
   writes_sub_of (y := main_v576) rfl (by decide),
   writes_sub_of (y := main_v577) rfl (by decide),
   writes_sub_of (y := main_v578) rfl (by decide),
   writes_sub_of (y := main_v579) rfl (by decide),
   writes_sub_of (y := main_v580) rfl (by decide),
   writes_sub_of (y := main_v581) rfl (by decide),
   writes_sub_of (y := main_v582) rfl (by decide),
   writes_sub_of (y := main_v583) rfl (by decide),
   writes_sub_of (y := main_v584) rfl (by decide),
   writes_sub_of (y := main_v585) rfl (by decide),
   writes_sub_of (y := main_v586) rfl (by decide),
   writes_sub_of (y := main_v587) rfl (by decide),
   writes_sub_of (y := main_v588) rfl (by decide),
   writes_sub_of (y := main_v589) rfl (by decide),
   writes_sub_of (y := main_v590) rfl (by decide),
   writes_sub_of (y := main_v591) rfl (by decide),
   writes_sub_of (y := main_v592) rfl (by decide),
   writes_sub_of (y := main_v593) rfl (by decide),
   writes_sub_of (y := main_v594) rfl (by decide),
   writes_sub_of (y := main_v595) rfl (by decide),
   writes_sub_of (y := main_v596) rfl (by decide),
   writes_sub_of (y := main_v597) rfl (by decide),
   writes_sub_of (y := main_v598) rfl (by decide),
   writes_sub_of (y := main_cst_34) rfl (by decide),
   writes_sub_of (y := main_v599) rfl (by decide),
   writes_sub_of (y := main_v600) rfl (by decide),
   writes_sub_of (y := main_v601) rfl (by decide),
   writes_sub_of (y := main_call16_cst) rfl (by decide),
   writes_sub_of (y := main_call16_v0) rfl (by decide),
   writes_sub_of (y := main_v602) rfl (by decide)⟩

theorem q742_keep (V : Valuation τ sig (Elt F)) {r : Ref sig .tc} (hr : r ∉ W_q742) :
    after q742 V (Proc.devRef .tc r) = V (Proc.devRef .tc r) :=
  after_of_writes_sub q742 V q742_writes hr

abbrev q774 : List (HloOp τ sig (Elt F)) :=
  [
    unary main_arg1 main_v603 ((extractStridedSlice S1x1x1024x1024 ![5, 2, 0, 0] · slices_S6x3x1024x1024_S1x1x1024x1024_5_2_0_0) : (⟨S6x3x1024x1024, .i32⟩ : BufTy).Contents (Elt F) → (⟨S1x1x1024x1024, .i32⟩ : BufTy).Contents (Elt F)),
    reshape main_v603 main_v604 rfl shapeCasts_S1x1x1024x1024_S1024x1024,
    unary main_arg2 main_v605 ((extractStridedSlice S1x1x1024x64 ![5, 2, 0, 0] · slices_S6x3x1024x64_S1x1x1024x64_5_2_0_0) : (⟨S6x3x1024x64, .f32⟩ : BufTy).Contents (Elt F) → (⟨S1x1x1024x64, .f32⟩ : BufTy).Contents (Elt F)),
    reshape main_v605 main_v606 rfl shapeCasts_S1x1x1024x64_S1024x64,
    unary main_arg3 main_v607 ((extractStridedSlice S1x1x1024 ![5, 2, 0] · slices_S6x3x1024_S1x1x1024_5_2_0) : (⟨S6x3x1024, .f32⟩ : BufTy).Contents (Elt F) → (⟨S1x1x1024, .f32⟩ : BufTy).Contents (Elt F)),
    reshape main_v607 main_v608 rfl shapeCasts_S1x1x1024_S1024,
    unary main_arg4 main_v609 ((extractStridedSlice S1x1x32x1024 ![5, 2, 0, 0] · slices_S6x3x32x1024_S1x1x32x1024_5_2_0_0) : (⟨S6x3x32x1024, .f32⟩ : BufTy).Contents (Elt F) → (⟨S1x1x32x1024, .f32⟩ : BufTy).Contents (Elt F)),
    reshape main_v609 main_v610 rfl shapeCasts_S1x1x32x1024_S32x1024,
    unary main_arg5 main_v611 ((extractStridedSlice S1x1x1024x32 ![5, 2, 0, 0] · slices_S6x3x1024x32_S1x1x1024x32_5_2_0_0) : (⟨S6x3x1024x32, .f32⟩ : BufTy).Contents (Elt F) → (⟨S1x1x1024x32, .f32⟩ : BufTy).Contents (Elt F)),
    reshape main_v611 main_v612 rfl shapeCasts_S1x1x1024x32_S1024x32,
    unary main_v604 main_v613 (sitofp .f32 : (⟨S1024x1024, .i32⟩ : BufTy).Contents (Elt F) → (⟨S1024x1024, .f32⟩ : BufTy).Contents (Elt F)),
    reshape main_v613 main_v614 rfl shapeCasts_S1024x1024_S1024x64x16,
    unary main_v606 main_v615 (broadcastInDim S1024x64x1 ![0, 1] bcast_S1024x64_S1024x64x1_0_1 : (⟨S1024x64, .f32⟩ : BufTy).Contents (Elt F) → (⟨S1024x64x1, .f32⟩ : BufTy).Contents (Elt F)),
    unary main_v615 main_v616 (broadcastInDim S1024x64x16 ![0, 1, 2] bcast_S1024x64x1_S1024x64x16_0_1_2 : (⟨S1024x64x1, .f32⟩ : BufTy).Contents (Elt F) → (⟨S1024x64x16, .f32⟩ : BufTy).Contents (Elt F)),
    binary main_v614 main_v616 main_v617 (mulf : (⟨S1024x64x16, .f32⟩ : BufTy).Contents (Elt F) → (⟨S1024x64x16, .f32⟩ : BufTy).Contents (Elt F) → (⟨S1024x64x16, .f32⟩ : BufTy).Contents (Elt F)),
    reshape main_v617 main_v618 rfl shapeCasts_S1024x64x16_S1024x1024,
    unary main_v618 main_v619 ((transpose S1024x1024 [1, 0] · transposes_S1024x1024_S1024x1024_1_0) : (⟨S1024x1024, .f32⟩ : BufTy).Contents (Elt F) → (⟨S1024x1024, .f32⟩ : BufTy).Contents (Elt F)),
    binary main_v602 main_v619 main_v620 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v608 main_v621 (broadcastInDim S1x1024 ![1] bcast_S1024_S1x1024_1 : (⟨S1024, .f32⟩ : BufTy).Contents (Elt F) → (⟨S1x1024, .f32⟩ : BufTy).Contents (Elt F)),
    unary main_v621 main_v622 (broadcastInDim S1024x1024 ![0, 1] bcast_S1x1024_S1024x1024_0_1 : (⟨S1x1024, .f32⟩ : BufTy).Contents (Elt F) → (⟨S1024x1024, .f32⟩ : BufTy).Contents (Elt F)) ]

abbrev W_q774 : List (Ref sig .tc) :=
  [main_v603, main_v604, main_v605, main_v606, main_v607, main_v608, main_v609, main_v610, main_v611, main_v612, main_v613, main_v614, main_v615, main_v616, main_v617, main_v618, main_v619, main_v620, main_v621, main_v622]

theorem q774_sub : (q774 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., binary_bufs_sub .., unary_bufs_sub .., unary_bufs_sub ..⟩

theorem q774_fresh : (q774 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem q774_writes : (q774 : List (HloOp τ sig (Elt F))).Forall fun op => op.writes ⊆ ((W_q774).map (Proc.devRef (τ := τ) .tc)).toFinset :=
  ⟨writes_sub_of (y := main_v603) rfl (by decide),
   writes_sub_of (y := main_v604) rfl (by decide),
   writes_sub_of (y := main_v605) rfl (by decide),
   writes_sub_of (y := main_v606) rfl (by decide),
   writes_sub_of (y := main_v607) rfl (by decide),
   writes_sub_of (y := main_v608) rfl (by decide),
   writes_sub_of (y := main_v609) rfl (by decide),
   writes_sub_of (y := main_v610) rfl (by decide),
   writes_sub_of (y := main_v611) rfl (by decide),
   writes_sub_of (y := main_v612) rfl (by decide),
   writes_sub_of (y := main_v613) rfl (by decide),
   writes_sub_of (y := main_v614) rfl (by decide),
   writes_sub_of (y := main_v615) rfl (by decide),
   writes_sub_of (y := main_v616) rfl (by decide),
   writes_sub_of (y := main_v617) rfl (by decide),
   writes_sub_of (y := main_v618) rfl (by decide),
   writes_sub_of (y := main_v619) rfl (by decide),
   writes_sub_of (y := main_v620) rfl (by decide),
   writes_sub_of (y := main_v621) rfl (by decide),
   writes_sub_of (y := main_v622) rfl (by decide)⟩

theorem q774_keep (V : Valuation τ sig (Elt F)) {r : Ref sig .tc} (hr : r ∉ W_q774) :
    after q774 V (Proc.devRef .tc r) = V (Proc.devRef .tc r) :=
  after_of_writes_sub q774 V q774_writes hr

abbrev q794 : List (HloOp τ sig (Elt F)) :=
  [
    binary main_v620 main_v622 main_v623 (addf : (⟨S1024x1024, .f32⟩ : BufTy).Contents (Elt F) → (⟨S1024x1024, .f32⟩ : BufTy).Contents (Elt F) → (⟨S1024x1024, .f32⟩ : BufTy).Contents (Elt F)),
    unary main_v610 main_v624 ((transpose S1024x32 [1, 0] · transposes_S32x1024_S1024x32_1_0) : (⟨S32x1024, .f32⟩ : BufTy).Contents (Elt F) → (⟨S1024x32, .f32⟩ : BufTy).Contents (Elt F)),
    binary main_v602 main_v624 main_v625 ((fun l r => Host.dotGeneral dot_S1024x1024_S1024x32_S1024x32_1_0_0_1_n_n none l r) : (⟨S1024x1024, .f32⟩ : BufTy).Contents (Elt F) → (⟨S1024x32, .f32⟩ : BufTy).Contents (Elt F) → (⟨S1024x32, .f32⟩ : BufTy).Contents (Elt F)),
    unary main_v612 main_v626 ((transpose S32x1024 [1, 0] · transposes_S1024x32_S32x1024_1_0) : (⟨S1024x32, .f32⟩ : BufTy).Contents (Elt F) → (⟨S32x1024, .f32⟩ : BufTy).Contents (Elt F)),
    binary main_v625 main_v626 main_v627 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F)),
    nullary main_cst_35 (constant S_ .f32 0x3DBFE5C9#32),
    unary main_cst_35 main_v628 (broadcastInDim S1024x1024 ![] bcast_S_S1024x1024 : (⟨S_, .f32⟩ : BufTy).Contents (Elt F) → (⟨S1024x1024, .f32⟩ : BufTy).Contents (Elt F)),
    binary main_v628 main_v627 main_v629 (mulf : (⟨S1024x1024, .f32⟩ : BufTy).Contents (Elt F) → (⟨S1024x1024, .f32⟩ : BufTy).Contents (Elt F) → (⟨S1024x1024, .f32⟩ : BufTy).Contents (Elt F)),
    binary main_v623 main_v629 main_v630 (addf : (⟨S1024x1024, .f32⟩ : BufTy).Contents (Elt F) → (⟨S1024x1024, .f32⟩ : BufTy).Contents (Elt F) → (⟨S1024x1024, .f32⟩ : BufTy).Contents (Elt F)),
    binary main_v630 main_v544 main_v631 (addf : (⟨S1024x1024, .f32⟩ : BufTy).Contents (Elt F) → (⟨S1024x1024, .f32⟩ : BufTy).Contents (Elt F) → (⟨S1024x1024, .f32⟩ : BufTy).Contents (Elt F)) ]

abbrev W_q794 : List (Ref sig .tc) :=
  [main_v623, main_v624, main_v625, main_v626, main_v627, main_cst_35, main_v628, main_v629, main_v630, main_v631]

theorem q794_sub : (q794 : List (HloOp τ sig (Elt F))).Forall fun op => op.bufs ⊆ tcRefs τ sig :=
  ⟨binary_bufs_sub .., unary_bufs_sub .., binary_bufs_sub .., unary_bufs_sub .., binary_bufs_sub .., nullary_bufs_sub .., unary_bufs_sub .., binary_bufs_sub .., binary_bufs_sub .., binary_bufs_sub ..⟩

theorem q794_fresh : (q794 : List (HloOp τ sig (Elt F))).Forall fun op => op.fresh = ∅ :=
  ⟨rfl, rfl, rfl, rfl, rfl, rfl, rfl, rfl, rfl, rfl⟩

theorem q794_writes : (q794 : List (HloOp τ sig (Elt F))).Forall fun op => op.writes ⊆ ((W_q794).map (Proc.devRef (τ := τ) .tc)).toFinset :=
  ⟨writes_sub_of (y := main_v623) rfl (by decide),
   writes_sub_of (y := main_v624) rfl (by decide),
   writes_sub_of (y := main_v625) rfl (by decide),
   writes_sub_of (y := main_v626) rfl (by decide),
   writes_sub_of (y := main_v627) rfl (by decide),
   writes_sub_of (y := main_cst_35) rfl (by decide),
   writes_sub_of (y := main_v628) rfl (by decide),
   writes_sub_of (y := main_v629) rfl (by decide),
   writes_sub_of (y := main_v630) rfl (by decide),
   writes_sub_of (y := main_v631) rfl (by decide)⟩

theorem q794_keep (V : Valuation τ sig (Elt F)) {r : Ref sig .tc} (hr : r ∉ W_q794) :
    after q794 V (Proc.devRef .tc r) = V (Proc.devRef .tc r) :=
  after_of_writes_sub q794 V q794_writes hr

/-! ## The parts and the whole program as lines of operations -/

set_option maxRecDepth 8192 in
theorem part0_eq (c : Dev nD) : main_part0 (F := F) c = seq (q0 ++ (q32)) := by
  try simp only [seq_append]
  simp only [main_part0, fn_relu.body, fn_var.body, fn_where.body, seq, bind_assoc, pure_bind]
  try rfl

set_option maxRecDepth 8192 in
theorem part1_eq (c : Dev nD) : main_part1 (F := F) c = seq (q64 ++ (q94 ++ (q142))) := by
  try simp only [seq_append]
  simp only [main_part1, fn_relu.body, fn_var.body, fn_where.body, seq, bind_assoc, pure_bind]
  try rfl

set_option maxRecDepth 8192 in
theorem part2_eq (c : Dev nD) : main_part2 (F := F) c = seq (q146 ++ (q174 ++ (q206))) := by
  try simp only [seq_append]
  simp only [main_part2, fn_relu.body, fn_var.body, fn_where.body, seq, bind_assoc, pure_bind]
  try rfl

set_option maxRecDepth 8192 in
theorem part3_eq (c : Dev nD) : main_part3 (F := F) c = seq (q210 ++ (q236 ++ (q284))) := by
  try simp only [seq_append]
  simp only [main_part3, fn_relu.body, fn_var.body, fn_where.body, seq, bind_assoc, pure_bind]
  try rfl

set_option maxRecDepth 8192 in
theorem part4_eq (c : Dev nD) : main_part4 (F := F) c = seq (q292 ++ (q316 ++ (q348))) := by
  try simp only [seq_append]
  simp only [main_part4, fn_relu.body, fn_var.body, fn_where.body, seq, bind_assoc, pure_bind]
  try rfl

set_option maxRecDepth 8192 in
theorem part5_eq (c : Dev nD) : main_part5 (F := F) c = seq (q356 ++ (q378 ++ (q426))) := by
  try simp only [seq_append]
  simp only [main_part5, fn_relu.body, fn_var.body, fn_where.body, seq, bind_assoc, pure_bind]
  try rfl

set_option maxRecDepth 8192 in
theorem part6_eq (c : Dev nD) : main_part6 (F := F) c = seq (q438 ++ (q458 ++ (q490))) := by
  try simp only [seq_append]
  simp only [main_part6, fn_relu.body, fn_var.body, fn_where.body, seq, bind_assoc, pure_bind]
  try rfl

set_option maxRecDepth 8192 in
theorem part7_eq (c : Dev nD) : main_part7 (F := F) c = seq (q502 ++ (q520 ++ (q568))) := by
  try simp only [seq_append]
  simp only [main_part7, fn_relu.body, fn_var.body, fn_where.body, seq, bind_assoc, pure_bind]
  try rfl

set_option maxRecDepth 8192 in
theorem part8_eq (c : Dev nD) : main_part8 (F := F) c = seq (q584 ++ (q600 ++ (q632))) := by
  try simp only [seq_append]
  simp only [main_part8, fn_relu.body, fn_var.body, fn_where.body, seq, bind_assoc, pure_bind]
  try rfl

set_option maxRecDepth 8192 in
theorem part9_eq (c : Dev nD) : main_part9 (F := F) c = seq (q648 ++ (q662 ++ (q710))) := by
  try simp only [seq_append]
  simp only [main_part9, fn_relu.body, fn_var.body, fn_where.body, seq, bind_assoc, pure_bind]
  try rfl

set_option maxRecDepth 8192 in
theorem part10_eq (c : Dev nD) : main_part10 (F := F) c = seq (q730 ++ (q742 ++ (q774))) := by
  try simp only [seq_append]
  simp only [main_part10, fn_relu.body, fn_var.body, fn_where.body, seq, bind_assoc, pure_bind]
  try rfl

set_option maxRecDepth 8192 in
theorem part11_eq (c : Dev nD) : main_part11 (F := F) c = seq (q794) := by
  try simp only [seq_append]
  simp only [main_part11, fn_relu.body, fn_var.body, fn_where.body, seq, bind_assoc, pure_bind]
  try rfl

/-- The whole program's operations. -/
def allOps : List (HloOp τ sig (Elt F)) :=
  q0 ++ (q32 ++ (q64 ++ (q94 ++ (q142 ++ (q146 ++ (q174 ++ (q206 ++ (q210 ++ (q236 ++ (q284 ++ (q292 ++ (q316 ++ (q348 ++ (q356 ++ (q378 ++ (q426 ++ (q438 ++ (q458 ++ (q490 ++ (q502 ++ (q520 ++ (q568 ++ (q584 ++ (q600 ++ (q632 ++ (q648 ++ (q662 ++ (q710 ++ (q730 ++ (q742 ++ (q774 ++ (q794))))))))))))))))))))))))))))))))

theorem main_eq (c : Dev nD) : main (F := F) c = seq allOps := by
  simp only [main, part0_eq, part1_eq, part2_eq, part3_eq, part4_eq, part5_eq, part6_eq, part7_eq, part8_eq, part9_eq, part10_eq, part11_eq, allOps, seq_append, bind_assoc]

theorem ops_sub : (allOps : List (HloOp τ sig (Elt F))).Forall fun op => op.bufs ⊆ tcRefs τ sig :=
  forall_append q0_sub (forall_append q32_sub (forall_append q64_sub (forall_append q94_sub (forall_append q142_sub (forall_append q146_sub (forall_append q174_sub (forall_append q206_sub (forall_append q210_sub (forall_append q236_sub (forall_append q284_sub (forall_append q292_sub (forall_append q316_sub (forall_append q348_sub (forall_append q356_sub (forall_append q378_sub (forall_append q426_sub (forall_append q438_sub (forall_append q458_sub (forall_append q490_sub (forall_append q502_sub (forall_append q520_sub (forall_append q568_sub (forall_append q584_sub (forall_append q600_sub (forall_append q632_sub (forall_append q648_sub (forall_append q662_sub (forall_append q710_sub (forall_append q730_sub (forall_append q742_sub (forall_append q774_sub (q794_sub))))))))))))))))))))))))))))))))

theorem ops_fresh : ∀ op ∈ (allOps : List (HloOp τ sig (Elt F))), op.fresh = ∅ :=
  List.forall_iff_forall_mem.mp (forall_append q0_fresh (forall_append q32_fresh (forall_append q64_fresh (forall_append q94_fresh (forall_append q142_fresh (forall_append q146_fresh (forall_append q174_fresh (forall_append q206_fresh (forall_append q210_fresh (forall_append q236_fresh (forall_append q284_fresh (forall_append q292_fresh (forall_append q316_fresh (forall_append q348_fresh (forall_append q356_fresh (forall_append q378_fresh (forall_append q426_fresh (forall_append q438_fresh (forall_append q458_fresh (forall_append q490_fresh (forall_append q502_fresh (forall_append q520_fresh (forall_append q568_fresh (forall_append q584_fresh (forall_append q600_fresh (forall_append q632_fresh (forall_append q648_fresh (forall_append q662_fresh (forall_append q710_fresh (forall_append q730_fresh (forall_append q742_fresh (forall_append q774_fresh (q794_fresh)))))))))))))))))))))))))))))))))

theorem scopedRefs_eq : (Finset.univ.filter fun b : Ref sig .tc => b.isScoped) = ∅ := by decide
theorem scopedSems_eq : (Finset.univ.filter fun sm : SemLoc sig => sm.isScoped .tc) = ∅ := by decide

/-- Every weakly fair execution of the program ends, each buffer at the fold of the operations over its launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after allOps (launchContents m c) (Proc.devRef .tc b) :=
  run_seq scopedRefs_eq scopedSems_eq defs main (fun _ => allOps) main_eq (fun _ => ops_sub) m ρ (fun _ => ops_fresh)

end Cert.ReferenceIdeal.RefRun

end
-- ==== Proof.Ref.Run1.lean ====
/-
  The reference program's twenty-three steps, each read from arbitrary contents: the step's result buffer ends at the
  step's stage function (a layer and the positive part, a layer and the block's input added back, or the row
  normalisation) of the contents of the buffers the step reads, and a buffer the step does not write is unchanged.
-/
import proofs.«136264_j72249939853571_2_alg».proof.Proof.Gen.ReferenceIdeal
import proofs.«136264_j72249939853571_2_alg».proof.Proof.Ref.Stages
import Idealize.ShloMosaic.Lib.StableHlo.Run
import Idealize.ShloMosaic.Lib.Pipeline.Frame
import proofs.«136264_j72249939853571_2_alg».proof.Proof.Ref.Run0

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

/-! ## The steps

The program is twenty-three steps: per block two layers each followed by the positive part, a third layer followed
by the block's input added back, and (but for the last block) the row normalisation. Each step, run from any
contents `V`, leaves its result buffer at the step's stage function of the contents of the buffers it reads, and
every buffer it does not write as it was. -/

theorem step0_keep {F : FTy → Type} [FloatOps F] (V : Valuation τ sig (Elt F)) {r : Ref sig .tc} (h0 : r ∉ W_q0) :
    after q0 (V) (Proc.devRef .tc r) = V (Proc.devRef .tc r) :=
  q0_keep V h0

set_option maxHeartbeats 4000000 in
theorem step0_val (V : Valuation τ sig (Elt Ideal)) :
    after (q0 (F := Ideal)) (V) (main_v28 : DevRef τ sig)
      = refRelu (refLayer slices_S6x3x1024x1024_S1x1x1024x1024_0_0_0_0 slices_S6x3x1024x64_S1x1x1024x64_0_0_0_0 slices_S6x3x1024_S1x1x1024_0_0_0 slices_S6x3x32x1024_S1x1x32x1024_0_0_0_0 slices_S6x3x1024x32_S1x1x1024x32_0_0_0_0
          (V (main_arg1 : DevRef τ sig)) (V (main_arg2 : DevRef τ sig)) (V (main_arg3 : DevRef τ sig)) (V (main_arg4 : DevRef τ sig)) (V (main_arg5 : DevRef τ sig)) (V (main_arg0 : DevRef τ sig))) := by
  after_results_simp
  try simp only [TRef.toBuf, TRef.ofBuf, cast_eq, id]
  try rfl

theorem step1_keep {F : FTy → Type} [FloatOps F] (V : Valuation τ sig (Elt F)) {r : Ref sig .tc} (h0 : r ∉ W_q32) :
    after q32 (V) (Proc.devRef .tc r) = V (Proc.devRef .tc r) :=
  q32_keep V h0

set_option maxHeartbeats 4000000 in
theorem step1_val (V : Valuation τ sig (Elt Ideal)) :
    after (q32 (F := Ideal)) (V) (main_v57 : DevRef τ sig)
      = refRelu (refLayer slices_S6x3x1024x1024_S1x1x1024x1024_0_1_0_0 slices_S6x3x1024x64_S1x1x1024x64_0_1_0_0 slices_S6x3x1024_S1x1x1024_0_1_0 slices_S6x3x32x1024_S1x1x32x1024_0_1_0_0 slices_S6x3x1024x32_S1x1x1024x32_0_1_0_0
          (V (main_arg1 : DevRef τ sig)) (V (main_arg2 : DevRef τ sig)) (V (main_arg3 : DevRef τ sig)) (V (main_arg4 : DevRef τ sig)) (V (main_arg5 : DevRef τ sig)) (V (main_v28 : DevRef τ sig))) := by
  after_results_simp
  try simp only [TRef.toBuf, TRef.ofBuf, cast_eq, id]
  try rfl

theorem step2_keep {F : FTy → Type} [FloatOps F] (V : Valuation τ sig (Elt F)) {r : Ref sig .tc} (h0 : r ∉ W_q64) :
    after q64 (V) (Proc.devRef .tc r) = V (Proc.devRef .tc r) :=
  q64_keep V h0

set_option maxHeartbeats 4000000 in
theorem step2_val (V : Valuation τ sig (Elt Ideal)) :
    after (q64 (F := Ideal)) (V) (main_v86 : DevRef τ sig)
      = addf (refLayer slices_S6x3x1024x1024_S1x1x1024x1024_0_2_0_0 slices_S6x3x1024x64_S1x1x1024x64_0_2_0_0 slices_S6x3x1024_S1x1x1024_0_2_0 slices_S6x3x32x1024_S1x1x32x1024_0_2_0_0 slices_S6x3x1024x32_S1x1x1024x32_0_2_0_0
          (V (main_arg1 : DevRef τ sig)) (V (main_arg2 : DevRef τ sig)) (V (main_arg3 : DevRef τ sig)) (V (main_arg4 : DevRef τ sig)) (V (main_arg5 : DevRef τ sig)) (V (main_v57 : DevRef τ sig))) (V (main_arg0 : DevRef τ sig)) := by
  after_results_simp
  try simp only [TRef.toBuf, TRef.ofBuf, cast_eq, id]
  try rfl

theorem step3_keep {F : FTy → Type} [FloatOps F] (V : Valuation τ sig (Elt F)) {r : Ref sig .tc} (h0 : r ∉ W_q94) :
    after q94 (V) (Proc.devRef .tc r) = V (Proc.devRef .tc r) :=
  q94_keep V h0

set_option maxHeartbeats 4000000 in
theorem step3_val (V : Valuation τ sig (Elt Ideal)) :
    after (q94 (F := Ideal)) (V) (main_v108 : DevRef τ sig)
      = refNorm slices_S5x1024_S1x1024_0_0 (V (main_arg6 : DevRef τ sig)) (V (main_arg7 : DevRef τ sig)) (V (main_v86 : DevRef τ sig)) := by
  after_results_simp
  try simp only [TRef.toBuf, TRef.ofBuf, cast_eq, id]
  try rfl

theorem step4_keep {F : FTy → Type} [FloatOps F] (V : Valuation τ sig (Elt F)) {r : Ref sig .tc} (h0 : r ∉ W_q142) (h1 : r ∉ W_q146) :
    after q146 (after q142 (V)) (Proc.devRef .tc r) = V (Proc.devRef .tc r) :=
  (q146_keep _ h1).trans (q142_keep V h0)

set_option maxHeartbeats 4000000 in
theorem step4_val (V : Valuation τ sig (Elt Ideal)) :
    after (q146 (F := Ideal)) (after (q142 (F := Ideal)) (V)) (main_v137 : DevRef τ sig)
      = refRelu (refLayer slices_S6x3x1024x1024_S1x1x1024x1024_1_0_0_0 slices_S6x3x1024x64_S1x1x1024x64_1_0_0_0 slices_S6x3x1024_S1x1x1024_1_0_0 slices_S6x3x32x1024_S1x1x32x1024_1_0_0_0 slices_S6x3x1024x32_S1x1x1024x32_1_0_0_0
          (V (main_arg1 : DevRef τ sig)) (V (main_arg2 : DevRef τ sig)) (V (main_arg3 : DevRef τ sig)) (V (main_arg4 : DevRef τ sig)) (V (main_arg5 : DevRef τ sig)) (V (main_v108 : DevRef τ sig))) := by
  after_results_simp
  try simp only [TRef.toBuf, TRef.ofBuf, cast_eq, id]
  try rfl

theorem step5_keep {F : FTy → Type} [FloatOps F] (V : Valuation τ sig (Elt F)) {r : Ref sig .tc} (h0 : r ∉ W_q174) :
    after q174 (V) (Proc.devRef .tc r) = V (Proc.devRef .tc r) :=
  q174_keep V h0

set_option maxHeartbeats 4000000 in
theorem step5_val (V : Valuation τ sig (Elt Ideal)) :
    after (q174 (F := Ideal)) (V) (main_v166 : DevRef τ sig)
      = refRelu (refLayer slices_S6x3x1024x1024_S1x1x1024x1024_1_1_0_0 slices_S6x3x1024x64_S1x1x1024x64_1_1_0_0 slices_S6x3x1024_S1x1x1024_1_1_0 slices_S6x3x32x1024_S1x1x32x1024_1_1_0_0 slices_S6x3x1024x32_S1x1x1024x32_1_1_0_0
          (V (main_arg1 : DevRef τ sig)) (V (main_arg2 : DevRef τ sig)) (V (main_arg3 : DevRef τ sig)) (V (main_arg4 : DevRef τ sig)) (V (main_arg5 : DevRef τ sig)) (V (main_v137 : DevRef τ sig))) := by
  after_results_simp
  try simp only [TRef.toBuf, TRef.ofBuf, cast_eq, id]
  try rfl

theorem step6_keep {F : FTy → Type} [FloatOps F] (V : Valuation τ sig (Elt F)) {r : Ref sig .tc} (h0 : r ∉ W_q206) (h1 : r ∉ W_q210) :
    after q210 (after q206 (V)) (Proc.devRef .tc r) = V (Proc.devRef .tc r) :=
  (q210_keep _ h1).trans (q206_keep V h0)

set_option maxHeartbeats 4000000 in
theorem step6_val (V : Valuation τ sig (Elt Ideal)) :
    after (q210 (F := Ideal)) (after (q206 (F := Ideal)) (V)) (main_v195 : DevRef τ sig)
      = addf (refLayer slices_S6x3x1024x1024_S1x1x1024x1024_1_2_0_0 slices_S6x3x1024x64_S1x1x1024x64_1_2_0_0 slices_S6x3x1024_S1x1x1024_1_2_0 slices_S6x3x32x1024_S1x1x32x1024_1_2_0_0 slices_S6x3x1024x32_S1x1x1024x32_1_2_0_0
          (V (main_arg1 : DevRef τ sig)) (V (main_arg2 : DevRef τ sig)) (V (main_arg3 : DevRef τ sig)) (V (main_arg4 : DevRef τ sig)) (V (main_arg5 : DevRef τ sig)) (V (main_v166 : DevRef τ sig))) (V (main_v108 : DevRef τ sig)) := by
  after_results_simp
  try simp only [TRef.toBuf, TRef.ofBuf, cast_eq, id]
  try rfl

theorem step7_keep {F : FTy → Type} [FloatOps F] (V : Valuation τ sig (Elt F)) {r : Ref sig .tc} (h0 : r ∉ W_q236) :
    after q236 (V) (Proc.devRef .tc r) = V (Proc.devRef .tc r) :=
  q236_keep V h0

set_option maxHeartbeats 4000000 in
theorem step7_val (V : Valuation τ sig (Elt Ideal)) :
    after (q236 (F := Ideal)) (V) (main_v217 : DevRef τ sig)
      = refNorm slices_S5x1024_S1x1024_1_0 (V (main_arg6 : DevRef τ sig)) (V (main_arg7 : DevRef τ sig)) (V (main_v195 : DevRef τ sig)) := by
  after_results_simp
  try simp only [TRef.toBuf, TRef.ofBuf, cast_eq, id]
  try rfl

theorem step8_keep {F : FTy → Type} [FloatOps F] (V : Valuation τ sig (Elt F)) {r : Ref sig .tc} (h0 : r ∉ W_q284) (h1 : r ∉ W_q292) :
    after q292 (after q284 (V)) (Proc.devRef .tc r) = V (Proc.devRef .tc r) :=
  (q292_keep _ h1).trans (q284_keep V h0)

set_option maxHeartbeats 4000000 in
theorem step8_val (V : Valuation τ sig (Elt Ideal)) :
    after (q292 (F := Ideal)) (after (q284 (F := Ideal)) (V)) (main_v246 : DevRef τ sig)
      = refRelu (refLayer slices_S6x3x1024x1024_S1x1x1024x1024_2_0_0_0 slices_S6x3x1024x64_S1x1x1024x64_2_0_0_0 slices_S6x3x1024_S1x1x1024_2_0_0 slices_S6x3x32x1024_S1x1x32x1024_2_0_0_0 slices_S6x3x1024x32_S1x1x1024x32_2_0_0_0
          (V (main_arg1 : DevRef τ sig)) (V (main_arg2 : DevRef τ sig)) (V (main_arg3 : DevRef τ sig)) (V (main_arg4 : DevRef τ sig)) (V (main_arg5 : DevRef τ sig)) (V (main_v217 : DevRef τ sig))) := by
  after_results_simp
  try simp only [TRef.toBuf, TRef.ofBuf, cast_eq, id]
  try rfl

theorem step9_keep {F : FTy → Type} [FloatOps F] (V : Valuation τ sig (Elt F)) {r : Ref sig .tc} (h0 : r ∉ W_q316) :
    after q316 (V) (Proc.devRef .tc r) = V (Proc.devRef .tc r) :=
  q316_keep V h0

set_option maxHeartbeats 4000000 in
theorem step9_val (V : Valuation τ sig (Elt Ideal)) :
    after (q316 (F := Ideal)) (V) (main_v275 : DevRef τ sig)
      = refRelu (refLayer slices_S6x3x1024x1024_S1x1x1024x1024_2_1_0_0 slices_S6x3x1024x64_S1x1x1024x64_2_1_0_0 slices_S6x3x1024_S1x1x1024_2_1_0 slices_S6x3x32x1024_S1x1x32x1024_2_1_0_0 slices_S6x3x1024x32_S1x1x1024x32_2_1_0_0
          (V (main_arg1 : DevRef τ sig)) (V (main_arg2 : DevRef τ sig)) (V (main_arg3 : DevRef τ sig)) (V (main_arg4 : DevRef τ sig)) (V (main_arg5 : DevRef τ sig)) (V (main_v246 : DevRef τ sig))) := by
  after_results_simp
  try simp only [TRef.toBuf, TRef.ofBuf, cast_eq, id]
  try rfl

theorem step10_keep {F : FTy → Type} [FloatOps F] (V : Valuation τ sig (Elt F)) {r : Ref sig .tc} (h0 : r ∉ W_q348) (h1 : r ∉ W_q356) :
    after q356 (after q348 (V)) (Proc.devRef .tc r) = V (Proc.devRef .tc r) :=
  (q356_keep _ h1).trans (q348_keep V h0)

set_option maxHeartbeats 4000000 in
theorem step10_val (V : Valuation τ sig (Elt Ideal)) :
    after (q356 (F := Ideal)) (after (q348 (F := Ideal)) (V)) (main_v304 : DevRef τ sig)
      = addf (refLayer slices_S6x3x1024x1024_S1x1x1024x1024_2_2_0_0 slices_S6x3x1024x64_S1x1x1024x64_2_2_0_0 slices_S6x3x1024_S1x1x1024_2_2_0 slices_S6x3x32x1024_S1x1x32x1024_2_2_0_0 slices_S6x3x1024x32_S1x1x1024x32_2_2_0_0
          (V (main_arg1 : DevRef τ sig)) (V (main_arg2 : DevRef τ sig)) (V (main_arg3 : DevRef τ sig)) (V (main_arg4 : DevRef τ sig)) (V (main_arg5 : DevRef τ sig)) (V (main_v275 : DevRef τ sig))) (V (main_v217 : DevRef τ sig)) := by
  after_results_simp
  try simp only [TRef.toBuf, TRef.ofBuf, cast_eq, id]
  try rfl

theorem step11_keep {F : FTy → Type} [FloatOps F] (V : Valuation τ sig (Elt F)) {r : Ref sig .tc} (h0 : r ∉ W_q378) :
    after q378 (V) (Proc.devRef .tc r) = V (Proc.devRef .tc r) :=
  q378_keep V h0

set_option maxHeartbeats 4000000 in
theorem step11_val (V : Valuation τ sig (Elt Ideal)) :
    after (q378 (F := Ideal)) (V) (main_v326 : DevRef τ sig)
      = refNorm slices_S5x1024_S1x1024_2_0 (V (main_arg6 : DevRef τ sig)) (V (main_arg7 : DevRef τ sig)) (V (main_v304 : DevRef τ sig)) := by
  after_results_simp
  try simp only [TRef.toBuf, TRef.ofBuf, cast_eq, id]
  try rfl

theorem step12_keep {F : FTy → Type} [FloatOps F] (V : Valuation τ sig (Elt F)) {r : Ref sig .tc} (h0 : r ∉ W_q426) (h1 : r ∉ W_q438) :
    after q438 (after q426 (V)) (Proc.devRef .tc r) = V (Proc.devRef .tc r) :=
  (q438_keep _ h1).trans (q426_keep V h0)

set_option maxHeartbeats 4000000 in
theorem step12_val (V : Valuation τ sig (Elt Ideal)) :
    after (q438 (F := Ideal)) (after (q426 (F := Ideal)) (V)) (main_v355 : DevRef τ sig)
      = refRelu (refLayer slices_S6x3x1024x1024_S1x1x1024x1024_3_0_0_0 slices_S6x3x1024x64_S1x1x1024x64_3_0_0_0 slices_S6x3x1024_S1x1x1024_3_0_0 slices_S6x3x32x1024_S1x1x32x1024_3_0_0_0 slices_S6x3x1024x32_S1x1x1024x32_3_0_0_0
          (V (main_arg1 : DevRef τ sig)) (V (main_arg2 : DevRef τ sig)) (V (main_arg3 : DevRef τ sig)) (V (main_arg4 : DevRef τ sig)) (V (main_arg5 : DevRef τ sig)) (V (main_v326 : DevRef τ sig))) := by
  after_results_simp
  try simp only [TRef.toBuf, TRef.ofBuf, cast_eq, id]
  try rfl

theorem step13_keep {F : FTy → Type} [FloatOps F] (V : Valuation τ sig (Elt F)) {r : Ref sig .tc} (h0 : r ∉ W_q458) :
    after q458 (V) (Proc.devRef .tc r) = V (Proc.devRef .tc r) :=
  q458_keep V h0

set_option maxHeartbeats 4000000 in
theorem step13_val (V : Valuation τ sig (Elt Ideal)) :
    after (q458 (F := Ideal)) (V) (main_v384 : DevRef τ sig)
      = refRelu (refLayer slices_S6x3x1024x1024_S1x1x1024x1024_3_1_0_0 slices_S6x3x1024x64_S1x1x1024x64_3_1_0_0 slices_S6x3x1024_S1x1x1024_3_1_0 slices_S6x3x32x1024_S1x1x32x1024_3_1_0_0 slices_S6x3x1024x32_S1x1x1024x32_3_1_0_0
          (V (main_arg1 : DevRef τ sig)) (V (main_arg2 : DevRef τ sig)) (V (main_arg3 : DevRef τ sig)) (V (main_arg4 : DevRef τ sig)) (V (main_arg5 : DevRef τ sig)) (V (main_v355 : DevRef τ sig))) := by
  after_results_simp
  try simp only [TRef.toBuf, TRef.ofBuf, cast_eq, id]
  try rfl

theorem step14_keep {F : FTy → Type} [FloatOps F] (V : Valuation τ sig (Elt F)) {r : Ref sig .tc} (h0 : r ∉ W_q490) (h1 : r ∉ W_q502) :
    after q502 (after q490 (V)) (Proc.devRef .tc r) = V (Proc.devRef .tc r) :=
  (q502_keep _ h1).trans (q490_keep V h0)

set_option maxHeartbeats 4000000 in
theorem step14_val (V : Valuation τ sig (Elt Ideal)) :
    after (q502 (F := Ideal)) (after (q490 (F := Ideal)) (V)) (main_v413 : DevRef τ sig)
      = addf (refLayer slices_S6x3x1024x1024_S1x1x1024x1024_3_2_0_0 slices_S6x3x1024x64_S1x1x1024x64_3_2_0_0 slices_S6x3x1024_S1x1x1024_3_2_0 slices_S6x3x32x1024_S1x1x32x1024_3_2_0_0 slices_S6x3x1024x32_S1x1x1024x32_3_2_0_0
          (V (main_arg1 : DevRef τ sig)) (V (main_arg2 : DevRef τ sig)) (V (main_arg3 : DevRef τ sig)) (V (main_arg4 : DevRef τ sig)) (V (main_arg5 : DevRef τ sig)) (V (main_v384 : DevRef τ sig))) (V (main_v326 : DevRef τ sig)) := by
  after_results_simp
  try simp only [TRef.toBuf, TRef.ofBuf, cast_eq, id]
  try rfl

theorem step15_keep {F : FTy → Type} [FloatOps F] (V : Valuation τ sig (Elt F)) {r : Ref sig .tc} (h0 : r ∉ W_q520) :
    after q520 (V) (Proc.devRef .tc r) = V (Proc.devRef .tc r) :=
  q520_keep V h0

set_option maxHeartbeats 4000000 in
theorem step15_val (V : Valuation τ sig (Elt Ideal)) :
    after (q520 (F := Ideal)) (V) (main_v435 : DevRef τ sig)
      = refNorm slices_S5x1024_S1x1024_3_0 (V (main_arg6 : DevRef τ sig)) (V (main_arg7 : DevRef τ sig)) (V (main_v413 : DevRef τ sig)) := by
  after_results_simp
  try simp only [TRef.toBuf, TRef.ofBuf, cast_eq, id]
  try rfl

theorem step16_keep {F : FTy → Type} [FloatOps F] (V : Valuation τ sig (Elt F)) {r : Ref sig .tc} (h0 : r ∉ W_q568) (h1 : r ∉ W_q584) :
    after q584 (after q568 (V)) (Proc.devRef .tc r) = V (Proc.devRef .tc r) :=
  (q584_keep _ h1).trans (q568_keep V h0)

set_option maxHeartbeats 4000000 in
theorem step16_val (V : Valuation τ sig (Elt Ideal)) :
    after (q584 (F := Ideal)) (after (q568 (F := Ideal)) (V)) (main_v464 : DevRef τ sig)
      = refRelu (refLayer slices_S6x3x1024x1024_S1x1x1024x1024_4_0_0_0 slices_S6x3x1024x64_S1x1x1024x64_4_0_0_0 slices_S6x3x1024_S1x1x1024_4_0_0 slices_S6x3x32x1024_S1x1x32x1024_4_0_0_0 slices_S6x3x1024x32_S1x1x1024x32_4_0_0_0
          (V (main_arg1 : DevRef τ sig)) (V (main_arg2 : DevRef τ sig)) (V (main_arg3 : DevRef τ sig)) (V (main_arg4 : DevRef τ sig)) (V (main_arg5 : DevRef τ sig)) (V (main_v435 : DevRef τ sig))) := by
  after_results_simp
  try simp only [TRef.toBuf, TRef.ofBuf, cast_eq, id]
  try rfl

theorem step17_keep {F : FTy → Type} [FloatOps F] (V : Valuation τ sig (Elt F)) {r : Ref sig .tc} (h0 : r ∉ W_q600) :
    after q600 (V) (Proc.devRef .tc r) = V (Proc.devRef .tc r) :=
  q600_keep V h0

set_option maxHeartbeats 4000000 in
theorem step17_val (V : Valuation τ sig (Elt Ideal)) :
    after (q600 (F := Ideal)) (V) (main_v493 : DevRef τ sig)
      = refRelu (refLayer slices_S6x3x1024x1024_S1x1x1024x1024_4_1_0_0 slices_S6x3x1024x64_S1x1x1024x64_4_1_0_0 slices_S6x3x1024_S1x1x1024_4_1_0 slices_S6x3x32x1024_S1x1x32x1024_4_1_0_0 slices_S6x3x1024x32_S1x1x1024x32_4_1_0_0
          (V (main_arg1 : DevRef τ sig)) (V (main_arg2 : DevRef τ sig)) (V (main_arg3 : DevRef τ sig)) (V (main_arg4 : DevRef τ sig)) (V (main_arg5 : DevRef τ sig)) (V (main_v464 : DevRef τ sig))) := by
  after_results_simp
  try simp only [TRef.toBuf, TRef.ofBuf, cast_eq, id]
  try rfl

theorem step18_keep {F : FTy → Type} [FloatOps F] (V : Valuation τ sig (Elt F)) {r : Ref sig .tc} (h0 : r ∉ W_q632) (h1 : r ∉ W_q648) :
    after q648 (after q632 (V)) (Proc.devRef .tc r) = V (Proc.devRef .tc r) :=
  (q648_keep _ h1).trans (q632_keep V h0)

set_option maxHeartbeats 4000000 in
theorem step18_val (V : Valuation τ sig (Elt Ideal)) :
    after (q648 (F := Ideal)) (after (q632 (F := Ideal)) (V)) (main_v522 : DevRef τ sig)
      = addf (refLayer slices_S6x3x1024x1024_S1x1x1024x1024_4_2_0_0 slices_S6x3x1024x64_S1x1x1024x64_4_2_0_0 slices_S6x3x1024_S1x1x1024_4_2_0 slices_S6x3x32x1024_S1x1x32x1024_4_2_0_0 slices_S6x3x1024x32_S1x1x1024x32_4_2_0_0
          (V (main_arg1 : DevRef τ sig)) (V (main_arg2 : DevRef τ sig)) (V (main_arg3 : DevRef τ sig)) (V (main_arg4 : DevRef τ sig)) (V (main_arg5 : DevRef τ sig)) (V (main_v493 : DevRef τ sig))) (V (main_v435 : DevRef τ sig)) := by
  after_results_simp
  try simp only [TRef.toBuf, TRef.ofBuf, cast_eq, id]
  try rfl

theorem step19_keep {F : FTy → Type} [FloatOps F] (V : Valuation τ sig (Elt F)) {r : Ref sig .tc} (h0 : r ∉ W_q662) :
    after q662 (V) (Proc.devRef .tc r) = V (Proc.devRef .tc r) :=
  q662_keep V h0

set_option maxHeartbeats 4000000 in
theorem step19_val (V : Valuation τ sig (Elt Ideal)) :
    after (q662 (F := Ideal)) (V) (main_v544 : DevRef τ sig)
      = refNorm slices_S5x1024_S1x1024_4_0 (V (main_arg6 : DevRef τ sig)) (V (main_arg7 : DevRef τ sig)) (V (main_v522 : DevRef τ sig)) := by
  after_results_simp
  try simp only [TRef.toBuf, TRef.ofBuf, cast_eq, id]
  try rfl

theorem step20_keep {F : FTy → Type} [FloatOps F] (V : Valuation τ sig (Elt F)) {r : Ref sig .tc} (h0 : r ∉ W_q710) (h1 : r ∉ W_q730) :
    after q730 (after q710 (V)) (Proc.devRef .tc r) = V (Proc.devRef .tc r) :=
  (q730_keep _ h1).trans (q710_keep V h0)

set_option maxHeartbeats 4000000 in
theorem step20_val (V : Valuation τ sig (Elt Ideal)) :
    after (q730 (F := Ideal)) (after (q710 (F := Ideal)) (V)) (main_v573 : DevRef τ sig)
      = refRelu (refLayer slices_S6x3x1024x1024_S1x1x1024x1024_5_0_0_0 slices_S6x3x1024x64_S1x1x1024x64_5_0_0_0 slices_S6x3x1024_S1x1x1024_5_0_0 slices_S6x3x32x1024_S1x1x32x1024_5_0_0_0 slices_S6x3x1024x32_S1x1x1024x32_5_0_0_0
          (V (main_arg1 : DevRef τ sig)) (V (main_arg2 : DevRef τ sig)) (V (main_arg3 : DevRef τ sig)) (V (main_arg4 : DevRef τ sig)) (V (main_arg5 : DevRef τ sig)) (V (main_v544 : DevRef τ sig))) := by
  after_results_simp
  try simp only [TRef.toBuf, TRef.ofBuf, cast_eq, id]
  try rfl

theorem step21_keep {F : FTy → Type} [FloatOps F] (V : Valuation τ sig (Elt F)) {r : Ref sig .tc} (h0 : r ∉ W_q742) :
    after q742 (V) (Proc.devRef .tc r) = V (Proc.devRef .tc r) :=
  q742_keep V h0

set_option maxHeartbeats 4000000 in
theorem step21_val (V : Valuation τ sig (Elt Ideal)) :
    after (q742 (F := Ideal)) (V) (main_v602 : DevRef τ sig)
      = refRelu (refLayer slices_S6x3x1024x1024_S1x1x1024x1024_5_1_0_0 slices_S6x3x1024x64_S1x1x1024x64_5_1_0_0 slices_S6x3x1024_S1x1x1024_5_1_0 slices_S6x3x32x1024_S1x1x32x1024_5_1_0_0 slices_S6x3x1024x32_S1x1x1024x32_5_1_0_0
          (V (main_arg1 : DevRef τ sig)) (V (main_arg2 : DevRef τ sig)) (V (main_arg3 : DevRef τ sig)) (V (main_arg4 : DevRef τ sig)) (V (main_arg5 : DevRef τ sig)) (V (main_v573 : DevRef τ sig))) := by
  after_results_simp
  try simp only [TRef.toBuf, TRef.ofBuf, cast_eq, id]
  try rfl

theorem step22_keep {F : FTy → Type} [FloatOps F] (V : Valuation τ sig (Elt F)) {r : Ref sig .tc} (h0 : r ∉ W_q774) (h1 : r ∉ W_q794) :
    after q794 (after q774 (V)) (Proc.devRef .tc r) = V (Proc.devRef .tc r) :=
  (q794_keep _ h1).trans (q774_keep V h0)

set_option maxHeartbeats 4000000 in
theorem step22_val (V : Valuation τ sig (Elt Ideal)) :
    after (q794 (F := Ideal)) (after (q774 (F := Ideal)) (V)) (main_v631 : DevRef τ sig)
      = addf (refLayer slices_S6x3x1024x1024_S1x1x1024x1024_5_2_0_0 slices_S6x3x1024x64_S1x1x1024x64_5_2_0_0 slices_S6x3x1024_S1x1x1024_5_2_0 slices_S6x3x32x1024_S1x1x32x1024_5_2_0_0 slices_S6x3x1024x32_S1x1x1024x32_5_2_0_0
          (V (main_arg1 : DevRef τ sig)) (V (main_arg2 : DevRef τ sig)) (V (main_arg3 : DevRef τ sig)) (V (main_arg4 : DevRef τ sig)) (V (main_arg5 : DevRef τ sig)) (V (main_v602 : DevRef τ sig))) (V (main_v544 : DevRef τ sig)) := by
  after_results_simp
  try simp only [TRef.toBuf, TRef.ofBuf, cast_eq, id]
  try rfl

end Cert.ReferenceIdeal.RefRun

end
-- ==== Proof.Ref.Run.lean ====
/-
  The reference program's run: the contents after each step, the argument buffers unchanged throughout, each step's
  result as the composition of the stages so far at the arguments' contents, and so the result buffer at the whole
  network of the arguments.
-/
import proofs.«136264_j72249939853571_2_alg».proof.Proof.Gen.ReferenceIdeal
import proofs.«136264_j72249939853571_2_alg».proof.Proof.Ref.Stages
import Idealize.ShloMosaic.Lib.StableHlo.Run
import Idealize.ShloMosaic.Lib.Pipeline.Frame
import proofs.«136264_j72249939853571_2_alg».proof.Proof.Ref.Run1

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

/-! ## The contents after each step -/

variable {F : FTy → Type} [FloatOps F]

/-- The buffers' contents after step 0. -/
def V1 (V : Valuation τ sig (Elt F)) : Valuation τ sig (Elt F) := after q0 (V)
/-- The buffers' contents after step 1. -/
def V2 (V : Valuation τ sig (Elt F)) : Valuation τ sig (Elt F) := after q32 ((V1 V))
/-- The buffers' contents after step 2. -/
def V3 (V : Valuation τ sig (Elt F)) : Valuation τ sig (Elt F) := after q64 ((V2 V))
/-- The buffers' contents after step 3. -/
def V4 (V : Valuation τ sig (Elt F)) : Valuation τ sig (Elt F) := after q94 ((V3 V))
/-- The buffers' contents after step 4. -/
def V5 (V : Valuation τ sig (Elt F)) : Valuation τ sig (Elt F) := after q146 (after q142 ((V4 V)))
/-- The buffers' contents after step 5. -/
def V6 (V : Valuation τ sig (Elt F)) : Valuation τ sig (Elt F) := after q174 ((V5 V))
/-- The buffers' contents after step 6. -/
def V7 (V : Valuation τ sig (Elt F)) : Valuation τ sig (Elt F) := after q210 (after q206 ((V6 V)))
/-- The buffers' contents after step 7. -/
def V8 (V : Valuation τ sig (Elt F)) : Valuation τ sig (Elt F) := after q236 ((V7 V))
/-- The buffers' contents after step 8. -/
def V9 (V : Valuation τ sig (Elt F)) : Valuation τ sig (Elt F) := after q292 (after q284 ((V8 V)))
/-- The buffers' contents after step 9. -/
def V10 (V : Valuation τ sig (Elt F)) : Valuation τ sig (Elt F) := after q316 ((V9 V))
/-- The buffers' contents after step 10. -/
def V11 (V : Valuation τ sig (Elt F)) : Valuation τ sig (Elt F) := after q356 (after q348 ((V10 V)))
/-- The buffers' contents after step 11. -/
def V12 (V : Valuation τ sig (Elt F)) : Valuation τ sig (Elt F) := after q378 ((V11 V))
/-- The buffers' contents after step 12. -/
def V13 (V : Valuation τ sig (Elt F)) : Valuation τ sig (Elt F) := after q438 (after q426 ((V12 V)))
/-- The buffers' contents after step 13. -/
def V14 (V : Valuation τ sig (Elt F)) : Valuation τ sig (Elt F) := after q458 ((V13 V))
/-- The buffers' contents after step 14. -/
def V15 (V : Valuation τ sig (Elt F)) : Valuation τ sig (Elt F) := after q502 (after q490 ((V14 V)))
/-- The buffers' contents after step 15. -/
def V16 (V : Valuation τ sig (Elt F)) : Valuation τ sig (Elt F) := after q520 ((V15 V))
/-- The buffers' contents after step 16. -/
def V17 (V : Valuation τ sig (Elt F)) : Valuation τ sig (Elt F) := after q584 (after q568 ((V16 V)))
/-- The buffers' contents after step 17. -/
def V18 (V : Valuation τ sig (Elt F)) : Valuation τ sig (Elt F) := after q600 ((V17 V))
/-- The buffers' contents after step 18. -/
def V19 (V : Valuation τ sig (Elt F)) : Valuation τ sig (Elt F) := after q648 (after q632 ((V18 V)))
/-- The buffers' contents after step 19. -/
def V20 (V : Valuation τ sig (Elt F)) : Valuation τ sig (Elt F) := after q662 ((V19 V))
/-- The buffers' contents after step 20. -/
def V21 (V : Valuation τ sig (Elt F)) : Valuation τ sig (Elt F) := after q730 (after q710 ((V20 V)))
/-- The buffers' contents after step 21. -/
def V22 (V : Valuation τ sig (Elt F)) : Valuation τ sig (Elt F) := after q742 ((V21 V))
/-- The buffers' contents after step 22. -/
def V23 (V : Valuation τ sig (Elt F)) : Valuation τ sig (Elt F) := after q794 (after q774 ((V22 V)))

/-- The argument buffers hold in `W` what they hold in `V`. -/
structure Keeps (V W : Valuation τ sig (Elt F)) : Prop where
  a0 : W (main_arg0 : DevRef τ sig) = V (main_arg0 : DevRef τ sig)
  a1 : W (main_arg1 : DevRef τ sig) = V (main_arg1 : DevRef τ sig)
  a2 : W (main_arg2 : DevRef τ sig) = V (main_arg2 : DevRef τ sig)
  a3 : W (main_arg3 : DevRef τ sig) = V (main_arg3 : DevRef τ sig)
  a4 : W (main_arg4 : DevRef τ sig) = V (main_arg4 : DevRef τ sig)
  a5 : W (main_arg5 : DevRef τ sig) = V (main_arg5 : DevRef τ sig)
  a6 : W (main_arg6 : DevRef τ sig) = V (main_arg6 : DevRef τ sig)
  a7 : W (main_arg7 : DevRef τ sig) = V (main_arg7 : DevRef τ sig)

theorem keeps1 (V : Valuation τ sig (Elt F)) : Keeps V (V1 V) :=
  ⟨step0_keep V (r := main_arg0) (by decide),
   step0_keep V (r := main_arg1) (by decide),
   step0_keep V (r := main_arg2) (by decide),
   step0_keep V (r := main_arg3) (by decide),
   step0_keep V (r := main_arg4) (by decide),
   step0_keep V (r := main_arg5) (by decide),
   step0_keep V (r := main_arg6) (by decide),
   step0_keep V (r := main_arg7) (by decide)⟩

theorem keeps2 (V : Valuation τ sig (Elt F)) : Keeps V (V2 V) :=
  ⟨(step1_keep (V1 V) (r := main_arg0) (by decide)).trans (keeps1 V).a0,
   (step1_keep (V1 V) (r := main_arg1) (by decide)).trans (keeps1 V).a1,
   (step1_keep (V1 V) (r := main_arg2) (by decide)).trans (keeps1 V).a2,
   (step1_keep (V1 V) (r := main_arg3) (by decide)).trans (keeps1 V).a3,
   (step1_keep (V1 V) (r := main_arg4) (by decide)).trans (keeps1 V).a4,
   (step1_keep (V1 V) (r := main_arg5) (by decide)).trans (keeps1 V).a5,
   (step1_keep (V1 V) (r := main_arg6) (by decide)).trans (keeps1 V).a6,
   (step1_keep (V1 V) (r := main_arg7) (by decide)).trans (keeps1 V).a7⟩

theorem keeps3 (V : Valuation τ sig (Elt F)) : Keeps V (V3 V) :=
  ⟨(step2_keep (V2 V) (r := main_arg0) (by decide)).trans (keeps2 V).a0,
   (step2_keep (V2 V) (r := main_arg1) (by decide)).trans (keeps2 V).a1,
   (step2_keep (V2 V) (r := main_arg2) (by decide)).trans (keeps2 V).a2,
   (step2_keep (V2 V) (r := main_arg3) (by decide)).trans (keeps2 V).a3,
   (step2_keep (V2 V) (r := main_arg4) (by decide)).trans (keeps2 V).a4,
   (step2_keep (V2 V) (r := main_arg5) (by decide)).trans (keeps2 V).a5,
   (step2_keep (V2 V) (r := main_arg6) (by decide)).trans (keeps2 V).a6,
   (step2_keep (V2 V) (r := main_arg7) (by decide)).trans (keeps2 V).a7⟩

theorem keeps4 (V : Valuation τ sig (Elt F)) : Keeps V (V4 V) :=
  ⟨(step3_keep (V3 V) (r := main_arg0) (by decide)).trans (keeps3 V).a0,
   (step3_keep (V3 V) (r := main_arg1) (by decide)).trans (keeps3 V).a1,
   (step3_keep (V3 V) (r := main_arg2) (by decide)).trans (keeps3 V).a2,
   (step3_keep (V3 V) (r := main_arg3) (by decide)).trans (keeps3 V).a3,
   (step3_keep (V3 V) (r := main_arg4) (by decide)).trans (keeps3 V).a4,
   (step3_keep (V3 V) (r := main_arg5) (by decide)).trans (keeps3 V).a5,
   (step3_keep (V3 V) (r := main_arg6) (by decide)).trans (keeps3 V).a6,
   (step3_keep (V3 V) (r := main_arg7) (by decide)).trans (keeps3 V).a7⟩

theorem keeps5 (V : Valuation τ sig (Elt F)) : Keeps V (V5 V) :=
  ⟨(step4_keep (V4 V) (r := main_arg0) (by decide) (by decide)).trans (keeps4 V).a0,
   (step4_keep (V4 V) (r := main_arg1) (by decide) (by decide)).trans (keeps4 V).a1,
   (step4_keep (V4 V) (r := main_arg2) (by decide) (by decide)).trans (keeps4 V).a2,
   (step4_keep (V4 V) (r := main_arg3) (by decide) (by decide)).trans (keeps4 V).a3,
   (step4_keep (V4 V) (r := main_arg4) (by decide) (by decide)).trans (keeps4 V).a4,
   (step4_keep (V4 V) (r := main_arg5) (by decide) (by decide)).trans (keeps4 V).a5,
   (step4_keep (V4 V) (r := main_arg6) (by decide) (by decide)).trans (keeps4 V).a6,
   (step4_keep (V4 V) (r := main_arg7) (by decide) (by decide)).trans (keeps4 V).a7⟩

theorem keeps6 (V : Valuation τ sig (Elt F)) : Keeps V (V6 V) :=
  ⟨(step5_keep (V5 V) (r := main_arg0) (by decide)).trans (keeps5 V).a0,
   (step5_keep (V5 V) (r := main_arg1) (by decide)).trans (keeps5 V).a1,
   (step5_keep (V5 V) (r := main_arg2) (by decide)).trans (keeps5 V).a2,
   (step5_keep (V5 V) (r := main_arg3) (by decide)).trans (keeps5 V).a3,
   (step5_keep (V5 V) (r := main_arg4) (by decide)).trans (keeps5 V).a4,
   (step5_keep (V5 V) (r := main_arg5) (by decide)).trans (keeps5 V).a5,
   (step5_keep (V5 V) (r := main_arg6) (by decide)).trans (keeps5 V).a6,
   (step5_keep (V5 V) (r := main_arg7) (by decide)).trans (keeps5 V).a7⟩

theorem keeps7 (V : Valuation τ sig (Elt F)) : Keeps V (V7 V) :=
  ⟨(step6_keep (V6 V) (r := main_arg0) (by decide) (by decide)).trans (keeps6 V).a0,
   (step6_keep (V6 V) (r := main_arg1) (by decide) (by decide)).trans (keeps6 V).a1,
   (step6_keep (V6 V) (r := main_arg2) (by decide) (by decide)).trans (keeps6 V).a2,
   (step6_keep (V6 V) (r := main_arg3) (by decide) (by decide)).trans (keeps6 V).a3,
   (step6_keep (V6 V) (r := main_arg4) (by decide) (by decide)).trans (keeps6 V).a4,
   (step6_keep (V6 V) (r := main_arg5) (by decide) (by decide)).trans (keeps6 V).a5,
   (step6_keep (V6 V) (r := main_arg6) (by decide) (by decide)).trans (keeps6 V).a6,
   (step6_keep (V6 V) (r := main_arg7) (by decide) (by decide)).trans (keeps6 V).a7⟩

theorem keeps8 (V : Valuation τ sig (Elt F)) : Keeps V (V8 V) :=
  ⟨(step7_keep (V7 V) (r := main_arg0) (by decide)).trans (keeps7 V).a0,
   (step7_keep (V7 V) (r := main_arg1) (by decide)).trans (keeps7 V).a1,
   (step7_keep (V7 V) (r := main_arg2) (by decide)).trans (keeps7 V).a2,
   (step7_keep (V7 V) (r := main_arg3) (by decide)).trans (keeps7 V).a3,
   (step7_keep (V7 V) (r := main_arg4) (by decide)).trans (keeps7 V).a4,
   (step7_keep (V7 V) (r := main_arg5) (by decide)).trans (keeps7 V).a5,
   (step7_keep (V7 V) (r := main_arg6) (by decide)).trans (keeps7 V).a6,
   (step7_keep (V7 V) (r := main_arg7) (by decide)).trans (keeps7 V).a7⟩

theorem keeps9 (V : Valuation τ sig (Elt F)) : Keeps V (V9 V) :=
  ⟨(step8_keep (V8 V) (r := main_arg0) (by decide) (by decide)).trans (keeps8 V).a0,
   (step8_keep (V8 V) (r := main_arg1) (by decide) (by decide)).trans (keeps8 V).a1,
   (step8_keep (V8 V) (r := main_arg2) (by decide) (by decide)).trans (keeps8 V).a2,
   (step8_keep (V8 V) (r := main_arg3) (by decide) (by decide)).trans (keeps8 V).a3,
   (step8_keep (V8 V) (r := main_arg4) (by decide) (by decide)).trans (keeps8 V).a4,
   (step8_keep (V8 V) (r := main_arg5) (by decide) (by decide)).trans (keeps8 V).a5,
   (step8_keep (V8 V) (r := main_arg6) (by decide) (by decide)).trans (keeps8 V).a6,
   (step8_keep (V8 V) (r := main_arg7) (by decide) (by decide)).trans (keeps8 V).a7⟩

theorem keeps10 (V : Valuation τ sig (Elt F)) : Keeps V (V10 V) :=
  ⟨(step9_keep (V9 V) (r := main_arg0) (by decide)).trans (keeps9 V).a0,
   (step9_keep (V9 V) (r := main_arg1) (by decide)).trans (keeps9 V).a1,
   (step9_keep (V9 V) (r := main_arg2) (by decide)).trans (keeps9 V).a2,
   (step9_keep (V9 V) (r := main_arg3) (by decide)).trans (keeps9 V).a3,
   (step9_keep (V9 V) (r := main_arg4) (by decide)).trans (keeps9 V).a4,
   (step9_keep (V9 V) (r := main_arg5) (by decide)).trans (keeps9 V).a5,
   (step9_keep (V9 V) (r := main_arg6) (by decide)).trans (keeps9 V).a6,
   (step9_keep (V9 V) (r := main_arg7) (by decide)).trans (keeps9 V).a7⟩

theorem keeps11 (V : Valuation τ sig (Elt F)) : Keeps V (V11 V) :=
  ⟨(step10_keep (V10 V) (r := main_arg0) (by decide) (by decide)).trans (keeps10 V).a0,
   (step10_keep (V10 V) (r := main_arg1) (by decide) (by decide)).trans (keeps10 V).a1,
   (step10_keep (V10 V) (r := main_arg2) (by decide) (by decide)).trans (keeps10 V).a2,
   (step10_keep (V10 V) (r := main_arg3) (by decide) (by decide)).trans (keeps10 V).a3,
   (step10_keep (V10 V) (r := main_arg4) (by decide) (by decide)).trans (keeps10 V).a4,
   (step10_keep (V10 V) (r := main_arg5) (by decide) (by decide)).trans (keeps10 V).a5,
   (step10_keep (V10 V) (r := main_arg6) (by decide) (by decide)).trans (keeps10 V).a6,
   (step10_keep (V10 V) (r := main_arg7) (by decide) (by decide)).trans (keeps10 V).a7⟩

theorem keeps12 (V : Valuation τ sig (Elt F)) : Keeps V (V12 V) :=
  ⟨(step11_keep (V11 V) (r := main_arg0) (by decide)).trans (keeps11 V).a0,
   (step11_keep (V11 V) (r := main_arg1) (by decide)).trans (keeps11 V).a1,
   (step11_keep (V11 V) (r := main_arg2) (by decide)).trans (keeps11 V).a2,
   (step11_keep (V11 V) (r := main_arg3) (by decide)).trans (keeps11 V).a3,
   (step11_keep (V11 V) (r := main_arg4) (by decide)).trans (keeps11 V).a4,
   (step11_keep (V11 V) (r := main_arg5) (by decide)).trans (keeps11 V).a5,
   (step11_keep (V11 V) (r := main_arg6) (by decide)).trans (keeps11 V).a6,
   (step11_keep (V11 V) (r := main_arg7) (by decide)).trans (keeps11 V).a7⟩

theorem keeps13 (V : Valuation τ sig (Elt F)) : Keeps V (V13 V) :=
  ⟨(step12_keep (V12 V) (r := main_arg0) (by decide) (by decide)).trans (keeps12 V).a0,
   (step12_keep (V12 V) (r := main_arg1) (by decide) (by decide)).trans (keeps12 V).a1,
   (step12_keep (V12 V) (r := main_arg2) (by decide) (by decide)).trans (keeps12 V).a2,
   (step12_keep (V12 V) (r := main_arg3) (by decide) (by decide)).trans (keeps12 V).a3,
   (step12_keep (V12 V) (r := main_arg4) (by decide) (by decide)).trans (keeps12 V).a4,
   (step12_keep (V12 V) (r := main_arg5) (by decide) (by decide)).trans (keeps12 V).a5,
   (step12_keep (V12 V) (r := main_arg6) (by decide) (by decide)).trans (keeps12 V).a6,
   (step12_keep (V12 V) (r := main_arg7) (by decide) (by decide)).trans (keeps12 V).a7⟩

theorem keeps14 (V : Valuation τ sig (Elt F)) : Keeps V (V14 V) :=
  ⟨(step13_keep (V13 V) (r := main_arg0) (by decide)).trans (keeps13 V).a0,
   (step13_keep (V13 V) (r := main_arg1) (by decide)).trans (keeps13 V).a1,
   (step13_keep (V13 V) (r := main_arg2) (by decide)).trans (keeps13 V).a2,
   (step13_keep (V13 V) (r := main_arg3) (by decide)).trans (keeps13 V).a3,
   (step13_keep (V13 V) (r := main_arg4) (by decide)).trans (keeps13 V).a4,
   (step13_keep (V13 V) (r := main_arg5) (by decide)).trans (keeps13 V).a5,
   (step13_keep (V13 V) (r := main_arg6) (by decide)).trans (keeps13 V).a6,
   (step13_keep (V13 V) (r := main_arg7) (by decide)).trans (keeps13 V).a7⟩

theorem keeps15 (V : Valuation τ sig (Elt F)) : Keeps V (V15 V) :=
  ⟨(step14_keep (V14 V) (r := main_arg0) (by decide) (by decide)).trans (keeps14 V).a0,
   (step14_keep (V14 V) (r := main_arg1) (by decide) (by decide)).trans (keeps14 V).a1,
   (step14_keep (V14 V) (r := main_arg2) (by decide) (by decide)).trans (keeps14 V).a2,
   (step14_keep (V14 V) (r := main_arg3) (by decide) (by decide)).trans (keeps14 V).a3,
   (step14_keep (V14 V) (r := main_arg4) (by decide) (by decide)).trans (keeps14 V).a4,
   (step14_keep (V14 V) (r := main_arg5) (by decide) (by decide)).trans (keeps14 V).a5,
   (step14_keep (V14 V) (r := main_arg6) (by decide) (by decide)).trans (keeps14 V).a6,
   (step14_keep (V14 V) (r := main_arg7) (by decide) (by decide)).trans (keeps14 V).a7⟩

theorem keeps16 (V : Valuation τ sig (Elt F)) : Keeps V (V16 V) :=
  ⟨(step15_keep (V15 V) (r := main_arg0) (by decide)).trans (keeps15 V).a0,
   (step15_keep (V15 V) (r := main_arg1) (by decide)).trans (keeps15 V).a1,
   (step15_keep (V15 V) (r := main_arg2) (by decide)).trans (keeps15 V).a2,
   (step15_keep (V15 V) (r := main_arg3) (by decide)).trans (keeps15 V).a3,
   (step15_keep (V15 V) (r := main_arg4) (by decide)).trans (keeps15 V).a4,
   (step15_keep (V15 V) (r := main_arg5) (by decide)).trans (keeps15 V).a5,
   (step15_keep (V15 V) (r := main_arg6) (by decide)).trans (keeps15 V).a6,
   (step15_keep (V15 V) (r := main_arg7) (by decide)).trans (keeps15 V).a7⟩

theorem keeps17 (V : Valuation τ sig (Elt F)) : Keeps V (V17 V) :=
  ⟨(step16_keep (V16 V) (r := main_arg0) (by decide) (by decide)).trans (keeps16 V).a0,
   (step16_keep (V16 V) (r := main_arg1) (by decide) (by decide)).trans (keeps16 V).a1,
   (step16_keep (V16 V) (r := main_arg2) (by decide) (by decide)).trans (keeps16 V).a2,
   (step16_keep (V16 V) (r := main_arg3) (by decide) (by decide)).trans (keeps16 V).a3,
   (step16_keep (V16 V) (r := main_arg4) (by decide) (by decide)).trans (keeps16 V).a4,
   (step16_keep (V16 V) (r := main_arg5) (by decide) (by decide)).trans (keeps16 V).a5,
   (step16_keep (V16 V) (r := main_arg6) (by decide) (by decide)).trans (keeps16 V).a6,
   (step16_keep (V16 V) (r := main_arg7) (by decide) (by decide)).trans (keeps16 V).a7⟩

theorem keeps18 (V : Valuation τ sig (Elt F)) : Keeps V (V18 V) :=
  ⟨(step17_keep (V17 V) (r := main_arg0) (by decide)).trans (keeps17 V).a0,
   (step17_keep (V17 V) (r := main_arg1) (by decide)).trans (keeps17 V).a1,
   (step17_keep (V17 V) (r := main_arg2) (by decide)).trans (keeps17 V).a2,
   (step17_keep (V17 V) (r := main_arg3) (by decide)).trans (keeps17 V).a3,
   (step17_keep (V17 V) (r := main_arg4) (by decide)).trans (keeps17 V).a4,
   (step17_keep (V17 V) (r := main_arg5) (by decide)).trans (keeps17 V).a5,
   (step17_keep (V17 V) (r := main_arg6) (by decide)).trans (keeps17 V).a6,
   (step17_keep (V17 V) (r := main_arg7) (by decide)).trans (keeps17 V).a7⟩

theorem keeps19 (V : Valuation τ sig (Elt F)) : Keeps V (V19 V) :=
  ⟨(step18_keep (V18 V) (r := main_arg0) (by decide) (by decide)).trans (keeps18 V).a0,
   (step18_keep (V18 V) (r := main_arg1) (by decide) (by decide)).trans (keeps18 V).a1,
   (step18_keep (V18 V) (r := main_arg2) (by decide) (by decide)).trans (keeps18 V).a2,
   (step18_keep (V18 V) (r := main_arg3) (by decide) (by decide)).trans (keeps18 V).a3,
   (step18_keep (V18 V) (r := main_arg4) (by decide) (by decide)).trans (keeps18 V).a4,
   (step18_keep (V18 V) (r := main_arg5) (by decide) (by decide)).trans (keeps18 V).a5,
   (step18_keep (V18 V) (r := main_arg6) (by decide) (by decide)).trans (keeps18 V).a6,
   (step18_keep (V18 V) (r := main_arg7) (by decide) (by decide)).trans (keeps18 V).a7⟩

theorem keeps20 (V : Valuation τ sig (Elt F)) : Keeps V (V20 V) :=
  ⟨(step19_keep (V19 V) (r := main_arg0) (by decide)).trans (keeps19 V).a0,
   (step19_keep (V19 V) (r := main_arg1) (by decide)).trans (keeps19 V).a1,
   (step19_keep (V19 V) (r := main_arg2) (by decide)).trans (keeps19 V).a2,
   (step19_keep (V19 V) (r := main_arg3) (by decide)).trans (keeps19 V).a3,
   (step19_keep (V19 V) (r := main_arg4) (by decide)).trans (keeps19 V).a4,
   (step19_keep (V19 V) (r := main_arg5) (by decide)).trans (keeps19 V).a5,
   (step19_keep (V19 V) (r := main_arg6) (by decide)).trans (keeps19 V).a6,
   (step19_keep (V19 V) (r := main_arg7) (by decide)).trans (keeps19 V).a7⟩

theorem keeps21 (V : Valuation τ sig (Elt F)) : Keeps V (V21 V) :=
  ⟨(step20_keep (V20 V) (r := main_arg0) (by decide) (by decide)).trans (keeps20 V).a0,
   (step20_keep (V20 V) (r := main_arg1) (by decide) (by decide)).trans (keeps20 V).a1,
   (step20_keep (V20 V) (r := main_arg2) (by decide) (by decide)).trans (keeps20 V).a2,
   (step20_keep (V20 V) (r := main_arg3) (by decide) (by decide)).trans (keeps20 V).a3,
   (step20_keep (V20 V) (r := main_arg4) (by decide) (by decide)).trans (keeps20 V).a4,
   (step20_keep (V20 V) (r := main_arg5) (by decide) (by decide)).trans (keeps20 V).a5,
   (step20_keep (V20 V) (r := main_arg6) (by decide) (by decide)).trans (keeps20 V).a6,
   (step20_keep (V20 V) (r := main_arg7) (by decide) (by decide)).trans (keeps20 V).a7⟩

theorem keeps22 (V : Valuation τ sig (Elt F)) : Keeps V (V22 V) :=
  ⟨(step21_keep (V21 V) (r := main_arg0) (by decide)).trans (keeps21 V).a0,
   (step21_keep (V21 V) (r := main_arg1) (by decide)).trans (keeps21 V).a1,
   (step21_keep (V21 V) (r := main_arg2) (by decide)).trans (keeps21 V).a2,
   (step21_keep (V21 V) (r := main_arg3) (by decide)).trans (keeps21 V).a3,
   (step21_keep (V21 V) (r := main_arg4) (by decide)).trans (keeps21 V).a4,
   (step21_keep (V21 V) (r := main_arg5) (by decide)).trans (keeps21 V).a5,
   (step21_keep (V21 V) (r := main_arg6) (by decide)).trans (keeps21 V).a6,
   (step21_keep (V21 V) (r := main_arg7) (by decide)).trans (keeps21 V).a7⟩

theorem keeps23 (V : Valuation τ sig (Elt F)) : Keeps V (V23 V) :=
  ⟨(step22_keep (V22 V) (r := main_arg0) (by decide) (by decide)).trans (keeps22 V).a0,
   (step22_keep (V22 V) (r := main_arg1) (by decide) (by decide)).trans (keeps22 V).a1,
   (step22_keep (V22 V) (r := main_arg2) (by decide) (by decide)).trans (keeps22 V).a2,
   (step22_keep (V22 V) (r := main_arg3) (by decide) (by decide)).trans (keeps22 V).a3,
   (step22_keep (V22 V) (r := main_arg4) (by decide) (by decide)).trans (keeps22 V).a4,
   (step22_keep (V22 V) (r := main_arg5) (by decide) (by decide)).trans (keeps22 V).a5,
   (step22_keep (V22 V) (r := main_arg6) (by decide) (by decide)).trans (keeps22 V).a6,
   (step22_keep (V22 V) (r := main_arg7) (by decide) (by decide)).trans (keeps22 V).a7⟩

/-- The whole fold is the last of these. -/
theorem after_allOps (V : Valuation τ sig (Elt F)) : after allOps V = V23 V := by
  simp only [allOps, after_append]
  rfl

/-! ## The values: each step's result as the stages composed, at the arguments -/

/-- The residual stream after block 0 and its normalisation, at the argument buffers of `V`. -/
abbrev S1 (V : Valuation τ sig (Elt Ideal)) := refS1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))
/-- The residual stream after block 1 and its normalisation, at the argument buffers of `V`. -/
abbrev S2 (V : Valuation τ sig (Elt Ideal)) := refS2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))
/-- The residual stream after block 2 and its normalisation, at the argument buffers of `V`. -/
abbrev S3 (V : Valuation τ sig (Elt Ideal)) := refS3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))
/-- The residual stream after block 3 and its normalisation, at the argument buffers of `V`. -/
abbrev S4 (V : Valuation τ sig (Elt Ideal)) := refS4 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))
/-- The residual stream after block 4 and its normalisation, at the argument buffers of `V`. -/
abbrev S5 (V : Valuation τ sig (Elt Ideal)) := refS5 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))

theorem val0 (V : Valuation τ sig (Elt Ideal)) :
    V1 V (main_v28 : DevRef τ sig)
      = refRelu (refLayer slices_S6x3x1024x1024_S1x1x1024x1024_0_0_0_0 slices_S6x3x1024x64_S1x1x1024x64_0_0_0_0 slices_S6x3x1024_S1x1x1024_0_0_0 slices_S6x3x32x1024_S1x1x32x1024_0_0_0_0 slices_S6x3x1024x32_S1x1x1024x32_0_0_0_0
        (V (main_arg1 : DevRef τ sig)) (V (main_arg2 : DevRef τ sig)) (V (main_arg3 : DevRef τ sig)) (V (main_arg4 : DevRef τ sig)) (V (main_arg5 : DevRef τ sig)) (V (main_arg0 : DevRef τ sig))) := by
  exact step0_val V

theorem val1 (V : Valuation τ sig (Elt Ideal)) :
    V2 V (main_v57 : DevRef τ sig)
      = refRelu (refLayer slices_S6x3x1024x1024_S1x1x1024x1024_0_1_0_0 slices_S6x3x1024x64_S1x1x1024x64_0_1_0_0 slices_S6x3x1024_S1x1x1024_0_1_0 slices_S6x3x32x1024_S1x1x32x1024_0_1_0_0 slices_S6x3x1024x32_S1x1x1024x32_0_1_0_0
        (V (main_arg1 : DevRef τ sig)) (V (main_arg2 : DevRef τ sig)) (V (main_arg3 : DevRef τ sig)) (V (main_arg4 : DevRef τ sig)) (V (main_arg5 : DevRef τ sig))
        (refRelu (refLayer slices_S6x3x1024x1024_S1x1x1024x1024_0_0_0_0 slices_S6x3x1024x64_S1x1x1024x64_0_0_0_0 slices_S6x3x1024_S1x1x1024_0_0_0 slices_S6x3x32x1024_S1x1x32x1024_0_0_0_0 slices_S6x3x1024x32_S1x1x1024x32_0_0_0_0
        (V (main_arg1 : DevRef τ sig)) (V (main_arg2 : DevRef τ sig)) (V (main_arg3 : DevRef τ sig)) (V (main_arg4 : DevRef τ sig)) (V (main_arg5 : DevRef τ sig)) (V (main_arg0 : DevRef τ sig))))) := by
  have h := step1_val (V1 V)
  rw [(keeps1 V).a1, (keeps1 V).a2, (keeps1 V).a3, (keeps1 V).a4, (keeps1 V).a5, val0 V] at h
  exact h

theorem val2 (V : Valuation τ sig (Elt Ideal)) :
    V3 V (main_v86 : DevRef τ sig)
      = refBlock slices_S6x3x1024x1024_S1x1x1024x1024_0_0_0_0 slices_S6x3x1024x64_S1x1x1024x64_0_0_0_0 slices_S6x3x1024_S1x1x1024_0_0_0 slices_S6x3x32x1024_S1x1x32x1024_0_0_0_0 slices_S6x3x1024x32_S1x1x1024x32_0_0_0_0
        slices_S6x3x1024x1024_S1x1x1024x1024_0_1_0_0 slices_S6x3x1024x64_S1x1x1024x64_0_1_0_0 slices_S6x3x1024_S1x1x1024_0_1_0 slices_S6x3x32x1024_S1x1x32x1024_0_1_0_0 slices_S6x3x1024x32_S1x1x1024x32_0_1_0_0
        slices_S6x3x1024x1024_S1x1x1024x1024_0_2_0_0 slices_S6x3x1024x64_S1x1x1024x64_0_2_0_0 slices_S6x3x1024_S1x1x1024_0_2_0 slices_S6x3x32x1024_S1x1x32x1024_0_2_0_0 slices_S6x3x1024x32_S1x1x1024x32_0_2_0_0
        (V (main_arg1 : DevRef τ sig)) (V (main_arg2 : DevRef τ sig)) (V (main_arg3 : DevRef τ sig)) (V (main_arg4 : DevRef τ sig)) (V (main_arg5 : DevRef τ sig)) (V (main_arg0 : DevRef τ sig)) := by
  have h := step2_val (V2 V)
  rw [(keeps2 V).a1, (keeps2 V).a2, (keeps2 V).a3, (keeps2 V).a4, (keeps2 V).a5, val1 V, (keeps2 V).a0] at h
  exact h

theorem val3 (V : Valuation τ sig (Elt Ideal)) :
    V4 V (main_v108 : DevRef τ sig)
      = S1 V := by
  have h := step3_val (V3 V)
  rw [(keeps3 V).a6, (keeps3 V).a7, val2 V] at h
  exact h

theorem val4 (V : Valuation τ sig (Elt Ideal)) :
    V5 V (main_v137 : DevRef τ sig)
      = refRelu (refLayer slices_S6x3x1024x1024_S1x1x1024x1024_1_0_0_0 slices_S6x3x1024x64_S1x1x1024x64_1_0_0_0 slices_S6x3x1024_S1x1x1024_1_0_0 slices_S6x3x32x1024_S1x1x32x1024_1_0_0_0 slices_S6x3x1024x32_S1x1x1024x32_1_0_0_0
        (V (main_arg1 : DevRef τ sig)) (V (main_arg2 : DevRef τ sig)) (V (main_arg3 : DevRef τ sig)) (V (main_arg4 : DevRef τ sig)) (V (main_arg5 : DevRef τ sig)) (S1 V)) := by
  have h := step4_val (V4 V)
  rw [(keeps4 V).a1, (keeps4 V).a2, (keeps4 V).a3, (keeps4 V).a4, (keeps4 V).a5, val3 V] at h
  exact h

theorem hold5 (V : Valuation τ sig (Elt Ideal)) : V5 V (main_v108 : DevRef τ sig) = S1 V :=
  (step4_keep (V4 V) (r := main_v108) (by decide) (by decide)).trans (val3 V)

theorem hold6 (V : Valuation τ sig (Elt Ideal)) : V6 V (main_v108 : DevRef τ sig) = S1 V :=
  (step5_keep (V5 V) (r := main_v108) (by decide)).trans (hold5 V)

theorem val5 (V : Valuation τ sig (Elt Ideal)) :
    V6 V (main_v166 : DevRef τ sig)
      = refRelu (refLayer slices_S6x3x1024x1024_S1x1x1024x1024_1_1_0_0 slices_S6x3x1024x64_S1x1x1024x64_1_1_0_0 slices_S6x3x1024_S1x1x1024_1_1_0 slices_S6x3x32x1024_S1x1x32x1024_1_1_0_0 slices_S6x3x1024x32_S1x1x1024x32_1_1_0_0
        (V (main_arg1 : DevRef τ sig)) (V (main_arg2 : DevRef τ sig)) (V (main_arg3 : DevRef τ sig)) (V (main_arg4 : DevRef τ sig)) (V (main_arg5 : DevRef τ sig))
        (refRelu (refLayer slices_S6x3x1024x1024_S1x1x1024x1024_1_0_0_0 slices_S6x3x1024x64_S1x1x1024x64_1_0_0_0 slices_S6x3x1024_S1x1x1024_1_0_0 slices_S6x3x32x1024_S1x1x32x1024_1_0_0_0 slices_S6x3x1024x32_S1x1x1024x32_1_0_0_0
        (V (main_arg1 : DevRef τ sig)) (V (main_arg2 : DevRef τ sig)) (V (main_arg3 : DevRef τ sig)) (V (main_arg4 : DevRef τ sig)) (V (main_arg5 : DevRef τ sig)) (S1 V)))) := by
  have h := step5_val (V5 V)
  rw [(keeps5 V).a1, (keeps5 V).a2, (keeps5 V).a3, (keeps5 V).a4, (keeps5 V).a5, val4 V] at h
  exact h

theorem val6 (V : Valuation τ sig (Elt Ideal)) :
    V7 V (main_v195 : DevRef τ sig)
      = refBlock slices_S6x3x1024x1024_S1x1x1024x1024_1_0_0_0 slices_S6x3x1024x64_S1x1x1024x64_1_0_0_0 slices_S6x3x1024_S1x1x1024_1_0_0 slices_S6x3x32x1024_S1x1x32x1024_1_0_0_0 slices_S6x3x1024x32_S1x1x1024x32_1_0_0_0
        slices_S6x3x1024x1024_S1x1x1024x1024_1_1_0_0 slices_S6x3x1024x64_S1x1x1024x64_1_1_0_0 slices_S6x3x1024_S1x1x1024_1_1_0 slices_S6x3x32x1024_S1x1x32x1024_1_1_0_0 slices_S6x3x1024x32_S1x1x1024x32_1_1_0_0
        slices_S6x3x1024x1024_S1x1x1024x1024_1_2_0_0 slices_S6x3x1024x64_S1x1x1024x64_1_2_0_0 slices_S6x3x1024_S1x1x1024_1_2_0 slices_S6x3x32x1024_S1x1x32x1024_1_2_0_0 slices_S6x3x1024x32_S1x1x1024x32_1_2_0_0
        (V (main_arg1 : DevRef τ sig)) (V (main_arg2 : DevRef τ sig)) (V (main_arg3 : DevRef τ sig)) (V (main_arg4 : DevRef τ sig)) (V (main_arg5 : DevRef τ sig)) (S1 V) := by
  have h := step6_val (V6 V)
  rw [(keeps6 V).a1, (keeps6 V).a2, (keeps6 V).a3, (keeps6 V).a4, (keeps6 V).a5, val5 V, hold6 V] at h
  exact h

theorem val7 (V : Valuation τ sig (Elt Ideal)) :
    V8 V (main_v217 : DevRef τ sig)
      = S2 V := by
  have h := step7_val (V7 V)
  rw [(keeps7 V).a6, (keeps7 V).a7, val6 V] at h
  exact h

theorem val8 (V : Valuation τ sig (Elt Ideal)) :
    V9 V (main_v246 : DevRef τ sig)
      = refRelu (refLayer slices_S6x3x1024x1024_S1x1x1024x1024_2_0_0_0 slices_S6x3x1024x64_S1x1x1024x64_2_0_0_0 slices_S6x3x1024_S1x1x1024_2_0_0 slices_S6x3x32x1024_S1x1x32x1024_2_0_0_0 slices_S6x3x1024x32_S1x1x1024x32_2_0_0_0
        (V (main_arg1 : DevRef τ sig)) (V (main_arg2 : DevRef τ sig)) (V (main_arg3 : DevRef τ sig)) (V (main_arg4 : DevRef τ sig)) (V (main_arg5 : DevRef τ sig)) (S2 V)) := by
  have h := step8_val (V8 V)
  rw [(keeps8 V).a1, (keeps8 V).a2, (keeps8 V).a3, (keeps8 V).a4, (keeps8 V).a5, val7 V] at h
  exact h

theorem hold9 (V : Valuation τ sig (Elt Ideal)) : V9 V (main_v217 : DevRef τ sig) = S2 V :=
  (step8_keep (V8 V) (r := main_v217) (by decide) (by decide)).trans (val7 V)

theorem hold10 (V : Valuation τ sig (Elt Ideal)) : V10 V (main_v217 : DevRef τ sig) = S2 V :=
  (step9_keep (V9 V) (r := main_v217) (by decide)).trans (hold9 V)

theorem val9 (V : Valuation τ sig (Elt Ideal)) :
    V10 V (main_v275 : DevRef τ sig)
      = refRelu (refLayer slices_S6x3x1024x1024_S1x1x1024x1024_2_1_0_0 slices_S6x3x1024x64_S1x1x1024x64_2_1_0_0 slices_S6x3x1024_S1x1x1024_2_1_0 slices_S6x3x32x1024_S1x1x32x1024_2_1_0_0 slices_S6x3x1024x32_S1x1x1024x32_2_1_0_0
        (V (main_arg1 : DevRef τ sig)) (V (main_arg2 : DevRef τ sig)) (V (main_arg3 : DevRef τ sig)) (V (main_arg4 : DevRef τ sig)) (V (main_arg5 : DevRef τ sig))
        (refRelu (refLayer slices_S6x3x1024x1024_S1x1x1024x1024_2_0_0_0 slices_S6x3x1024x64_S1x1x1024x64_2_0_0_0 slices_S6x3x1024_S1x1x1024_2_0_0 slices_S6x3x32x1024_S1x1x32x1024_2_0_0_0 slices_S6x3x1024x32_S1x1x1024x32_2_0_0_0
        (V (main_arg1 : DevRef τ sig)) (V (main_arg2 : DevRef τ sig)) (V (main_arg3 : DevRef τ sig)) (V (main_arg4 : DevRef τ sig)) (V (main_arg5 : DevRef τ sig)) (S2 V)))) := by
  have h := step9_val (V9 V)
  rw [(keeps9 V).a1, (keeps9 V).a2, (keeps9 V).a3, (keeps9 V).a4, (keeps9 V).a5, val8 V] at h
  exact h

theorem val10 (V : Valuation τ sig (Elt Ideal)) :
    V11 V (main_v304 : DevRef τ sig)
      = refBlock slices_S6x3x1024x1024_S1x1x1024x1024_2_0_0_0 slices_S6x3x1024x64_S1x1x1024x64_2_0_0_0 slices_S6x3x1024_S1x1x1024_2_0_0 slices_S6x3x32x1024_S1x1x32x1024_2_0_0_0 slices_S6x3x1024x32_S1x1x1024x32_2_0_0_0
        slices_S6x3x1024x1024_S1x1x1024x1024_2_1_0_0 slices_S6x3x1024x64_S1x1x1024x64_2_1_0_0 slices_S6x3x1024_S1x1x1024_2_1_0 slices_S6x3x32x1024_S1x1x32x1024_2_1_0_0 slices_S6x3x1024x32_S1x1x1024x32_2_1_0_0
        slices_S6x3x1024x1024_S1x1x1024x1024_2_2_0_0 slices_S6x3x1024x64_S1x1x1024x64_2_2_0_0 slices_S6x3x1024_S1x1x1024_2_2_0 slices_S6x3x32x1024_S1x1x32x1024_2_2_0_0 slices_S6x3x1024x32_S1x1x1024x32_2_2_0_0
        (V (main_arg1 : DevRef τ sig)) (V (main_arg2 : DevRef τ sig)) (V (main_arg3 : DevRef τ sig)) (V (main_arg4 : DevRef τ sig)) (V (main_arg5 : DevRef τ sig)) (S2 V) := by
  have h := step10_val (V10 V)
  rw [(keeps10 V).a1, (keeps10 V).a2, (keeps10 V).a3, (keeps10 V).a4, (keeps10 V).a5, val9 V, hold10 V] at h
  exact h

theorem val11 (V : Valuation τ sig (Elt Ideal)) :
    V12 V (main_v326 : DevRef τ sig)
      = S3 V := by
  have h := step11_val (V11 V)
  rw [(keeps11 V).a6, (keeps11 V).a7, val10 V] at h
  exact h

theorem val12 (V : Valuation τ sig (Elt Ideal)) :
    V13 V (main_v355 : DevRef τ sig)
      = refRelu (refLayer slices_S6x3x1024x1024_S1x1x1024x1024_3_0_0_0 slices_S6x3x1024x64_S1x1x1024x64_3_0_0_0 slices_S6x3x1024_S1x1x1024_3_0_0 slices_S6x3x32x1024_S1x1x32x1024_3_0_0_0 slices_S6x3x1024x32_S1x1x1024x32_3_0_0_0
        (V (main_arg1 : DevRef τ sig)) (V (main_arg2 : DevRef τ sig)) (V (main_arg3 : DevRef τ sig)) (V (main_arg4 : DevRef τ sig)) (V (main_arg5 : DevRef τ sig)) (S3 V)) := by
  have h := step12_val (V12 V)
  rw [(keeps12 V).a1, (keeps12 V).a2, (keeps12 V).a3, (keeps12 V).a4, (keeps12 V).a5, val11 V] at h
  exact h

theorem hold13 (V : Valuation τ sig (Elt Ideal)) : V13 V (main_v326 : DevRef τ sig) = S3 V :=
  (step12_keep (V12 V) (r := main_v326) (by decide) (by decide)).trans (val11 V)

theorem hold14 (V : Valuation τ sig (Elt Ideal)) : V14 V (main_v326 : DevRef τ sig) = S3 V :=
  (step13_keep (V13 V) (r := main_v326) (by decide)).trans (hold13 V)

theorem val13 (V : Valuation τ sig (Elt Ideal)) :
    V14 V (main_v384 : DevRef τ sig)
      = refRelu (refLayer slices_S6x3x1024x1024_S1x1x1024x1024_3_1_0_0 slices_S6x3x1024x64_S1x1x1024x64_3_1_0_0 slices_S6x3x1024_S1x1x1024_3_1_0 slices_S6x3x32x1024_S1x1x32x1024_3_1_0_0 slices_S6x3x1024x32_S1x1x1024x32_3_1_0_0
        (V (main_arg1 : DevRef τ sig)) (V (main_arg2 : DevRef τ sig)) (V (main_arg3 : DevRef τ sig)) (V (main_arg4 : DevRef τ sig)) (V (main_arg5 : DevRef τ sig))
        (refRelu (refLayer slices_S6x3x1024x1024_S1x1x1024x1024_3_0_0_0 slices_S6x3x1024x64_S1x1x1024x64_3_0_0_0 slices_S6x3x1024_S1x1x1024_3_0_0 slices_S6x3x32x1024_S1x1x32x1024_3_0_0_0 slices_S6x3x1024x32_S1x1x1024x32_3_0_0_0
        (V (main_arg1 : DevRef τ sig)) (V (main_arg2 : DevRef τ sig)) (V (main_arg3 : DevRef τ sig)) (V (main_arg4 : DevRef τ sig)) (V (main_arg5 : DevRef τ sig)) (S3 V)))) := by
  have h := step13_val (V13 V)
  rw [(keeps13 V).a1, (keeps13 V).a2, (keeps13 V).a3, (keeps13 V).a4, (keeps13 V).a5, val12 V] at h
  exact h

theorem val14 (V : Valuation τ sig (Elt Ideal)) :
    V15 V (main_v413 : DevRef τ sig)
      = refBlock slices_S6x3x1024x1024_S1x1x1024x1024_3_0_0_0 slices_S6x3x1024x64_S1x1x1024x64_3_0_0_0 slices_S6x3x1024_S1x1x1024_3_0_0 slices_S6x3x32x1024_S1x1x32x1024_3_0_0_0 slices_S6x3x1024x32_S1x1x1024x32_3_0_0_0
        slices_S6x3x1024x1024_S1x1x1024x1024_3_1_0_0 slices_S6x3x1024x64_S1x1x1024x64_3_1_0_0 slices_S6x3x1024_S1x1x1024_3_1_0 slices_S6x3x32x1024_S1x1x32x1024_3_1_0_0 slices_S6x3x1024x32_S1x1x1024x32_3_1_0_0
        slices_S6x3x1024x1024_S1x1x1024x1024_3_2_0_0 slices_S6x3x1024x64_S1x1x1024x64_3_2_0_0 slices_S6x3x1024_S1x1x1024_3_2_0 slices_S6x3x32x1024_S1x1x32x1024_3_2_0_0 slices_S6x3x1024x32_S1x1x1024x32_3_2_0_0
        (V (main_arg1 : DevRef τ sig)) (V (main_arg2 : DevRef τ sig)) (V (main_arg3 : DevRef τ sig)) (V (main_arg4 : DevRef τ sig)) (V (main_arg5 : DevRef τ sig)) (S3 V) := by
  have h := step14_val (V14 V)
  rw [(keeps14 V).a1, (keeps14 V).a2, (keeps14 V).a3, (keeps14 V).a4, (keeps14 V).a5, val13 V, hold14 V] at h
  exact h

theorem val15 (V : Valuation τ sig (Elt Ideal)) :
    V16 V (main_v435 : DevRef τ sig)
      = S4 V := by
  have h := step15_val (V15 V)
  rw [(keeps15 V).a6, (keeps15 V).a7, val14 V] at h
  exact h

theorem val16 (V : Valuation τ sig (Elt Ideal)) :
    V17 V (main_v464 : DevRef τ sig)
      = refRelu (refLayer slices_S6x3x1024x1024_S1x1x1024x1024_4_0_0_0 slices_S6x3x1024x64_S1x1x1024x64_4_0_0_0 slices_S6x3x1024_S1x1x1024_4_0_0 slices_S6x3x32x1024_S1x1x32x1024_4_0_0_0 slices_S6x3x1024x32_S1x1x1024x32_4_0_0_0
        (V (main_arg1 : DevRef τ sig)) (V (main_arg2 : DevRef τ sig)) (V (main_arg3 : DevRef τ sig)) (V (main_arg4 : DevRef τ sig)) (V (main_arg5 : DevRef τ sig)) (S4 V)) := by
  have h := step16_val (V16 V)
  rw [(keeps16 V).a1, (keeps16 V).a2, (keeps16 V).a3, (keeps16 V).a4, (keeps16 V).a5, val15 V] at h
  exact h

theorem hold17 (V : Valuation τ sig (Elt Ideal)) : V17 V (main_v435 : DevRef τ sig) = S4 V :=
  (step16_keep (V16 V) (r := main_v435) (by decide) (by decide)).trans (val15 V)

theorem hold18 (V : Valuation τ sig (Elt Ideal)) : V18 V (main_v435 : DevRef τ sig) = S4 V :=
  (step17_keep (V17 V) (r := main_v435) (by decide)).trans (hold17 V)

theorem val17 (V : Valuation τ sig (Elt Ideal)) :
    V18 V (main_v493 : DevRef τ sig)
      = refRelu (refLayer slices_S6x3x1024x1024_S1x1x1024x1024_4_1_0_0 slices_S6x3x1024x64_S1x1x1024x64_4_1_0_0 slices_S6x3x1024_S1x1x1024_4_1_0 slices_S6x3x32x1024_S1x1x32x1024_4_1_0_0 slices_S6x3x1024x32_S1x1x1024x32_4_1_0_0
        (V (main_arg1 : DevRef τ sig)) (V (main_arg2 : DevRef τ sig)) (V (main_arg3 : DevRef τ sig)) (V (main_arg4 : DevRef τ sig)) (V (main_arg5 : DevRef τ sig))
        (refRelu (refLayer slices_S6x3x1024x1024_S1x1x1024x1024_4_0_0_0 slices_S6x3x1024x64_S1x1x1024x64_4_0_0_0 slices_S6x3x1024_S1x1x1024_4_0_0 slices_S6x3x32x1024_S1x1x32x1024_4_0_0_0 slices_S6x3x1024x32_S1x1x1024x32_4_0_0_0
        (V (main_arg1 : DevRef τ sig)) (V (main_arg2 : DevRef τ sig)) (V (main_arg3 : DevRef τ sig)) (V (main_arg4 : DevRef τ sig)) (V (main_arg5 : DevRef τ sig)) (S4 V)))) := by
  have h := step17_val (V17 V)
  rw [(keeps17 V).a1, (keeps17 V).a2, (keeps17 V).a3, (keeps17 V).a4, (keeps17 V).a5, val16 V] at h
  exact h

theorem val18 (V : Valuation τ sig (Elt Ideal)) :
    V19 V (main_v522 : DevRef τ sig)
      = refBlock slices_S6x3x1024x1024_S1x1x1024x1024_4_0_0_0 slices_S6x3x1024x64_S1x1x1024x64_4_0_0_0 slices_S6x3x1024_S1x1x1024_4_0_0 slices_S6x3x32x1024_S1x1x32x1024_4_0_0_0 slices_S6x3x1024x32_S1x1x1024x32_4_0_0_0
        slices_S6x3x1024x1024_S1x1x1024x1024_4_1_0_0 slices_S6x3x1024x64_S1x1x1024x64_4_1_0_0 slices_S6x3x1024_S1x1x1024_4_1_0 slices_S6x3x32x1024_S1x1x32x1024_4_1_0_0 slices_S6x3x1024x32_S1x1x1024x32_4_1_0_0
        slices_S6x3x1024x1024_S1x1x1024x1024_4_2_0_0 slices_S6x3x1024x64_S1x1x1024x64_4_2_0_0 slices_S6x3x1024_S1x1x1024_4_2_0 slices_S6x3x32x1024_S1x1x32x1024_4_2_0_0 slices_S6x3x1024x32_S1x1x1024x32_4_2_0_0
        (V (main_arg1 : DevRef τ sig)) (V (main_arg2 : DevRef τ sig)) (V (main_arg3 : DevRef τ sig)) (V (main_arg4 : DevRef τ sig)) (V (main_arg5 : DevRef τ sig)) (S4 V) := by
  have h := step18_val (V18 V)
  rw [(keeps18 V).a1, (keeps18 V).a2, (keeps18 V).a3, (keeps18 V).a4, (keeps18 V).a5, val17 V, hold18 V] at h
  exact h

theorem val19 (V : Valuation τ sig (Elt Ideal)) :
    V20 V (main_v544 : DevRef τ sig)
      = S5 V := by
  have h := step19_val (V19 V)
  rw [(keeps19 V).a6, (keeps19 V).a7, val18 V] at h
  exact h

theorem val20 (V : Valuation τ sig (Elt Ideal)) :
    V21 V (main_v573 : DevRef τ sig)
      = refRelu (refLayer slices_S6x3x1024x1024_S1x1x1024x1024_5_0_0_0 slices_S6x3x1024x64_S1x1x1024x64_5_0_0_0 slices_S6x3x1024_S1x1x1024_5_0_0 slices_S6x3x32x1024_S1x1x32x1024_5_0_0_0 slices_S6x3x1024x32_S1x1x1024x32_5_0_0_0
        (V (main_arg1 : DevRef τ sig)) (V (main_arg2 : DevRef τ sig)) (V (main_arg3 : DevRef τ sig)) (V (main_arg4 : DevRef τ sig)) (V (main_arg5 : DevRef τ sig)) (S5 V)) := by
  have h := step20_val (V20 V)
  rw [(keeps20 V).a1, (keeps20 V).a2, (keeps20 V).a3, (keeps20 V).a4, (keeps20 V).a5, val19 V] at h
  exact h

theorem hold21 (V : Valuation τ sig (Elt Ideal)) : V21 V (main_v544 : DevRef τ sig) = S5 V :=
  (step20_keep (V20 V) (r := main_v544) (by decide) (by decide)).trans (val19 V)

theorem hold22 (V : Valuation τ sig (Elt Ideal)) : V22 V (main_v544 : DevRef τ sig) = S5 V :=
  (step21_keep (V21 V) (r := main_v544) (by decide)).trans (hold21 V)

theorem val21 (V : Valuation τ sig (Elt Ideal)) :
    V22 V (main_v602 : DevRef τ sig)
      = refRelu (refLayer slices_S6x3x1024x1024_S1x1x1024x1024_5_1_0_0 slices_S6x3x1024x64_S1x1x1024x64_5_1_0_0 slices_S6x3x1024_S1x1x1024_5_1_0 slices_S6x3x32x1024_S1x1x32x1024_5_1_0_0 slices_S6x3x1024x32_S1x1x1024x32_5_1_0_0
        (V (main_arg1 : DevRef τ sig)) (V (main_arg2 : DevRef τ sig)) (V (main_arg3 : DevRef τ sig)) (V (main_arg4 : DevRef τ sig)) (V (main_arg5 : DevRef τ sig))
        (refRelu (refLayer slices_S6x3x1024x1024_S1x1x1024x1024_5_0_0_0 slices_S6x3x1024x64_S1x1x1024x64_5_0_0_0 slices_S6x3x1024_S1x1x1024_5_0_0 slices_S6x3x32x1024_S1x1x32x1024_5_0_0_0 slices_S6x3x1024x32_S1x1x1024x32_5_0_0_0
        (V (main_arg1 : DevRef τ sig)) (V (main_arg2 : DevRef τ sig)) (V (main_arg3 : DevRef τ sig)) (V (main_arg4 : DevRef τ sig)) (V (main_arg5 : DevRef τ sig)) (S5 V)))) := by
  have h := step21_val (V21 V)
  rw [(keeps21 V).a1, (keeps21 V).a2, (keeps21 V).a3, (keeps21 V).a4, (keeps21 V).a5, val20 V] at h
  exact h

theorem val22 (V : Valuation τ sig (Elt Ideal)) :
    V23 V (main_v631 : DevRef τ sig)
      = refBlock slices_S6x3x1024x1024_S1x1x1024x1024_5_0_0_0 slices_S6x3x1024x64_S1x1x1024x64_5_0_0_0 slices_S6x3x1024_S1x1x1024_5_0_0 slices_S6x3x32x1024_S1x1x32x1024_5_0_0_0 slices_S6x3x1024x32_S1x1x1024x32_5_0_0_0
        slices_S6x3x1024x1024_S1x1x1024x1024_5_1_0_0 slices_S6x3x1024x64_S1x1x1024x64_5_1_0_0 slices_S6x3x1024_S1x1x1024_5_1_0 slices_S6x3x32x1024_S1x1x32x1024_5_1_0_0 slices_S6x3x1024x32_S1x1x1024x32_5_1_0_0
        slices_S6x3x1024x1024_S1x1x1024x1024_5_2_0_0 slices_S6x3x1024x64_S1x1x1024x64_5_2_0_0 slices_S6x3x1024_S1x1x1024_5_2_0 slices_S6x3x32x1024_S1x1x32x1024_5_2_0_0 slices_S6x3x1024x32_S1x1x1024x32_5_2_0_0
        (V (main_arg1 : DevRef τ sig)) (V (main_arg2 : DevRef τ sig)) (V (main_arg3 : DevRef τ sig)) (V (main_arg4 : DevRef τ sig)) (V (main_arg5 : DevRef τ sig)) (S5 V) := by
  have h := step22_val (V22 V)
  rw [(keeps22 V).a1, (keeps22 V).a2, (keeps22 V).a3, (keeps22 V).a4, (keeps22 V).a5, val21 V, hold22 V] at h
  exact h

/-! ## The run -/

/-- The result buffer ends at the network of the argument buffers' contents. -/
theorem net_val (V : Valuation τ sig (Elt Ideal)) :
    after allOps V (main_v631 : DevRef τ sig) = refNet (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_allOps]
  exact val22 V

theorem args_keep (V : Valuation τ sig (Elt F)) : Keeps V (after allOps V) := by
  rw [after_allOps]
  exact keeps23 V

/-- From any memory with zero counters, every weakly fair execution of the program ends with its result buffer at the
    network of the arguments' launch contents, and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v631)
        = refNet (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v631).trans (net_val (launchContents m c)),
     (h c main_arg0).trans (args_keep (launchContents m c)).a0,
     (h c main_arg1).trans (args_keep (launchContents m c)).a1,
     (h c main_arg2).trans (args_keep (launchContents m c)).a2,
     (h c main_arg3).trans (args_keep (launchContents m c)).a3,
     (h c main_arg4).trans (args_keep (launchContents m c)).a4,
     (h c main_arg5).trans (args_keep (launchContents m c)).a5,
     (h c main_arg6).trans (args_keep (launchContents m c)).a6,
     (h c main_arg7).trans (args_keep (launchContents m c)).a7⟩)
    (run_all m ρ)

end Cert.ReferenceIdeal.RefRun

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Ref.Reads.lean ====
/-
  The reference program's parameter tables read at an entry: a slice of an argument array at block `i`, layer `j`,
  reshaped to drop the two unit axes, is the array at (i, j, ·, ·); the dequantised weight table, transposed, at
  (k, o) is the code at (o, k) read as a real times the scale of the group of sixteen columns `k` lies in; and the
  three matrix products at an entry are finite sums over the contracted coordinate.
-/
import proofs.«136264_j72249939853571_2_alg».proof.Proof.Ref.Stages
import proofs.«136264_j72249939853571_2_alg».proof.Proof.LibTileMatmul
import proofs.«136264_j72249939853571_2_alg».proof.Proof.Params
import Idealize.ShloMosaic.Lib.Pipeline.Value
import Idealize.ShloMosaic.PureOps.Ideal.Laws

noncomputable section

open scoped BigOperators

namespace Cert.ReferenceIdeal.Stages

open Idealize.ShloMosaic Idealize.ShloMosaic.ValueIdx
open Cert.ReferenceIdeal
open Cert.ReferenceIdeal.Facts₀

variable [Facts₀]

/-- The codes of layer (i, j): entry (o, c) of the slice, reshaped, is entry (i, j, o, c) of the array. -/
theorem codes_read (i : Fin 6) (j : Fin 3) (h1 : S6x3x1024x1024.Slices ![i.val, j.val, 0, 0] S1x1x1024x1024)
    (a1 : IVec S6x3x1024x1024 32) (o c : Fin 1024) :
    shapeCast S1024x1024 (extractStridedSlice S1x1x1024x1024 ![i.val, j.val, 0, 0] a1 h1)
      shapeCasts_S1x1x1024x1024_S1024x1024 (ix2 o c) = a1 (ix4 i j o c) := by
  refine (shapeCast_apply _ _ (ix2 o c) (ix4 (0 : Fin 1) (0 : Fin 1) o c) ?_).trans ?_
  · rw [Shape.rowMajor_val_four, Shape.rowMajor_val_two]
    show ((0 * 1 + 0) * 1024 + o.val) * 1024 + c.val = o.val * 1024 + c.val
    omega
  · refine extractStridedSlice_apply _ _ _ _ (ix4 i j o c) fun a => ?_
    match a with
    | ⟨0, _⟩ => rfl
    | ⟨1, _⟩ => rfl
    | ⟨2, _⟩ => exact (Nat.zero_add o.val).symm
    | ⟨3, _⟩ => exact (Nat.zero_add c.val).symm

/-- The group scales of layer (i, j). -/
theorem scales_read (i : Fin 6) (j : Fin 3) (h2 : S6x3x1024x64.Slices ![i.val, j.val, 0, 0] S1x1x1024x64)
    (a2 : FVec Ideal S6x3x1024x64 .f32) (o : Fin 1024) (g : Fin 64) :
    shapeCast S1024x64 (extractStridedSlice S1x1x1024x64 ![i.val, j.val, 0, 0] a2 h2)
      shapeCasts_S1x1x1024x64_S1024x64 (ix2 o g) = a2 (ix4 i j o g) := by
  refine (shapeCast_apply _ _ (ix2 o g) (ix4 (0 : Fin 1) (0 : Fin 1) o g) ?_).trans ?_
  · rw [Shape.rowMajor_val_four, Shape.rowMajor_val_two]
    show ((0 * 1 + 0) * 1024 + o.val) * 64 + g.val = o.val * 64 + g.val
    omega
  · refine extractStridedSlice_apply _ _ _ _ (ix4 i j o g) fun a => ?_
    match a with
    | ⟨0, _⟩ => rfl
    | ⟨1, _⟩ => rfl
    | ⟨2, _⟩ => exact (Nat.zero_add o.val).symm
    | ⟨3, _⟩ => exact (Nat.zero_add g.val).symm

/-- The bias of layer (i, j). -/
theorem bias_read (i : Fin 6) (j : Fin 3) (h3 : S6x3x1024.Slices ![i.val, j.val, 0] S1x1x1024)
    (a3 : FVec Ideal S6x3x1024 .f32) (o : Fin 1024) :
    shapeCast S1024 (extractStridedSlice S1x1x1024 ![i.val, j.val, 0] a3 h3)
      shapeCasts_S1x1x1024_S1024 (ix1 o) = a3 (ix3 i j o) := by
  refine (shapeCast_apply _ _ (ix1 o) (ix3 (0 : Fin 1) (0 : Fin 1) o) ?_).trans ?_
  · rw [Shape.rowMajor_val_three, Shape.rowMajor_val_one]
    show (0 * 1 + 0) * 1024 + o.val = o.val
    omega
  · refine extractStridedSlice_apply _ _ _ _ (ix3 i j o) fun a => ?_
    match a with
    | ⟨0, _⟩ => rfl
    | ⟨1, _⟩ => rfl
    | ⟨2, _⟩ => exact (Nat.zero_add o.val).symm

/-- The low-rank factor A of layer (i, j). -/
theorem la_read (i : Fin 6) (j : Fin 3) (h4 : S6x3x32x1024.Slices ![i.val, j.val, 0, 0] S1x1x32x1024)
    (a4 : FVec Ideal S6x3x32x1024 .f32) (ρ : Fin 32) (k : Fin 1024) :
    shapeCast S32x1024 (extractStridedSlice S1x1x32x1024 ![i.val, j.val, 0, 0] a4 h4)
      shapeCasts_S1x1x32x1024_S32x1024 (ix2 ρ k) = a4 (ix4 i j ρ k) := by
  refine (shapeCast_apply _ _ (ix2 ρ k) (ix4 (0 : Fin 1) (0 : Fin 1) ρ k) ?_).trans ?_
  · rw [Shape.rowMajor_val_four, Shape.rowMajor_val_two]
    show ((0 * 1 + 0) * 32 + ρ.val) * 1024 + k.val = ρ.val * 1024 + k.val
    omega
  · refine extractStridedSlice_apply _ _ _ _ (ix4 i j ρ k) fun a => ?_
    match a with
    | ⟨0, _⟩ => rfl
    | ⟨1, _⟩ => rfl
    | ⟨2, _⟩ => exact (Nat.zero_add ρ.val).symm
    | ⟨3, _⟩ => exact (Nat.zero_add k.val).symm

/-- The low-rank factor B of layer (i, j). -/
theorem lb_read (i : Fin 6) (j : Fin 3) (h5 : S6x3x1024x32.Slices ![i.val, j.val, 0, 0] S1x1x1024x32)
    (a5 : FVec Ideal S6x3x1024x32 .f32) (o : Fin 1024) (ρ : Fin 32) :
    shapeCast S1024x32 (extractStridedSlice S1x1x1024x32 ![i.val, j.val, 0, 0] a5 h5)
      shapeCasts_S1x1x1024x32_S1024x32 (ix2 o ρ) = a5 (ix4 i j o ρ) := by
  refine (shapeCast_apply _ _ (ix2 o ρ) (ix4 (0 : Fin 1) (0 : Fin 1) o ρ) ?_).trans ?_
  · rw [Shape.rowMajor_val_four, Shape.rowMajor_val_two]
    show ((0 * 1 + 0) * 1024 + o.val) * 32 + ρ.val = o.val * 32 + ρ.val
    omega
  · refine extractStridedSlice_apply _ _ _ _ (ix4 i j o ρ) fun a => ?_
    match a with
    | ⟨0, _⟩ => rfl
    | ⟨1, _⟩ => rfl
    | ⟨2, _⟩ => exact (Nat.zero_add o.val).symm
    | ⟨3, _⟩ => exact (Nat.zero_add ρ.val).symm

/-- Row `i` of a normalisation's scale or shift array. -/
theorem row_read (i : Fin 5) (h6 : S5x1024.Slices ![i.val, 0] S1x1024)
    (a : FVec Ideal S5x1024 .f32) (k : Fin 1024) :
    shapeCast S1024 (extractStridedSlice S1x1024 ![i.val, 0] a h6) shapeCasts_S1x1024_S1024 (ix1 k) = a (ix2 i k) := by
  refine (shapeCast_apply _ _ (ix1 k) (ix2 (0 : Fin 1) k) ?_).trans ?_
  · rw [Shape.rowMajor_val_two, Shape.rowMajor_val_one]
    show 0 * 1024 + k.val = k.val
    omega
  · refine extractStridedSlice_apply _ _ _ _ (ix2 i k) fun a => ?_
    match a with
    | ⟨0, _⟩ => rfl
    | ⟨1, _⟩ => exact (Nat.zero_add k.val).symm

/-- The dequantised weight table, transposed: at (k, o) the code at (o, k), read as a signed integer, times the
    scale of the group of sixteen columns `k` lies in. -/
theorem weightT_read (code : IVec S1024x1024 32) (scale : FVec Ideal S1024x64 .f32) (k o : Fin 1024) :
    transpose S1024x1024 [1, 0]
        (shapeCast S1024x1024
          (mulf (shapeCast S1024x64x16 (sitofp .f32 code : FVec Ideal S1024x1024 .f32) shapeCasts_S1024x1024_S1024x64x16)
            (broadcastInDim S1024x64x16 ![0, 1, 2] bcast_S1024x64x1_S1024x64x16_0_1_2
              (broadcastInDim S1024x64x1 ![0, 1] bcast_S1024x64_S1024x64x1_0_1 scale)))
          shapeCasts_S1024x64x16_S1024x1024)
        transposes_S1024x1024_S1024x1024_1_0 (ix2 k o)
      = (((code (ix2 o k)).toInt : ℝ) : EReal) * scale (ix2 o (Cert.Spec.grp k)) := by
  refine (transpose_apply _ _ _ (ix2 k o) (ix2 o k) fun b => ?_).trans ?_
  · match b with
    | ⟨0, _⟩ => rfl
    | ⟨1, _⟩ => rfl
  refine (shapeCast_apply _ _ (ix2 o k)
    (ix3 o (Cert.Spec.grp k) (⟨k.val % 16, Nat.mod_lt _ (by decide)⟩ : Fin 16)) ?_).trans ?_
  · rw [Shape.rowMajor_val_three, Shape.rowMajor_val_two]
    show (o.val * 64 + k.val / 16) * 16 + k.val % 16 = o.val * 1024 + k.val
    omega
  rw [mulf_apply]
  congr 1
  · refine (shapeCast_apply _ _ _ (ix2 o k) ?_).trans rfl
    rw [Shape.rowMajor_val_three, Shape.rowMajor_val_two]
    show o.val * 1024 + k.val = (o.val * 64 + k.val / 16) * 16 + k.val % 16
    omega
  · refine (broadcastInDim_apply _ _ _ _ (ix3 o (Cert.Spec.grp k) (0 : Fin 1)) fun a => ?_).trans ?_
    · match a with
      | ⟨0, _⟩ => rfl
      | ⟨1, _⟩ => rfl
      | ⟨2, _⟩ => rfl
    refine (broadcastInDim_apply _ _ _ _ (ix2 o (Cert.Spec.grp k)) fun a => ?_).trans rfl
    match a with
    | ⟨0, _⟩ => rfl
    | ⟨1, _⟩ => rfl

/-- A table against a square table, at an entry: the sum over the contracted coordinate. -/
theorem dot_square_read (A B : FVec Ideal S1024x1024 .f32) (b o : Fin 1024) :
    Host.dotGeneral (F := Ideal) dot_S1024x1024_S1024x1024_S1024x1024_1_0_0_1_n_n none A B (ix2 b o)
      = ∑ c : Fin 1024, A (ix2 b c) * B (ix2 c o) :=
  TileMatmul.dotGeneral_apply dot_S1024x1024_S1024x1024_S1024x1024_1_0_0_1_n_n_wf none A B b o

/-- A table against the rank-32 factor, at an entry. -/
theorem dot_down_read (A : FVec Ideal S1024x1024 .f32) (B : FVec Ideal S1024x32 .f32) (b : Fin 1024) (ρ : Fin 32) :
    Host.dotGeneral (F := Ideal) dot_S1024x1024_S1024x32_S1024x32_1_0_0_1_n_n none A B (ix2 b ρ)
      = ∑ c : Fin 1024, A (ix2 b c) * B (ix2 c ρ) :=
  TileMatmul.dotGeneral_apply dot_S1024x1024_S1024x32_S1024x32_1_0_0_1_n_n_wf none A B b ρ

/-- The rank-32 table against the second factor, at an entry. -/
theorem dot_up_read (A : FVec Ideal S1024x32 .f32) (B : FVec Ideal S32x1024 .f32) (b o : Fin 1024) :
    Host.dotGeneral (F := Ideal) dot_S1024x32_S32x1024_S1024x1024_1_0_0_1_n_n none A B (ix2 b o)
      = ∑ ρ : Fin 32, A (ix2 b ρ) * B (ix2 ρ o) :=
  TileMatmul.dotGeneral_apply dot_S1024x32_S32x1024_S1024x1024_1_0_0_1_n_n_wf none A B b o

/-- A [32, 1024] table transposed, at (k, ρ). -/
theorem transpose_la_read (x : FVec Ideal S32x1024 .f32) (k : Fin 1024) (ρ : Fin 32) :
    transpose S1024x32 [1, 0] x transposes_S32x1024_S1024x32_1_0 (ix2 k ρ) = x (ix2 ρ k) := by
  refine transpose_apply _ _ _ (ix2 k ρ) (ix2 ρ k) fun b => ?_
  match b with
  | ⟨0, _⟩ => rfl
  | ⟨1, _⟩ => rfl

/-- A [1024, 32] table transposed, at (ρ, o). -/
theorem transpose_lb_read (x : FVec Ideal S1024x32 .f32) (ρ : Fin 32) (o : Fin 1024) :
    transpose S32x1024 [1, 0] x transposes_S1024x32_S32x1024_1_0 (ix2 ρ o) = x (ix2 o ρ) := by
  refine transpose_apply _ _ _ (ix2 ρ o) (ix2 o ρ) fun b => ?_
  match b with
  | ⟨0, _⟩ => rfl
  | ⟨1, _⟩ => rfl

/-- A row vector broadcast down the rows, at (b, o): its entry `o`. -/
theorem row_bcast_read (x : FVec Ideal S1024 .f32) (b o : Fin 1024) :
    broadcastInDim S1024x1024 ![0, 1] bcast_S1x1024_S1024x1024_0_1
      (broadcastInDim S1x1024 ![1] bcast_S1024_S1x1024_1 x) (ix2 b o) = x (ix1 o) := by
  refine (broadcastInDim_apply _ _ _ _ (ix2 (0 : Fin 1) o) fun a => ?_).trans ?_
  · match a with
    | ⟨0, _⟩ => rfl
    | ⟨1, _⟩ => rfl
  refine (broadcastInDim_apply _ _ _ _ (ix1 o) fun a => ?_).trans rfl
  match a with
  | ⟨0, _⟩ => rfl

/-- A column broadcast across the columns, at (b, k): its entry `b`. -/
theorem col_bcast_read (x : FVec Ideal S1024x1 .f32) (b k : Fin 1024) :
    broadcastInDim S1024x1024 ![0, 1] bcast_S1024x1_S1024x1024_0_1 x (ix2 b k) = x (ix2 b (0 : Fin 1)) := by
  refine broadcastInDim_apply _ _ _ _ (ix2 b (0 : Fin 1)) fun a => ?_
  match a with
  | ⟨0, _⟩ => rfl
  | ⟨1, _⟩ => rfl

/-- A vector of row values as a column, at (b, 0): its entry `b`. -/
theorem col_of_vec_read (x : FVec Ideal S1024 .f32) (b : Fin 1024) :
    broadcastInDim S1024x1 ![0] bcast_S1024_S1024x1_0 x (ix2 b (0 : Fin 1)) = x (ix1 b) := by
  refine broadcastInDim_apply _ _ _ _ (ix1 b) fun a => ?_
  match a with
  | ⟨0, _⟩ => rfl

/-- A scalar broadcast to a column reads the scalar everywhere. -/
theorem col_of_scalar_read {α : Type} (x : S_.Idx → α) (j : S1024x1.Idx) :
    broadcastInDim S1024x1 ![] bcast_S_S1024x1 x j = x ix0 :=
  broadcastInDim_apply _ _ _ _ ix0 fun a => a.elim0

/-- A scalar broadcast to a table reads the scalar everywhere. -/
theorem table_of_scalar_read {α : Type} (x : S_.Idx → α) (j : S1024x1024.Idx) :
    broadcastInDim S1024x1024 ![] bcast_S_S1024x1024 x j = x ix0 :=
  broadcastInDim_apply _ _ _ _ ix0 fun a => a.elim0

/-- The sum of a table along its rows, from zero, at row `b`. -/
theorem row_sum_read (x : FVec Ideal S1024x1024 .f32) (b : Fin 1024) :
    Host.reduceAdd (F := Ideal) x (constant (F := Ideal) S_ .f32 0x00000000#32) reducesTo_S1024x1024_S1024_d1 h_S_ (ix1 b)
      = ∑ k : Fin 1024, x (ix2 b k) := by
  have hr : S1024x1024.Reduces [1] S1024 := by decide
  show Ideal.hostReduceAdd reducesTo_S1024x1024_S1024_d1 x (Ideal.ofBits .f32 0x00000000#32) (ix1 b) = _
  rw [Ideal.hostReduceAdd_single reducesTo_S1024x1024_S1024_d1 hr, Ideal.ofBits_zero_f32, zero_add]
  refine Finset.sum_congr rfl fun k _ => congrArg x ?_
  funext a
  match a with
  | ⟨0, _⟩ => rfl
  | ⟨1, _⟩ => rfl

end Cert.ReferenceIdeal.Stages

end
-- ==== Proof.Ref.LayerValue.lean ====
/-
  One layer of the reference program, entry by entry: the table it produces from an activation table `r` is, at
  (b, o), the sum over the input columns of r[b, k] times the dequantised weight W[o, k], plus the bias at `o`, plus
  the adapter's weight times the low-rank product; and the positive part is the maximum with zero.
-/
import proofs.«136264_j72249939853571_2_alg».proof.Proof.Ref.Reads

noncomputable section

open scoped BigOperators

namespace Cert.ReferenceIdeal.Stages

open Idealize.ShloMosaic Idealize.ShloMosaic.ValueIdx
open Cert.ReferenceIdeal
open Cert.ReferenceIdeal.Facts₀

variable [Facts₀]

/-- The parameters of layer (i, j), read off the five parameter arrays. -/
def layerOf (a1 : IVec S6x3x1024x1024 32) (a2 : FVec Ideal S6x3x1024x64 .f32) (a3 : FVec Ideal S6x3x1024 .f32)
    (a4 : FVec Ideal S6x3x32x1024 .f32) (a5 : FVec Ideal S6x3x1024x32 .f32) (i : Fin 6) (j : Fin 3) :
    Cert.Spec.LayerP where
  code := fun o k => a1 (ix4 i j o k)
  scale := fun o g => a2 (ix4 i j o g)
  bias := fun o => a3 (ix3 i j o)
  la := fun ρ k => a4 (ix4 i j ρ k)
  lb := fun o ρ => a5 (ix4 i j o ρ)

/-- The positive part at an entry. -/
theorem refRelu_apply (x : FVec Ideal S1024x1024 .f32) (j : S1024x1024.Idx) : refRelu x j = max (x j) 0 := by
  show max (x j) (Ideal.ofBits .f32 0x00000000#32) = _
  rw [Ideal.ofBits_zero_f32]

/-- One layer at an entry. -/
theorem refLayer_apply (i : Fin 6) (j : Fin 3)
    (h1 : S6x3x1024x1024.Slices ![i.val, j.val, 0, 0] S1x1x1024x1024)
    (h2 : S6x3x1024x64.Slices ![i.val, j.val, 0, 0] S1x1x1024x64)
    (h3 : S6x3x1024.Slices ![i.val, j.val, 0] S1x1x1024)
    (h4 : S6x3x32x1024.Slices ![i.val, j.val, 0, 0] S1x1x32x1024)
    (h5 : S6x3x1024x32.Slices ![i.val, j.val, 0, 0] S1x1x1024x32)
    (a1 : IVec S6x3x1024x1024 32) (a2 : FVec Ideal S6x3x1024x64 .f32) (a3 : FVec Ideal S6x3x1024 .f32)
    (a4 : FVec Ideal S6x3x32x1024 .f32) (a5 : FVec Ideal S6x3x1024x32 .f32)
    (r : FVec Ideal S1024x1024 .f32) (b o : Fin 1024) :
    refLayer h1 h2 h3 h4 h5 a1 a2 a3 a4 a5 r (ix2 b o)
      = Cert.Spec.pre (layerOf a1 a2 a3 a4 a5 i j) (fun b k => r (ix2 b k)) b o := by
  unfold refLayer
  simp only [addf_apply, mulf_apply]
  rw [dot_square_read, row_bcast_read, bias_read i j, table_of_scalar_read, dot_up_read]
  rw [constant_apply]
  unfold Cert.Spec.pre Cert.Spec.base Cert.Spec.lora Cert.Spec.mid Cert.Spec.weight Cert.Spec.alpha layerOf
  dsimp only
  refine congrArg₂ (· + ·) (congrArg₂ (· + ·) (Finset.sum_congr rfl fun c _ => ?_) rfl)
    (congrArg₂ (· * ·) rfl (Finset.sum_congr rfl fun ρ _ => ?_))
  · rw [weightT_read, codes_read i j, scales_read i j]
  · rw [transpose_lb_read, lb_read i j, dot_down_read]
    refine congrArg₂ (· * ·) (Finset.sum_congr rfl fun c _ => ?_) rfl
    rw [transpose_la_read, la_read i j]

end Cert.ReferenceIdeal.Stages

end
-- ==== Proof.Ref.NormValue.lean ====
/-
  The reference program's row normalisation, entry by entry: each row is centred by its mean, multiplied by the
  reciprocal square root of the mean of its squared centred entries plus a small constant, scaled and shifted.  The
  program divides by the count 1024 minus zero, checks that count positive, and both facts are discharged here: the
  count is the row length and it is positive, so the guarded quotient is the plain one.
-/
import proofs.«136264_j72249939853571_2_alg».proof.Proof.Ref.Reads

noncomputable section

open scoped BigOperators

namespace Cert.ReferenceIdeal.Stages

open Idealize.ShloMosaic Idealize.ShloMosaic.ValueIdx
open Cert.ReferenceIdeal
open Cert.ReferenceIdeal.Facts₀

variable [Facts₀]

/-- The word 0x44800000 denotes the real 1024. -/
theorem rowLen_eq : Cert.Spec.rowLen = ((1024 : ℝ) : EReal) := by
  unfold Cert.Spec.rowLen
  simp [Ideal.ofBits, Ideal.ieee, -EReal.coe_mul]; norm_num

/-- The count the variance divides by, 1024 minus the integer zero read as a real, is the row length. -/
theorem count_eq :
    (Ideal.ofBits .f32 0x44800000#32 - (((0#32 : BitVec 32).toInt : ℝ) : EReal) : EReal) = Cert.Spec.rowLen := by
  have h0 : (((0#32 : BitVec 32).toInt : ℝ) : EReal) = 0 := by simp
  rw [h0, sub_zero]
  rfl

/-- The row length is positive, as a comparison's bit. -/
theorem count_pos : Ideal.cmp .ogt Cert.Spec.rowLen 0 = 1#1 := by
  rw [rowLen_eq]
  have h : (0 : EReal) < ((1024 : ℝ) : EReal) := by exact_mod_cast (by norm_num : (0 : ℝ) < 1024)
  simp [Ideal.cmp, h]

/-- A quotient of columns at an entry. -/
theorem hostDivf_apply {s : Shape} (x y : FVec Ideal s .f32) (i : s.Idx) :
    Host.divf (F := Ideal) x y i = Ideal.div (x i) (y i) := rfl

/-- A reciprocal square root of a column at an entry. -/
theorem hostRsqrt_apply {s : Shape} (x : FVec Ideal s .f32) (i : s.Idx) :
    Host.rsqrt (F := Ideal) x i = Ideal.rsqrt (x i) := rfl

/-- The row mean as the program computes it, at row `b`. -/
theorem mean_read (x : FVec Ideal S1024x1024 .f32) (b : Fin 1024) :
    Host.divf (F := Ideal)
        (broadcastInDim S1024x1 ![0] bcast_S1024_S1024x1_0
          (Host.reduceAdd (F := Ideal) x (constant (F := Ideal) S_ .f32 0x00000000#32) reducesTo_S1024x1024_S1024_d1 h_S_))
        (broadcastInDim S1024x1 ![] bcast_S_S1024x1 (constant (F := Ideal) S_ .f32 0x44800000#32)) (ix2 b (0 : Fin 1))
      = Cert.Spec.mean (fun b k => x (ix2 b k)) b := by
  rw [hostDivf_apply, col_of_vec_read, row_sum_read, col_of_scalar_read]
  rfl

/-- The row variance with no degree of freedom removed, at row `b`. -/
theorem refVar_apply (x : FVec Ideal S1024x1024 .f32) (b : Fin 1024) :
    refVar x (constantI S_ 32 0#32) (ix2 b (0 : Fin 1)) = Cert.Spec.variance (fun b k => x (ix2 b k)) b := by
  have hc : cmpf .ogt (subf (constant (F := Ideal) S_ .f32 0x44800000#32) (sitofp .f32 (constantI S_ 32 0#32)))
      (constant (F := Ideal) S_ .f32 0x00000000#32) ix0 = 1#1 := by
    show Ideal.cmp .ogt (Ideal.ofBits .f32 0x44800000#32 - (((0#32 : BitVec 32).toInt : ℝ) : EReal))
      (Ideal.ofBits .f32 0x00000000#32) = 1#1
    rw [count_eq, Ideal.ofBits_zero_f32, count_pos]
  have hn : subf (constant (F := Ideal) S_ .f32 0x44800000#32) (sitofp .f32 (constantI S_ 32 0#32)) ix0
      = Cert.Spec.rowLen := count_eq
  unfold refVar
  simp only [select_apply]
  rw [col_of_scalar_read, hc, select_one, hostDivf_apply, col_of_vec_read, row_sum_read, col_of_scalar_read, hn]
  unfold Cert.Spec.variance Cert.Spec.centred
  refine congrArg (Ideal.div · Cert.Spec.rowLen) (Finset.sum_congr rfl fun k _ => ?_)
  rw [mulf_apply, subf_apply, col_bcast_read, mean_read]

/-- The row normalisation with the scale and shift rows of block `i`, at an entry. -/
theorem refNorm_apply (i : Fin 5) (h6 : S5x1024.Slices ![i.val, 0] S1x1024)
    (a6 a7 : FVec Ideal S5x1024 .f32) (h : FVec Ideal S1024x1024 .f32) (b k : Fin 1024) :
    refNorm h6 a6 a7 h (ix2 b k)
      = Cert.Spec.norm (fun k => a6 (ix2 i k)) (fun k => a7 (ix2 i k)) (fun b k => h (ix2 b k)) b k := by
  unfold refNorm
  simp only [addf_apply, mulf_apply, subf_apply]
  rw [row_bcast_read, row_read i, row_bcast_read, row_read i, col_bcast_read, mean_read, col_bcast_read,
    hostRsqrt_apply, addf_apply, refVar_apply, col_of_scalar_read]
  rfl

end Cert.ReferenceIdeal.Stages

end
-- ==== Proof.Ref.StageValues.lean ====
/-
  The reference program's result is the network: block by block, the table the program holds after block `n` is
  the residual stream after `n` blocks over the parameters read off the argument arrays.
-/
import proofs.«136264_j72249939853571_2_alg».proof.Proof.Ref.LayerValue
import proofs.«136264_j72249939853571_2_alg».proof.Proof.Ref.NormValue

noncomputable section

open scoped BigOperators

namespace Cert.ReferenceIdeal.Stages

open Idealize.ShloMosaic Idealize.ShloMosaic.ValueIdx
open Cert.ReferenceIdeal
open Cert.ReferenceIdeal.Facts₀

variable [Facts₀]

/-- A [1024, 1024] table as an activation table: batch row, feature column. -/
def act (t : FVec Ideal S1024x1024 .f32) : Cert.Spec.Act := fun b k => t (ix2 b k)

/-- A layer followed by the positive part, as activation tables. -/
theorem reluLayer_act (i : Fin 6) (j : Fin 3)
    (h1 : S6x3x1024x1024.Slices ![i.val, j.val, 0, 0] S1x1x1024x1024)
    (h2 : S6x3x1024x64.Slices ![i.val, j.val, 0, 0] S1x1x1024x64)
    (h3 : S6x3x1024.Slices ![i.val, j.val, 0] S1x1x1024)
    (h4 : S6x3x32x1024.Slices ![i.val, j.val, 0, 0] S1x1x32x1024)
    (h5 : S6x3x1024x32.Slices ![i.val, j.val, 0, 0] S1x1x1024x32)
    (a1 : IVec S6x3x1024x1024 32) (a2 : FVec Ideal S6x3x1024x64 .f32) (a3 : FVec Ideal S6x3x1024 .f32)
    (a4 : FVec Ideal S6x3x32x1024 .f32) (a5 : FVec Ideal S6x3x1024x32 .f32) (r : FVec Ideal S1024x1024 .f32) :
    act (refRelu (refLayer h1 h2 h3 h4 h5 a1 a2 a3 a4 a5 r))
      = Cert.Spec.layer true (layerOf a1 a2 a3 a4 a5 i j) (act r) := by
  funext b o
  show refRelu (refLayer h1 h2 h3 h4 h5 a1 a2 a3 a4 a5 r) (ix2 b o) = _
  rw [refRelu_apply, refLayer_apply i j]
  rfl

/-- Block `i` before its normalisation, as activation tables. -/
theorem refBlock_act (i : Fin 6)
    (h10 : S6x3x1024x1024.Slices ![i.val, 0, 0, 0] S1x1x1024x1024) (h20 : S6x3x1024x64.Slices ![i.val, 0, 0, 0] S1x1x1024x64)
    (h30 : S6x3x1024.Slices ![i.val, 0, 0] S1x1x1024) (h40 : S6x3x32x1024.Slices ![i.val, 0, 0, 0] S1x1x32x1024)
    (h50 : S6x3x1024x32.Slices ![i.val, 0, 0, 0] S1x1x1024x32)
    (h11 : S6x3x1024x1024.Slices ![i.val, 1, 0, 0] S1x1x1024x1024) (h21 : S6x3x1024x64.Slices ![i.val, 1, 0, 0] S1x1x1024x64)
    (h31 : S6x3x1024.Slices ![i.val, 1, 0] S1x1x1024) (h41 : S6x3x32x1024.Slices ![i.val, 1, 0, 0] S1x1x32x1024)
    (h51 : S6x3x1024x32.Slices ![i.val, 1, 0, 0] S1x1x1024x32)
    (h12 : S6x3x1024x1024.Slices ![i.val, 2, 0, 0] S1x1x1024x1024) (h22 : S6x3x1024x64.Slices ![i.val, 2, 0, 0] S1x1x1024x64)
    (h32 : S6x3x1024.Slices ![i.val, 2, 0] S1x1x1024) (h42 : S6x3x32x1024.Slices ![i.val, 2, 0, 0] S1x1x32x1024)
    (h52 : S6x3x1024x32.Slices ![i.val, 2, 0, 0] S1x1x1024x32)
    (a0 : FVec Ideal S1024x1024 .f32) (a1 : IVec S6x3x1024x1024 32) (a2 : FVec Ideal S6x3x1024x64 .f32)
    (a3 : FVec Ideal S6x3x1024 .f32) (a4 : FVec Ideal S6x3x32x1024 .f32) (a5 : FVec Ideal S6x3x1024x32 .f32)
    (a6 a7 : FVec Ideal S5x1024 .f32) (x : FVec Ideal S1024x1024 .f32) :
    act (refBlock h10 h20 h30 h40 h50 h11 h21 h31 h41 h51 h12 h22 h32 h42 h52 a1 a2 a3 a4 a5 x)
      = Cert.Spec.resid (Cert.Spec.paramsOf a0 a1 a2 a3 a4 a5 a6 a7) i (act x) := by
  funext b k
  show addf (refLayer h12 h22 h32 h42 h52 a1 a2 a3 a4 a5
      (refRelu (refLayer h11 h21 h31 h41 h51 a1 a2 a3 a4 a5
        (refRelu (refLayer h10 h20 h30 h40 h50 a1 a2 a3 a4 a5 x))))) x (ix2 b k) = _
  rw [addf_apply, refLayer_apply i 2 h12 h22 h32 h42 h52]
  show Cert.Spec.pre (layerOf a1 a2 a3 a4 a5 i 2)
      (act (refRelu (refLayer h11 h21 h31 h41 h51 a1 a2 a3 a4 a5
        (refRelu (refLayer h10 h20 h30 h40 h50 a1 a2 a3 a4 a5 x))))) b k + act x b k = _
  rw [reluLayer_act i 1 h11 h21 h31 h41 h51, reluLayer_act i 0 h10 h20 h30 h40 h50]
  rfl

/-- The normalisation of block `i`, as activation tables. -/
theorem refNorm_act (i : Fin 5) (h6 : S5x1024.Slices ![i.val, 0] S1x1024)
    (a0 : FVec Ideal S1024x1024 .f32) (a1 : IVec S6x3x1024x1024 32) (a2 : FVec Ideal S6x3x1024x64 .f32)
    (a3 : FVec Ideal S6x3x1024 .f32) (a4 : FVec Ideal S6x3x32x1024 .f32) (a5 : FVec Ideal S6x3x1024x32 .f32)
    (a6 a7 : FVec Ideal S5x1024 .f32) (h : FVec Ideal S1024x1024 .f32) :
    act (refNorm h6 a6 a7 h)
      = Cert.Spec.norm ((Cert.Spec.paramsOf a0 a1 a2 a3 a4 a5 a6 a7).g i) ((Cert.Spec.paramsOf a0 a1 a2 a3 a4 a5 a6 a7).be i)
          (act h) := by
  funext b k
  exact refNorm_apply i h6 a6 a7 h b k

section Net
variable (a0 : FVec Ideal S1024x1024 .f32) (a1 : IVec S6x3x1024x1024 32) (a2 : FVec Ideal S6x3x1024x64 .f32)
  (a3 : FVec Ideal S6x3x1024 .f32) (a4 : FVec Ideal S6x3x32x1024 .f32) (a5 : FVec Ideal S6x3x1024x32 .f32)
  (a6 a7 : FVec Ideal S5x1024 .f32)

/-- After block 0 and its normalisation. -/
theorem refS1_act : act (refS1 a0 a1 a2 a3 a4 a5 a6 a7) = Cert.Spec.stream (Cert.Spec.paramsOf a0 a1 a2 a3 a4 a5 a6 a7) 1 := by
  have hs : Cert.Spec.stream (Cert.Spec.paramsOf a0 a1 a2 a3 a4 a5 a6 a7) 1
      = Cert.Spec.norm ((Cert.Spec.paramsOf a0 a1 a2 a3 a4 a5 a6 a7).g 0) ((Cert.Spec.paramsOf a0 a1 a2 a3 a4 a5 a6 a7).be 0)
        (Cert.Spec.resid (Cert.Spec.paramsOf a0 a1 a2 a3 a4 a5 a6 a7) 0 (Cert.Spec.stream (Cert.Spec.paramsOf a0 a1 a2 a3 a4 a5 a6 a7) 0)) := rfl
  rw [hs]
  show act (refNorm slices_S5x1024_S1x1024_0_0 a6 a7
    (refBlock slices_S6x3x1024x1024_S1x1x1024x1024_0_0_0_0 slices_S6x3x1024x64_S1x1x1024x64_0_0_0_0
      slices_S6x3x1024_S1x1x1024_0_0_0 slices_S6x3x32x1024_S1x1x32x1024_0_0_0_0 slices_S6x3x1024x32_S1x1x1024x32_0_0_0_0
      slices_S6x3x1024x1024_S1x1x1024x1024_0_1_0_0 slices_S6x3x1024x64_S1x1x1024x64_0_1_0_0
      slices_S6x3x1024_S1x1x1024_0_1_0 slices_S6x3x32x1024_S1x1x32x1024_0_1_0_0 slices_S6x3x1024x32_S1x1x1024x32_0_1_0_0
      slices_S6x3x1024x1024_S1x1x1024x1024_0_2_0_0 slices_S6x3x1024x64_S1x1x1024x64_0_2_0_0
      slices_S6x3x1024_S1x1x1024_0_2_0 slices_S6x3x32x1024_S1x1x32x1024_0_2_0_0 slices_S6x3x1024x32_S1x1x1024x32_0_2_0_0
      a1 a2 a3 a4 a5 a0)) = _
  rw [refNorm_act 0 _ a0 a1 a2 a3 a4 a5 a6 a7, refBlock_act 0 _ _ _ _ _ _ _ _ _ _ _ _ _ _ _ a0 a1 a2 a3 a4 a5 a6 a7]
  rfl

/-- After block 1 and its normalisation. -/
theorem refS2_act : act (refS2 a0 a1 a2 a3 a4 a5 a6 a7) = Cert.Spec.stream (Cert.Spec.paramsOf a0 a1 a2 a3 a4 a5 a6 a7) 2 := by
  have hs : Cert.Spec.stream (Cert.Spec.paramsOf a0 a1 a2 a3 a4 a5 a6 a7) 2
      = Cert.Spec.norm ((Cert.Spec.paramsOf a0 a1 a2 a3 a4 a5 a6 a7).g 1) ((Cert.Spec.paramsOf a0 a1 a2 a3 a4 a5 a6 a7).be 1)
        (Cert.Spec.resid (Cert.Spec.paramsOf a0 a1 a2 a3 a4 a5 a6 a7) 1 (Cert.Spec.stream (Cert.Spec.paramsOf a0 a1 a2 a3 a4 a5 a6 a7) 1)) := rfl
  rw [hs]
  show act (refNorm slices_S5x1024_S1x1024_1_0 a6 a7
    (refBlock slices_S6x3x1024x1024_S1x1x1024x1024_1_0_0_0 slices_S6x3x1024x64_S1x1x1024x64_1_0_0_0
      slices_S6x3x1024_S1x1x1024_1_0_0 slices_S6x3x32x1024_S1x1x32x1024_1_0_0_0 slices_S6x3x1024x32_S1x1x1024x32_1_0_0_0
      slices_S6x3x1024x1024_S1x1x1024x1024_1_1_0_0 slices_S6x3x1024x64_S1x1x1024x64_1_1_0_0
      slices_S6x3x1024_S1x1x1024_1_1_0 slices_S6x3x32x1024_S1x1x32x1024_1_1_0_0 slices_S6x3x1024x32_S1x1x1024x32_1_1_0_0
      slices_S6x3x1024x1024_S1x1x1024x1024_1_2_0_0 slices_S6x3x1024x64_S1x1x1024x64_1_2_0_0
      slices_S6x3x1024_S1x1x1024_1_2_0 slices_S6x3x32x1024_S1x1x32x1024_1_2_0_0 slices_S6x3x1024x32_S1x1x1024x32_1_2_0_0
      a1 a2 a3 a4 a5 (refS1 a0 a1 a2 a3 a4 a5 a6 a7))) = _
  rw [refNorm_act 1 _ a0 a1 a2 a3 a4 a5 a6 a7, refBlock_act 1 _ _ _ _ _ _ _ _ _ _ _ _ _ _ _ a0 a1 a2 a3 a4 a5 a6 a7, refS1_act a0 a1 a2 a3 a4 a5 a6 a7]

/-- After block 2 and its normalisation. -/
theorem refS3_act : act (refS3 a0 a1 a2 a3 a4 a5 a6 a7) = Cert.Spec.stream (Cert.Spec.paramsOf a0 a1 a2 a3 a4 a5 a6 a7) 3 := by
  have hs : Cert.Spec.stream (Cert.Spec.paramsOf a0 a1 a2 a3 a4 a5 a6 a7) 3
      = Cert.Spec.norm ((Cert.Spec.paramsOf a0 a1 a2 a3 a4 a5 a6 a7).g 2) ((Cert.Spec.paramsOf a0 a1 a2 a3 a4 a5 a6 a7).be 2)
        (Cert.Spec.resid (Cert.Spec.paramsOf a0 a1 a2 a3 a4 a5 a6 a7) 2 (Cert.Spec.stream (Cert.Spec.paramsOf a0 a1 a2 a3 a4 a5 a6 a7) 2)) := rfl
  rw [hs]
  show act (refNorm slices_S5x1024_S1x1024_2_0 a6 a7
    (refBlock slices_S6x3x1024x1024_S1x1x1024x1024_2_0_0_0 slices_S6x3x1024x64_S1x1x1024x64_2_0_0_0
      slices_S6x3x1024_S1x1x1024_2_0_0 slices_S6x3x32x1024_S1x1x32x1024_2_0_0_0 slices_S6x3x1024x32_S1x1x1024x32_2_0_0_0
      slices_S6x3x1024x1024_S1x1x1024x1024_2_1_0_0 slices_S6x3x1024x64_S1x1x1024x64_2_1_0_0
      slices_S6x3x1024_S1x1x1024_2_1_0 slices_S6x3x32x1024_S1x1x32x1024_2_1_0_0 slices_S6x3x1024x32_S1x1x1024x32_2_1_0_0
      slices_S6x3x1024x1024_S1x1x1024x1024_2_2_0_0 slices_S6x3x1024x64_S1x1x1024x64_2_2_0_0
      slices_S6x3x1024_S1x1x1024_2_2_0 slices_S6x3x32x1024_S1x1x32x1024_2_2_0_0 slices_S6x3x1024x32_S1x1x1024x32_2_2_0_0
      a1 a2 a3 a4 a5 (refS2 a0 a1 a2 a3 a4 a5 a6 a7))) = _
  rw [refNorm_act 2 _ a0 a1 a2 a3 a4 a5 a6 a7, refBlock_act 2 _ _ _ _ _ _ _ _ _ _ _ _ _ _ _ a0 a1 a2 a3 a4 a5 a6 a7, refS2_act a0 a1 a2 a3 a4 a5 a6 a7]

/-- After block 3 and its normalisation. -/
theorem refS4_act : act (refS4 a0 a1 a2 a3 a4 a5 a6 a7) = Cert.Spec.stream (Cert.Spec.paramsOf a0 a1 a2 a3 a4 a5 a6 a7) 4 := by
  have hs : Cert.Spec.stream (Cert.Spec.paramsOf a0 a1 a2 a3 a4 a5 a6 a7) 4
      = Cert.Spec.norm ((Cert.Spec.paramsOf a0 a1 a2 a3 a4 a5 a6 a7).g 3) ((Cert.Spec.paramsOf a0 a1 a2 a3 a4 a5 a6 a7).be 3)
        (Cert.Spec.resid (Cert.Spec.paramsOf a0 a1 a2 a3 a4 a5 a6 a7) 3 (Cert.Spec.stream (Cert.Spec.paramsOf a0 a1 a2 a3 a4 a5 a6 a7) 3)) := rfl
  rw [hs]
  show act (refNorm slices_S5x1024_S1x1024_3_0 a6 a7
    (refBlock slices_S6x3x1024x1024_S1x1x1024x1024_3_0_0_0 slices_S6x3x1024x64_S1x1x1024x64_3_0_0_0
      slices_S6x3x1024_S1x1x1024_3_0_0 slices_S6x3x32x1024_S1x1x32x1024_3_0_0_0 slices_S6x3x1024x32_S1x1x1024x32_3_0_0_0
      slices_S6x3x1024x1024_S1x1x1024x1024_3_1_0_0 slices_S6x3x1024x64_S1x1x1024x64_3_1_0_0
      slices_S6x3x1024_S1x1x1024_3_1_0 slices_S6x3x32x1024_S1x1x32x1024_3_1_0_0 slices_S6x3x1024x32_S1x1x1024x32_3_1_0_0
      slices_S6x3x1024x1024_S1x1x1024x1024_3_2_0_0 slices_S6x3x1024x64_S1x1x1024x64_3_2_0_0
      slices_S6x3x1024_S1x1x1024_3_2_0 slices_S6x3x32x1024_S1x1x32x1024_3_2_0_0 slices_S6x3x1024x32_S1x1x1024x32_3_2_0_0
      a1 a2 a3 a4 a5 (refS3 a0 a1 a2 a3 a4 a5 a6 a7))) = _
  rw [refNorm_act 3 _ a0 a1 a2 a3 a4 a5 a6 a7, refBlock_act 3 _ _ _ _ _ _ _ _ _ _ _ _ _ _ _ a0 a1 a2 a3 a4 a5 a6 a7, refS3_act a0 a1 a2 a3 a4 a5 a6 a7]

/-- After block 4 and its normalisation. -/
theorem refS5_act : act (refS5 a0 a1 a2 a3 a4 a5 a6 a7) = Cert.Spec.stream (Cert.Spec.paramsOf a0 a1 a2 a3 a4 a5 a6 a7) 5 := by
  have hs : Cert.Spec.stream (Cert.Spec.paramsOf a0 a1 a2 a3 a4 a5 a6 a7) 5
      = Cert.Spec.norm ((Cert.Spec.paramsOf a0 a1 a2 a3 a4 a5 a6 a7).g 4) ((Cert.Spec.paramsOf a0 a1 a2 a3 a4 a5 a6 a7).be 4)
        (Cert.Spec.resid (Cert.Spec.paramsOf a0 a1 a2 a3 a4 a5 a6 a7) 4 (Cert.Spec.stream (Cert.Spec.paramsOf a0 a1 a2 a3 a4 a5 a6 a7) 4)) := rfl
  rw [hs]
  show act (refNorm slices_S5x1024_S1x1024_4_0 a6 a7
    (refBlock slices_S6x3x1024x1024_S1x1x1024x1024_4_0_0_0 slices_S6x3x1024x64_S1x1x1024x64_4_0_0_0
      slices_S6x3x1024_S1x1x1024_4_0_0 slices_S6x3x32x1024_S1x1x32x1024_4_0_0_0 slices_S6x3x1024x32_S1x1x1024x32_4_0_0_0
      slices_S6x3x1024x1024_S1x1x1024x1024_4_1_0_0 slices_S6x3x1024x64_S1x1x1024x64_4_1_0_0
      slices_S6x3x1024_S1x1x1024_4_1_0 slices_S6x3x32x1024_S1x1x32x1024_4_1_0_0 slices_S6x3x1024x32_S1x1x1024x32_4_1_0_0
      slices_S6x3x1024x1024_S1x1x1024x1024_4_2_0_0 slices_S6x3x1024x64_S1x1x1024x64_4_2_0_0
      slices_S6x3x1024_S1x1x1024_4_2_0 slices_S6x3x32x1024_S1x1x32x1024_4_2_0_0 slices_S6x3x1024x32_S1x1x1024x32_4_2_0_0
      a1 a2 a3 a4 a5 (refS4 a0 a1 a2 a3 a4 a5 a6 a7))) = _
  rw [refNorm_act 4 _ a0 a1 a2 a3 a4 a5 a6 a7, refBlock_act 4 _ _ _ _ _ _ _ _ _ _ _ _ _ _ _ a0 a1 a2 a3 a4 a5 a6 a7, refS4_act a0 a1 a2 a3 a4 a5 a6 a7]

/-- After block 5. -/
theorem refS6_act : act (refS6 a0 a1 a2 a3 a4 a5 a6 a7) = Cert.Spec.stream (Cert.Spec.paramsOf a0 a1 a2 a3 a4 a5 a6 a7) 6 := by
  have hs : Cert.Spec.stream (Cert.Spec.paramsOf a0 a1 a2 a3 a4 a5 a6 a7) 6
      = Cert.Spec.resid (Cert.Spec.paramsOf a0 a1 a2 a3 a4 a5 a6 a7) 5 (Cert.Spec.stream (Cert.Spec.paramsOf a0 a1 a2 a3 a4 a5 a6 a7) 5) := rfl
  rw [hs]
  show act (refBlock slices_S6x3x1024x1024_S1x1x1024x1024_5_0_0_0 slices_S6x3x1024x64_S1x1x1024x64_5_0_0_0
      slices_S6x3x1024_S1x1x1024_5_0_0 slices_S6x3x32x1024_S1x1x32x1024_5_0_0_0 slices_S6x3x1024x32_S1x1x1024x32_5_0_0_0
      slices_S6x3x1024x1024_S1x1x1024x1024_5_1_0_0 slices_S6x3x1024x64_S1x1x1024x64_5_1_0_0
      slices_S6x3x1024_S1x1x1024_5_1_0 slices_S6x3x32x1024_S1x1x32x1024_5_1_0_0 slices_S6x3x1024x32_S1x1x1024x32_5_1_0_0
      slices_S6x3x1024x1024_S1x1x1024x1024_5_2_0_0 slices_S6x3x1024x64_S1x1x1024x64_5_2_0_0
      slices_S6x3x1024_S1x1x1024_5_2_0 slices_S6x3x32x1024_S1x1x32x1024_5_2_0_0 slices_S6x3x1024x32_S1x1x1024x32_5_2_0_0
      a1 a2 a3 a4 a5 (refS5 a0 a1 a2 a3 a4 a5 a6 a7)) = _
  rw [refBlock_act 5 _ _ _ _ _ _ _ _ _ _ _ _ _ _ _ a0 a1 a2 a3 a4 a5 a6 a7, refS5_act a0 a1 a2 a3 a4 a5 a6 a7]

/-- THE REFERENCE IS THE NETWORK: the reference program's result at (b, k) is the network's over the parameters read off
    the eight argument arrays. -/
theorem refNet_apply (b k : Fin 1024) :
    refNet a0 a1 a2 a3 a4 a5 a6 a7 (ix2 b k) = Cert.Spec.net (Cert.Spec.paramsOf a0 a1 a2 a3 a4 a5 a6 a7) b k :=
  congrFun (congrFun (refS6_act a0 a1 a2 a3 a4 a5 a6 a7) b) k

end Net

end Cert.ReferenceIdeal.Stages

end
-- ==== Proof.lean ====
/-
  The certificate of a quantised low-rank-adapted network (six blocks of three layers, a residual connection and a row
  normalisation between blocks) computed by ONE kernel over an 18-point sequential grid, against the layer-by-layer
  reference.

  At the extended reals both programs compute the same function of the arguments, `Cert.Spec.net`: every sum runs over
  the whole contracted axis in its natural order and every product keeps its operand order, so no algebraic law beyond
  reading each operation at an index is needed, and the precondition is never opened.
  * The kernel side: the grid's points fall into five control cases; the body is run once per case, the two tables it
    carries between points (the residual stream and the running value) are followed point by point, and by induction
    on the point they hold the specification's state; the output is written back once, at the last point.
  * The reference side: its eighteen layers and five normalisations are read as stage functions of the arguments, its
    run ends at their composition, and each stage, read entry by entry, is the specification's.
  The three frames are the two kernels' runs with the results dropped (the word-level kernel's is the same proof read at
  machine words) and the reference's run with its result dropped; the idealised kernel is the printed kernel read at the
  extended reals, with nothing rewritten, so there is nothing to preserve.
-/
import proofs.«136264_j72249939853571_2_alg».proof.Defs
import proofs.«136264_j72249939853571_2_alg».proof.Proof.Gen.Kernel
import proofs.«136264_j72249939853571_2_alg».proof.Proof.Gen.KernelIdeal
import proofs.«136264_j72249939853571_2_alg».proof.Proof.Gen.ReferenceIdeal
import proofs.«136264_j72249939853571_2_alg».proof.Proof.Gen.Pre_finite_inputs
import proofs.«136264_j72249939853571_2_alg».proof.Proof.K.Frame
import proofs.«136264_j72249939853571_2_alg».proof.Proof.KI.Final
import proofs.«136264_j72249939853571_2_alg».proof.Proof.Ref.Run
import proofs.«136264_j72249939853571_2_alg».proof.Proof.Ref.StageValues
import Idealize.ShloMosaic.Adequacy
import Idealize.ShloMosaic.Init

noncomputable section

namespace Cert.Proof

open Idealize.ShloMosaic Idealize.SL.Sem Idealize.ShloMosaic.ValueIdx

/-- The word-level kernel runs to the end, faults nowhere and leaves its arguments as they were. -/
theorem frame_kernel : Cert.frame_Kernel := fun m ρ _ => Cert.Kernel.Body.frame (F := Bits) m ρ

/-- So does the kernel read at the extended reals. -/
theorem frame_kernelIdeal : Cert.frame_KernelIdeal := fun m ρ _ => Cert.KernelIdeal.Body.frame (F := Ideal) m ρ

/-- And the reference: its run with the result dropped. -/
theorem frame_reference : Cert.frame_ReferenceIdeal := fun m ρ _ =>
  (θ_run Cert.ReferenceIdeal.defs _ _).mono (fun _ h c => (h c).2) (Cert.ReferenceIdeal.RefRun.run m ρ)

/-- From memories agreeing on the arguments both programs end with the network's result on those arguments. -/
theorem algebraic : Cert.algebraic_KernelIdeal_ReferenceIdeal := by
  intro m ρ m' ρ' _ hagree
  refine ⟨fun c => Cert.KernelIdeal.KValue.out m c, Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7⟩ := hagree c
  rw [h0, h1, h2, h3, h4, h5, h6, h7]
  funext j
  obtain ⟨b, k, rfl⟩ : ∃ (b k : Fin 1024), j = ix2 b k := ⟨j 0, j 1, eq_ix2 j⟩
  exact (Cert.ReferenceIdeal.Stages.refNet_apply _ _ _ _ _ _ _ _ b k).trans (Cert.KernelIdeal.KValue.out_apply m c b k).symm

/-- The certificate's claim: the programs' stated facts, the three frames, and the agreement of the two programs. -/
theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
